-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v346)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v346) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v356) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10x64 : Shape := ⟨2, ![10, 64]⟩
abbrev S64x64 : Shape := ⟨2, ![64, 64]⟩
abbrev S64 : Shape := ⟨1, ![64]⟩
abbrev S192x64 : Shape := ⟨2, ![192, 64]⟩
abbrev S192 : Shape := ⟨1, ![192]⟩
abbrev S128x64 : Shape := ⟨2, ![128, 64]⟩
abbrev S128 : Shape := ⟨1, ![128]⟩
abbrev S64x128 : Shape := ⟨2, ![64, 128]⟩
abbrev S4096x64x64 : Shape := ⟨3, ![4096, 64, 64]⟩
abbrev S4096x64 : Shape := ⟨2, ![4096, 64]⟩
abbrev S_ : Shape := ⟨0, ![]⟩

class Facts : Prop where
  bcast_S_S10x64 : S_.BroadcastsInDim S10x64 (![] : Fin 0 → Fin S10x64.rank)
  reducesTo_S10x64_S_d0_1 : S10x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S192x64 : S_.BroadcastsInDim S192x64 (![] : Fin 0 → Fin S192x64.rank)
  reducesTo_S192x64_S_d0_1 : S192x64.ReducesTo [0, 1] S_
  bcast_S_S192 : S_.BroadcastsInDim S192 (![] : Fin 0 → Fin S192.rank)
  reducesTo_S192_S_d0 : S192.ReducesTo [0] S_
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S4096x64x64 : S_.BroadcastsInDim S4096x64x64 (![] : Fin 0 → Fin S4096x64x64.rank)
  reducesTo_S4096x64x64_S_d0_1_2 : S4096x64x64.ReducesTo [0, 1, 2] S_
  bcast_S_S4096x64 : S_.BroadcastsInDim S4096x64 (![] : Fin 0 → Fin S4096x64.rank)
  reducesTo_S4096x64_S_d0_1 : S4096x64.ReducesTo [0, 1] S_

variable [Facts]

def fn_part6 {F : FTy → Type} [FloatOps F] (main_arg21 : FVec F S4096x64x64 .f32) (main_arg22 : FVec F S4096x64 .f32) (main_v98 : IVec S_ 1) (main_v101 : IVec S4096x64 1) (main_c_39 : IVec S_ 1) : IVec S_ 1 :=
  let main_v102 : IVec S_ 1 := (fun x v => Host.reduce IntOp.andi x v reducesTo_S4096x64_S_d0_1 h_S_) main_v101 main_c_39
  let main_v103 : IVec S_ 1 := andi main_v98 main_v102
  let main_v104 : FVec F S4096x64x64 .f32 := Host.absf main_arg21
  let main_cst_40 : FVec F S_ .f32 := constant S_ .f32 0x7F800000#32
  let main_v105 : FVec F S4096x64x64 .f32 := broadcastInDim S4096x64x64 ![] bcast_S_S4096x64x64 main_cst_40
  let main_v106 : IVec S4096x64x64 1 := cmpf .olt main_v104 main_v105
  let main_c_41 : IVec S_ 1 := constantI S_ 1 1#1
  let main_v107 : IVec S_ 1 := (fun x v => Host.reduce IntOp.andi x v reducesTo_S4096x64x64_S_d0_1_2 h_S_) main_v106 main_c_41
  let main_v108 : IVec S_ 1 := andi main_v103 main_v107
  let main_v109 : FVec F S4096x64 .f32 := Host.absf main_arg22
  let main_cst_42 : FVec F S_ .f32 := constant S_ .f32 0x7F800000#32
  let main_v110 : FVec F S4096x64 .f32 := broadcastInDim S4096x64 ![] bcast_S_S4096x64 main_cst_42
  let main_v111 : IVec S4096x64 1 := cmpf .olt main_v109 main_v110
  let main_c_43 : IVec S_ 1 := constantI S_ 1 1#1
  let main_v112 : IVec S_ 1 := (fun x v => Host.reduce IntOp.andi x v reducesTo_S4096x64_S_d0_1 h_S_) main_v111 main_c_43
  let main_v113 : IVec S_ 1 := andi main_v108 main_v112
  main_v113

def fn_part5 {F : FTy → Type} [FloatOps F] (main_arg18 : FVec F S64 .f32) (main_arg19 : FVec F S4096x64x64 .f32) (main_arg20 : FVec F S4096x64 .f32) (main_arg21 : FVec F S4096x64x64 .f32) (main_arg22 : FVec F S4096x64 .f32) (main_v83 : IVec S_ 1) (main_v84 : FVec F S64x128 .f32) (main_cst_32 : FVec F S_ .f32) : IVec S_ 1 :=
  let main_v85 : FVec F S64x128 .f32 := broadcastInDim S64x128 ![] bcast_S_S64x128 main_cst_32
  let main_v86 : IVec S64x128 1 := cmpf .olt main_v84 main_v85
  let main_c_33 : IVec S_ 1 := constantI S_ 1 1#1
  let main_v87 : IVec S_ 1 := (fun x v => Host.reduce IntOp.andi x v reducesTo_S64x128_S_d0_1 h_S_) main_v86 main_c_33
  let main_v88 : IVec S_ 1 := andi main_v83 main_v87
  let main_v89 : FVec F S64 .f32 := Host.absf main_arg18
  let main_cst_34 : FVec F S_ .f32 := constant S_ .f32 0x7F800000#32
  let main_v90 : FVec F S64 .f32 := broadcastInDim S64 ![] bcast_S_S64 main_cst_34
  let main_v91 : IVec S64 1 := cmpf .olt main_v89 main_v90
  let main_c_35 : IVec S_ 1 := constantI S_ 1 1#1
  let main_v92 : IVec S_ 1 := (fun x v => Host.reduce IntOp.andi x v reducesTo_S64_S_d0 h_S_) main_v91 main_c_35
  let main_v93 : IVec S_ 1 := andi main_v88 main_v92
  let main_v94 : FVec F S4096x64x64 .f32 := Host.absf main_arg19
  let main_cst_36 : FVec F S_ .f32 := constant S_ .f32 0x7F800000#32
  let main_v95 : FVec F S4096x64x64 .f32 := broadcastInDim S4096x64x64 ![] bcast_S_S4096x64x64 main_cst_36
  let main_v96 : IVec S4096x64x64 1 := cmpf .olt main_v94 main_v95
  let main_c_37 : IVec S_ 1 := constantI S_ 1 1#1
  let main_v97 : IVec S_ 1 := (fun x v => Host.reduce IntOp.andi x v reducesTo_S4096x64x64_S_d0_1_2 h_S_) main_v96 main_c_37
  let main_v98 : IVec S_ 1 := andi main_v93 main_v97
  let main_v99 : FVec F S4096x64 .f32 := Host.absf main_arg20
  let main_cst_38 : FVec F S_ .f32 := constant S_ .f32 0x7F800000#32
  let main_v100 : FVec F S4096x64 .f32 := broadcastInDim S4096x64 ![] bcast_S_S4096x64 main_cst_38
  let main_v101 : IVec S4096x64 1 := cmpf .olt main_v99 main_v100
  let main_c_39 : IVec S_ 1 := constantI S_ 1 1#1
  fn_part6 (F := F) main_arg21 main_arg22 main_v98 main_v101 main_c_39

def fn_part4 {F : FTy → Type} [FloatOps F] (main_arg14 : FVec F S64 .f32) (main_arg15 : FVec F S128x64 .f32) (main_arg16 : FVec F S128 .f32) (main_arg17 : FVec F S64x128 .f32) (main_arg18 : FVec F S64 .f32) (main_arg19 : FVec F S4096x64x64 .f32) (main_arg20 : FVec F S4096x64 .f32) (main_arg21 : FVec F S4096x64x64 .f32) (main_arg22 : FVec F S4096x64 .f32) (main_v63 : IVec S_ 1) (main_v67 : IVec S_ 1) : IVec S_ 1 :=
  let main_v68 : IVec S_ 1 := andi main_v63 main_v67
  let main_v69 : FVec F S64 .f32 := Host.absf main_arg14
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S128x64 .f32 := Host.absf main_arg15
  let main_cst_28 : FVec F S_ .f32 := constant S_ .f32 0x7F800000#32
  let main_v75 : FVec F S128x64 .f32 := broadcastInDim S128x64 ![] bcast_S_S128x64 main_cst_28
  let main_v76 : IVec S128x64 1 := cmpf .olt main_v74 main_v75
  let main_c_29 : IVec S_ 1 := constantI S_ 1 1#1
  let main_v77 : IVec S_ 1 := (fun x v => Host.reduce IntOp.andi x v reducesTo_S128x64_S_d0_1 h_S_) main_v76 main_c_29
  let main_v78 : IVec S_ 1 := andi main_v73 main_v77
  let main_v79 : FVec F S128 .f32 := Host.absf main_arg16
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S64x128 .f32 := Host.absf main_arg17
  let main_cst_32 : FVec F S_ .f32 := constant S_ .f32 0x7F800000#32
  fn_part5 (F := F) main_arg18 main_arg19 main_arg20 main_arg21 main_arg22 main_v83 main_v84 main_cst_32

def fn_part3 {F : FTy → Type} [FloatOps F] (main_arg11 : FVec F S192 .f32) (main_arg12 : FVec F S192 .f32) (main_arg13 : FVec F S64 .f32) (main_arg14 : FVec F S64 .f32) (main_arg15 : FVec F S128x64 .f32) (main_arg16 : FVec F S128 .f32) (main_arg17 : FVec F S64x128 .f32) (main_arg18 : FVec F S64 .f32) (main_arg19 : FVec F S4096x64x64 .f32) (main_arg20 : FVec F S4096x64 .f32) (main_arg21 : FVec F S4096x64x64 .f32) (main_arg22 : FVec F S4096x64 .f32) (main_v48 : IVec S_ 1) (main_v49 : FVec F S192x64 .f32) (main_v50 : FVec F S192x64 .f32) : IVec S_ 1 :=
  let main_v51 : IVec S192x64 1 := cmpf .olt main_v49 main_v50
  let main_c_19 : IVec S_ 1 := constantI S_ 1 1#1
  let main_v52 : IVec S_ 1 := (fun x v => Host.reduce IntOp.andi x v reducesTo_S192x64_S_d0_1 h_S_) main_v51 main_c_19
  let main_v53 : IVec S_ 1 := andi main_v48 main_v52
  let main_v54 : FVec F S192 .f32 := Host.absf main_arg11
  let main_cst_20 : FVec F S_ .f32 := constant S_ .f32 0x7F800000#32
  let main_v55 : FVec F S192 .f32 := broadcastInDim S192 ![] bcast_S_S192 main_cst_20
  let main_v56 : IVec S192 1 := cmpf .olt main_v54 main_v55
  let main_c_21 : IVec S_ 1 := constantI S_ 1 1#1
  let main_v57 : IVec S_ 1 := (fun x v => Host.reduce IntOp.andi x v reducesTo_S192_S_d0 h_S_) main_v56 main_c_21
  let main_v58 : IVec S_ 1 := andi main_v53 main_v57
  let main_v59 : FVec F S192 .f32 := Host.absf main_arg12
  let main_cst_22 : FVec F S_ .f32 := constant S_ .f32 0x7F800000#32
  let main_v60 : FVec F S192 .f32 := broadcastInDim S192 ![] bcast_S_S192 main_cst_22
  let main_v61 : IVec S192 1 := cmpf .olt main_v59 main_v60
  let main_c_23 : IVec S_ 1 := constantI S_ 1 1#1
  let main_v62 : IVec S_ 1 := (fun x v => Host.reduce IntOp.andi x v reducesTo_S192_S_d0 h_S_) main_v61 main_c_23
  let main_v63 : IVec S_ 1 := andi main_v58 main_v62
  let main_v64 : FVec F S64 .f32 := Host.absf main_arg13
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg14 main_arg15 main_arg16 main_arg17 main_arg18 main_arg19 main_arg20 main_arg21 main_arg22 main_v63 main_v67

def fn_part2 {F : FTy → Type} [FloatOps F] (main_arg7 : FVec F S64 .f32) (main_arg8 : FVec F S64 .f32) (main_arg9 : FVec F S192x64 .f32) (main_arg10 : FVec F S192x64 .f32) (main_arg11 : FVec F S192 .f32) (main_arg12 : FVec F S192 .f32) (main_arg13 : FVec F S64 .f32) (main_arg14 : FVec F S64 .f32) (main_arg15 : FVec F S128x64 .f32) (main_arg16 : FVec F S128 .f32) (main_arg17 : FVec F S64x128 .f32) (main_arg18 : FVec F S64 .f32) (main_arg19 : FVec F S4096x64x64 .f32) (main_arg20 : FVec F S4096x64 .f32) (main_arg21 : FVec F S4096x64x64 .f32) (main_arg22 : FVec F S4096x64 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S192x64 .f32 := Host.absf main_arg9
  let main_cst_16 : FVec F S_ .f32 := constant S_ .f32 0x7F800000#32
  let main_v45 : FVec F S192x64 .f32 := broadcastInDim S192x64 ![] bcast_S_S192x64 main_cst_16
  let main_v46 : IVec S192x64 1 := cmpf .olt main_v44 main_v45
  let main_c_17 : IVec S_ 1 := constantI S_ 1 1#1
  let main_v47 : IVec S_ 1 := (fun x v => Host.reduce IntOp.andi x v reducesTo_S192x64_S_d0_1 h_S_) main_v46 main_c_17
  let main_v48 : IVec S_ 1 := andi main_v43 main_v47
  let main_v49 : FVec F S192x64 .f32 := Host.absf main_arg10
  let main_cst_18 : FVec F S_ .f32 := constant S_ .f32 0x7F800000#32
  let main_v50 : FVec F S192x64 .f32 := broadcastInDim S192x64 ![] bcast_S_S192x64 main_cst_18
  fn_part3 (F := F) main_arg11 main_arg12 main_arg13 main_arg14 main_arg15 main_arg16 main_arg17 main_arg18 main_arg19 main_arg20 main_arg21 main_arg22 main_v48 main_v49 main_v50

def fn_part1 {F : FTy → Type} [FloatOps F] (main_arg4 : FVec F S64 .f32) (main_arg5 : FVec F S64x64 .f32) (main_arg6 : FVec F S64 .f32) (main_arg7 : FVec F S64 .f32) (main_arg8 : FVec F S64 .f32) (main_arg9 : FVec F S192x64 .f32) (main_arg10 : FVec F S192x64 .f32) (main_arg11 : FVec F S192 .f32) (main_arg12 : FVec F S192 .f32) (main_arg13 : FVec F S64 .f32) (main_arg14 : FVec F S64 .f32) (main_arg15 : FVec F S128x64 .f32) (main_arg16 : FVec F S128 .f32) (main_arg17 : FVec F S64x128 .f32) (main_arg18 : FVec F S64 .f32) (main_arg19 : FVec F S4096x64x64 .f32) (main_arg20 : FVec F S4096x64 .f32) (main_arg21 : FVec F S4096x64x64 .f32) (main_arg22 : FVec F S4096x64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_v33

def fn {F : FTy → Type} [FloatOps F] (main_arg0 : FVec F S10x64 .f32) (main_arg1 : FVec F S64x64 .f32) (main_arg2 : FVec F S64 .f32) (main_arg3 : FVec F S64x64 .f32) (main_arg4 : FVec F S64 .f32) (main_arg5 : FVec F S64x64 .f32) (main_arg6 : FVec F S64 .f32) (main_arg7 : FVec F S64 .f32) (main_arg8 : FVec F S64 .f32) (main_arg9 : FVec F S192x64 .f32) (main_arg10 : FVec F S192x64 .f32) (main_arg11 : FVec F S192 .f32) (main_arg12 : FVec F S192 .f32) (main_arg13 : FVec F S64 .f32) (main_arg14 : FVec F S64 .f32) (main_arg15 : FVec F S128x64 .f32) (main_arg16 : FVec F S128 .f32) (main_arg17 : FVec F S64x128 .f32) (main_arg18 : FVec F S64 .f32) (main_arg19 : FVec F S4096x64x64 .f32) (main_arg20 : FVec F S4096x64 .f32) (main_arg21 : FVec F S4096x64x64 .f32) (main_arg22 : FVec F S4096x64 .f32) : IVec S_ 1 :=
  let main_v0 : FVec F S10x64 .f32 := Host.absf main_arg0
  let main_cst : FVec F S_ .f32 := constant S_ .f32 0x7F800000#32
  let main_v1 : FVec F S10x64 .f32 := broadcastInDim S10x64 ![] bcast_S_S10x64 main_cst
  let main_v2 : IVec S10x64 1 := cmpf .olt main_v0 main_v1
  let main_c : IVec S_ 1 := constantI S_ 1 1#1
  let main_v3 : IVec S_ 1 := (fun x v => Host.reduce IntOp.andi x v reducesTo_S10x64_S_d0_1 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_v13 main_v16
-- ==== Kernel.lean ====
abbrev S10x64 : Shape := ⟨2, ![10, 64]⟩
abbrev S64x64 : Shape := ⟨2, ![64, 64]⟩
abbrev S64 : Shape := ⟨1, ![64]⟩
abbrev S192x64 : Shape := ⟨2, ![192, 64]⟩
abbrev S192 : Shape := ⟨1, ![192]⟩
abbrev S128x64 : Shape := ⟨2, ![128, 64]⟩
abbrev S128 : Shape := ⟨1, ![128]⟩
abbrev S64x128 : Shape := ⟨2, ![64, 128]⟩
abbrev S4096x64x64 : Shape := ⟨3, ![4096, 64, 64]⟩
abbrev S4096x64 : Shape := ⟨2, ![4096, 64]⟩
abbrev S1x64 : Shape := ⟨2, ![1, 64]⟩
abbrev S_ : Shape := ⟨0, ![]⟩
abbrev S10 : Shape := ⟨1, ![10]⟩
abbrev S10x1 : Shape := ⟨2, ![10, 1]⟩
abbrev S10x10 : Shape := ⟨2, ![10, 10]⟩
abbrev S1x10 : Shape := ⟨2, ![1, 10]⟩
abbrev S64x192 : Shape := ⟨2, ![64, 192]⟩
abbrev S10x192 : Shape := ⟨2, ![10, 192]⟩
abbrev S1x192 : Shape := ⟨2, ![1, 192]⟩
abbrev S10x128 : Shape := ⟨2, ![10, 128]⟩
abbrev S1x128 : Shape := ⟨2, ![1, 128]⟩
abbrev S128x64x64 : Shape := ⟨3, ![128, 64, 64]⟩
abbrev S1x10x64 : Shape := ⟨3, ![1, 10, 64]⟩
abbrev S128x10x64 : Shape := ⟨3, ![128, 10, 64]⟩
abbrev S128x64x10 : Shape := ⟨3, ![128, 64, 10]⟩
abbrev S128x64x1 : Shape := ⟨3, ![128, 64, 1]⟩

abbrev nBuf : Space → Nat
  | .hbm => 565
  | .vmem => 11
  | .smem => 0
  | _ => 0

abbrev hbmTy0_0 (i : Nat) : BufTy := match i % 128 with
  | 0 => ⟨S10x64, .f32⟩
  | 1 => ⟨S64x64, .f32⟩
  | 2 => ⟨S64, .f32⟩
  | 3 => ⟨S64x64, .f32⟩
  | 4 => ⟨S64, .f32⟩
  | 5 => ⟨S64x64, .f32⟩
  | 6 => ⟨S64, .f32⟩
  | 7 => ⟨S64, .f32⟩
  | 8 => ⟨S64, .f32⟩
  | 9 => ⟨S192x64, .f32⟩
  | 10 => ⟨S192x64, .f32⟩
  | 11 => ⟨S192, .f32⟩
  | 12 => ⟨S192, .f32⟩
  | 13 => ⟨S64, .f32⟩
  | 14 => ⟨S64, .f32⟩
  | 15 => ⟨S128x64, .f32⟩
  | 16 => ⟨S128, .f32⟩
  | 17 => ⟨S64x128, .f32⟩
  | 18 => ⟨S64, .f32⟩
  | 19 => ⟨S4096x64x64, .f32⟩
  | 20 => ⟨S4096x64, .f32⟩
  | 21 => ⟨S4096x64x64, .f32⟩
  | 22 => ⟨S4096x64, .f32⟩
  | 23 => ⟨S64x64, .f32⟩
  | 24 => ⟨S10x64, .f32⟩
  | 25 => ⟨S1x64, .f32⟩
  | 26 => ⟨S10x64, .f32⟩
  | 27 => ⟨S10x64, .f32⟩
  | 28 => ⟨S64x64, .f32⟩
  | 29 => ⟨S10x64, .f32⟩
  | 30 => ⟨S1x64, .f32⟩
  | 31 => ⟨S10x64, .f32⟩
  | 32 => ⟨S10x64, .f32⟩
  | 33 => ⟨S_, .f32⟩
  | 34 => ⟨S10, .f32⟩
  | 35 => ⟨S10x1, .f32⟩
  | 36 => ⟨S_, .f32⟩
  | 37 => ⟨S10x1, .f32⟩
  | 38 => ⟨S10x1, .f32⟩
  | 39 => ⟨S_, .i32⟩
  | 40 => ⟨S_, .f32⟩
  | 41 => ⟨S10, .f32⟩
  | 42 => ⟨S10x1, .f32⟩
  | 43 => ⟨S_, .f32⟩
  | 44 => ⟨S10x1, .f32⟩
  | 45 => ⟨S10x1, .f32⟩
  | 46 => ⟨S10x64, .f32⟩
  | 47 => ⟨S10x64, .f32⟩
  | 48 => ⟨S10x64, .f32⟩
  | 49 => ⟨S_, .f32⟩
  | 50 => ⟨S_, .f32⟩
  | 51 => ⟨S_, .f32⟩
  | 52 => ⟨S_, .f32⟩
  | 53 => ⟨S10, .f32⟩
  | 54 => ⟨S10x1, .f32⟩
  | 55 => ⟨S10x1, .f32⟩
  | 56 => ⟨S10x1, .f32⟩
  | 57 => ⟨S_, .f32⟩
  | 58 => ⟨S_, .i1⟩
  | 59 => ⟨S_, .f32⟩
  | 60 => ⟨S_, .f32⟩
  | 61 => ⟨S10x1, .f32⟩
  | 62 => ⟨S10x1, .f32⟩
  | 63 => ⟨S10x64, .f32⟩
  | 64 => ⟨S10x64, .f32⟩
  | 65 => ⟨S_, .f32⟩
  | 66 => ⟨S10x1, .f32⟩
  | 67 => ⟨S10x1, .f32⟩
  | 68 => ⟨S10x1, .f32⟩
  | 69 => ⟨S10x64, .f32⟩
  | 70 => ⟨S10x64, .f32⟩
  | 71 => ⟨S1x64, .f32⟩
  | 72 => ⟨S10x64, .f32⟩
  | 73 => ⟨S10x64, .f32⟩
  | 74 => ⟨S1x64, .f32⟩
  | 75 => ⟨S10x64, .f32⟩
  | 76 => ⟨S10x64, .f32⟩
  | 77 => ⟨S64x64, .f32⟩
  | 78 => ⟨S10x64, .f32⟩
  | 79 => ⟨S1x64, .f32⟩
  | 80 => ⟨S10x64, .f32⟩
  | 81 => ⟨S10x64, .f32⟩
  | 82 => ⟨S10x10, .f32⟩
  | 83 => ⟨S_, .f32⟩
  | 84 => ⟨S10x10, .f32⟩
  | 85 => ⟨S10x10, .f32⟩
  | 86 => ⟨S_, .f32⟩
  | 87 => ⟨S10, .f32⟩
  | 88 => ⟨S_, .f32⟩
  | 89 => ⟨S10, .f32⟩
  | 90 => ⟨S10, .f32⟩
  | 91 => ⟨S1x10, .f32⟩
  | 92 => ⟨S10x10, .f32⟩
  | 93 => ⟨S10x10, .f32⟩
  | 94 => ⟨S10x10, .f32⟩
  | 95 => ⟨S_, .f32⟩
  | 96 => ⟨S10, .f32⟩
  | 97 => ⟨S1x10, .f32⟩
  | 98 => ⟨S10x10, .f32⟩
  | 99 => ⟨S10x10, .f32⟩
  | 100 => ⟨S_, .f32⟩
  | 101 => ⟨S10x10, .f32⟩
  | 102 => ⟨S10x10, .f32⟩
  | 103 => ⟨S_, .f32⟩
  | 104 => ⟨S10, .f32⟩
  | 105 => ⟨S10x1, .f32⟩
  | 106 => ⟨S10x10, .f32⟩
  | 107 => ⟨S10x10, .f32⟩
  | 108 => ⟨S10x64, .f32⟩
  | 109 => ⟨S64x192, .f32⟩
  | 110 => ⟨S10x192, .f32⟩
  | 111 => ⟨S1x192, .f32⟩
  | 112 => ⟨S10x192, .f32⟩
  | 113 => ⟨S10x192, .f32⟩
  | 114 => ⟨S64x192, .f32⟩
  | 115 => ⟨S10x192, .f32⟩
  | 116 => ⟨S1x192, .f32⟩
  | 117 => ⟨S10x192, .f32⟩
  | 118 => ⟨S10x192, .f32⟩
  | 119 => ⟨S10x64, .f32⟩
  | 120 => ⟨S10x64, .f32⟩
  | 121 => ⟨S10x64, .f32⟩
  | 122 => ⟨S10x64, .f32⟩
  | 123 => ⟨S10x64, .f32⟩
  | 124 => ⟨S10x64, .f32⟩
  | 125 => ⟨S10x64, .f32⟩
  | 126 => ⟨S10x64, .f32⟩
  | 127 => ⟨S10x64, .f32⟩
  | _ => ⟨S10x64, .f32⟩

abbrev hbmTy0_1 (i : Nat) : BufTy := match i % 128 with
  | 0 => ⟨S_, .f32⟩
  | 1 => ⟨S10x64, .f32⟩
  | 2 => ⟨S10x64, .f32⟩
  | 3 => ⟨S_, .f32⟩
  | 4 => ⟨S10x64, .f32⟩
  | 5 => ⟨S10x64, .f32⟩
  | 6 => ⟨S10x64, .f32⟩
  | 7 => ⟨S10x64, .f32⟩
  | 8 => ⟨S10x64, .f32⟩
  | 9 => ⟨S_, .f32⟩
  | 10 => ⟨S10x64, .f32⟩
  | 11 => ⟨S10x64, .f32⟩
  | 12 => ⟨S_, .f32⟩
  | 13 => ⟨S10x64, .f32⟩
  | 14 => ⟨S10x64, .f32⟩
  | 15 => ⟨S10x64, .f32⟩
  | 16 => ⟨S10x64, .f32⟩
  | 17 => ⟨S10x64, .f32⟩
  | 18 => ⟨S_, .f32⟩
  | 19 => ⟨S10x64, .f32⟩
  | 20 => ⟨S10x64, .f32⟩
  | 21 => ⟨S10x64, .f32⟩
  | 22 => ⟨S10x64, .f32⟩
  | 23 => ⟨S10x64, .f32⟩
  | 24 => ⟨S_, .f32⟩
  | 25 => ⟨S10, .f32⟩
  | 26 => ⟨S10x1, .f32⟩
  | 27 => ⟨S_, .f32⟩
  | 28 => ⟨S10x1, .f32⟩
  | 29 => ⟨S10x1, .f32⟩
  | 30 => ⟨S_, .i32⟩
  | 31 => ⟨S_, .f32⟩
  | 32 => ⟨S10, .f32⟩
  | 33 => ⟨S10x1, .f32⟩
  | 34 => ⟨S_, .f32⟩
  | 35 => ⟨S10x1, .f32⟩
  | 36 => ⟨S10x1, .f32⟩
  | 37 => ⟨S10x64, .f32⟩
  | 38 => ⟨S10x64, .f32⟩
  | 39 => ⟨S10x64, .f32⟩
  | 40 => ⟨S_, .f32⟩
  | 41 => ⟨S_, .f32⟩
  | 42 => ⟨S_, .f32⟩
  | 43 => ⟨S_, .f32⟩
  | 44 => ⟨S10, .f32⟩
  | 45 => ⟨S10x1, .f32⟩
  | 46 => ⟨S10x1, .f32⟩
  | 47 => ⟨S10x1, .f32⟩
  | 48 => ⟨S_, .f32⟩
  | 49 => ⟨S_, .i1⟩
  | 50 => ⟨S_, .f32⟩
  | 51 => ⟨S_, .f32⟩
  | 52 => ⟨S10x1, .f32⟩
  | 53 => ⟨S10x1, .f32⟩
  | 54 => ⟨S10x64, .f32⟩
  | 55 => ⟨S10x64, .f32⟩
  | 56 => ⟨S_, .f32⟩
  | 57 => ⟨S10x1, .f32⟩
  | 58 => ⟨S10x1, .f32⟩
  | 59 => ⟨S10x1, .f32⟩
  | 60 => ⟨S10x64, .f32⟩
  | 61 => ⟨S10x64, .f32⟩
  | 62 => ⟨S1x64, .f32⟩
  | 63 => ⟨S10x64, .f32⟩
  | 64 => ⟨S10x64, .f32⟩
  | 65 => ⟨S1x64, .f32⟩
  | 66 => ⟨S10x64, .f32⟩
  | 67 => ⟨S10x64, .f32⟩
  | 68 => ⟨S64x128, .f32⟩
  | 69 => ⟨S10x128, .f32⟩
  | 70 => ⟨S1x128, .f32⟩
  | 71 => ⟨S10x128, .f32⟩
  | 72 => ⟨S10x128, .f32⟩
  | 73 => ⟨S_, .f32⟩
  | 74 => ⟨S10x128, .f32⟩
  | 75 => ⟨S10x128, .f32⟩
  | 76 => ⟨S128x64, .f32⟩
  | 77 => ⟨S10x64, .f32⟩
  | 78 => ⟨S10x64, .f32⟩
  | 79 => ⟨S1x64, .f32⟩
  | 80 => ⟨S10x64, .f32⟩
  | 81 => ⟨S10x64, .f32⟩
  | 82 => ⟨S_, .f32⟩
  | 83 => ⟨S10, .f32⟩
  | 84 => ⟨S10x1, .f32⟩
  | 85 => ⟨S_, .f32⟩
  | 86 => ⟨S10x1, .f32⟩
  | 87 => ⟨S10x1, .f32⟩
  | 88 => ⟨S_, .i32⟩
  | 89 => ⟨S_, .f32⟩
  | 90 => ⟨S10, .f32⟩
  | 91 => ⟨S10x1, .f32⟩
  | 92 => ⟨S_, .f32⟩
  | 93 => ⟨S10x1, .f32⟩
  | 94 => ⟨S10x1, .f32⟩
  | 95 => ⟨S10x64, .f32⟩
  | 96 => ⟨S10x64, .f32⟩
  | 97 => ⟨S10x64, .f32⟩
  | 98 => ⟨S_, .f32⟩
  | 99 => ⟨S_, .f32⟩
  | 100 => ⟨S_, .f32⟩
  | 101 => ⟨S_, .f32⟩
  | 102 => ⟨S10, .f32⟩
  | 103 => ⟨S10x1, .f32⟩
  | 104 => ⟨S10x1, .f32⟩
  | 105 => ⟨S10x1, .f32⟩
  | 106 => ⟨S_, .f32⟩
  | 107 => ⟨S_, .i1⟩
  | 108 => ⟨S_, .f32⟩
  | 109 => ⟨S_, .f32⟩
  | 110 => ⟨S10x1, .f32⟩
  | 111 => ⟨S10x1, .f32⟩
  | 112 => ⟨S10x64, .f32⟩
  | 113 => ⟨S10x64, .f32⟩
  | 114 => ⟨S_, .f32⟩
  | 115 => ⟨S10x1, .f32⟩
  | 116 => ⟨S10x1, .f32⟩
  | 117 => ⟨S10x1, .f32⟩
  | 118 => ⟨S10x64, .f32⟩
  | 119 => ⟨S10x64, .f32⟩
  | 120 => ⟨S1x64, .f32⟩
  | 121 => ⟨S10x64, .f32⟩
  | 122 => ⟨S10x64, .f32⟩
  | 123 => ⟨S1x64, .f32⟩
  | 124 => ⟨S10x64, .f32⟩
  | 125 => ⟨S10x64, .f32⟩
  | 126 => ⟨S64x64, .f32⟩
  | 127 => ⟨S10x64, .f32⟩
  | _ => ⟨S10x64, .f32⟩

abbrev hbmTy0_2 (i : Nat) : BufTy := match i % 128 with
  | 0 => ⟨S1x64, .f32⟩
  | 1 => ⟨S10x64, .f32⟩
  | 2 => ⟨S10x64, .f32⟩
  | 3 => ⟨S10x10, .f32⟩
  | 4 => ⟨S_, .f32⟩
  | 5 => ⟨S10x10, .f32⟩
  | 6 => ⟨S10x10, .f32⟩
  | 7 => ⟨S_, .f32⟩
  | 8 => ⟨S10, .f32⟩
  | 9 => ⟨S_, .f32⟩
  | 10 => ⟨S10, .f32⟩
  | 11 => ⟨S10, .f32⟩
  | 12 => ⟨S1x10, .f32⟩
  | 13 => ⟨S10x10, .f32⟩
  | 14 => ⟨S10x10, .f32⟩
  | 15 => ⟨S10x10, .f32⟩
  | 16 => ⟨S_, .f32⟩
  | 17 => ⟨S10, .f32⟩
  | 18 => ⟨S1x10, .f32⟩
  | 19 => ⟨S10x10, .f32⟩
  | 20 => ⟨S10x10, .f32⟩
  | 21 => ⟨S_, .f32⟩
  | 22 => ⟨S10x10, .f32⟩
  | 23 => ⟨S10x10, .f32⟩
  | 24 => ⟨S_, .f32⟩
  | 25 => ⟨S10, .f32⟩
  | 26 => ⟨S10x1, .f32⟩
  | 27 => ⟨S10x10, .f32⟩
  | 28 => ⟨S10x10, .f32⟩
  | 29 => ⟨S10x64, .f32⟩
  | 30 => ⟨S64x192, .f32⟩
  | 31 => ⟨S10x192, .f32⟩
  | 32 => ⟨S1x192, .f32⟩
  | 33 => ⟨S10x192, .f32⟩
  | 34 => ⟨S10x192, .f32⟩
  | 35 => ⟨S64x192, .f32⟩
  | 36 => ⟨S10x192, .f32⟩
  | 37 => ⟨S1x192, .f32⟩
  | 38 => ⟨S10x192, .f32⟩
  | 39 => ⟨S10x192, .f32⟩
  | 40 => ⟨S10x64, .f32⟩
  | 41 => ⟨S10x64, .f32⟩
  | 42 => ⟨S10x64, .f32⟩
  | 43 => ⟨S10x64, .f32⟩
  | 44 => ⟨S10x64, .f32⟩
  | 45 => ⟨S10x64, .f32⟩
  | 46 => ⟨S10x64, .f32⟩
  | 47 => ⟨S10x64, .f32⟩
  | 48 => ⟨S10x64, .f32⟩
  | 49 => ⟨S_, .f32⟩
  | 50 => ⟨S10x64, .f32⟩
  | 51 => ⟨S10x64, .f32⟩
  | 52 => ⟨S_, .f32⟩
  | 53 => ⟨S10x64, .f32⟩
  | 54 => ⟨S10x64, .f32⟩
  | 55 => ⟨S10x64, .f32⟩
  | 56 => ⟨S10x64, .f32⟩
  | 57 => ⟨S10x64, .f32⟩
  | 58 => ⟨S_, .f32⟩
  | 59 => ⟨S10x64, .f32⟩
  | 60 => ⟨S10x64, .f32⟩
  | 61 => ⟨S_, .f32⟩
  | 62 => ⟨S10x64, .f32⟩
  | 63 => ⟨S10x64, .f32⟩
  | 64 => ⟨S10x64, .f32⟩
  | 65 => ⟨S10x64, .f32⟩
  | 66 => ⟨S10x64, .f32⟩
  | 67 => ⟨S_, .f32⟩
  | 68 => ⟨S10x64, .f32⟩
  | 69 => ⟨S10x64, .f32⟩
  | 70 => ⟨S10x64, .f32⟩
  | 71 => ⟨S10x64, .f32⟩
  | 72 => ⟨S10x64, .f32⟩
  | 73 => ⟨S_, .f32⟩
  | 74 => ⟨S10, .f32⟩
  | 75 => ⟨S10x1, .f32⟩
  | 76 => ⟨S_, .f32⟩
  | 77 => ⟨S10x1, .f32⟩
  | 78 => ⟨S10x1, .f32⟩
  | 79 => ⟨S_, .i32⟩
  | 80 => ⟨S_, .f32⟩
  | 81 => ⟨S10, .f32⟩
  | 82 => ⟨S10x1, .f32⟩
  | 83 => ⟨S_, .f32⟩
  | 84 => ⟨S10x1, .f32⟩
  | 85 => ⟨S10x1, .f32⟩
  | 86 => ⟨S10x64, .f32⟩
  | 87 => ⟨S10x64, .f32⟩
  | 88 => ⟨S10x64, .f32⟩
  | 89 => ⟨S_, .f32⟩
  | 90 => ⟨S_, .f32⟩
  | 91 => ⟨S_, .f32⟩
  | 92 => ⟨S_, .f32⟩
  | 93 => ⟨S10, .f32⟩
  | 94 => ⟨S10x1, .f32⟩
  | 95 => ⟨S10x1, .f32⟩
  | 96 => ⟨S10x1, .f32⟩
  | 97 => ⟨S_, .f32⟩
  | 98 => ⟨S_, .i1⟩
  | 99 => ⟨S_, .f32⟩
  | 100 => ⟨S_, .f32⟩
  | 101 => ⟨S10x1, .f32⟩
  | 102 => ⟨S10x1, .f32⟩
  | 103 => ⟨S10x64, .f32⟩
  | 104 => ⟨S10x64, .f32⟩
  | 105 => ⟨S_, .f32⟩
  | 106 => ⟨S10x1, .f32⟩
  | 107 => ⟨S10x1, .f32⟩
  | 108 => ⟨S10x1, .f32⟩
  | 109 => ⟨S10x64, .f32⟩
  | 110 => ⟨S10x64, .f32⟩
  | 111 => ⟨S1x64, .f32⟩
  | 112 => ⟨S10x64, .f32⟩
  | 113 => ⟨S10x64, .f32⟩
  | 114 => ⟨S1x64, .f32⟩
  | 115 => ⟨S10x64, .f32⟩
  | 116 => ⟨S10x64, .f32⟩
  | 117 => ⟨S64x128, .f32⟩
  | 118 => ⟨S10x128, .f32⟩
  | 119 => ⟨S1x128, .f32⟩
  | 120 => ⟨S10x128, .f32⟩
  | 121 => ⟨S10x128, .f32⟩
  | 122 => ⟨S_, .f32⟩
  | 123 => ⟨S10x128, .f32⟩
  | 124 => ⟨S10x128, .f32⟩
  | 125 => ⟨S128x64, .f32⟩
  | 126 => ⟨S10x64, .f32⟩
  | 127 => ⟨S10x64, .f32⟩
  | _ => ⟨S10x64, .f32⟩

abbrev hbmTy0_3 (i : Nat) : BufTy := match i % 128 with
  | 0 => ⟨S1x64, .f32⟩
  | 1 => ⟨S10x64, .f32⟩
  | 2 => ⟨S10x64, .f32⟩
  | 3 => ⟨S_, .f32⟩
  | 4 => ⟨S10, .f32⟩
  | 5 => ⟨S10x1, .f32⟩
  | 6 => ⟨S_, .f32⟩
  | 7 => ⟨S10x1, .f32⟩
  | 8 => ⟨S10x1, .f32⟩
  | 9 => ⟨S_, .i32⟩
  | 10 => ⟨S_, .f32⟩
  | 11 => ⟨S10, .f32⟩
  | 12 => ⟨S10x1, .f32⟩
  | 13 => ⟨S_, .f32⟩
  | 14 => ⟨S10x1, .f32⟩
  | 15 => ⟨S10x1, .f32⟩
  | 16 => ⟨S10x64, .f32⟩
  | 17 => ⟨S10x64, .f32⟩
  | 18 => ⟨S10x64, .f32⟩
  | 19 => ⟨S_, .f32⟩
  | 20 => ⟨S_, .f32⟩
  | 21 => ⟨S_, .f32⟩
  | 22 => ⟨S_, .f32⟩
  | 23 => ⟨S10, .f32⟩
  | 24 => ⟨S10x1, .f32⟩
  | 25 => ⟨S10x1, .f32⟩
  | 26 => ⟨S10x1, .f32⟩
  | 27 => ⟨S_, .f32⟩
  | 28 => ⟨S_, .i1⟩
  | 29 => ⟨S_, .f32⟩
  | 30 => ⟨S_, .f32⟩
  | 31 => ⟨S10x1, .f32⟩
  | 32 => ⟨S10x1, .f32⟩
  | 33 => ⟨S10x64, .f32⟩
  | 34 => ⟨S10x64, .f32⟩
  | 35 => ⟨S_, .f32⟩
  | 36 => ⟨S10x1, .f32⟩
  | 37 => ⟨S10x1, .f32⟩
  | 38 => ⟨S10x1, .f32⟩
  | 39 => ⟨S10x64, .f32⟩
  | 40 => ⟨S10x64, .f32⟩
  | 41 => ⟨S1x64, .f32⟩
  | 42 => ⟨S10x64, .f32⟩
  | 43 => ⟨S10x64, .f32⟩
  | 44 => ⟨S1x64, .f32⟩
  | 45 => ⟨S10x64, .f32⟩
  | 46 => ⟨S10x64, .f32⟩
  | 47 => ⟨S64x64, .f32⟩
  | 48 => ⟨S10x64, .f32⟩
  | 49 => ⟨S1x64, .f32⟩
  | 50 => ⟨S10x64, .f32⟩
  | 51 => ⟨S10x64, .f32⟩
  | 52 => ⟨S10x10, .f32⟩
  | 53 => ⟨S_, .f32⟩
  | 54 => ⟨S10x10, .f32⟩
  | 55 => ⟨S10x10, .f32⟩
  | 56 => ⟨S_, .f32⟩
  | 57 => ⟨S10, .f32⟩
  | 58 => ⟨S_, .f32⟩
  | 59 => ⟨S10, .f32⟩
  | 60 => ⟨S10, .f32⟩
  | 61 => ⟨S1x10, .f32⟩
  | 62 => ⟨S10x10, .f32⟩
  | 63 => ⟨S10x10, .f32⟩
  | 64 => ⟨S10x10, .f32⟩
  | 65 => ⟨S_, .f32⟩
  | 66 => ⟨S10, .f32⟩
  | 67 => ⟨S1x10, .f32⟩
  | 68 => ⟨S10x10, .f32⟩
  | 69 => ⟨S10x10, .f32⟩
  | 70 => ⟨S_, .f32⟩
  | 71 => ⟨S10x10, .f32⟩
  | 72 => ⟨S10x10, .f32⟩
  | 73 => ⟨S_, .f32⟩
  | 74 => ⟨S10, .f32⟩
  | 75 => ⟨S10x1, .f32⟩
  | 76 => ⟨S10x10, .f32⟩
  | 77 => ⟨S10x10, .f32⟩
  | 78 => ⟨S10x64, .f32⟩
  | 79 => ⟨S64x192, .f32⟩
  | 80 => ⟨S10x192, .f32⟩
  | 81 => ⟨S1x192, .f32⟩
  | 82 => ⟨S10x192, .f32⟩
  | 83 => ⟨S10x192, .f32⟩
  | 84 => ⟨S64x192, .f32⟩
  | 85 => ⟨S10x192, .f32⟩
  | 86 => ⟨S1x192, .f32⟩
  | 87 => ⟨S10x192, .f32⟩
  | 88 => ⟨S10x192, .f32⟩
  | 89 => ⟨S10x64, .f32⟩
  | 90 => ⟨S10x64, .f32⟩
  | 91 => ⟨S10x64, .f32⟩
  | 92 => ⟨S10x64, .f32⟩
  | 93 => ⟨S10x64, .f32⟩
  | 94 => ⟨S10x64, .f32⟩
  | 95 => ⟨S10x64, .f32⟩
  | 96 => ⟨S10x64, .f32⟩
  | 97 => ⟨S10x64, .f32⟩
  | 98 => ⟨S_, .f32⟩
  | 99 => ⟨S10x64, .f32⟩
  | 100 => ⟨S10x64, .f32⟩
  | 101 => ⟨S_, .f32⟩
  | 102 => ⟨S10x64, .f32⟩
  | 103 => ⟨S10x64, .f32⟩
  | 104 => ⟨S10x64, .f32⟩
  | 105 => ⟨S10x64, .f32⟩
  | 106 => ⟨S10x64, .f32⟩
  | 107 => ⟨S_, .f32⟩
  | 108 => ⟨S10x64, .f32⟩
  | 109 => ⟨S10x64, .f32⟩
  | 110 => ⟨S_, .f32⟩
  | 111 => ⟨S10x64, .f32⟩
  | 112 => ⟨S10x64, .f32⟩
  | 113 => ⟨S10x64, .f32⟩
  | 114 => ⟨S10x64, .f32⟩
  | 115 => ⟨S10x64, .f32⟩
  | 116 => ⟨S_, .f32⟩
  | 117 => ⟨S10x64, .f32⟩
  | 118 => ⟨S10x64, .f32⟩
  | 119 => ⟨S10x64, .f32⟩
  | 120 => ⟨S10x64, .f32⟩
  | 121 => ⟨S10x64, .f32⟩
  | 122 => ⟨S_, .f32⟩
  | 123 => ⟨S10, .f32⟩
  | 124 => ⟨S10x1, .f32⟩
  | 125 => ⟨S_, .f32⟩
  | 126 => ⟨S10x1, .f32⟩
  | 127 => ⟨S10x1, .f32⟩
  | _ => ⟨S10x64, .f32⟩

abbrev hbmTy0_4 (i : Nat) : BufTy := match i % 128 with
  | 0 => ⟨S_, .i32⟩
  | 1 => ⟨S_, .f32⟩
  | 2 => ⟨S10, .f32⟩
  | 3 => ⟨S10x1, .f32⟩
  | 4 => ⟨S_, .f32⟩
  | 5 => ⟨S10x1, .f32⟩
  | 6 => ⟨S10x1, .f32⟩
  | 7 => ⟨S10x64, .f32⟩
  | 8 => ⟨S10x64, .f32⟩
  | 9 => ⟨S10x64, .f32⟩
  | 10 => ⟨S_, .f32⟩
  | 11 => ⟨S_, .f32⟩
  | 12 => ⟨S_, .f32⟩
  | 13 => ⟨S_, .f32⟩
  | 14 => ⟨S10, .f32⟩
  | 15 => ⟨S10x1, .f32⟩
  | 16 => ⟨S10x1, .f32⟩
  | 17 => ⟨S10x1, .f32⟩
  | 18 => ⟨S_, .f32⟩
  | 19 => ⟨S_, .i1⟩
  | 20 => ⟨S_, .f32⟩
  | 21 => ⟨S_, .f32⟩
  | 22 => ⟨S10x1, .f32⟩
  | 23 => ⟨S10x1, .f32⟩
  | 24 => ⟨S10x64, .f32⟩
  | 25 => ⟨S10x64, .f32⟩
  | 26 => ⟨S_, .f32⟩
  | 27 => ⟨S10x1, .f32⟩
  | 28 => ⟨S10x1, .f32⟩
  | 29 => ⟨S10x1, .f32⟩
  | 30 => ⟨S10x64, .f32⟩
  | 31 => ⟨S10x64, .f32⟩
  | 32 => ⟨S1x64, .f32⟩
  | 33 => ⟨S10x64, .f32⟩
  | 34 => ⟨S10x64, .f32⟩
  | 35 => ⟨S1x64, .f32⟩
  | 36 => ⟨S10x64, .f32⟩
  | 37 => ⟨S10x64, .f32⟩
  | 38 => ⟨S64x128, .f32⟩
  | 39 => ⟨S10x128, .f32⟩
  | 40 => ⟨S1x128, .f32⟩
  | 41 => ⟨S10x128, .f32⟩
  | 42 => ⟨S10x128, .f32⟩
  | 43 => ⟨S_, .f32⟩
  | 44 => ⟨S10x128, .f32⟩
  | 45 => ⟨S10x128, .f32⟩
  | 46 => ⟨S128x64, .f32⟩
  | 47 => ⟨S10x64, .f32⟩
  | 48 => ⟨S10x64, .f32⟩
  | 49 => ⟨S1x64, .f32⟩
  | 50 => ⟨S10x64, .f32⟩
  | 51 => ⟨S10x64, .f32⟩
  | 52 => ⟨S4096x64, .f32⟩
  | _ => ⟨S10x64, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S10x64, .f32⟩

abbrev bufTy : (tb : Table) → Fin (tcTables nBuf tb) → BufTy
  | .hbm, ⟨i, _⟩ => hbmTy i
  | .local _ .vmem, ⟨0, _⟩ => ⟨S128x64x64, .f32⟩
  | .local _ .vmem, ⟨1, _⟩ => ⟨S128x64x64, .f32⟩
  | .local _ .vmem, ⟨2, _⟩ => ⟨S128x64, .f32⟩
  | .local _ .vmem, ⟨3, _⟩ => ⟨S128x64, .f32⟩
  | .local _ .vmem, ⟨4, _⟩ => ⟨S128x64x64, .f32⟩
  | .local _ .vmem, ⟨5, _⟩ => ⟨S128x64x64, .f32⟩
  | .local _ .vmem, ⟨6, _⟩ => ⟨S128x64, .f32⟩
  | .local _ .vmem, ⟨7, _⟩ => ⟨S128x64, .f32⟩
  | .local _ .vmem, ⟨8, _⟩ => ⟨S10x64, .f32⟩
  | .local _ .vmem, ⟨9, _⟩ => ⟨S128x64, .f32⟩
  | .local _ .vmem, ⟨10, _⟩ => ⟨S128x64, .f32⟩
  | _, _ => ⟨S10x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_cst : Ref sig .tc := ⟨.hbm, 33, rfl⟩
abbrev main_v10 : Ref sig .tc := ⟨.hbm, 34, rfl⟩
abbrev main_v11 : Ref sig .tc := ⟨.hbm, 35, rfl⟩
abbrev main_cst_0 : Ref sig .tc := ⟨.hbm, 36, rfl⟩
abbrev main_v12 : Ref sig .tc := ⟨.hbm, 37, rfl⟩
abbrev main_v13 : Ref sig .tc := ⟨.hbm, 38, rfl⟩
abbrev main_c : Ref sig .tc := ⟨.hbm, 39, rfl⟩
abbrev main_call0_cst : Ref sig .tc := ⟨.hbm, 40, rfl⟩
abbrev main_call0_v0 : Ref sig .tc := ⟨.hbm, 41, rfl⟩
abbrev main_call0_v1 : Ref sig .tc := ⟨.hbm, 42, rfl⟩
abbrev main_call0_cst_0 : Ref sig .tc := ⟨.hbm, 43, rfl⟩
abbrev main_call0_v2 : Ref sig .tc := ⟨.hbm, 44, rfl⟩
abbrev main_call0_v3 : Ref sig .tc := ⟨.hbm, 45, rfl⟩
abbrev main_call0_v4 : Ref sig .tc := ⟨.hbm, 46, rfl⟩
abbrev main_call0_v5 : Ref sig .tc := ⟨.hbm, 47, rfl⟩
abbrev main_call0_v6 : Ref sig .tc := ⟨.hbm, 48, rfl⟩
abbrev main_call0_v7 : Ref sig .tc := ⟨.hbm, 49, rfl⟩
abbrev main_call0_cst_1 : Ref sig .tc := ⟨.hbm, 50, rfl⟩
abbrev main_call0_v8 : Ref sig .tc := ⟨.hbm, 51, rfl⟩
abbrev main_call0_cst_2 : Ref sig .tc := ⟨.hbm, 52, rfl⟩
abbrev main_call0_v9 : Ref sig .tc := ⟨.hbm, 53, rfl⟩
abbrev main_call0_v10 : Ref sig .tc := ⟨.hbm, 54, rfl⟩
abbrev main_call0_v11 : Ref sig .tc := ⟨.hbm, 55, rfl⟩
abbrev main_call0_v12 : Ref sig .tc := ⟨.hbm, 56, rfl⟩
abbrev main_call0_cst_3 : Ref sig .tc := ⟨.hbm, 57, rfl⟩
abbrev main_call0_v13 : Ref sig .tc := ⟨.hbm, 58, rfl⟩
abbrev main_call0_cst_4 : Ref sig .tc := ⟨.hbm, 59, rfl⟩
abbrev main_call0_call0_v0 : Ref sig .tc := ⟨.hbm, 60, rfl⟩
abbrev main_call0_call0_v1 : Ref sig .tc := ⟨.hbm, 61, rfl⟩
abbrev main_v14 : Ref sig .tc := ⟨.hbm, 62, rfl⟩
abbrev main_v15 : Ref sig .tc := ⟨.hbm, 63, rfl⟩
abbrev main_v16 : Ref sig .tc := ⟨.hbm, 64, rfl⟩
abbrev main_cst_1 : Ref sig .tc := ⟨.hbm, 65, rfl⟩
abbrev main_v17 : Ref sig .tc := ⟨.hbm, 66, rfl⟩
abbrev main_v18 : Ref sig .tc := ⟨.hbm, 67, rfl⟩
abbrev main_v19 : Ref sig .tc := ⟨.hbm, 68, rfl⟩
abbrev main_v20 : Ref sig .tc := ⟨.hbm, 69, rfl⟩
abbrev main_v21 : Ref sig .tc := ⟨.hbm, 70, rfl⟩
abbrev main_v22 : Ref sig .tc := ⟨.hbm, 71, rfl⟩
abbrev main_v23 : Ref sig .tc := ⟨.hbm, 72, rfl⟩
abbrev main_v24 : Ref sig .tc := ⟨.hbm, 73, rfl⟩
abbrev main_v25 : Ref sig .tc := ⟨.hbm, 74, rfl⟩
abbrev main_v26 : Ref sig .tc := ⟨.hbm, 75, rfl⟩
abbrev main_v27 : Ref sig .tc := ⟨.hbm, 76, rfl⟩
abbrev main_v28 : Ref sig .tc := ⟨.hbm, 77, rfl⟩
abbrev main_v29 : Ref sig .tc := ⟨.hbm, 78, rfl⟩
abbrev main_v30 : Ref sig .tc := ⟨.hbm, 79, rfl⟩
abbrev main_v31 : Ref sig .tc := ⟨.hbm, 80, rfl⟩
abbrev main_v32 : Ref sig .tc := ⟨.hbm, 81, rfl⟩
abbrev main_v33 : Ref sig .tc := ⟨.hbm, 82, rfl⟩
abbrev main_cst_2 : Ref sig .tc := ⟨.hbm, 83, rfl⟩
abbrev main_v34 : Ref sig .tc := ⟨.hbm, 84, rfl⟩
abbrev main_v35 : Ref sig .tc := ⟨.hbm, 85, rfl⟩
abbrev main_cst_3 : Ref sig .tc := ⟨.hbm, 86, rfl⟩
abbrev main_v36 : Ref sig .tc := ⟨.hbm, 87, rfl⟩
abbrev main_cst_4 : Ref sig .tc := ⟨.hbm, 88, rfl⟩
abbrev main_v37 : Ref sig .tc := ⟨.hbm, 89, rfl⟩
abbrev main_v38 : Ref sig .tc := ⟨.hbm, 90, rfl⟩
abbrev main_v39 : Ref sig .tc := ⟨.hbm, 91, rfl⟩
abbrev main_v40 : Ref sig .tc := ⟨.hbm, 92, rfl⟩
abbrev main_v41 : Ref sig .tc := ⟨.hbm, 93, rfl⟩
abbrev main_v42 : Ref sig .tc := ⟨.hbm, 94, rfl⟩
abbrev main_cst_5 : Ref sig .tc := ⟨.hbm, 95, rfl⟩
abbrev main_v43 : Ref sig .tc := ⟨.hbm, 96, rfl⟩
abbrev main_v44 : Ref sig .tc := ⟨.hbm, 97, rfl⟩
abbrev main_v45 : Ref sig .tc := ⟨.hbm, 98, rfl⟩
abbrev main_v46 : Ref sig .tc := ⟨.hbm, 99, rfl⟩
abbrev main_cst_6 : Ref sig .tc := ⟨.hbm, 100, rfl⟩
abbrev main_v47 : Ref sig .tc := ⟨.hbm, 101, rfl⟩
abbrev main_v48 : Ref sig .tc := ⟨.hbm, 102, rfl⟩
abbrev main_cst_7 : Ref sig .tc := ⟨.hbm, 103, rfl⟩
abbrev main_v49 : Ref sig .tc := ⟨.hbm, 104, rfl⟩
abbrev main_v50 : Ref sig .tc := ⟨.hbm, 105, rfl⟩
abbrev main_v51 : Ref sig .tc := ⟨.hbm, 106, rfl⟩
abbrev main_v52 : Ref sig .tc := ⟨.hbm, 107, rfl⟩
abbrev main_v53 : Ref sig .tc := ⟨.hbm, 108, rfl⟩
abbrev main_v54 : Ref sig .tc := ⟨.hbm, 109, rfl⟩
abbrev main_v55 : Ref sig .tc := ⟨.hbm, 110, rfl⟩
abbrev main_v56 : Ref sig .tc := ⟨.hbm, 111, rfl⟩
abbrev main_v57 : Ref sig .tc := ⟨.hbm, 112, rfl⟩
abbrev main_v58 : Ref sig .tc := ⟨.hbm, 113, rfl⟩
abbrev main_v59 : Ref sig .tc := ⟨.hbm, 114, rfl⟩
abbrev main_v60 : Ref sig .tc := ⟨.hbm, 115, rfl⟩
abbrev main_v61 : Ref sig .tc := ⟨.hbm, 116, rfl⟩
abbrev main_v62 : Ref sig .tc := ⟨.hbm, 117, rfl⟩
abbrev main_v63 : Ref sig .tc := ⟨.hbm, 118, rfl⟩
abbrev main_v64 : Ref sig .tc := ⟨.hbm, 119, rfl⟩
abbrev main_v65 : Ref sig .tc := ⟨.hbm, 120, rfl⟩
abbrev main_v66 : Ref sig .tc := ⟨.hbm, 121, rfl⟩
abbrev main_v67 : Ref sig .tc := ⟨.hbm, 122, rfl⟩
abbrev main_v68 : Ref sig .tc := ⟨.hbm, 123, rfl⟩
abbrev main_v69 : Ref sig .tc := ⟨.hbm, 124, rfl⟩
abbrev main_v70 : Ref sig .tc := ⟨.hbm, 125, rfl⟩
abbrev main_v71 : Ref sig .tc := ⟨.hbm, 126, rfl⟩
abbrev main_v72 : Ref sig .tc := ⟨.hbm, 127, rfl⟩
abbrev main_cst_8 : Ref sig .tc := ⟨.hbm, 128, rfl⟩
abbrev main_v73 : Ref sig .tc := ⟨.hbm, 129, rfl⟩
abbrev main_v74 : Ref sig .tc := ⟨.hbm, 130, rfl⟩
abbrev main_cst_9 : Ref sig .tc := ⟨.hbm, 131, rfl⟩
abbrev main_v75 : Ref sig .tc := ⟨.hbm, 132, rfl⟩
abbrev main_v76 : Ref sig .tc := ⟨.hbm, 133, rfl⟩
abbrev main_v77 : Ref sig .tc := ⟨.hbm, 134, rfl⟩
abbrev main_v78 : Ref sig .tc := ⟨.hbm, 135, rfl⟩
abbrev main_v79 : Ref sig .tc := ⟨.hbm, 136, rfl⟩
abbrev main_cst_10 : Ref sig .tc := ⟨.hbm, 137, rfl⟩
abbrev main_v80 : Ref sig .tc := ⟨.hbm, 138, rfl⟩
abbrev main_v81 : Ref sig .tc := ⟨.hbm, 139, rfl⟩
abbrev main_cst_11 : Ref sig .tc := ⟨.hbm, 140, rfl⟩
abbrev main_v82 : Ref sig .tc := ⟨.hbm, 141, rfl⟩
abbrev main_v83 : Ref sig .tc := ⟨.hbm, 142, rfl⟩
abbrev main_v84 : Ref sig .tc := ⟨.hbm, 143, rfl⟩
abbrev main_v85 : Ref sig .tc := ⟨.hbm, 144, rfl⟩
abbrev main_v86 : Ref sig .tc := ⟨.hbm, 145, rfl⟩
abbrev main_cst_12 : Ref sig .tc := ⟨.hbm, 146, rfl⟩
abbrev main_v87 : Ref sig .tc := ⟨.hbm, 147, rfl⟩
abbrev main_v88 : Ref sig .tc := ⟨.hbm, 148, rfl⟩
abbrev main_v89 : Ref sig .tc := ⟨.hbm, 149, rfl⟩
abbrev main_v90 : Ref sig .tc := ⟨.hbm, 150, rfl⟩
abbrev main_v91 : Ref sig .tc := ⟨.hbm, 151, rfl⟩
abbrev main_cst_13 : Ref sig .tc := ⟨.hbm, 152, rfl⟩
abbrev main_v92 : Ref sig .tc := ⟨.hbm, 153, rfl⟩
abbrev main_v93 : Ref sig .tc := ⟨.hbm, 154, rfl⟩
abbrev main_cst_14 : Ref sig .tc := ⟨.hbm, 155, rfl⟩
abbrev main_v94 : Ref sig .tc := ⟨.hbm, 156, rfl⟩
abbrev main_v95 : Ref sig .tc := ⟨.hbm, 157, rfl⟩
abbrev main_c_15 : Ref sig .tc := ⟨.hbm, 158, rfl⟩
abbrev main_call1_cst : Ref sig .tc := ⟨.hbm, 159, rfl⟩
abbrev main_call1_v0 : Ref sig .tc := ⟨.hbm, 160, rfl⟩
abbrev main_call1_v1 : Ref sig .tc := ⟨.hbm, 161, rfl⟩
abbrev main_call1_cst_0 : Ref sig .tc := ⟨.hbm, 162, rfl⟩
abbrev main_call1_v2 : Ref sig .tc := ⟨.hbm, 163, rfl⟩
abbrev main_call1_v3 : Ref sig .tc := ⟨.hbm, 164, rfl⟩
abbrev main_call1_v4 : Ref sig .tc := ⟨.hbm, 165, rfl⟩
abbrev main_call1_v5 : Ref sig .tc := ⟨.hbm, 166, rfl⟩
abbrev main_call1_v6 : Ref sig .tc := ⟨.hbm, 167, rfl⟩
abbrev main_call1_v7 : Ref sig .tc := ⟨.hbm, 168, rfl⟩
abbrev main_call1_cst_1 : Ref sig .tc := ⟨.hbm, 169, rfl⟩
abbrev main_call1_v8 : Ref sig .tc := ⟨.hbm, 170, rfl⟩
abbrev main_call1_cst_2 : Ref sig .tc := ⟨.hbm, 171, rfl⟩
abbrev main_call1_v9 : Ref sig .tc := ⟨.hbm, 172, rfl⟩
abbrev main_call1_v10 : Ref sig .tc := ⟨.hbm, 173, rfl⟩
abbrev main_call1_v11 : Ref sig .tc := ⟨.hbm, 174, rfl⟩
abbrev main_call1_v12 : Ref sig .tc := ⟨.hbm, 175, rfl⟩
abbrev main_call1_cst_3 : Ref sig .tc := ⟨.hbm, 176, rfl⟩
abbrev main_call1_v13 : Ref sig .tc := ⟨.hbm, 177, rfl⟩
abbrev main_call1_cst_4 : Ref sig .tc := ⟨.hbm, 178, rfl⟩
abbrev main_call1_call0_v0 : Ref sig .tc := ⟨.hbm, 179, rfl⟩
abbrev main_call1_call0_v1 : Ref sig .tc := ⟨.hbm, 180, rfl⟩
abbrev main_v96 : Ref sig .tc := ⟨.hbm, 181, rfl⟩
abbrev main_v97 : Ref sig .tc := ⟨.hbm, 182, rfl⟩
abbrev main_v98 : Ref sig .tc := ⟨.hbm, 183, rfl⟩
abbrev main_cst_16 : Ref sig .tc := ⟨.hbm, 184, rfl⟩
abbrev main_v99 : Ref sig .tc := ⟨.hbm, 185, rfl⟩
abbrev main_v100 : Ref sig .tc := ⟨.hbm, 186, rfl⟩
abbrev main_v101 : Ref sig .tc := ⟨.hbm, 187, rfl⟩
abbrev main_v102 : Ref sig .tc := ⟨.hbm, 188, rfl⟩
abbrev main_v103 : Ref sig .tc := ⟨.hbm, 189, rfl⟩
abbrev main_v104 : Ref sig .tc := ⟨.hbm, 190, rfl⟩
abbrev main_v105 : Ref sig .tc := ⟨.hbm, 191, rfl⟩
abbrev main_v106 : Ref sig .tc := ⟨.hbm, 192, rfl⟩
abbrev main_v107 : Ref sig .tc := ⟨.hbm, 193, rfl⟩
abbrev main_v108 : Ref sig .tc := ⟨.hbm, 194, rfl⟩
abbrev main_v109 : Ref sig .tc := ⟨.hbm, 195, rfl⟩
abbrev main_v110 : Ref sig .tc := ⟨.hbm, 196, rfl⟩
abbrev main_v111 : Ref sig .tc := ⟨.hbm, 197, rfl⟩
abbrev main_v112 : Ref sig .tc := ⟨.hbm, 198, rfl⟩
abbrev main_v113 : Ref sig .tc := ⟨.hbm, 199, rfl⟩
abbrev main_v114 : Ref sig .tc := ⟨.hbm, 200, rfl⟩
abbrev main_call2_cst : Ref sig .tc := ⟨.hbm, 201, rfl⟩
abbrev main_call2_v0 : Ref sig .tc := ⟨.hbm, 202, rfl⟩
abbrev main_v115 : Ref sig .tc := ⟨.hbm, 203, rfl⟩
abbrev main_v116 : Ref sig .tc := ⟨.hbm, 204, rfl⟩
abbrev main_v117 : Ref sig .tc := ⟨.hbm, 205, rfl⟩
abbrev main_v118 : Ref sig .tc := ⟨.hbm, 206, rfl⟩
abbrev main_v119 : Ref sig .tc := ⟨.hbm, 207, rfl⟩
abbrev main_v120 : Ref sig .tc := ⟨.hbm, 208, rfl⟩
abbrev main_v121 : Ref sig .tc := ⟨.hbm, 209, rfl⟩
abbrev main_cst_17 : Ref sig .tc := ⟨.hbm, 210, rfl⟩
abbrev main_v122 : Ref sig .tc := ⟨.hbm, 211, rfl⟩
abbrev main_v123 : Ref sig .tc := ⟨.hbm, 212, rfl⟩
abbrev main_cst_18 : Ref sig .tc := ⟨.hbm, 213, rfl⟩
abbrev main_v124 : Ref sig .tc := ⟨.hbm, 214, rfl⟩
abbrev main_v125 : Ref sig .tc := ⟨.hbm, 215, rfl⟩
abbrev main_c_19 : Ref sig .tc := ⟨.hbm, 216, rfl⟩
abbrev main_call3_cst : Ref sig .tc := ⟨.hbm, 217, rfl⟩
abbrev main_call3_v0 : Ref sig .tc := ⟨.hbm, 218, rfl⟩
abbrev main_call3_v1 : Ref sig .tc := ⟨.hbm, 219, rfl⟩
abbrev main_call3_cst_0 : Ref sig .tc := ⟨.hbm, 220, rfl⟩
abbrev main_call3_v2 : Ref sig .tc := ⟨.hbm, 221, rfl⟩
abbrev main_call3_v3 : Ref sig .tc := ⟨.hbm, 222, rfl⟩
abbrev main_call3_v4 : Ref sig .tc := ⟨.hbm, 223, rfl⟩
abbrev main_call3_v5 : Ref sig .tc := ⟨.hbm, 224, rfl⟩
abbrev main_call3_v6 : Ref sig .tc := ⟨.hbm, 225, rfl⟩
abbrev main_call3_v7 : Ref sig .tc := ⟨.hbm, 226, rfl⟩
abbrev main_call3_cst_1 : Ref sig .tc := ⟨.hbm, 227, rfl⟩
abbrev main_call3_v8 : Ref sig .tc := ⟨.hbm, 228, rfl⟩
abbrev main_call3_cst_2 : Ref sig .tc := ⟨.hbm, 229, rfl⟩
abbrev main_call3_v9 : Ref sig .tc := ⟨.hbm, 230, rfl⟩
abbrev main_call3_v10 : Ref sig .tc := ⟨.hbm, 231, rfl⟩
abbrev main_call3_v11 : Ref sig .tc := ⟨.hbm, 232, rfl⟩
abbrev main_call3_v12 : Ref sig .tc := ⟨.hbm, 233, rfl⟩
abbrev main_call3_cst_3 : Ref sig .tc := ⟨.hbm, 234, rfl⟩
abbrev main_call3_v13 : Ref sig .tc := ⟨.hbm, 235, rfl⟩
abbrev main_call3_cst_4 : Ref sig .tc := ⟨.hbm, 236, rfl⟩
abbrev main_call3_call0_v0 : Ref sig .tc := ⟨.hbm, 237, rfl⟩
abbrev main_call3_call0_v1 : Ref sig .tc := ⟨.hbm, 238, rfl⟩
abbrev main_v126 : Ref sig .tc := ⟨.hbm, 239, rfl⟩
abbrev main_v127 : Ref sig .tc := ⟨.hbm, 240, rfl⟩
abbrev main_v128 : Ref sig .tc := ⟨.hbm, 241, rfl⟩
abbrev main_cst_20 : Ref sig .tc := ⟨.hbm, 242, rfl⟩
abbrev main_v129 : Ref sig .tc := ⟨.hbm, 243, rfl⟩
abbrev main_v130 : Ref sig .tc := ⟨.hbm, 244, rfl⟩
abbrev main_v131 : Ref sig .tc := ⟨.hbm, 245, rfl⟩
abbrev main_v132 : Ref sig .tc := ⟨.hbm, 246, rfl⟩
abbrev main_v133 : Ref sig .tc := ⟨.hbm, 247, rfl⟩
abbrev main_v134 : Ref sig .tc := ⟨.hbm, 248, rfl⟩
abbrev main_v135 : Ref sig .tc := ⟨.hbm, 249, rfl⟩
abbrev main_v136 : Ref sig .tc := ⟨.hbm, 250, rfl⟩
abbrev main_v137 : Ref sig .tc := ⟨.hbm, 251, rfl⟩
abbrev main_v138 : Ref sig .tc := ⟨.hbm, 252, rfl⟩
abbrev main_v139 : Ref sig .tc := ⟨.hbm, 253, rfl⟩
abbrev main_v140 : Ref sig .tc := ⟨.hbm, 254, rfl⟩
abbrev main_v141 : Ref sig .tc := ⟨.hbm, 255, rfl⟩
abbrev main_v142 : Ref sig .tc := ⟨.hbm, 256, rfl⟩
abbrev main_v143 : Ref sig .tc := ⟨.hbm, 257, rfl⟩
abbrev main_v144 : Ref sig .tc := ⟨.hbm, 258, rfl⟩
abbrev main_v145 : Ref sig .tc := ⟨.hbm, 259, rfl⟩
abbrev main_cst_21 : Ref sig .tc := ⟨.hbm, 260, rfl⟩
abbrev main_v146 : Ref sig .tc := ⟨.hbm, 261, rfl⟩
abbrev main_v147 : Ref sig .tc := ⟨.hbm, 262, rfl⟩
abbrev main_cst_22 : Ref sig .tc := ⟨.hbm, 263, rfl⟩
abbrev main_v148 : Ref sig .tc := ⟨.hbm, 264, rfl⟩
abbrev main_cst_23 : Ref sig .tc := ⟨.hbm, 265, rfl⟩
abbrev main_v149 : Ref sig .tc := ⟨.hbm, 266, rfl⟩
abbrev main_v150 : Ref sig .tc := ⟨.hbm, 267, rfl⟩
abbrev main_v151 : Ref sig .tc := ⟨.hbm, 268, rfl⟩
abbrev main_v152 : Ref sig .tc := ⟨.hbm, 269, rfl⟩
abbrev main_v153 : Ref sig .tc := ⟨.hbm, 270, rfl⟩
abbrev main_v154 : Ref sig .tc := ⟨.hbm, 271, rfl⟩
abbrev main_cst_24 : Ref sig .tc := ⟨.hbm, 272, rfl⟩
abbrev main_v155 : Ref sig .tc := ⟨.hbm, 273, rfl⟩
abbrev main_v156 : Ref sig .tc := ⟨.hbm, 274, rfl⟩
abbrev main_v157 : Ref sig .tc := ⟨.hbm, 275, rfl⟩
abbrev main_v158 : Ref sig .tc := ⟨.hbm, 276, rfl⟩
abbrev main_cst_25 : Ref sig .tc := ⟨.hbm, 277, rfl⟩
abbrev main_v159 : Ref sig .tc := ⟨.hbm, 278, rfl⟩
abbrev main_v160 : Ref sig .tc := ⟨.hbm, 279, rfl⟩
abbrev main_cst_26 : Ref sig .tc := ⟨.hbm, 280, rfl⟩
abbrev main_v161 : Ref sig .tc := ⟨.hbm, 281, rfl⟩
abbrev main_v162 : Ref sig .tc := ⟨.hbm, 282, rfl⟩
abbrev main_v163 : Ref sig .tc := ⟨.hbm, 283, rfl⟩
abbrev main_v164 : Ref sig .tc := ⟨.hbm, 284, rfl⟩
abbrev main_v165 : Ref sig .tc := ⟨.hbm, 285, rfl⟩
abbrev main_v166 : Ref sig .tc := ⟨.hbm, 286, rfl⟩
abbrev main_v167 : Ref sig .tc := ⟨.hbm, 287, rfl⟩
abbrev main_v168 : Ref sig .tc := ⟨.hbm, 288, rfl⟩
abbrev main_v169 : Ref sig .tc := ⟨.hbm, 289, rfl⟩
abbrev main_v170 : Ref sig .tc := ⟨.hbm, 290, rfl⟩
abbrev main_v171 : Ref sig .tc := ⟨.hbm, 291, rfl⟩
abbrev main_v172 : Ref sig .tc := ⟨.hbm, 292, rfl⟩
abbrev main_v173 : Ref sig .tc := ⟨.hbm, 293, rfl⟩
abbrev main_v174 : Ref sig .tc := ⟨.hbm, 294, rfl⟩
abbrev main_v175 : Ref sig .tc := ⟨.hbm, 295, rfl⟩
abbrev main_v176 : Ref sig .tc := ⟨.hbm, 296, rfl⟩
abbrev main_v177 : Ref sig .tc := ⟨.hbm, 297, rfl⟩
abbrev main_v178 : Ref sig .tc := ⟨.hbm, 298, rfl⟩
abbrev main_v179 : Ref sig .tc := ⟨.hbm, 299, rfl⟩
abbrev main_v180 : Ref sig .tc := ⟨.hbm, 300, rfl⟩
abbrev main_v181 : Ref sig .tc := ⟨.hbm, 301, rfl⟩
abbrev main_v182 : Ref sig .tc := ⟨.hbm, 302, rfl⟩
abbrev main_v183 : Ref sig .tc := ⟨.hbm, 303, rfl⟩
abbrev main_v184 : Ref sig .tc := ⟨.hbm, 304, rfl⟩
abbrev main_cst_27 : Ref sig .tc := ⟨.hbm, 305, rfl⟩
abbrev main_v185 : Ref sig .tc := ⟨.hbm, 306, rfl⟩
abbrev main_v186 : Ref sig .tc := ⟨.hbm, 307, rfl⟩
abbrev main_cst_28 : Ref sig .tc := ⟨.hbm, 308, rfl⟩
abbrev main_v187 : Ref sig .tc := ⟨.hbm, 309, rfl⟩
abbrev main_v188 : Ref sig .tc := ⟨.hbm, 310, rfl⟩
abbrev main_v189 : Ref sig .tc := ⟨.hbm, 311, rfl⟩
abbrev main_v190 : Ref sig .tc := ⟨.hbm, 312, rfl⟩
abbrev main_v191 : Ref sig .tc := ⟨.hbm, 313, rfl⟩
abbrev main_cst_29 : Ref sig .tc := ⟨.hbm, 314, rfl⟩
abbrev main_v192 : Ref sig .tc := ⟨.hbm, 315, rfl⟩
abbrev main_v193 : Ref sig .tc := ⟨.hbm, 316, rfl⟩
abbrev main_cst_30 : Ref sig .tc := ⟨.hbm, 317, rfl⟩
abbrev main_v194 : Ref sig .tc := ⟨.hbm, 318, rfl⟩
abbrev main_v195 : Ref sig .tc := ⟨.hbm, 319, rfl⟩
abbrev main_v196 : Ref sig .tc := ⟨.hbm, 320, rfl⟩
abbrev main_v197 : Ref sig .tc := ⟨.hbm, 321, rfl⟩
abbrev main_v198 : Ref sig .tc := ⟨.hbm, 322, rfl⟩
abbrev main_cst_31 : Ref sig .tc := ⟨.hbm, 323, rfl⟩
abbrev main_v199 : Ref sig .tc := ⟨.hbm, 324, rfl⟩
abbrev main_v200 : Ref sig .tc := ⟨.hbm, 325, rfl⟩
abbrev main_v201 : Ref sig .tc := ⟨.hbm, 326, rfl⟩
abbrev main_v202 : Ref sig .tc := ⟨.hbm, 327, rfl⟩
abbrev main_v203 : Ref sig .tc := ⟨.hbm, 328, rfl⟩
abbrev main_cst_32 : Ref sig .tc := ⟨.hbm, 329, rfl⟩
abbrev main_v204 : Ref sig .tc := ⟨.hbm, 330, rfl⟩
abbrev main_v205 : Ref sig .tc := ⟨.hbm, 331, rfl⟩
abbrev main_cst_33 : Ref sig .tc := ⟨.hbm, 332, rfl⟩
abbrev main_v206 : Ref sig .tc := ⟨.hbm, 333, rfl⟩
abbrev main_v207 : Ref sig .tc := ⟨.hbm, 334, rfl⟩
abbrev main_c_34 : Ref sig .tc := ⟨.hbm, 335, rfl⟩
abbrev main_call4_cst : Ref sig .tc := ⟨.hbm, 336, rfl⟩
abbrev main_call4_v0 : Ref sig .tc := ⟨.hbm, 337, rfl⟩
abbrev main_call4_v1 : Ref sig .tc := ⟨.hbm, 338, rfl⟩
abbrev main_call4_cst_0 : Ref sig .tc := ⟨.hbm, 339, rfl⟩
abbrev main_call4_v2 : Ref sig .tc := ⟨.hbm, 340, rfl⟩
abbrev main_call4_v3 : Ref sig .tc := ⟨.hbm, 341, rfl⟩
abbrev main_call4_v4 : Ref sig .tc := ⟨.hbm, 342, rfl⟩
abbrev main_call4_v5 : Ref sig .tc := ⟨.hbm, 343, rfl⟩
abbrev main_call4_v6 : Ref sig .tc := ⟨.hbm, 344, rfl⟩
abbrev main_call4_v7 : Ref sig .tc := ⟨.hbm, 345, rfl⟩
abbrev main_call4_cst_1 : Ref sig .tc := ⟨.hbm, 346, rfl⟩
abbrev main_call4_v8 : Ref sig .tc := ⟨.hbm, 347, rfl⟩
abbrev main_call4_cst_2 : Ref sig .tc := ⟨.hbm, 348, rfl⟩
abbrev main_call4_v9 : Ref sig .tc := ⟨.hbm, 349, rfl⟩
abbrev main_call4_v10 : Ref sig .tc := ⟨.hbm, 350, rfl⟩
abbrev main_call4_v11 : Ref sig .tc := ⟨.hbm, 351, rfl⟩
abbrev main_call4_v12 : Ref sig .tc := ⟨.hbm, 352, rfl⟩
abbrev main_call4_cst_3 : Ref sig .tc := ⟨.hbm, 353, rfl⟩
abbrev main_call4_v13 : Ref sig .tc := ⟨.hbm, 354, rfl⟩
abbrev main_call4_cst_4 : Ref sig .tc := ⟨.hbm, 355, rfl⟩
abbrev main_call4_call0_v0 : Ref sig .tc := ⟨.hbm, 356, rfl⟩
abbrev main_call4_call0_v1 : Ref sig .tc := ⟨.hbm, 357, rfl⟩
abbrev main_v208 : Ref sig .tc := ⟨.hbm, 358, rfl⟩
abbrev main_v209 : Ref sig .tc := ⟨.hbm, 359, rfl⟩
abbrev main_v210 : Ref sig .tc := ⟨.hbm, 360, rfl⟩
abbrev main_cst_35 : Ref sig .tc := ⟨.hbm, 361, rfl⟩
abbrev main_v211 : Ref sig .tc := ⟨.hbm, 362, rfl⟩
abbrev main_v212 : Ref sig .tc := ⟨.hbm, 363, rfl⟩
abbrev main_v213 : Ref sig .tc := ⟨.hbm, 364, rfl⟩
abbrev main_v214 : Ref sig .tc := ⟨.hbm, 365, rfl⟩
abbrev main_v215 : Ref sig .tc := ⟨.hbm, 366, rfl⟩
abbrev main_v216 : Ref sig .tc := ⟨.hbm, 367, rfl⟩
abbrev main_v217 : Ref sig .tc := ⟨.hbm, 368, rfl⟩
abbrev main_v218 : Ref sig .tc := ⟨.hbm, 369, rfl⟩
abbrev main_v219 : Ref sig .tc := ⟨.hbm, 370, rfl⟩
abbrev main_v220 : Ref sig .tc := ⟨.hbm, 371, rfl⟩
abbrev main_v221 : Ref sig .tc := ⟨.hbm, 372, rfl⟩
abbrev main_v222 : Ref sig .tc := ⟨.hbm, 373, rfl⟩
abbrev main_v223 : Ref sig .tc := ⟨.hbm, 374, rfl⟩
abbrev main_v224 : Ref sig .tc := ⟨.hbm, 375, rfl⟩
abbrev main_v225 : Ref sig .tc := ⟨.hbm, 376, rfl⟩
abbrev main_v226 : Ref sig .tc := ⟨.hbm, 377, rfl⟩
abbrev main_call5_cst : Ref sig .tc := ⟨.hbm, 378, rfl⟩
abbrev main_call5_v0 : Ref sig .tc := ⟨.hbm, 379, rfl⟩
abbrev main_v227 : Ref sig .tc := ⟨.hbm, 380, rfl⟩
abbrev main_v228 : Ref sig .tc := ⟨.hbm, 381, rfl⟩
abbrev main_v229 : Ref sig .tc := ⟨.hbm, 382, rfl⟩
abbrev main_v230 : Ref sig .tc := ⟨.hbm, 383, rfl⟩
abbrev main_v231 : Ref sig .tc := ⟨.hbm, 384, rfl⟩
abbrev main_v232 : Ref sig .tc := ⟨.hbm, 385, rfl⟩
abbrev main_v233 : Ref sig .tc := ⟨.hbm, 386, rfl⟩
abbrev main_cst_36 : Ref sig .tc := ⟨.hbm, 387, rfl⟩
abbrev main_v234 : Ref sig .tc := ⟨.hbm, 388, rfl⟩
abbrev main_v235 : Ref sig .tc := ⟨.hbm, 389, rfl⟩
abbrev main_cst_37 : Ref sig .tc := ⟨.hbm, 390, rfl⟩
abbrev main_v236 : Ref sig .tc := ⟨.hbm, 391, rfl⟩
abbrev main_v237 : Ref sig .tc := ⟨.hbm, 392, rfl⟩
abbrev main_c_38 : Ref sig .tc := ⟨.hbm, 393, rfl⟩
abbrev main_call6_cst : Ref sig .tc := ⟨.hbm, 394, rfl⟩
abbrev main_call6_v0 : Ref sig .tc := ⟨.hbm, 395, rfl⟩
abbrev main_call6_v1 : Ref sig .tc := ⟨.hbm, 396, rfl⟩
abbrev main_call6_cst_0 : Ref sig .tc := ⟨.hbm, 397, rfl⟩
abbrev main_call6_v2 : Ref sig .tc := ⟨.hbm, 398, rfl⟩
abbrev main_call6_v3 : Ref sig .tc := ⟨.hbm, 399, rfl⟩
abbrev main_call6_v4 : Ref sig .tc := ⟨.hbm, 400, rfl⟩
abbrev main_call6_v5 : Ref sig .tc := ⟨.hbm, 401, rfl⟩
abbrev main_call6_v6 : Ref sig .tc := ⟨.hbm, 402, rfl⟩
abbrev main_call6_v7 : Ref sig .tc := ⟨.hbm, 403, rfl⟩
abbrev main_call6_cst_1 : Ref sig .tc := ⟨.hbm, 404, rfl⟩
abbrev main_call6_v8 : Ref sig .tc := ⟨.hbm, 405, rfl⟩
abbrev main_call6_cst_2 : Ref sig .tc := ⟨.hbm, 406, rfl⟩
abbrev main_call6_v9 : Ref sig .tc := ⟨.hbm, 407, rfl⟩
abbrev main_call6_v10 : Ref sig .tc := ⟨.hbm, 408, rfl⟩
abbrev main_call6_v11 : Ref sig .tc := ⟨.hbm, 409, rfl⟩
abbrev main_call6_v12 : Ref sig .tc := ⟨.hbm, 410, rfl⟩
abbrev main_call6_cst_3 : Ref sig .tc := ⟨.hbm, 411, rfl⟩
abbrev main_call6_v13 : Ref sig .tc := ⟨.hbm, 412, rfl⟩
abbrev main_call6_cst_4 : Ref sig .tc := ⟨.hbm, 413, rfl⟩
abbrev main_call6_call0_v0 : Ref sig .tc := ⟨.hbm, 414, rfl⟩
abbrev main_call6_call0_v1 : Ref sig .tc := ⟨.hbm, 415, rfl⟩
abbrev main_v238 : Ref sig .tc := ⟨.hbm, 416, rfl⟩
abbrev main_v239 : Ref sig .tc := ⟨.hbm, 417, rfl⟩
abbrev main_v240 : Ref sig .tc := ⟨.hbm, 418, rfl⟩
abbrev main_cst_39 : Ref sig .tc := ⟨.hbm, 419, rfl⟩
abbrev main_v241 : Ref sig .tc := ⟨.hbm, 420, rfl⟩
abbrev main_v242 : Ref sig .tc := ⟨.hbm, 421, rfl⟩
abbrev main_v243 : Ref sig .tc := ⟨.hbm, 422, rfl⟩
abbrev main_v244 : Ref sig .tc := ⟨.hbm, 423, rfl⟩
abbrev main_v245 : Ref sig .tc := ⟨.hbm, 424, rfl⟩
abbrev main_v246 : Ref sig .tc := ⟨.hbm, 425, rfl⟩
abbrev main_v247 : Ref sig .tc := ⟨.hbm, 426, rfl⟩
abbrev main_v248 : Ref sig .tc := ⟨.hbm, 427, rfl⟩
abbrev main_v249 : Ref sig .tc := ⟨.hbm, 428, rfl⟩
abbrev main_v250 : Ref sig .tc := ⟨.hbm, 429, rfl⟩
abbrev main_v251 : Ref sig .tc := ⟨.hbm, 430, rfl⟩
abbrev main_v252 : Ref sig .tc := ⟨.hbm, 431, rfl⟩
abbrev main_v253 : Ref sig .tc := ⟨.hbm, 432, rfl⟩
abbrev main_v254 : Ref sig .tc := ⟨.hbm, 433, rfl⟩
abbrev main_v255 : Ref sig .tc := ⟨.hbm, 434, rfl⟩
abbrev main_v256 : Ref sig .tc := ⟨.hbm, 435, rfl⟩
abbrev main_v257 : Ref sig .tc := ⟨.hbm, 436, rfl⟩
abbrev main_cst_40 : Ref sig .tc := ⟨.hbm, 437, rfl⟩
abbrev main_v258 : Ref sig .tc := ⟨.hbm, 438, rfl⟩
abbrev main_v259 : Ref sig .tc := ⟨.hbm, 439, rfl⟩
abbrev main_cst_41 : Ref sig .tc := ⟨.hbm, 440, rfl⟩
abbrev main_v260 : Ref sig .tc := ⟨.hbm, 441, rfl⟩
abbrev main_cst_42 : Ref sig .tc := ⟨.hbm, 442, rfl⟩
abbrev main_v261 : Ref sig .tc := ⟨.hbm, 443, rfl⟩
abbrev main_v262 : Ref sig .tc := ⟨.hbm, 444, rfl⟩
abbrev main_v263 : Ref sig .tc := ⟨.hbm, 445, rfl⟩
abbrev main_v264 : Ref sig .tc := ⟨.hbm, 446, rfl⟩
abbrev main_v265 : Ref sig .tc := ⟨.hbm, 447, rfl⟩
abbrev main_v266 : Ref sig .tc := ⟨.hbm, 448, rfl⟩
abbrev main_cst_43 : Ref sig .tc := ⟨.hbm, 449, rfl⟩
abbrev main_v267 : Ref sig .tc := ⟨.hbm, 450, rfl⟩
abbrev main_v268 : Ref sig .tc := ⟨.hbm, 451, rfl⟩
abbrev main_v269 : Ref sig .tc := ⟨.hbm, 452, rfl⟩
abbrev main_v270 : Ref sig .tc := ⟨.hbm, 453, rfl⟩
abbrev main_cst_44 : Ref sig .tc := ⟨.hbm, 454, rfl⟩
abbrev main_v271 : Ref sig .tc := ⟨.hbm, 455, rfl⟩
abbrev main_v272 : Ref sig .tc := ⟨.hbm, 456, rfl⟩
abbrev main_cst_45 : Ref sig .tc := ⟨.hbm, 457, rfl⟩
abbrev main_v273 : Ref sig .tc := ⟨.hbm, 458, rfl⟩
abbrev main_v274 : Ref sig .tc := ⟨.hbm, 459, rfl⟩
abbrev main_v275 : Ref sig .tc := ⟨.hbm, 460, rfl⟩
abbrev main_v276 : Ref sig .tc := ⟨.hbm, 461, rfl⟩
abbrev main_v277 : Ref sig .tc := ⟨.hbm, 462, rfl⟩
abbrev main_v278 : Ref sig .tc := ⟨.hbm, 463, rfl⟩
abbrev main_v279 : Ref sig .tc := ⟨.hbm, 464, rfl⟩
abbrev main_v280 : Ref sig .tc := ⟨.hbm, 465, rfl⟩
abbrev main_v281 : Ref sig .tc := ⟨.hbm, 466, rfl⟩
abbrev main_v282 : Ref sig .tc := ⟨.hbm, 467, rfl⟩
abbrev main_v283 : Ref sig .tc := ⟨.hbm, 468, rfl⟩
abbrev main_v284 : Ref sig .tc := ⟨.hbm, 469, rfl⟩
abbrev main_v285 : Ref sig .tc := ⟨.hbm, 470, rfl⟩
abbrev main_v286 : Ref sig .tc := ⟨.hbm, 471, rfl⟩
abbrev main_v287 : Ref sig .tc := ⟨.hbm, 472, rfl⟩
abbrev main_v288 : Ref sig .tc := ⟨.hbm, 473, rfl⟩
abbrev main_v289 : Ref sig .tc := ⟨.hbm, 474, rfl⟩
abbrev main_v290 : Ref sig .tc := ⟨.hbm, 475, rfl⟩
abbrev main_v291 : Ref sig .tc := ⟨.hbm, 476, rfl⟩
abbrev main_v292 : Ref sig .tc := ⟨.hbm, 477, rfl⟩
abbrev main_v293 : Ref sig .tc := ⟨.hbm, 478, rfl⟩
abbrev main_v294 : Ref sig .tc := ⟨.hbm, 479, rfl⟩
abbrev main_v295 : Ref sig .tc := ⟨.hbm, 480, rfl⟩
abbrev main_v296 : Ref sig .tc := ⟨.hbm, 481, rfl⟩
abbrev main_cst_46 : Ref sig .tc := ⟨.hbm, 482, rfl⟩
abbrev main_v297 : Ref sig .tc := ⟨.hbm, 483, rfl⟩
abbrev main_v298 : Ref sig .tc := ⟨.hbm, 484, rfl⟩
abbrev main_cst_47 : Ref sig .tc := ⟨.hbm, 485, rfl⟩
abbrev main_v299 : Ref sig .tc := ⟨.hbm, 486, rfl⟩
abbrev main_v300 : Ref sig .tc := ⟨.hbm, 487, rfl⟩
abbrev main_v301 : Ref sig .tc := ⟨.hbm, 488, rfl⟩
abbrev main_v302 : Ref sig .tc := ⟨.hbm, 489, rfl⟩
abbrev main_v303 : Ref sig .tc := ⟨.hbm, 490, rfl⟩
abbrev main_cst_48 : Ref sig .tc := ⟨.hbm, 491, rfl⟩
abbrev main_v304 : Ref sig .tc := ⟨.hbm, 492, rfl⟩
abbrev main_v305 : Ref sig .tc := ⟨.hbm, 493, rfl⟩
abbrev main_cst_49 : Ref sig .tc := ⟨.hbm, 494, rfl⟩
abbrev main_v306 : Ref sig .tc := ⟨.hbm, 495, rfl⟩
abbrev main_v307 : Ref sig .tc := ⟨.hbm, 496, rfl⟩
abbrev main_v308 : Ref sig .tc := ⟨.hbm, 497, rfl⟩
abbrev main_v309 : Ref sig .tc := ⟨.hbm, 498, rfl⟩
abbrev main_v310 : Ref sig .tc := ⟨.hbm, 499, rfl⟩
abbrev main_cst_50 : Ref sig .tc := ⟨.hbm, 500, rfl⟩
abbrev main_v311 : Ref sig .tc := ⟨.hbm, 501, rfl⟩
abbrev main_v312 : Ref sig .tc := ⟨.hbm, 502, rfl⟩
abbrev main_v313 : Ref sig .tc := ⟨.hbm, 503, rfl⟩
abbrev main_v314 : Ref sig .tc := ⟨.hbm, 504, rfl⟩
abbrev main_v315 : Ref sig .tc := ⟨.hbm, 505, rfl⟩
abbrev main_cst_51 : Ref sig .tc := ⟨.hbm, 506, rfl⟩
abbrev main_v316 : Ref sig .tc := ⟨.hbm, 507, rfl⟩
abbrev main_v317 : Ref sig .tc := ⟨.hbm, 508, rfl⟩
abbrev main_cst_52 : Ref sig .tc := ⟨.hbm, 509, rfl⟩
abbrev main_v318 : Ref sig .tc := ⟨.hbm, 510, rfl⟩
abbrev main_v319 : Ref sig .tc := ⟨.hbm, 511, rfl⟩
abbrev main_c_53 : Ref sig .tc := ⟨.hbm, 512, rfl⟩
abbrev main_call7_cst : Ref sig .tc := ⟨.hbm, 513, rfl⟩
abbrev main_call7_v0 : Ref sig .tc := ⟨.hbm, 514, rfl⟩
abbrev main_call7_v1 : Ref sig .tc := ⟨.hbm, 515, rfl⟩
abbrev main_call7_cst_0 : Ref sig .tc := ⟨.hbm, 516, rfl⟩
abbrev main_call7_v2 : Ref sig .tc := ⟨.hbm, 517, rfl⟩
abbrev main_call7_v3 : Ref sig .tc := ⟨.hbm, 518, rfl⟩
abbrev main_call7_v4 : Ref sig .tc := ⟨.hbm, 519, rfl⟩
abbrev main_call7_v5 : Ref sig .tc := ⟨.hbm, 520, rfl⟩
abbrev main_call7_v6 : Ref sig .tc := ⟨.hbm, 521, rfl⟩
abbrev main_call7_v7 : Ref sig .tc := ⟨.hbm, 522, rfl⟩
abbrev main_call7_cst_1 : Ref sig .tc := ⟨.hbm, 523, rfl⟩
abbrev main_call7_v8 : Ref sig .tc := ⟨.hbm, 524, rfl⟩
abbrev main_call7_cst_2 : Ref sig .tc := ⟨.hbm, 525, rfl⟩
abbrev main_call7_v9 : Ref sig .tc := ⟨.hbm, 526, rfl⟩
abbrev main_call7_v10 : Ref sig .tc := ⟨.hbm, 527, rfl⟩
abbrev main_call7_v11 : Ref sig .tc := ⟨.hbm, 528, rfl⟩
abbrev main_call7_v12 : Ref sig .tc := ⟨.hbm, 529, rfl⟩
abbrev main_call7_cst_3 : Ref sig .tc := ⟨.hbm, 530, rfl⟩
abbrev main_call7_v13 : Ref sig .tc := ⟨.hbm, 531, rfl⟩
abbrev main_call7_cst_4 : Ref sig .tc := ⟨.hbm, 532, rfl⟩
abbrev main_call7_call0_v0 : Ref sig .tc := ⟨.hbm, 533, rfl⟩
abbrev main_call7_call0_v1 : Ref sig .tc := ⟨.hbm, 534, rfl⟩
abbrev main_v320 : Ref sig .tc := ⟨.hbm, 535, rfl⟩
abbrev main_v321 : Ref sig .tc := ⟨.hbm, 536, rfl⟩
abbrev main_v322 : Ref sig .tc := ⟨.hbm, 537, rfl⟩
abbrev main_cst_54 : Ref sig .tc := ⟨.hbm, 538, rfl⟩
abbrev main_v323 : Ref sig .tc := ⟨.hbm, 539, rfl⟩
abbrev main_v324 : Ref sig .tc := ⟨.hbm, 540, rfl⟩
abbrev main_v325 : Ref sig .tc := ⟨.hbm, 541, rfl⟩
abbrev main_v326 : Ref sig .tc := ⟨.hbm, 542, rfl⟩
abbrev main_v327 : Ref sig .tc := ⟨.hbm, 543, rfl⟩
abbrev main_v328 : Ref sig .tc := ⟨.hbm, 544, rfl⟩
abbrev main_v329 : Ref sig .tc := ⟨.hbm, 545, rfl⟩
abbrev main_v330 : Ref sig .tc := ⟨.hbm, 546, rfl⟩
abbrev main_v331 : Ref sig .tc := ⟨.hbm, 547, rfl⟩
abbrev main_v332 : Ref sig .tc := ⟨.hbm, 548, rfl⟩
abbrev main_v333 : Ref sig .tc := ⟨.hbm, 549, rfl⟩
abbrev main_v334 : Ref sig .tc := ⟨.hbm, 550, rfl⟩
abbrev main_v335 : Ref sig .tc := ⟨.hbm, 551, rfl⟩
abbrev main_v336 : Ref sig .tc := ⟨.hbm, 552, rfl⟩
abbrev main_v337 : Ref sig .tc := ⟨.hbm, 553, rfl⟩
abbrev main_v338 : Ref sig .tc := ⟨.hbm, 554, rfl⟩
abbrev main_call8_cst : Ref sig .tc := ⟨.hbm, 555, rfl⟩
abbrev main_call8_v0 : Ref sig .tc := ⟨.hbm, 556, rfl⟩
abbrev main_v339 : Ref sig .tc := ⟨.hbm, 557, rfl⟩
abbrev main_v340 : Ref sig .tc := ⟨.hbm, 558, rfl⟩
abbrev main_v341 : Ref sig .tc := ⟨.hbm, 559, rfl⟩
abbrev main_v342 : Ref sig .tc := ⟨.hbm, 560, rfl⟩
abbrev main_v343 : Ref sig .tc := ⟨.hbm, 561, rfl⟩
abbrev main_v344 : Ref sig .tc := ⟨.hbm, 562, rfl⟩
abbrev main_v345 : Ref sig .tc := ⟨.hbm, 563, rfl⟩
abbrev main_v346 : Ref sig .tc := ⟨.hbm, 564, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x64x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x64x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S10x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  transposes_S64x64_S64x64_1_0 : S64x64.Transposes [1, 0] S64x64
  bcast_S64_S1x64_1 : S64.BroadcastsInDim S1x64 (![1] : Fin 1 → Fin S1x64.rank)
  bcast_S1x64_S10x64_0_1 : S1x64.BroadcastsInDim S10x64 (![0, 1] : Fin 2 → Fin S10x64.rank)
  reducesTo_S10x64_S10_d1 : S10x64.ReducesTo [1] S10
  h_S_ : 0 < S_.numel
  bcast_S10_S10x1_0 : S10.BroadcastsInDim S10x1 (![0] : Fin 1 → Fin S10x1.rank)
  bcast_S_S10x1 : S_.BroadcastsInDim S10x1 (![] : Fin 0 → Fin S10x1.rank)
  bcast_S10x1_S10x64_0_1 : S10x1.BroadcastsInDim S10x64 (![0, 1] : Fin 2 → Fin S10x64.rank)
  bcast_S_S10x10 : S_.BroadcastsInDim S10x10 (![] : Fin 0 → Fin S10x10.rank)
  reducesTo_S10x10_S10_d0 : S10x10.ReducesTo [0] S10
  bcast_S_S10 : S_.BroadcastsInDim S10 (![] : Fin 0 → Fin S10.rank)
  bcast_S10_S1x10_1 : S10.BroadcastsInDim S1x10 (![1] : Fin 1 → Fin S1x10.rank)
  bcast_S1x10_S10x10_0_1 : S1x10.BroadcastsInDim S10x10 (![0, 1] : Fin 2 → Fin S10x10.rank)
  reducesTo_S10x10_S10_d1 : S10x10.ReducesTo [1] S10
  bcast_S10x1_S10x10_0_1 : S10x1.BroadcastsInDim S10x10 (![0, 1] : Fin 2 → Fin S10x10.rank)
  transposes_S192x64_S64x192_1_0 : S192x64.Transposes [1, 0] S64x192
  bcast_S192_S1x192_1 : S192.BroadcastsInDim S1x192 (![1] : Fin 1 → Fin S1x192.rank)
  bcast_S1x192_S10x192_0_1 : S1x192.BroadcastsInDim S10x192 (![0, 1] : Fin 2 → Fin S10x192.rank)
  slices_S10x192_S10x64_0_0 : S10x192.Slices ![0, 0] S10x64
  slices_S10x192_S10x64_0_64 : S10x192.Slices ![0, 64] S10x64
  slices_S10x192_S10x64_0_128 : S10x192.Slices ![0, 128] S10x64
  bcast_S_S10x64 : S_.BroadcastsInDim S10x64 (![] : Fin 0 → Fin S10x64.rank)
  transposes_S128x64_S64x128_1_0 : S128x64.Transposes [1, 0] S64x128
  bcast_S128_S1x128_1 : S128.BroadcastsInDim S1x128 (![1] : Fin 1 → Fin S1x128.rank)
  bcast_S1x128_S10x128_0_1 : S1x128.BroadcastsInDim S10x128 (![0, 1] : Fin 2 → Fin S10x128.rank)
  bcast_S_S10x128 : S_.BroadcastsInDim S10x128 (![] : Fin 0 → Fin S10x128.rank)
  transposes_S64x128_S128x64_1_0 : S64x128.Transposes [1, 0] S128x64
  inb_S128x64x64_S128x64x64_0_0_0 : ∀ a, (![0, 0, 0] : Fin 3 → Nat) a + S128x64x64.size a ≤ S128x64x64.size a
  h_S128x64x64 : 0 < S128x64x64.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10x64_S10x64_0_0 : ∀ a, (![0, 0] : Fin 2 → Nat) a + S10x64.size a ≤ S10x64.size a
  h_S10x64 : 0 < S10x64.numel
  shapeCasts_S10x64_S10x64 : S10x64.ShapeCasts S10x64
  shapeCasts_S10x64_S1x10x64 : S10x64.ShapeCasts S1x10x64
  shapeCasts_S1x10x64_S1x10x64 : S1x10x64.ShapeCasts S1x10x64
  broadcasts_S1x10x64_S128x10x64 : S1x10x64.Broadcasts S128x10x64
  shapeCasts_S128x64_S128x64x1 : S128x64.ShapeCasts S128x64x1
  broadcasts_S128x64x1_S128x64x10 : S128x64x1.Broadcasts S128x64x10
  reduces_S128x64x10_S128x64 : S128x64x10.Reduces [2] S128x64
  dot_S10x64_S64x64_S10x64_1_0_0_1_n_n_wf : DotDims.WF S10x64 S64x64 S10x64 [1] [0] [0] [1] [] []
  dot_S10x64_S10x64_S10x10_1_1_0_0_n_n_wf : DotDims.WF S10x64 S10x64 S10x10 [1] [1] [0] [0] [] []
  dot_S10x10_S10x64_S10x64_1_0_0_1_n_n_wf : DotDims.WF S10x10 S10x64 S10x64 [1] [0] [0] [1] [] []
  dot_S10x64_S64x192_S10x192_1_0_0_1_n_n_wf : DotDims.WF S10x64 S64x192 S10x192 [1] [0] [0] [1] [] []
  dot_S10x64_S64x128_S10x128_1_0_0_1_n_n_wf : DotDims.WF S10x64 S64x128 S10x128 [1] [0] [0] [1] [] []
  dot_S10x128_S128x64_S10x64_1_0_0_1_n_n_wf : DotDims.WF S10x128 S128x64 S10x64 [1] [0] [0] [1] [] []
  dot_S128x64x64_S128x10x64_S128x64x10_2_2_1_1_0_0_wf : DotDims.WF S128x64x64 S128x10x64 S128x64x10 [2] [2] [1] [1] [0] [0]
  dot_S128x64x64_S128x64x10_S128x64x10_2_1_1_2_0_0_wf : DotDims.WF S128x64x64 S128x64x10 S128x64x10 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x64x64.size a ≤ S4096x64x64.size a
  hwx0_0 : ∀ i : grid0.Coords, EltTy.bits .f32 = 32 ∨ (Rect.block (s := S4096x64x64) S128x64x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S4096x64.size a
  hwx0_1 : ∀ i : grid0.Coords, EltTy.bits .f32 = 32 ∨ (Rect.block (s := S4096x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x64x64.size a ≤ S4096x64x64.size a
  hwx0_2 : ∀ i : grid0.Coords, EltTy.bits .f32 = 32 ∨ (Rect.block (s := S4096x64x64) S128x64x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S4096x64.size a
  hwx0_3 : ∀ i : grid0.Coords, EltTy.bits .f32 = 32 ∨ (Rect.block (s := S4096x64) S128x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S10x64.size a ≤ S10x64.size a
  hwx0_4 : ∀ i : grid0.Coords, EltTy.bits .f32 = 32 ∨ (Rect.block (s := S10x64) S10x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x64.size a ≤ S4096x64.size a
  hwx0_5 : ∀ i : grid0.Coords, EltTy.bits .f32 = 32 ∨ (Rect.block (s := S4096x64) S128x64.size (cc0_transform_5 i) (hinb0_5 i)).WholeWords (EltTy.packing .f32)

variable [Facts₀]

def dot_S10x64_S64x64_S10x64_1_0_0_1_n_n : DotDims S10x64 S64x64 S10x64 where
  lhsContracting := [1]
  rhsContracting := [0]
  lhsNonContracting := [0]
  rhsNonContracting := [1]
  lhsBatch := []
  rhsBatch := []
  wf := dot_S10x64_S64x64_S10x64_1_0_0_1_n_n_wf
def dot_S10x64_S10x64_S10x10_1_1_0_0_n_n : DotDims S10x64 S10x64 S10x10 where
  lhsContracting := [1]
  rhsContracting := [1]
  lhsNonContracting := [0]
  rhsNonContracting := [0]
  lhsBatch := []
  rhsBatch := []
  wf := dot_S10x64_S10x64_S10x10_1_1_0_0_n_n_wf
def dot_S10x10_S10x64_S10x64_1_0_0_1_n_n : DotDims S10x10 S10x64 S10x64 where
  lhsContracting := [1]
  rhsContracting := [0]
  lhsNonContracting := [0]
  rhsNonContracting := [1]
  lhsBatch := []
  rhsBatch := []
  wf := dot_S10x10_S10x64_S10x64_1_0_0_1_n_n_wf
def dot_S10x64_S64x192_S10x192_1_0_0_1_n_n : DotDims S10x64 S64x192 S10x192 where
  lhsContracting := [1]
  rhsContracting := [0]
  lhsNonContracting := [0]
  rhsNonContracting := [1]
  lhsBatch := []
  rhsBatch := []
  wf := dot_S10x64_S64x192_S10x192_1_0_0_1_n_n_wf
def dot_S10x64_S64x128_S10x128_1_0_0_1_n_n : DotDims S10x64 S64x128 S10x128 where
  lhsContracting := [1]
  rhsContracting := [0]
  lhsNonContracting := [0]
  rhsNonContracting := [1]
  lhsBatch := []
  rhsBatch := []
  wf := dot_S10x64_S64x128_S10x128_1_0_0_1_n_n_wf
def dot_S10x128_S128x64_S10x64_1_0_0_1_n_n : DotDims S10x128 S128x64 S10x64 where
  lhsContracting := [1]
  rhsContracting := [0]
  lhsNonContracting := [0]
  rhsNonContracting := [1]
  lhsBatch := []
  rhsBatch := []
  wf := dot_S10x128_S128x64_S10x64_1_0_0_1_n_n_wf
def dot_S128x64x64_S128x10x64_S128x64x10_2_2_1_1_0_0 : DotDims S128x64x64 S128x10x64 S128x64x10 where
  lhsContracting := [2]
  rhsContracting := [2]
  lhsNonContracting := [1]
  rhsNonContracting := [1]
  lhsBatch := [0]
  rhsBatch := [0]
  wf := dot_S128x64x64_S128x10x64_S128x64x10_2_2_1_1_0_0_wf
def dot_S128x64x64_S128x64x10_S128x64x10_2_1_1_2_0_0 : DotDims S128x64x64 S128x64x10 S128x64x10 where
  lhsContracting := [2]
  rhsContracting := [1]
  lhsNonContracting := [1]
  rhsNonContracting := [2]
  lhsBatch := [0]
  rhsBatch := [0]
  wf := dot_S128x64x64_S128x64x10_S128x64x10_2_1_1_2_0_0_wf

abbrev win0_0 : Pipeline.Window sig grid0 :=
  Pipeline.Window.ofSpec (Memref.whole main_arg19) S128x64x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg20) S128x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg21) S128x64x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg22) S128x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v345) S10x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v346) S128x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S10x64 : Shape := ⟨2, ![10, 64]⟩
abbrev S64x64 : Shape := ⟨2, ![64, 64]⟩
abbrev S64 : Shape := ⟨1, ![64]⟩
abbrev S192x64 : Shape := ⟨2, ![192, 64]⟩
abbrev S192 : Shape := ⟨1, ![192]⟩
abbrev S128x64 : Shape := ⟨2, ![128, 64]⟩
abbrev S128 : Shape := ⟨1, ![128]⟩
abbrev S64x128 : Shape := ⟨2, ![64, 128]⟩
abbrev S4096x64x64 : Shape := ⟨3, ![4096, 64, 64]⟩
abbrev S4096x64 : Shape := ⟨2, ![4096, 64]⟩
abbrev S1x64 : Shape := ⟨2, ![1, 64]⟩
abbrev S_ : Shape := ⟨0, ![]⟩
abbrev S10 : Shape := ⟨1, ![10]⟩
abbrev S10x1 : Shape := ⟨2, ![10, 1]⟩
abbrev S10x10 : Shape := ⟨2, ![10, 10]⟩
abbrev S1x10 : Shape := ⟨2, ![1, 10]⟩
abbrev S64x192 : Shape := ⟨2, ![64, 192]⟩
abbrev S10x192 : Shape := ⟨2, ![10, 192]⟩
abbrev S1x192 : Shape := ⟨2, ![1, 192]⟩
abbrev S10x128 : Shape := ⟨2, ![10, 128]⟩
abbrev S1x128 : Shape := ⟨2, ![1, 128]⟩
abbrev S10x4096x64 : Shape := ⟨3, ![10, 4096, 64]⟩
abbrev S4096x10x64 : Shape := ⟨3, ![4096, 10, 64]⟩
abbrev S4096x1x64 : Shape := ⟨3, ![4096, 1, 64]⟩

abbrev nBuf : Space → Nat
  | .hbm => 578
  | .vmem => 0
  | .smem => 0
  | _ => 0

abbrev hbmTy0_0 (i : Nat) : BufTy := match i % 128 with
  | 0 => ⟨S10x64, .f32⟩
  | 1 => ⟨S64x64, .f32⟩
  | 2 => ⟨S64, .f32⟩
  | 3 => ⟨S64x64, .f32⟩
  | 4 => ⟨S64, .f32⟩
  | 5 => ⟨S64x64, .f32⟩
  | 6 => ⟨S64, .f32⟩
  | 7 => ⟨S64, .f32⟩
  | 8 => ⟨S64, .f32⟩
  | 9 => ⟨S192x64, .f32⟩
  | 10 => ⟨S192x64, .f32⟩
  | 11 => ⟨S192, .f32⟩
  | 12 => ⟨S192, .f32⟩
  | 13 => ⟨S64, .f32⟩
  | 14 => ⟨S64, .f32⟩
  | 15 => ⟨S128x64, .f32⟩
  | 16 => ⟨S128, .f32⟩
  | 17 => ⟨S64x128, .f32⟩
  | 18 => ⟨S64, .f32⟩
  | 19 => ⟨S4096x64x64, .f32⟩
  | 20 => ⟨S4096x64, .f32⟩
  | 21 => ⟨S4096x64x64, .f32⟩
  | 22 => ⟨S4096x64, .f32⟩
  | 23 => ⟨S64x64, .f32⟩
  | 24 => ⟨S10x64, .f32⟩
  | 25 => ⟨S1x64, .f32⟩
  | 26 => ⟨S10x64, .f32⟩
  | 27 => ⟨S10x64, .f32⟩
  | 28 => ⟨S64x64, .f32⟩
  | 29 => ⟨S10x64, .f32⟩
  | 30 => ⟨S1x64, .f32⟩
  | 31 => ⟨S10x64, .f32⟩
  | 32 => ⟨S10x64, .f32⟩
  | 33 => ⟨S_, .f32⟩
  | 34 => ⟨S10, .f32⟩
  | 35 => ⟨S10x1, .f32⟩
  | 36 => ⟨S_, .f32⟩
  | 37 => ⟨S10x1, .f32⟩
  | 38 => ⟨S10x1, .f32⟩
  | 39 => ⟨S_, .i32⟩
  | 40 => ⟨S_, .f32⟩
  | 41 => ⟨S10, .f32⟩
  | 42 => ⟨S10x1, .f32⟩
  | 43 => ⟨S_, .f32⟩
  | 44 => ⟨S10x1, .f32⟩
  | 45 => ⟨S10x1, .f32⟩
  | 46 => ⟨S10x64, .f32⟩
  | 47 => ⟨S10x64, .f32⟩
  | 48 => ⟨S10x64, .f32⟩
  | 49 => ⟨S_, .f32⟩
  | 50 => ⟨S_, .f32⟩
  | 51 => ⟨S_, .f32⟩
  | 52 => ⟨S_, .f32⟩
  | 53 => ⟨S10, .f32⟩
  | 54 => ⟨S10x1, .f32⟩
  | 55 => ⟨S10x1, .f32⟩
  | 56 => ⟨S10x1, .f32⟩
  | 57 => ⟨S_, .f32⟩
  | 58 => ⟨S_, .i1⟩
  | 59 => ⟨S_, .f32⟩
  | 60 => ⟨S_, .f32⟩
  | 61 => ⟨S10x1, .f32⟩
  | 62 => ⟨S10x1, .f32⟩
  | 63 => ⟨S10x64, .f32⟩
  | 64 => ⟨S10x64, .f32⟩
  | 65 => ⟨S_, .f32⟩
  | 66 => ⟨S10x1, .f32⟩
  | 67 => ⟨S10x1, .f32⟩
  | 68 => ⟨S10x1, .f32⟩
  | 69 => ⟨S10x64, .f32⟩
  | 70 => ⟨S10x64, .f32⟩
  | 71 => ⟨S1x64, .f32⟩
  | 72 => ⟨S10x64, .f32⟩
  | 73 => ⟨S10x64, .f32⟩
  | 74 => ⟨S1x64, .f32⟩
  | 75 => ⟨S10x64, .f32⟩
  | 76 => ⟨S10x64, .f32⟩
  | 77 => ⟨S64x64, .f32⟩
  | 78 => ⟨S10x64, .f32⟩
  | 79 => ⟨S1x64, .f32⟩
  | 80 => ⟨S10x64, .f32⟩
  | 81 => ⟨S10x64, .f32⟩
  | 82 => ⟨S10x10, .f32⟩
  | 83 => ⟨S_, .f32⟩
  | 84 => ⟨S10x10, .f32⟩
  | 85 => ⟨S10x10, .f32⟩
  | 86 => ⟨S_, .f32⟩
  | 87 => ⟨S10, .f32⟩
  | 88 => ⟨S_, .f32⟩
  | 89 => ⟨S10, .f32⟩
  | 90 => ⟨S10, .f32⟩
  | 91 => ⟨S1x10, .f32⟩
  | 92 => ⟨S10x10, .f32⟩
  | 93 => ⟨S10x10, .f32⟩
  | 94 => ⟨S10x10, .f32⟩
  | 95 => ⟨S_, .f32⟩
  | 96 => ⟨S10, .f32⟩
  | 97 => ⟨S1x10, .f32⟩
  | 98 => ⟨S10x10, .f32⟩
  | 99 => ⟨S10x10, .f32⟩
  | 100 => ⟨S_, .f32⟩
  | 101 => ⟨S10x10, .f32⟩
  | 102 => ⟨S10x10, .f32⟩
  | 103 => ⟨S_, .f32⟩
  | 104 => ⟨S10, .f32⟩
  | 105 => ⟨S10x1, .f32⟩
  | 106 => ⟨S10x10, .f32⟩
  | 107 => ⟨S10x10, .f32⟩
  | 108 => ⟨S10x64, .f32⟩
  | 109 => ⟨S64x192, .f32⟩
  | 110 => ⟨S10x192, .f32⟩
  | 111 => ⟨S1x192, .f32⟩
  | 112 => ⟨S10x192, .f32⟩
  | 113 => ⟨S10x192, .f32⟩
  | 114 => ⟨S64x192, .f32⟩
  | 115 => ⟨S10x192, .f32⟩
  | 116 => ⟨S1x192, .f32⟩
  | 117 => ⟨S10x192, .f32⟩
  | 118 => ⟨S10x192, .f32⟩
  | 119 => ⟨S10x64, .f32⟩
  | 120 => ⟨S10x64, .f32⟩
  | 121 => ⟨S10x64, .f32⟩
  | 122 => ⟨S10x64, .f32⟩
  | 123 => ⟨S10x64, .f32⟩
  | 124 => ⟨S10x64, .f32⟩
  | 125 => ⟨S10x64, .f32⟩
  | 126 => ⟨S10x64, .f32⟩
  | 127 => ⟨S10x64, .f32⟩
  | _ => ⟨S10x64, .f32⟩

abbrev hbmTy0_1 (i : Nat) : BufTy := match i % 128 with
  | 0 => ⟨S_, .f32⟩
  | 1 => ⟨S10x64, .f32⟩
  | 2 => ⟨S10x64, .f32⟩
  | 3 => ⟨S_, .f32⟩
  | 4 => ⟨S10x64, .f32⟩
  | 5 => ⟨S10x64, .f32⟩
  | 6 => ⟨S10x64, .f32⟩
  | 7 => ⟨S10x64, .f32⟩
  | 8 => ⟨S10x64, .f32⟩
  | 9 => ⟨S_, .f32⟩
  | 10 => ⟨S10x64, .f32⟩
  | 11 => ⟨S10x64, .f32⟩
  | 12 => ⟨S_, .f32⟩
  | 13 => ⟨S10x64, .f32⟩
  | 14 => ⟨S10x64, .f32⟩
  | 15 => ⟨S10x64, .f32⟩
  | 16 => ⟨S10x64, .f32⟩
  | 17 => ⟨S10x64, .f32⟩
  | 18 => ⟨S_, .f32⟩
  | 19 => ⟨S10x64, .f32⟩
  | 20 => ⟨S10x64, .f32⟩
  | 21 => ⟨S10x64, .f32⟩
  | 22 => ⟨S10x64, .f32⟩
  | 23 => ⟨S10x64, .f32⟩
  | 24 => ⟨S_, .f32⟩
  | 25 => ⟨S10, .f32⟩
  | 26 => ⟨S10x1, .f32⟩
  | 27 => ⟨S_, .f32⟩
  | 28 => ⟨S10x1, .f32⟩
  | 29 => ⟨S10x1, .f32⟩
  | 30 => ⟨S_, .i32⟩
  | 31 => ⟨S_, .f32⟩
  | 32 => ⟨S10, .f32⟩
  | 33 => ⟨S10x1, .f32⟩
  | 34 => ⟨S_, .f32⟩
  | 35 => ⟨S10x1, .f32⟩
  | 36 => ⟨S10x1, .f32⟩
  | 37 => ⟨S10x64, .f32⟩
  | 38 => ⟨S10x64, .f32⟩
  | 39 => ⟨S10x64, .f32⟩
  | 40 => ⟨S_, .f32⟩
  | 41 => ⟨S_, .f32⟩
  | 42 => ⟨S_, .f32⟩
  | 43 => ⟨S_, .f32⟩
  | 44 => ⟨S10, .f32⟩
  | 45 => ⟨S10x1, .f32⟩
  | 46 => ⟨S10x1, .f32⟩
  | 47 => ⟨S10x1, .f32⟩
  | 48 => ⟨S_, .f32⟩
  | 49 => ⟨S_, .i1⟩
  | 50 => ⟨S_, .f32⟩
  | 51 => ⟨S_, .f32⟩
  | 52 => ⟨S10x1, .f32⟩
  | 53 => ⟨S10x1, .f32⟩
  | 54 => ⟨S10x64, .f32⟩
  | 55 => ⟨S10x64, .f32⟩
  | 56 => ⟨S_, .f32⟩
  | 57 => ⟨S10x1, .f32⟩
  | 58 => ⟨S10x1, .f32⟩
  | 59 => ⟨S10x1, .f32⟩
  | 60 => ⟨S10x64, .f32⟩
  | 61 => ⟨S10x64, .f32⟩
  | 62 => ⟨S1x64, .f32⟩
  | 63 => ⟨S10x64, .f32⟩
  | 64 => ⟨S10x64, .f32⟩
  | 65 => ⟨S1x64, .f32⟩
  | 66 => ⟨S10x64, .f32⟩
  | 67 => ⟨S10x64, .f32⟩
  | 68 => ⟨S64x128, .f32⟩
  | 69 => ⟨S10x128, .f32⟩
  | 70 => ⟨S1x128, .f32⟩
  | 71 => ⟨S10x128, .f32⟩
  | 72 => ⟨S10x128, .f32⟩
  | 73 => ⟨S_, .f32⟩
  | 74 => ⟨S10x128, .f32⟩
  | 75 => ⟨S10x128, .f32⟩
  | 76 => ⟨S128x64, .f32⟩
  | 77 => ⟨S10x64, .f32⟩
  | 78 => ⟨S10x64, .f32⟩
  | 79 => ⟨S1x64, .f32⟩
  | 80 => ⟨S10x64, .f32⟩
  | 81 => ⟨S10x64, .f32⟩
  | 82 => ⟨S_, .f32⟩
  | 83 => ⟨S10, .f32⟩
  | 84 => ⟨S10x1, .f32⟩
  | 85 => ⟨S_, .f32⟩
  | 86 => ⟨S10x1, .f32⟩
  | 87 => ⟨S10x1, .f32⟩
  | 88 => ⟨S_, .i32⟩
  | 89 => ⟨S_, .f32⟩
  | 90 => ⟨S10, .f32⟩
  | 91 => ⟨S10x1, .f32⟩
  | 92 => ⟨S_, .f32⟩
  | 93 => ⟨S10x1, .f32⟩
  | 94 => ⟨S10x1, .f32⟩
  | 95 => ⟨S10x64, .f32⟩
  | 96 => ⟨S10x64, .f32⟩
  | 97 => ⟨S10x64, .f32⟩
  | 98 => ⟨S_, .f32⟩
  | 99 => ⟨S_, .f32⟩
  | 100 => ⟨S_, .f32⟩
  | 101 => ⟨S_, .f32⟩
  | 102 => ⟨S10, .f32⟩
  | 103 => ⟨S10x1, .f32⟩
  | 104 => ⟨S10x1, .f32⟩
  | 105 => ⟨S10x1, .f32⟩
  | 106 => ⟨S_, .f32⟩
  | 107 => ⟨S_, .i1⟩
  | 108 => ⟨S_, .f32⟩
  | 109 => ⟨S_, .f32⟩
  | 110 => ⟨S10x1, .f32⟩
  | 111 => ⟨S10x1, .f32⟩
  | 112 => ⟨S10x64, .f32⟩
  | 113 => ⟨S10x64, .f32⟩
  | 114 => ⟨S_, .f32⟩
  | 115 => ⟨S10x1, .f32⟩
  | 116 => ⟨S10x1, .f32⟩
  | 117 => ⟨S10x1, .f32⟩
  | 118 => ⟨S10x64, .f32⟩
  | 119 => ⟨S10x64, .f32⟩
  | 120 => ⟨S1x64, .f32⟩
  | 121 => ⟨S10x64, .f32⟩
  | 122 => ⟨S10x64, .f32⟩
  | 123 => ⟨S1x64, .f32⟩
  | 124 => ⟨S10x64, .f32⟩
  | 125 => ⟨S10x64, .f32⟩
  | 126 => ⟨S64x64, .f32⟩
  | 127 => ⟨S10x64, .f32⟩
  | _ => ⟨S10x64, .f32⟩

abbrev hbmTy0_2 (i : Nat) : BufTy := match i % 128 with
  | 0 => ⟨S1x64, .f32⟩
  | 1 => ⟨S10x64, .f32⟩
  | 2 => ⟨S10x64, .f32⟩
  | 3 => ⟨S10x10, .f32⟩
  | 4 => ⟨S_, .f32⟩
  | 5 => ⟨S10x10, .f32⟩
  | 6 => ⟨S10x10, .f32⟩
  | 7 => ⟨S_, .f32⟩
  | 8 => ⟨S10, .f32⟩
  | 9 => ⟨S_, .f32⟩
  | 10 => ⟨S10, .f32⟩
  | 11 => ⟨S10, .f32⟩
  | 12 => ⟨S1x10, .f32⟩
  | 13 => ⟨S10x10, .f32⟩
  | 14 => ⟨S10x10, .f32⟩
  | 15 => ⟨S10x10, .f32⟩
  | 16 => ⟨S_, .f32⟩
  | 17 => ⟨S10, .f32⟩
  | 18 => ⟨S1x10, .f32⟩
  | 19 => ⟨S10x10, .f32⟩
  | 20 => ⟨S10x10, .f32⟩
  | 21 => ⟨S_, .f32⟩
  | 22 => ⟨S10x10, .f32⟩
  | 23 => ⟨S10x10, .f32⟩
  | 24 => ⟨S_, .f32⟩
  | 25 => ⟨S10, .f32⟩
  | 26 => ⟨S10x1, .f32⟩
  | 27 => ⟨S10x10, .f32⟩
  | 28 => ⟨S10x10, .f32⟩
  | 29 => ⟨S10x64, .f32⟩
  | 30 => ⟨S64x192, .f32⟩
  | 31 => ⟨S10x192, .f32⟩
  | 32 => ⟨S1x192, .f32⟩
  | 33 => ⟨S10x192, .f32⟩
  | 34 => ⟨S10x192, .f32⟩
  | 35 => ⟨S64x192, .f32⟩
  | 36 => ⟨S10x192, .f32⟩
  | 37 => ⟨S1x192, .f32⟩
  | 38 => ⟨S10x192, .f32⟩
  | 39 => ⟨S10x192, .f32⟩
  | 40 => ⟨S10x64, .f32⟩
  | 41 => ⟨S10x64, .f32⟩
  | 42 => ⟨S10x64, .f32⟩
  | 43 => ⟨S10x64, .f32⟩
  | 44 => ⟨S10x64, .f32⟩
  | 45 => ⟨S10x64, .f32⟩
  | 46 => ⟨S10x64, .f32⟩
  | 47 => ⟨S10x64, .f32⟩
  | 48 => ⟨S10x64, .f32⟩
  | 49 => ⟨S_, .f32⟩
  | 50 => ⟨S10x64, .f32⟩
  | 51 => ⟨S10x64, .f32⟩
  | 52 => ⟨S_, .f32⟩
  | 53 => ⟨S10x64, .f32⟩
  | 54 => ⟨S10x64, .f32⟩
  | 55 => ⟨S10x64, .f32⟩
  | 56 => ⟨S10x64, .f32⟩
  | 57 => ⟨S10x64, .f32⟩
  | 58 => ⟨S_, .f32⟩
  | 59 => ⟨S10x64, .f32⟩
  | 60 => ⟨S10x64, .f32⟩
  | 61 => ⟨S_, .f32⟩
  | 62 => ⟨S10x64, .f32⟩
  | 63 => ⟨S10x64, .f32⟩
  | 64 => ⟨S10x64, .f32⟩
  | 65 => ⟨S10x64, .f32⟩
  | 66 => ⟨S10x64, .f32⟩
  | 67 => ⟨S_, .f32⟩
  | 68 => ⟨S10x64, .f32⟩
  | 69 => ⟨S10x64, .f32⟩
  | 70 => ⟨S10x64, .f32⟩
  | 71 => ⟨S10x64, .f32⟩
  | 72 => ⟨S10x64, .f32⟩
  | 73 => ⟨S_, .f32⟩
  | 74 => ⟨S10, .f32⟩
  | 75 => ⟨S10x1, .f32⟩
  | 76 => ⟨S_, .f32⟩
  | 77 => ⟨S10x1, .f32⟩
  | 78 => ⟨S10x1, .f32⟩
  | 79 => ⟨S_, .i32⟩
  | 80 => ⟨S_, .f32⟩
  | 81 => ⟨S10, .f32⟩
  | 82 => ⟨S10x1, .f32⟩
  | 83 => ⟨S_, .f32⟩
  | 84 => ⟨S10x1, .f32⟩
  | 85 => ⟨S10x1, .f32⟩
  | 86 => ⟨S10x64, .f32⟩
  | 87 => ⟨S10x64, .f32⟩
  | 88 => ⟨S10x64, .f32⟩
  | 89 => ⟨S_, .f32⟩
  | 90 => ⟨S_, .f32⟩
  | 91 => ⟨S_, .f32⟩
  | 92 => ⟨S_, .f32⟩
  | 93 => ⟨S10, .f32⟩
  | 94 => ⟨S10x1, .f32⟩
  | 95 => ⟨S10x1, .f32⟩
  | 96 => ⟨S10x1, .f32⟩
  | 97 => ⟨S_, .f32⟩
  | 98 => ⟨S_, .i1⟩
  | 99 => ⟨S_, .f32⟩
  | 100 => ⟨S_, .f32⟩
  | 101 => ⟨S10x1, .f32⟩
  | 102 => ⟨S10x1, .f32⟩
  | 103 => ⟨S10x64, .f32⟩
  | 104 => ⟨S10x64, .f32⟩
  | 105 => ⟨S_, .f32⟩
  | 106 => ⟨S10x1, .f32⟩
  | 107 => ⟨S10x1, .f32⟩
  | 108 => ⟨S10x1, .f32⟩
  | 109 => ⟨S10x64, .f32⟩
  | 110 => ⟨S10x64, .f32⟩
  | 111 => ⟨S1x64, .f32⟩
  | 112 => ⟨S10x64, .f32⟩
  | 113 => ⟨S10x64, .f32⟩
  | 114 => ⟨S1x64, .f32⟩
  | 115 => ⟨S10x64, .f32⟩
  | 116 => ⟨S10x64, .f32⟩
  | 117 => ⟨S64x128, .f32⟩
  | 118 => ⟨S10x128, .f32⟩
  | 119 => ⟨S1x128, .f32⟩
  | 120 => ⟨S10x128, .f32⟩
  | 121 => ⟨S10x128, .f32⟩
  | 122 => ⟨S_, .f32⟩
  | 123 => ⟨S10x128, .f32⟩
  | 124 => ⟨S10x128, .f32⟩
  | 125 => ⟨S128x64, .f32⟩
  | 126 => ⟨S10x64, .f32⟩
  | 127 => ⟨S10x64, .f32⟩
  | _ => ⟨S10x64, .f32⟩

abbrev hbmTy0_3 (i : Nat) : BufTy := match i % 128 with
  | 0 => ⟨S1x64, .f32⟩
  | 1 => ⟨S10x64, .f32⟩
  | 2 => ⟨S10x64, .f32⟩
  | 3 => ⟨S_, .f32⟩
  | 4 => ⟨S10, .f32⟩
  | 5 => ⟨S10x1, .f32⟩
  | 6 => ⟨S_, .f32⟩
  | 7 => ⟨S10x1, .f32⟩
  | 8 => ⟨S10x1, .f32⟩
  | 9 => ⟨S_, .i32⟩
  | 10 => ⟨S_, .f32⟩
  | 11 => ⟨S10, .f32⟩
  | 12 => ⟨S10x1, .f32⟩
  | 13 => ⟨S_, .f32⟩
  | 14 => ⟨S10x1, .f32⟩
  | 15 => ⟨S10x1, .f32⟩
  | 16 => ⟨S10x64, .f32⟩
  | 17 => ⟨S10x64, .f32⟩
  | 18 => ⟨S10x64, .f32⟩
  | 19 => ⟨S_, .f32⟩
  | 20 => ⟨S_, .f32⟩
  | 21 => ⟨S_, .f32⟩
  | 22 => ⟨S_, .f32⟩
  | 23 => ⟨S10, .f32⟩
  | 24 => ⟨S10x1, .f32⟩
  | 25 => ⟨S10x1, .f32⟩
  | 26 => ⟨S10x1, .f32⟩
  | 27 => ⟨S_, .f32⟩
  | 28 => ⟨S_, .i1⟩
  | 29 => ⟨S_, .f32⟩
  | 30 => ⟨S_, .f32⟩
  | 31 => ⟨S10x1, .f32⟩
  | 32 => ⟨S10x1, .f32⟩
  | 33 => ⟨S10x64, .f32⟩
  | 34 => ⟨S10x64, .f32⟩
  | 35 => ⟨S_, .f32⟩
  | 36 => ⟨S10x1, .f32⟩
  | 37 => ⟨S10x1, .f32⟩
  | 38 => ⟨S10x1, .f32⟩
  | 39 => ⟨S10x64, .f32⟩
  | 40 => ⟨S10x64, .f32⟩
  | 41 => ⟨S1x64, .f32⟩
  | 42 => ⟨S10x64, .f32⟩
  | 43 => ⟨S10x64, .f32⟩
  | 44 => ⟨S1x64, .f32⟩
  | 45 => ⟨S10x64, .f32⟩
  | 46 => ⟨S10x64, .f32⟩
  | 47 => ⟨S64x64, .f32⟩
  | 48 => ⟨S10x64, .f32⟩
  | 49 => ⟨S1x64, .f32⟩
  | 50 => ⟨S10x64, .f32⟩
  | 51 => ⟨S10x64, .f32⟩
  | 52 => ⟨S10x10, .f32⟩
  | 53 => ⟨S_, .f32⟩
  | 54 => ⟨S10x10, .f32⟩
  | 55 => ⟨S10x10, .f32⟩
  | 56 => ⟨S_, .f32⟩
  | 57 => ⟨S10, .f32⟩
  | 58 => ⟨S_, .f32⟩
  | 59 => ⟨S10, .f32⟩
  | 60 => ⟨S10, .f32⟩
  | 61 => ⟨S1x10, .f32⟩
  | 62 => ⟨S10x10, .f32⟩
  | 63 => ⟨S10x10, .f32⟩
  | 64 => ⟨S10x10, .f32⟩
  | 65 => ⟨S_, .f32⟩
  | 66 => ⟨S10, .f32⟩
  | 67 => ⟨S1x10, .f32⟩
  | 68 => ⟨S10x10, .f32⟩
  | 69 => ⟨S10x10, .f32⟩
  | 70 => ⟨S_, .f32⟩
  | 71 => ⟨S10x10, .f32⟩
  | 72 => ⟨S10x10, .f32⟩
  | 73 => ⟨S_, .f32⟩
  | 74 => ⟨S10, .f32⟩
  | 75 => ⟨S10x1, .f32⟩
  | 76 => ⟨S10x10, .f32⟩
  | 77 => ⟨S10x10, .f32⟩
  | 78 => ⟨S10x64, .f32⟩
  | 79 => ⟨S64x192, .f32⟩
  | 80 => ⟨S10x192, .f32⟩
  | 81 => ⟨S1x192, .f32⟩
  | 82 => ⟨S10x192, .f32⟩
  | 83 => ⟨S10x192, .f32⟩
  | 84 => ⟨S64x192, .f32⟩
  | 85 => ⟨S10x192, .f32⟩
  | 86 => ⟨S1x192, .f32⟩
  | 87 => ⟨S10x192, .f32⟩
  | 88 => ⟨S10x192, .f32⟩
  | 89 => ⟨S10x64, .f32⟩
  | 90 => ⟨S10x64, .f32⟩
  | 91 => ⟨S10x64, .f32⟩
  | 92 => ⟨S10x64, .f32⟩
  | 93 => ⟨S10x64, .f32⟩
  | 94 => ⟨S10x64, .f32⟩
  | 95 => ⟨S10x64, .f32⟩
  | 96 => ⟨S10x64, .f32⟩
  | 97 => ⟨S10x64, .f32⟩
  | 98 => ⟨S_, .f32⟩
  | 99 => ⟨S10x64, .f32⟩
  | 100 => ⟨S10x64, .f32⟩
  | 101 => ⟨S_, .f32⟩
  | 102 => ⟨S10x64, .f32⟩
  | 103 => ⟨S10x64, .f32⟩
  | 104 => ⟨S10x64, .f32⟩
  | 105 => ⟨S10x64, .f32⟩
  | 106 => ⟨S10x64, .f32⟩
  | 107 => ⟨S_, .f32⟩
  | 108 => ⟨S10x64, .f32⟩
  | 109 => ⟨S10x64, .f32⟩
  | 110 => ⟨S_, .f32⟩
  | 111 => ⟨S10x64, .f32⟩
  | 112 => ⟨S10x64, .f32⟩
  | 113 => ⟨S10x64, .f32⟩
  | 114 => ⟨S10x64, .f32⟩
  | 115 => ⟨S10x64, .f32⟩
  | 116 => ⟨S_, .f32⟩
  | 117 => ⟨S10x64, .f32⟩
  | 118 => ⟨S10x64, .f32⟩
  | 119 => ⟨S10x64, .f32⟩
  | 120 => ⟨S10x64, .f32⟩
  | 121 => ⟨S10x64, .f32⟩
  | 122 => ⟨S_, .f32⟩
  | 123 => ⟨S10, .f32⟩
  | 124 => ⟨S10x1, .f32⟩
  | 125 => ⟨S_, .f32⟩
  | 126 => ⟨S10x1, .f32⟩
  | 127 => ⟨S10x1, .f32⟩
  | _ => ⟨S10x64, .f32⟩

abbrev hbmTy0_4 (i : Nat) : BufTy := match i % 128 with
  | 0 => ⟨S_, .i32⟩
  | 1 => ⟨S_, .f32⟩
  | 2 => ⟨S10, .f32⟩
  | 3 => ⟨S10x1, .f32⟩
  | 4 => ⟨S_, .f32⟩
  | 5 => ⟨S10x1, .f32⟩
  | 6 => ⟨S10x1, .f32⟩
  | 7 => ⟨S10x64, .f32⟩
  | 8 => ⟨S10x64, .f32⟩
  | 9 => ⟨S10x64, .f32⟩
  | 10 => ⟨S_, .f32⟩
  | 11 => ⟨S_, .f32⟩
  | 12 => ⟨S_, .f32⟩
  | 13 => ⟨S_, .f32⟩
  | 14 => ⟨S10, .f32⟩
  | 15 => ⟨S10x1, .f32⟩
  | 16 => ⟨S10x1, .f32⟩
  | 17 => ⟨S10x1, .f32⟩
  | 18 => ⟨S_, .f32⟩
  | 19 => ⟨S_, .i1⟩
  | 20 => ⟨S_, .f32⟩
  | 21 => ⟨S_, .f32⟩
  | 22 => ⟨S10x1, .f32⟩
  | 23 => ⟨S10x1, .f32⟩
  | 24 => ⟨S10x64, .f32⟩
  | 25 => ⟨S10x64, .f32⟩
  | 26 => ⟨S_, .f32⟩
  | 27 => ⟨S10x1, .f32⟩
  | 28 => ⟨S10x1, .f32⟩
  | 29 => ⟨S10x1, .f32⟩
  | 30 => ⟨S10x64, .f32⟩
  | 31 => ⟨S10x64, .f32⟩
  | 32 => ⟨S1x64, .f32⟩
  | 33 => ⟨S10x64, .f32⟩
  | 34 => ⟨S10x64, .f32⟩
  | 35 => ⟨S1x64, .f32⟩
  | 36 => ⟨S10x64, .f32⟩
  | 37 => ⟨S10x64, .f32⟩
  | 38 => ⟨S64x128, .f32⟩
  | 39 => ⟨S10x128, .f32⟩
  | 40 => ⟨S1x128, .f32⟩
  | 41 => ⟨S10x128, .f32⟩
  | 42 => ⟨S10x128, .f32⟩
  | 43 => ⟨S_, .f32⟩
  | 44 => ⟨S10x128, .f32⟩
  | 45 => ⟨S10x128, .f32⟩
  | 46 => ⟨S128x64, .f32⟩
  | 47 => ⟨S10x64, .f32⟩
  | 48 => ⟨S10x64, .f32⟩
  | 49 => ⟨S1x64, .f32⟩
  | 50 => ⟨S10x64, .f32⟩
  | 51 => ⟨S10x64, .f32⟩
  | 52 => ⟨S10x4096x64, .f32⟩
  | 53 => ⟨S4096x10x64, .f32⟩
  | 54 => ⟨S4096x1x64, .f32⟩
  | 55 => ⟨S4096x10x64, .f32⟩
  | 56 => ⟨S4096x10x64, .f32⟩
  | 57 => ⟨S_, .f32⟩
  | 58 => ⟨S4096x10x64, .f32⟩
  | 59 => ⟨S4096x10x64, .f32⟩
  | 60 => ⟨S4096x10x64, .f32⟩
  | 61 => ⟨S4096x1x64, .f32⟩
  | 62 => ⟨S4096x10x64, .f32⟩
  | 63 => ⟨S4096x10x64, .f32⟩
  | 64 => ⟨S_, .f32⟩
  | 65 => ⟨S4096x64, .f32⟩
  | _ => ⟨S10x64, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S10x64, .f32⟩

abbrev bufTy : (tb : Table) → Fin (tcTables nBuf tb) → BufTy
  | .hbm, ⟨i, _⟩ => hbmTy i
  | _, _ => ⟨S10x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_cst : Ref sig .tc := ⟨.hbm, 33, rfl⟩
abbrev main_v10 : Ref sig .tc := ⟨.hbm, 34, rfl⟩
abbrev main_v11 : Ref sig .tc := ⟨.hbm, 35, rfl⟩
abbrev main_cst_0 : Ref sig .tc := ⟨.hbm, 36, rfl⟩
abbrev main_v12 : Ref sig .tc := ⟨.hbm, 37, rfl⟩
abbrev main_v13 : Ref sig .tc := ⟨.hbm, 38, rfl⟩
abbrev main_c : Ref sig .tc := ⟨.hbm, 39, rfl⟩
abbrev main_call0_cst : Ref sig .tc := ⟨.hbm, 40, rfl⟩
abbrev main_call0_v0 : Ref sig .tc := ⟨.hbm, 41, rfl⟩
abbrev main_call0_v1 : Ref sig .tc := ⟨.hbm, 42, rfl⟩
abbrev main_call0_cst_0 : Ref sig .tc := ⟨.hbm, 43, rfl⟩
abbrev main_call0_v2 : Ref sig .tc := ⟨.hbm, 44, rfl⟩
abbrev main_call0_v3 : Ref sig .tc := ⟨.hbm, 45, rfl⟩
abbrev main_call0_v4 : Ref sig .tc := ⟨.hbm, 46, rfl⟩
abbrev main_call0_v5 : Ref sig .tc := ⟨.hbm, 47, rfl⟩
abbrev main_call0_v6 : Ref sig .tc := ⟨.hbm, 48, rfl⟩
abbrev main_call0_v7 : Ref sig .tc := ⟨.hbm, 49, rfl⟩
abbrev main_call0_cst_1 : Ref sig .tc := ⟨.hbm, 50, rfl⟩
abbrev main_call0_v8 : Ref sig .tc := ⟨.hbm, 51, rfl⟩
abbrev main_call0_cst_2 : Ref sig .tc := ⟨.hbm, 52, rfl⟩
abbrev main_call0_v9 : Ref sig .tc := ⟨.hbm, 53, rfl⟩
abbrev main_call0_v10 : Ref sig .tc := ⟨.hbm, 54, rfl⟩
abbrev main_call0_v11 : Ref sig .tc := ⟨.hbm, 55, rfl⟩
abbrev main_call0_v12 : Ref sig .tc := ⟨.hbm, 56, rfl⟩
abbrev main_call0_cst_3 : Ref sig .tc := ⟨.hbm, 57, rfl⟩
abbrev main_call0_v13 : Ref sig .tc := ⟨.hbm, 58, rfl⟩
abbrev main_call0_cst_4 : Ref sig .tc := ⟨.hbm, 59, rfl⟩
abbrev main_call0_call0_v0 : Ref sig .tc := ⟨.hbm, 60, rfl⟩
abbrev main_call0_call0_v1 : Ref sig .tc := ⟨.hbm, 61, rfl⟩
abbrev main_v14 : Ref sig .tc := ⟨.hbm, 62, rfl⟩
abbrev main_v15 : Ref sig .tc := ⟨.hbm, 63, rfl⟩
abbrev main_v16 : Ref sig .tc := ⟨.hbm, 64, rfl⟩
abbrev main_cst_1 : Ref sig .tc := ⟨.hbm, 65, rfl⟩
abbrev main_v17 : Ref sig .tc := ⟨.hbm, 66, rfl⟩
abbrev main_v18 : Ref sig .tc := ⟨.hbm, 67, rfl⟩
abbrev main_v19 : Ref sig .tc := ⟨.hbm, 68, rfl⟩
abbrev main_v20 : Ref sig .tc := ⟨.hbm, 69, rfl⟩
abbrev main_v21 : Ref sig .tc := ⟨.hbm, 70, rfl⟩
abbrev main_v22 : Ref sig .tc := ⟨.hbm, 71, rfl⟩
abbrev main_v23 : Ref sig .tc := ⟨.hbm, 72, rfl⟩
abbrev main_v24 : Ref sig .tc := ⟨.hbm, 73, rfl⟩
abbrev main_v25 : Ref sig .tc := ⟨.hbm, 74, rfl⟩
abbrev main_v26 : Ref sig .tc := ⟨.hbm, 75, rfl⟩
abbrev main_v27 : Ref sig .tc := ⟨.hbm, 76, rfl⟩
abbrev main_v28 : Ref sig .tc := ⟨.hbm, 77, rfl⟩
abbrev main_v29 : Ref sig .tc := ⟨.hbm, 78, rfl⟩
abbrev main_v30 : Ref sig .tc := ⟨.hbm, 79, rfl⟩
abbrev main_v31 : Ref sig .tc := ⟨.hbm, 80, rfl⟩
abbrev main_v32 : Ref sig .tc := ⟨.hbm, 81, rfl⟩
abbrev main_v33 : Ref sig .tc := ⟨.hbm, 82, rfl⟩
abbrev main_cst_2 : Ref sig .tc := ⟨.hbm, 83, rfl⟩
abbrev main_v34 : Ref sig .tc := ⟨.hbm, 84, rfl⟩
abbrev main_v35 : Ref sig .tc := ⟨.hbm, 85, rfl⟩
abbrev main_cst_3 : Ref sig .tc := ⟨.hbm, 86, rfl⟩
abbrev main_v36 : Ref sig .tc := ⟨.hbm, 87, rfl⟩
abbrev main_cst_4 : Ref sig .tc := ⟨.hbm, 88, rfl⟩
abbrev main_v37 : Ref sig .tc := ⟨.hbm, 89, rfl⟩
abbrev main_v38 : Ref sig .tc := ⟨.hbm, 90, rfl⟩
abbrev main_v39 : Ref sig .tc := ⟨.hbm, 91, rfl⟩
abbrev main_v40 : Ref sig .tc := ⟨.hbm, 92, rfl⟩
abbrev main_v41 : Ref sig .tc := ⟨.hbm, 93, rfl⟩
abbrev main_v42 : Ref sig .tc := ⟨.hbm, 94, rfl⟩
abbrev main_cst_5 : Ref sig .tc := ⟨.hbm, 95, rfl⟩
abbrev main_v43 : Ref sig .tc := ⟨.hbm, 96, rfl⟩
abbrev main_v44 : Ref sig .tc := ⟨.hbm, 97, rfl⟩
abbrev main_v45 : Ref sig .tc := ⟨.hbm, 98, rfl⟩
abbrev main_v46 : Ref sig .tc := ⟨.hbm, 99, rfl⟩
abbrev main_cst_6 : Ref sig .tc := ⟨.hbm, 100, rfl⟩
abbrev main_v47 : Ref sig .tc := ⟨.hbm, 101, rfl⟩
abbrev main_v48 : Ref sig .tc := ⟨.hbm, 102, rfl⟩
abbrev main_cst_7 : Ref sig .tc := ⟨.hbm, 103, rfl⟩
abbrev main_v49 : Ref sig .tc := ⟨.hbm, 104, rfl⟩
abbrev main_v50 : Ref sig .tc := ⟨.hbm, 105, rfl⟩
abbrev main_v51 : Ref sig .tc := ⟨.hbm, 106, rfl⟩
abbrev main_v52 : Ref sig .tc := ⟨.hbm, 107, rfl⟩
abbrev main_v53 : Ref sig .tc := ⟨.hbm, 108, rfl⟩
abbrev main_v54 : Ref sig .tc := ⟨.hbm, 109, rfl⟩
abbrev main_v55 : Ref sig .tc := ⟨.hbm, 110, rfl⟩
abbrev main_v56 : Ref sig .tc := ⟨.hbm, 111, rfl⟩
abbrev main_v57 : Ref sig .tc := ⟨.hbm, 112, rfl⟩
abbrev main_v58 : Ref sig .tc := ⟨.hbm, 113, rfl⟩
abbrev main_v59 : Ref sig .tc := ⟨.hbm, 114, rfl⟩
abbrev main_v60 : Ref sig .tc := ⟨.hbm, 115, rfl⟩
abbrev main_v61 : Ref sig .tc := ⟨.hbm, 116, rfl⟩
abbrev main_v62 : Ref sig .tc := ⟨.hbm, 117, rfl⟩
abbrev main_v63 : Ref sig .tc := ⟨.hbm, 118, rfl⟩
abbrev main_v64 : Ref sig .tc := ⟨.hbm, 119, rfl⟩
abbrev main_v65 : Ref sig .tc := ⟨.hbm, 120, rfl⟩
abbrev main_v66 : Ref sig .tc := ⟨.hbm, 121, rfl⟩
abbrev main_v67 : Ref sig .tc := ⟨.hbm, 122, rfl⟩
abbrev main_v68 : Ref sig .tc := ⟨.hbm, 123, rfl⟩
abbrev main_v69 : Ref sig .tc := ⟨.hbm, 124, rfl⟩
abbrev main_v70 : Ref sig .tc := ⟨.hbm, 125, rfl⟩
abbrev main_v71 : Ref sig .tc := ⟨.hbm, 126, rfl⟩
abbrev main_v72 : Ref sig .tc := ⟨.hbm, 127, rfl⟩
abbrev main_cst_8 : Ref sig .tc := ⟨.hbm, 128, rfl⟩
abbrev main_v73 : Ref sig .tc := ⟨.hbm, 129, rfl⟩
abbrev main_v74 : Ref sig .tc := ⟨.hbm, 130, rfl⟩
abbrev main_cst_9 : Ref sig .tc := ⟨.hbm, 131, rfl⟩
abbrev main_v75 : Ref sig .tc := ⟨.hbm, 132, rfl⟩
abbrev main_v76 : Ref sig .tc := ⟨.hbm, 133, rfl⟩
abbrev main_v77 : Ref sig .tc := ⟨.hbm, 134, rfl⟩
abbrev main_v78 : Ref sig .tc := ⟨.hbm, 135, rfl⟩
abbrev main_v79 : Ref sig .tc := ⟨.hbm, 136, rfl⟩
abbrev main_cst_10 : Ref sig .tc := ⟨.hbm, 137, rfl⟩
abbrev main_v80 : Ref sig .tc := ⟨.hbm, 138, rfl⟩
abbrev main_v81 : Ref sig .tc := ⟨.hbm, 139, rfl⟩
abbrev main_cst_11 : Ref sig .tc := ⟨.hbm, 140, rfl⟩
abbrev main_v82 : Ref sig .tc := ⟨.hbm, 141, rfl⟩
abbrev main_v83 : Ref sig .tc := ⟨.hbm, 142, rfl⟩
abbrev main_v84 : Ref sig .tc := ⟨.hbm, 143, rfl⟩
abbrev main_v85 : Ref sig .tc := ⟨.hbm, 144, rfl⟩
abbrev main_v86 : Ref sig .tc := ⟨.hbm, 145, rfl⟩
abbrev main_cst_12 : Ref sig .tc := ⟨.hbm, 146, rfl⟩
abbrev main_v87 : Ref sig .tc := ⟨.hbm, 147, rfl⟩
abbrev main_v88 : Ref sig .tc := ⟨.hbm, 148, rfl⟩
abbrev main_v89 : Ref sig .tc := ⟨.hbm, 149, rfl⟩
abbrev main_v90 : Ref sig .tc := ⟨.hbm, 150, rfl⟩
abbrev main_v91 : Ref sig .tc := ⟨.hbm, 151, rfl⟩
abbrev main_cst_13 : Ref sig .tc := ⟨.hbm, 152, rfl⟩
abbrev main_v92 : Ref sig .tc := ⟨.hbm, 153, rfl⟩
abbrev main_v93 : Ref sig .tc := ⟨.hbm, 154, rfl⟩
abbrev main_cst_14 : Ref sig .tc := ⟨.hbm, 155, rfl⟩
abbrev main_v94 : Ref sig .tc := ⟨.hbm, 156, rfl⟩
abbrev main_v95 : Ref sig .tc := ⟨.hbm, 157, rfl⟩
abbrev main_c_15 : Ref sig .tc := ⟨.hbm, 158, rfl⟩
abbrev main_call1_cst : Ref sig .tc := ⟨.hbm, 159, rfl⟩
abbrev main_call1_v0 : Ref sig .tc := ⟨.hbm, 160, rfl⟩
abbrev main_call1_v1 : Ref sig .tc := ⟨.hbm, 161, rfl⟩
abbrev main_call1_cst_0 : Ref sig .tc := ⟨.hbm, 162, rfl⟩
abbrev main_call1_v2 : Ref sig .tc := ⟨.hbm, 163, rfl⟩
abbrev main_call1_v3 : Ref sig .tc := ⟨.hbm, 164, rfl⟩
abbrev main_call1_v4 : Ref sig .tc := ⟨.hbm, 165, rfl⟩
abbrev main_call1_v5 : Ref sig .tc := ⟨.hbm, 166, rfl⟩
abbrev main_call1_v6 : Ref sig .tc := ⟨.hbm, 167, rfl⟩
abbrev main_call1_v7 : Ref sig .tc := ⟨.hbm, 168, rfl⟩
abbrev main_call1_cst_1 : Ref sig .tc := ⟨.hbm, 169, rfl⟩
abbrev main_call1_v8 : Ref sig .tc := ⟨.hbm, 170, rfl⟩
abbrev main_call1_cst_2 : Ref sig .tc := ⟨.hbm, 171, rfl⟩
abbrev main_call1_v9 : Ref sig .tc := ⟨.hbm, 172, rfl⟩
abbrev main_call1_v10 : Ref sig .tc := ⟨.hbm, 173, rfl⟩
abbrev main_call1_v11 : Ref sig .tc := ⟨.hbm, 174, rfl⟩
abbrev main_call1_v12 : Ref sig .tc := ⟨.hbm, 175, rfl⟩
abbrev main_call1_cst_3 : Ref sig .tc := ⟨.hbm, 176, rfl⟩
abbrev main_call1_v13 : Ref sig .tc := ⟨.hbm, 177, rfl⟩
abbrev main_call1_cst_4 : Ref sig .tc := ⟨.hbm, 178, rfl⟩
abbrev main_call1_call0_v0 : Ref sig .tc := ⟨.hbm, 179, rfl⟩
abbrev main_call1_call0_v1 : Ref sig .tc := ⟨.hbm, 180, rfl⟩
abbrev main_v96 : Ref sig .tc := ⟨.hbm, 181, rfl⟩
abbrev main_v97 : Ref sig .tc := ⟨.hbm, 182, rfl⟩
abbrev main_v98 : Ref sig .tc := ⟨.hbm, 183, rfl⟩
abbrev main_cst_16 : Ref sig .tc := ⟨.hbm, 184, rfl⟩
abbrev main_v99 : Ref sig .tc := ⟨.hbm, 185, rfl⟩
abbrev main_v100 : Ref sig .tc := ⟨.hbm, 186, rfl⟩
abbrev main_v101 : Ref sig .tc := ⟨.hbm, 187, rfl⟩
abbrev main_v102 : Ref sig .tc := ⟨.hbm, 188, rfl⟩
abbrev main_v103 : Ref sig .tc := ⟨.hbm, 189, rfl⟩
abbrev main_v104 : Ref sig .tc := ⟨.hbm, 190, rfl⟩
abbrev main_v105 : Ref sig .tc := ⟨.hbm, 191, rfl⟩
abbrev main_v106 : Ref sig .tc := ⟨.hbm, 192, rfl⟩
abbrev main_v107 : Ref sig .tc := ⟨.hbm, 193, rfl⟩
abbrev main_v108 : Ref sig .tc := ⟨.hbm, 194, rfl⟩
abbrev main_v109 : Ref sig .tc := ⟨.hbm, 195, rfl⟩
abbrev main_v110 : Ref sig .tc := ⟨.hbm, 196, rfl⟩
abbrev main_v111 : Ref sig .tc := ⟨.hbm, 197, rfl⟩
abbrev main_v112 : Ref sig .tc := ⟨.hbm, 198, rfl⟩
abbrev main_v113 : Ref sig .tc := ⟨.hbm, 199, rfl⟩
abbrev main_v114 : Ref sig .tc := ⟨.hbm, 200, rfl⟩
abbrev main_call2_cst : Ref sig .tc := ⟨.hbm, 201, rfl⟩
abbrev main_call2_v0 : Ref sig .tc := ⟨.hbm, 202, rfl⟩
abbrev main_v115 : Ref sig .tc := ⟨.hbm, 203, rfl⟩
abbrev main_v116 : Ref sig .tc := ⟨.hbm, 204, rfl⟩
abbrev main_v117 : Ref sig .tc := ⟨.hbm, 205, rfl⟩
abbrev main_v118 : Ref sig .tc := ⟨.hbm, 206, rfl⟩
abbrev main_v119 : Ref sig .tc := ⟨.hbm, 207, rfl⟩
abbrev main_v120 : Ref sig .tc := ⟨.hbm, 208, rfl⟩
abbrev main_v121 : Ref sig .tc := ⟨.hbm, 209, rfl⟩
abbrev main_cst_17 : Ref sig .tc := ⟨.hbm, 210, rfl⟩
abbrev main_v122 : Ref sig .tc := ⟨.hbm, 211, rfl⟩
abbrev main_v123 : Ref sig .tc := ⟨.hbm, 212, rfl⟩
abbrev main_cst_18 : Ref sig .tc := ⟨.hbm, 213, rfl⟩
abbrev main_v124 : Ref sig .tc := ⟨.hbm, 214, rfl⟩
abbrev main_v125 : Ref sig .tc := ⟨.hbm, 215, rfl⟩
abbrev main_c_19 : Ref sig .tc := ⟨.hbm, 216, rfl⟩
abbrev main_call3_cst : Ref sig .tc := ⟨.hbm, 217, rfl⟩
abbrev main_call3_v0 : Ref sig .tc := ⟨.hbm, 218, rfl⟩
abbrev main_call3_v1 : Ref sig .tc := ⟨.hbm, 219, rfl⟩
abbrev main_call3_cst_0 : Ref sig .tc := ⟨.hbm, 220, rfl⟩
abbrev main_call3_v2 : Ref sig .tc := ⟨.hbm, 221, rfl⟩
abbrev main_call3_v3 : Ref sig .tc := ⟨.hbm, 222, rfl⟩
abbrev main_call3_v4 : Ref sig .tc := ⟨.hbm, 223, rfl⟩
abbrev main_call3_v5 : Ref sig .tc := ⟨.hbm, 224, rfl⟩
abbrev main_call3_v6 : Ref sig .tc := ⟨.hbm, 225, rfl⟩
abbrev main_call3_v7 : Ref sig .tc := ⟨.hbm, 226, rfl⟩
abbrev main_call3_cst_1 : Ref sig .tc := ⟨.hbm, 227, rfl⟩
abbrev main_call3_v8 : Ref sig .tc := ⟨.hbm, 228, rfl⟩
abbrev main_call3_cst_2 : Ref sig .tc := ⟨.hbm, 229, rfl⟩
abbrev main_call3_v9 : Ref sig .tc := ⟨.hbm, 230, rfl⟩
abbrev main_call3_v10 : Ref sig .tc := ⟨.hbm, 231, rfl⟩
abbrev main_call3_v11 : Ref sig .tc := ⟨.hbm, 232, rfl⟩
abbrev main_call3_v12 : Ref sig .tc := ⟨.hbm, 233, rfl⟩
abbrev main_call3_cst_3 : Ref sig .tc := ⟨.hbm, 234, rfl⟩
abbrev main_call3_v13 : Ref sig .tc := ⟨.hbm, 235, rfl⟩
abbrev main_call3_cst_4 : Ref sig .tc := ⟨.hbm, 236, rfl⟩
abbrev main_call3_call0_v0 : Ref sig .tc := ⟨.hbm, 237, rfl⟩
abbrev main_call3_call0_v1 : Ref sig .tc := ⟨.hbm, 238, rfl⟩
abbrev main_v126 : Ref sig .tc := ⟨.hbm, 239, rfl⟩
abbrev main_v127 : Ref sig .tc := ⟨.hbm, 240, rfl⟩
abbrev main_v128 : Ref sig .tc := ⟨.hbm, 241, rfl⟩
abbrev main_cst_20 : Ref sig .tc := ⟨.hbm, 242, rfl⟩
abbrev main_v129 : Ref sig .tc := ⟨.hbm, 243, rfl⟩
abbrev main_v130 : Ref sig .tc := ⟨.hbm, 244, rfl⟩
abbrev main_v131 : Ref sig .tc := ⟨.hbm, 245, rfl⟩
abbrev main_v132 : Ref sig .tc := ⟨.hbm, 246, rfl⟩
abbrev main_v133 : Ref sig .tc := ⟨.hbm, 247, rfl⟩
abbrev main_v134 : Ref sig .tc := ⟨.hbm, 248, rfl⟩
abbrev main_v135 : Ref sig .tc := ⟨.hbm, 249, rfl⟩
abbrev main_v136 : Ref sig .tc := ⟨.hbm, 250, rfl⟩
abbrev main_v137 : Ref sig .tc := ⟨.hbm, 251, rfl⟩
abbrev main_v138 : Ref sig .tc := ⟨.hbm, 252, rfl⟩
abbrev main_v139 : Ref sig .tc := ⟨.hbm, 253, rfl⟩
abbrev main_v140 : Ref sig .tc := ⟨.hbm, 254, rfl⟩
abbrev main_v141 : Ref sig .tc := ⟨.hbm, 255, rfl⟩
abbrev main_v142 : Ref sig .tc := ⟨.hbm, 256, rfl⟩
abbrev main_v143 : Ref sig .tc := ⟨.hbm, 257, rfl⟩
abbrev main_v144 : Ref sig .tc := ⟨.hbm, 258, rfl⟩
abbrev main_v145 : Ref sig .tc := ⟨.hbm, 259, rfl⟩
abbrev main_cst_21 : Ref sig .tc := ⟨.hbm, 260, rfl⟩
abbrev main_v146 : Ref sig .tc := ⟨.hbm, 261, rfl⟩
abbrev main_v147 : Ref sig .tc := ⟨.hbm, 262, rfl⟩
abbrev main_cst_22 : Ref sig .tc := ⟨.hbm, 263, rfl⟩
abbrev main_v148 : Ref sig .tc := ⟨.hbm, 264, rfl⟩
abbrev main_cst_23 : Ref sig .tc := ⟨.hbm, 265, rfl⟩
abbrev main_v149 : Ref sig .tc := ⟨.hbm, 266, rfl⟩
abbrev main_v150 : Ref sig .tc := ⟨.hbm, 267, rfl⟩
abbrev main_v151 : Ref sig .tc := ⟨.hbm, 268, rfl⟩
abbrev main_v152 : Ref sig .tc := ⟨.hbm, 269, rfl⟩
abbrev main_v153 : Ref sig .tc := ⟨.hbm, 270, rfl⟩
abbrev main_v154 : Ref sig .tc := ⟨.hbm, 271, rfl⟩
abbrev main_cst_24 : Ref sig .tc := ⟨.hbm, 272, rfl⟩
abbrev main_v155 : Ref sig .tc := ⟨.hbm, 273, rfl⟩
abbrev main_v156 : Ref sig .tc := ⟨.hbm, 274, rfl⟩
abbrev main_v157 : Ref sig .tc := ⟨.hbm, 275, rfl⟩
abbrev main_v158 : Ref sig .tc := ⟨.hbm, 276, rfl⟩
abbrev main_cst_25 : Ref sig .tc := ⟨.hbm, 277, rfl⟩
abbrev main_v159 : Ref sig .tc := ⟨.hbm, 278, rfl⟩
abbrev main_v160 : Ref sig .tc := ⟨.hbm, 279, rfl⟩
abbrev main_cst_26 : Ref sig .tc := ⟨.hbm, 280, rfl⟩
abbrev main_v161 : Ref sig .tc := ⟨.hbm, 281, rfl⟩
abbrev main_v162 : Ref sig .tc := ⟨.hbm, 282, rfl⟩
abbrev main_v163 : Ref sig .tc := ⟨.hbm, 283, rfl⟩
abbrev main_v164 : Ref sig .tc := ⟨.hbm, 284, rfl⟩
abbrev main_v165 : Ref sig .tc := ⟨.hbm, 285, rfl⟩
abbrev main_v166 : Ref sig .tc := ⟨.hbm, 286, rfl⟩
abbrev main_v167 : Ref sig .tc := ⟨.hbm, 287, rfl⟩
abbrev main_v168 : Ref sig .tc := ⟨.hbm, 288, rfl⟩
abbrev main_v169 : Ref sig .tc := ⟨.hbm, 289, rfl⟩
abbrev main_v170 : Ref sig .tc := ⟨.hbm, 290, rfl⟩
abbrev main_v171 : Ref sig .tc := ⟨.hbm, 291, rfl⟩
abbrev main_v172 : Ref sig .tc := ⟨.hbm, 292, rfl⟩
abbrev main_v173 : Ref sig .tc := ⟨.hbm, 293, rfl⟩
abbrev main_v174 : Ref sig .tc := ⟨.hbm, 294, rfl⟩
abbrev main_v175 : Ref sig .tc := ⟨.hbm, 295, rfl⟩
abbrev main_v176 : Ref sig .tc := ⟨.hbm, 296, rfl⟩
abbrev main_v177 : Ref sig .tc := ⟨.hbm, 297, rfl⟩
abbrev main_v178 : Ref sig .tc := ⟨.hbm, 298, rfl⟩
abbrev main_v179 : Ref sig .tc := ⟨.hbm, 299, rfl⟩
abbrev main_v180 : Ref sig .tc := ⟨.hbm, 300, rfl⟩
abbrev main_v181 : Ref sig .tc := ⟨.hbm, 301, rfl⟩
abbrev main_v182 : Ref sig .tc := ⟨.hbm, 302, rfl⟩
abbrev main_v183 : Ref sig .tc := ⟨.hbm, 303, rfl⟩
abbrev main_v184 : Ref sig .tc := ⟨.hbm, 304, rfl⟩
abbrev main_cst_27 : Ref sig .tc := ⟨.hbm, 305, rfl⟩
abbrev main_v185 : Ref sig .tc := ⟨.hbm, 306, rfl⟩
abbrev main_v186 : Ref sig .tc := ⟨.hbm, 307, rfl⟩
abbrev main_cst_28 : Ref sig .tc := ⟨.hbm, 308, rfl⟩
abbrev main_v187 : Ref sig .tc := ⟨.hbm, 309, rfl⟩
abbrev main_v188 : Ref sig .tc := ⟨.hbm, 310, rfl⟩
abbrev main_v189 : Ref sig .tc := ⟨.hbm, 311, rfl⟩
abbrev main_v190 : Ref sig .tc := ⟨.hbm, 312, rfl⟩
abbrev main_v191 : Ref sig .tc := ⟨.hbm, 313, rfl⟩
abbrev main_cst_29 : Ref sig .tc := ⟨.hbm, 314, rfl⟩
abbrev main_v192 : Ref sig .tc := ⟨.hbm, 315, rfl⟩
abbrev main_v193 : Ref sig .tc := ⟨.hbm, 316, rfl⟩
abbrev main_cst_30 : Ref sig .tc := ⟨.hbm, 317, rfl⟩
abbrev main_v194 : Ref sig .tc := ⟨.hbm, 318, rfl⟩
abbrev main_v195 : Ref sig .tc := ⟨.hbm, 319, rfl⟩
abbrev main_v196 : Ref sig .tc := ⟨.hbm, 320, rfl⟩
abbrev main_v197 : Ref sig .tc := ⟨.hbm, 321, rfl⟩
abbrev main_v198 : Ref sig .tc := ⟨.hbm, 322, rfl⟩
abbrev main_cst_31 : Ref sig .tc := ⟨.hbm, 323, rfl⟩
abbrev main_v199 : Ref sig .tc := ⟨.hbm, 324, rfl⟩
abbrev main_v200 : Ref sig .tc := ⟨.hbm, 325, rfl⟩
abbrev main_v201 : Ref sig .tc := ⟨.hbm, 326, rfl⟩
abbrev main_v202 : Ref sig .tc := ⟨.hbm, 327, rfl⟩
abbrev main_v203 : Ref sig .tc := ⟨.hbm, 328, rfl⟩
abbrev main_cst_32 : Ref sig .tc := ⟨.hbm, 329, rfl⟩
abbrev main_v204 : Ref sig .tc := ⟨.hbm, 330, rfl⟩
abbrev main_v205 : Ref sig .tc := ⟨.hbm, 331, rfl⟩
abbrev main_cst_33 : Ref sig .tc := ⟨.hbm, 332, rfl⟩
abbrev main_v206 : Ref sig .tc := ⟨.hbm, 333, rfl⟩
abbrev main_v207 : Ref sig .tc := ⟨.hbm, 334, rfl⟩
abbrev main_c_34 : Ref sig .tc := ⟨.hbm, 335, rfl⟩
abbrev main_call4_cst : Ref sig .tc := ⟨.hbm, 336, rfl⟩
abbrev main_call4_v0 : Ref sig .tc := ⟨.hbm, 337, rfl⟩
abbrev main_call4_v1 : Ref sig .tc := ⟨.hbm, 338, rfl⟩
abbrev main_call4_cst_0 : Ref sig .tc := ⟨.hbm, 339, rfl⟩
abbrev main_call4_v2 : Ref sig .tc := ⟨.hbm, 340, rfl⟩
abbrev main_call4_v3 : Ref sig .tc := ⟨.hbm, 341, rfl⟩
abbrev main_call4_v4 : Ref sig .tc := ⟨.hbm, 342, rfl⟩
abbrev main_call4_v5 : Ref sig .tc := ⟨.hbm, 343, rfl⟩
abbrev main_call4_v6 : Ref sig .tc := ⟨.hbm, 344, rfl⟩
abbrev main_call4_v7 : Ref sig .tc := ⟨.hbm, 345, rfl⟩
abbrev main_call4_cst_1 : Ref sig .tc := ⟨.hbm, 346, rfl⟩
abbrev main_call4_v8 : Ref sig .tc := ⟨.hbm, 347, rfl⟩
abbrev main_call4_cst_2 : Ref sig .tc := ⟨.hbm, 348, rfl⟩
abbrev main_call4_v9 : Ref sig .tc := ⟨.hbm, 349, rfl⟩
abbrev main_call4_v10 : Ref sig .tc := ⟨.hbm, 350, rfl⟩
abbrev main_call4_v11 : Ref sig .tc := ⟨.hbm, 351, rfl⟩
abbrev main_call4_v12 : Ref sig .tc := ⟨.hbm, 352, rfl⟩
abbrev main_call4_cst_3 : Ref sig .tc := ⟨.hbm, 353, rfl⟩
abbrev main_call4_v13 : Ref sig .tc := ⟨.hbm, 354, rfl⟩
abbrev main_call4_cst_4 : Ref sig .tc := ⟨.hbm, 355, rfl⟩
abbrev main_call4_call0_v0 : Ref sig .tc := ⟨.hbm, 356, rfl⟩
abbrev main_call4_call0_v1 : Ref sig .tc := ⟨.hbm, 357, rfl⟩
abbrev main_v208 : Ref sig .tc := ⟨.hbm, 358, rfl⟩
abbrev main_v209 : Ref sig .tc := ⟨.hbm, 359, rfl⟩
abbrev main_v210 : Ref sig .tc := ⟨.hbm, 360, rfl⟩
abbrev main_cst_35 : Ref sig .tc := ⟨.hbm, 361, rfl⟩
abbrev main_v211 : Ref sig .tc := ⟨.hbm, 362, rfl⟩
abbrev main_v212 : Ref sig .tc := ⟨.hbm, 363, rfl⟩
abbrev main_v213 : Ref sig .tc := ⟨.hbm, 364, rfl⟩
abbrev main_v214 : Ref sig .tc := ⟨.hbm, 365, rfl⟩
abbrev main_v215 : Ref sig .tc := ⟨.hbm, 366, rfl⟩
abbrev main_v216 : Ref sig .tc := ⟨.hbm, 367, rfl⟩
abbrev main_v217 : Ref sig .tc := ⟨.hbm, 368, rfl⟩
abbrev main_v218 : Ref sig .tc := ⟨.hbm, 369, rfl⟩
abbrev main_v219 : Ref sig .tc := ⟨.hbm, 370, rfl⟩
abbrev main_v220 : Ref sig .tc := ⟨.hbm, 371, rfl⟩
abbrev main_v221 : Ref sig .tc := ⟨.hbm, 372, rfl⟩
abbrev main_v222 : Ref sig .tc := ⟨.hbm, 373, rfl⟩
abbrev main_v223 : Ref sig .tc := ⟨.hbm, 374, rfl⟩
abbrev main_v224 : Ref sig .tc := ⟨.hbm, 375, rfl⟩
abbrev main_v225 : Ref sig .tc := ⟨.hbm, 376, rfl⟩
abbrev main_v226 : Ref sig .tc := ⟨.hbm, 377, rfl⟩
abbrev main_call5_cst : Ref sig .tc := ⟨.hbm, 378, rfl⟩
abbrev main_call5_v0 : Ref sig .tc := ⟨.hbm, 379, rfl⟩
abbrev main_v227 : Ref sig .tc := ⟨.hbm, 380, rfl⟩
abbrev main_v228 : Ref sig .tc := ⟨.hbm, 381, rfl⟩
abbrev main_v229 : Ref sig .tc := ⟨.hbm, 382, rfl⟩
abbrev main_v230 : Ref sig .tc := ⟨.hbm, 383, rfl⟩
abbrev main_v231 : Ref sig .tc := ⟨.hbm, 384, rfl⟩
abbrev main_v232 : Ref sig .tc := ⟨.hbm, 385, rfl⟩
abbrev main_v233 : Ref sig .tc := ⟨.hbm, 386, rfl⟩
abbrev main_cst_36 : Ref sig .tc := ⟨.hbm, 387, rfl⟩
abbrev main_v234 : Ref sig .tc := ⟨.hbm, 388, rfl⟩
abbrev main_v235 : Ref sig .tc := ⟨.hbm, 389, rfl⟩
abbrev main_cst_37 : Ref sig .tc := ⟨.hbm, 390, rfl⟩
abbrev main_v236 : Ref sig .tc := ⟨.hbm, 391, rfl⟩
abbrev main_v237 : Ref sig .tc := ⟨.hbm, 392, rfl⟩
abbrev main_c_38 : Ref sig .tc := ⟨.hbm, 393, rfl⟩
abbrev main_call6_cst : Ref sig .tc := ⟨.hbm, 394, rfl⟩
abbrev main_call6_v0 : Ref sig .tc := ⟨.hbm, 395, rfl⟩
abbrev main_call6_v1 : Ref sig .tc := ⟨.hbm, 396, rfl⟩
abbrev main_call6_cst_0 : Ref sig .tc := ⟨.hbm, 397, rfl⟩
abbrev main_call6_v2 : Ref sig .tc := ⟨.hbm, 398, rfl⟩
abbrev main_call6_v3 : Ref sig .tc := ⟨.hbm, 399, rfl⟩
abbrev main_call6_v4 : Ref sig .tc := ⟨.hbm, 400, rfl⟩
abbrev main_call6_v5 : Ref sig .tc := ⟨.hbm, 401, rfl⟩
abbrev main_call6_v6 : Ref sig .tc := ⟨.hbm, 402, rfl⟩
abbrev main_call6_v7 : Ref sig .tc := ⟨.hbm, 403, rfl⟩
abbrev main_call6_cst_1 : Ref sig .tc := ⟨.hbm, 404, rfl⟩
abbrev main_call6_v8 : Ref sig .tc := ⟨.hbm, 405, rfl⟩
abbrev main_call6_cst_2 : Ref sig .tc := ⟨.hbm, 406, rfl⟩
abbrev main_call6_v9 : Ref sig .tc := ⟨.hbm, 407, rfl⟩
abbrev main_call6_v10 : Ref sig .tc := ⟨.hbm, 408, rfl⟩
abbrev main_call6_v11 : Ref sig .tc := ⟨.hbm, 409, rfl⟩
abbrev main_call6_v12 : Ref sig .tc := ⟨.hbm, 410, rfl⟩
abbrev main_call6_cst_3 : Ref sig .tc := ⟨.hbm, 411, rfl⟩
abbrev main_call6_v13 : Ref sig .tc := ⟨.hbm, 412, rfl⟩
abbrev main_call6_cst_4 : Ref sig .tc := ⟨.hbm, 413, rfl⟩
abbrev main_call6_call0_v0 : Ref sig .tc := ⟨.hbm, 414, rfl⟩
abbrev main_call6_call0_v1 : Ref sig .tc := ⟨.hbm, 415, rfl⟩
abbrev main_v238 : Ref sig .tc := ⟨.hbm, 416, rfl⟩
abbrev main_v239 : Ref sig .tc := ⟨.hbm, 417, rfl⟩
abbrev main_v240 : Ref sig .tc := ⟨.hbm, 418, rfl⟩
abbrev main_cst_39 : Ref sig .tc := ⟨.hbm, 419, rfl⟩
abbrev main_v241 : Ref sig .tc := ⟨.hbm, 420, rfl⟩
abbrev main_v242 : Ref sig .tc := ⟨.hbm, 421, rfl⟩
abbrev main_v243 : Ref sig .tc := ⟨.hbm, 422, rfl⟩
abbrev main_v244 : Ref sig .tc := ⟨.hbm, 423, rfl⟩
abbrev main_v245 : Ref sig .tc := ⟨.hbm, 424, rfl⟩
abbrev main_v246 : Ref sig .tc := ⟨.hbm, 425, rfl⟩
abbrev main_v247 : Ref sig .tc := ⟨.hbm, 426, rfl⟩
abbrev main_v248 : Ref sig .tc := ⟨.hbm, 427, rfl⟩
abbrev main_v249 : Ref sig .tc := ⟨.hbm, 428, rfl⟩
abbrev main_v250 : Ref sig .tc := ⟨.hbm, 429, rfl⟩
abbrev main_v251 : Ref sig .tc := ⟨.hbm, 430, rfl⟩
abbrev main_v252 : Ref sig .tc := ⟨.hbm, 431, rfl⟩
abbrev main_v253 : Ref sig .tc := ⟨.hbm, 432, rfl⟩
abbrev main_v254 : Ref sig .tc := ⟨.hbm, 433, rfl⟩
abbrev main_v255 : Ref sig .tc := ⟨.hbm, 434, rfl⟩
abbrev main_v256 : Ref sig .tc := ⟨.hbm, 435, rfl⟩
abbrev main_v257 : Ref sig .tc := ⟨.hbm, 436, rfl⟩
abbrev main_cst_40 : Ref sig .tc := ⟨.hbm, 437, rfl⟩
abbrev main_v258 : Ref sig .tc := ⟨.hbm, 438, rfl⟩
abbrev main_v259 : Ref sig .tc := ⟨.hbm, 439, rfl⟩
abbrev main_cst_41 : Ref sig .tc := ⟨.hbm, 440, rfl⟩
abbrev main_v260 : Ref sig .tc := ⟨.hbm, 441, rfl⟩
abbrev main_cst_42 : Ref sig .tc := ⟨.hbm, 442, rfl⟩
abbrev main_v261 : Ref sig .tc := ⟨.hbm, 443, rfl⟩
abbrev main_v262 : Ref sig .tc := ⟨.hbm, 444, rfl⟩
abbrev main_v263 : Ref sig .tc := ⟨.hbm, 445, rfl⟩
abbrev main_v264 : Ref sig .tc := ⟨.hbm, 446, rfl⟩
abbrev main_v265 : Ref sig .tc := ⟨.hbm, 447, rfl⟩
abbrev main_v266 : Ref sig .tc := ⟨.hbm, 448, rfl⟩
abbrev main_cst_43 : Ref sig .tc := ⟨.hbm, 449, rfl⟩
abbrev main_v267 : Ref sig .tc := ⟨.hbm, 450, rfl⟩
abbrev main_v268 : Ref sig .tc := ⟨.hbm, 451, rfl⟩
abbrev main_v269 : Ref sig .tc := ⟨.hbm, 452, rfl⟩
abbrev main_v270 : Ref sig .tc := ⟨.hbm, 453, rfl⟩
abbrev main_cst_44 : Ref sig .tc := ⟨.hbm, 454, rfl⟩
abbrev main_v271 : Ref sig .tc := ⟨.hbm, 455, rfl⟩
abbrev main_v272 : Ref sig .tc := ⟨.hbm, 456, rfl⟩
abbrev main_cst_45 : Ref sig .tc := ⟨.hbm, 457, rfl⟩
abbrev main_v273 : Ref sig .tc := ⟨.hbm, 458, rfl⟩
abbrev main_v274 : Ref sig .tc := ⟨.hbm, 459, rfl⟩
abbrev main_v275 : Ref sig .tc := ⟨.hbm, 460, rfl⟩
abbrev main_v276 : Ref sig .tc := ⟨.hbm, 461, rfl⟩
abbrev main_v277 : Ref sig .tc := ⟨.hbm, 462, rfl⟩
abbrev main_v278 : Ref sig .tc := ⟨.hbm, 463, rfl⟩
abbrev main_v279 : Ref sig .tc := ⟨.hbm, 464, rfl⟩
abbrev main_v280 : Ref sig .tc := ⟨.hbm, 465, rfl⟩
abbrev main_v281 : Ref sig .tc := ⟨.hbm, 466, rfl⟩
abbrev main_v282 : Ref sig .tc := ⟨.hbm, 467, rfl⟩
abbrev main_v283 : Ref sig .tc := ⟨.hbm, 468, rfl⟩
abbrev main_v284 : Ref sig .tc := ⟨.hbm, 469, rfl⟩
abbrev main_v285 : Ref sig .tc := ⟨.hbm, 470, rfl⟩
abbrev main_v286 : Ref sig .tc := ⟨.hbm, 471, rfl⟩
abbrev main_v287 : Ref sig .tc := ⟨.hbm, 472, rfl⟩
abbrev main_v288 : Ref sig .tc := ⟨.hbm, 473, rfl⟩
abbrev main_v289 : Ref sig .tc := ⟨.hbm, 474, rfl⟩
abbrev main_v290 : Ref sig .tc := ⟨.hbm, 475, rfl⟩
abbrev main_v291 : Ref sig .tc := ⟨.hbm, 476, rfl⟩
abbrev main_v292 : Ref sig .tc := ⟨.hbm, 477, rfl⟩
abbrev main_v293 : Ref sig .tc := ⟨.hbm, 478, rfl⟩
abbrev main_v294 : Ref sig .tc := ⟨.hbm, 479, rfl⟩
abbrev main_v295 : Ref sig .tc := ⟨.hbm, 480, rfl⟩
abbrev main_v296 : Ref sig .tc := ⟨.hbm, 481, rfl⟩
abbrev main_cst_46 : Ref sig .tc := ⟨.hbm, 482, rfl⟩
abbrev main_v297 : Ref sig .tc := ⟨.hbm, 483, rfl⟩
abbrev main_v298 : Ref sig .tc := ⟨.hbm, 484, rfl⟩
abbrev main_cst_47 : Ref sig .tc := ⟨.hbm, 485, rfl⟩
abbrev main_v299 : Ref sig .tc := ⟨.hbm, 486, rfl⟩
abbrev main_v300 : Ref sig .tc := ⟨.hbm, 487, rfl⟩
abbrev main_v301 : Ref sig .tc := ⟨.hbm, 488, rfl⟩
abbrev main_v302 : Ref sig .tc := ⟨.hbm, 489, rfl⟩
abbrev main_v303 : Ref sig .tc := ⟨.hbm, 490, rfl⟩
abbrev main_cst_48 : Ref sig .tc := ⟨.hbm, 491, rfl⟩
abbrev main_v304 : Ref sig .tc := ⟨.hbm, 492, rfl⟩
abbrev main_v305 : Ref sig .tc := ⟨.hbm, 493, rfl⟩
abbrev main_cst_49 : Ref sig .tc := ⟨.hbm, 494, rfl⟩
abbrev main_v306 : Ref sig .tc := ⟨.hbm, 495, rfl⟩
abbrev main_v307 : Ref sig .tc := ⟨.hbm, 496, rfl⟩
abbrev main_v308 : Ref sig .tc := ⟨.hbm, 497, rfl⟩
abbrev main_v309 : Ref sig .tc := ⟨.hbm, 498, rfl⟩
abbrev main_v310 : Ref sig .tc := ⟨.hbm, 499, rfl⟩
abbrev main_cst_50 : Ref sig .tc := ⟨.hbm, 500, rfl⟩
abbrev main_v311 : Ref sig .tc := ⟨.hbm, 501, rfl⟩
abbrev main_v312 : Ref sig .tc := ⟨.hbm, 502, rfl⟩
abbrev main_v313 : Ref sig .tc := ⟨.hbm, 503, rfl⟩
abbrev main_v314 : Ref sig .tc := ⟨.hbm, 504, rfl⟩
abbrev main_v315 : Ref sig .tc := ⟨.hbm, 505, rfl⟩
abbrev main_cst_51 : Ref sig .tc := ⟨.hbm, 506, rfl⟩
abbrev main_v316 : Ref sig .tc := ⟨.hbm, 507, rfl⟩
abbrev main_v317 : Ref sig .tc := ⟨.hbm, 508, rfl⟩
abbrev main_cst_52 : Ref sig .tc := ⟨.hbm, 509, rfl⟩
abbrev main_v318 : Ref sig .tc := ⟨.hbm, 510, rfl⟩
abbrev main_v319 : Ref sig .tc := ⟨.hbm, 511, rfl⟩
abbrev main_c_53 : Ref sig .tc := ⟨.hbm, 512, rfl⟩
abbrev main_call7_cst : Ref sig .tc := ⟨.hbm, 513, rfl⟩
abbrev main_call7_v0 : Ref sig .tc := ⟨.hbm, 514, rfl⟩
abbrev main_call7_v1 : Ref sig .tc := ⟨.hbm, 515, rfl⟩
abbrev main_call7_cst_0 : Ref sig .tc := ⟨.hbm, 516, rfl⟩
abbrev main_call7_v2 : Ref sig .tc := ⟨.hbm, 517, rfl⟩
abbrev main_call7_v3 : Ref sig .tc := ⟨.hbm, 518, rfl⟩
abbrev main_call7_v4 : Ref sig .tc := ⟨.hbm, 519, rfl⟩
abbrev main_call7_v5 : Ref sig .tc := ⟨.hbm, 520, rfl⟩
abbrev main_call7_v6 : Ref sig .tc := ⟨.hbm, 521, rfl⟩
abbrev main_call7_v7 : Ref sig .tc := ⟨.hbm, 522, rfl⟩
abbrev main_call7_cst_1 : Ref sig .tc := ⟨.hbm, 523, rfl⟩
abbrev main_call7_v8 : Ref sig .tc := ⟨.hbm, 524, rfl⟩
abbrev main_call7_cst_2 : Ref sig .tc := ⟨.hbm, 525, rfl⟩
abbrev main_call7_v9 : Ref sig .tc := ⟨.hbm, 526, rfl⟩
abbrev main_call7_v10 : Ref sig .tc := ⟨.hbm, 527, rfl⟩
abbrev main_call7_v11 : Ref sig .tc := ⟨.hbm, 528, rfl⟩
abbrev main_call7_v12 : Ref sig .tc := ⟨.hbm, 529, rfl⟩
abbrev main_call7_cst_3 : Ref sig .tc := ⟨.hbm, 530, rfl⟩
abbrev main_call7_v13 : Ref sig .tc := ⟨.hbm, 531, rfl⟩
abbrev main_call7_cst_4 : Ref sig .tc := ⟨.hbm, 532, rfl⟩
abbrev main_call7_call0_v0 : Ref sig .tc := ⟨.hbm, 533, rfl⟩
abbrev main_call7_call0_v1 : Ref sig .tc := ⟨.hbm, 534, rfl⟩
abbrev main_v320 : Ref sig .tc := ⟨.hbm, 535, rfl⟩
abbrev main_v321 : Ref sig .tc := ⟨.hbm, 536, rfl⟩
abbrev main_v322 : Ref sig .tc := ⟨.hbm, 537, rfl⟩
abbrev main_cst_54 : Ref sig .tc := ⟨.hbm, 538, rfl⟩
abbrev main_v323 : Ref sig .tc := ⟨.hbm, 539, rfl⟩
abbrev main_v324 : Ref sig .tc := ⟨.hbm, 540, rfl⟩
abbrev main_v325 : Ref sig .tc := ⟨.hbm, 541, rfl⟩
abbrev main_v326 : Ref sig .tc := ⟨.hbm, 542, rfl⟩
abbrev main_v327 : Ref sig .tc := ⟨.hbm, 543, rfl⟩
abbrev main_v328 : Ref sig .tc := ⟨.hbm, 544, rfl⟩
abbrev main_v329 : Ref sig .tc := ⟨.hbm, 545, rfl⟩
abbrev main_v330 : Ref sig .tc := ⟨.hbm, 546, rfl⟩
abbrev main_v331 : Ref sig .tc := ⟨.hbm, 547, rfl⟩
abbrev main_v332 : Ref sig .tc := ⟨.hbm, 548, rfl⟩
abbrev main_v333 : Ref sig .tc := ⟨.hbm, 549, rfl⟩
abbrev main_v334 : Ref sig .tc := ⟨.hbm, 550, rfl⟩
abbrev main_v335 : Ref sig .tc := ⟨.hbm, 551, rfl⟩
abbrev main_v336 : Ref sig .tc := ⟨.hbm, 552, rfl⟩
abbrev main_v337 : Ref sig .tc := ⟨.hbm, 553, rfl⟩
abbrev main_v338 : Ref sig .tc := ⟨.hbm, 554, rfl⟩
abbrev main_call8_cst : Ref sig .tc := ⟨.hbm, 555, rfl⟩
abbrev main_call8_v0 : Ref sig .tc := ⟨.hbm, 556, rfl⟩
abbrev main_v339 : Ref sig .tc := ⟨.hbm, 557, rfl⟩
abbrev main_v340 : Ref sig .tc := ⟨.hbm, 558, rfl⟩
abbrev main_v341 : Ref sig .tc := ⟨.hbm, 559, rfl⟩
abbrev main_v342 : Ref sig .tc := ⟨.hbm, 560, rfl⟩
abbrev main_v343 : Ref sig .tc := ⟨.hbm, 561, rfl⟩
abbrev main_v344 : Ref sig .tc := ⟨.hbm, 562, rfl⟩
abbrev main_v345 : Ref sig .tc := ⟨.hbm, 563, rfl⟩
abbrev main_v346 : Ref sig .tc := ⟨.hbm, 564, rfl⟩
abbrev main_v347 : Ref sig .tc := ⟨.hbm, 565, rfl⟩
abbrev main_v348 : Ref sig .tc := ⟨.hbm, 566, rfl⟩
abbrev main_v349 : Ref sig .tc := ⟨.hbm, 567, rfl⟩
abbrev main_v350 : Ref sig .tc := ⟨.hbm, 568, rfl⟩
abbrev main_call9_cst : Ref sig .tc := ⟨.hbm, 569, rfl⟩
abbrev main_call9_v0 : Ref sig .tc := ⟨.hbm, 570, rfl⟩
abbrev main_v351 : Ref sig .tc := ⟨.hbm, 571, rfl⟩
abbrev main_v352 : Ref sig .tc := ⟨.hbm, 572, rfl⟩
abbrev main_v353 : Ref sig .tc := ⟨.hbm, 573, rfl⟩
abbrev main_v354 : Ref sig .tc := ⟨.hbm, 574, rfl⟩
abbrev main_v355 : Ref sig .tc := ⟨.hbm, 575, rfl⟩
abbrev main_cst_55 : Ref sig .tc := ⟨.hbm, 576, rfl⟩
abbrev main_v356 : Ref sig .tc := ⟨.hbm, 577, rfl⟩

abbrev nD : Nat := 1
abbrev τ : Topo := Topo.v7x

variable {F : FTy → Type} [FloatOps F]

class Facts₀ : Prop where
  transposes_S64x64_S64x64_1_0 : S64x64.Transposes [1, 0] S64x64
  bcast_S64_S1x64_1 : S64.BroadcastsInDim S1x64 (![1] : Fin 1 → Fin S1x64.rank)
  bcast_S1x64_S10x64_0_1 : S1x64.BroadcastsInDim S10x64 (![0, 1] : Fin 2 → Fin S10x64.rank)
  reducesTo_S10x64_S10_d1 : S10x64.ReducesTo [1] S10
  h_S_ : 0 < S_.numel
  bcast_S10_S10x1_0 : S10.BroadcastsInDim S10x1 (![0] : Fin 1 → Fin S10x1.rank)
  bcast_S_S10x1 : S_.BroadcastsInDim S10x1 (![] : Fin 0 → Fin S10x1.rank)
  bcast_S10x1_S10x64_0_1 : S10x1.BroadcastsInDim S10x64 (![0, 1] : Fin 2 → Fin S10x64.rank)
  bcast_S_S10x10 : S_.BroadcastsInDim S10x10 (![] : Fin 0 → Fin S10x10.rank)
  reducesTo_S10x10_S10_d0 : S10x10.ReducesTo [0] S10
  bcast_S_S10 : S_.BroadcastsInDim S10 (![] : Fin 0 → Fin S10.rank)
  bcast_S10_S1x10_1 : S10.BroadcastsInDim S1x10 (![1] : Fin 1 → Fin S1x10.rank)
  bcast_S1x10_S10x10_0_1 : S1x10.BroadcastsInDim S10x10 (![0, 1] : Fin 2 → Fin S10x10.rank)
  reducesTo_S10x10_S10_d1 : S10x10.ReducesTo [1] S10
  bcast_S10x1_S10x10_0_1 : S10x1.BroadcastsInDim S10x10 (![0, 1] : Fin 2 → Fin S10x10.rank)
  transposes_S192x64_S64x192_1_0 : S192x64.Transposes [1, 0] S64x192
  bcast_S192_S1x192_1 : S192.BroadcastsInDim S1x192 (![1] : Fin 1 → Fin S1x192.rank)
  bcast_S1x192_S10x192_0_1 : S1x192.BroadcastsInDim S10x192 (![0, 1] : Fin 2 → Fin S10x192.rank)
  slices_S10x192_S10x64_0_0 : S10x192.Slices ![0, 0] S10x64
  slices_S10x192_S10x64_0_64 : S10x192.Slices ![0, 64] S10x64
  slices_S10x192_S10x64_0_128 : S10x192.Slices ![0, 128] S10x64
  bcast_S_S10x64 : S_.BroadcastsInDim S10x64 (![] : Fin 0 → Fin S10x64.rank)
  transposes_S128x64_S64x128_1_0 : S128x64.Transposes [1, 0] S64x128
  bcast_S128_S1x128_1 : S128.BroadcastsInDim S1x128 (![1] : Fin 1 → Fin S1x128.rank)
  bcast_S1x128_S10x128_0_1 : S1x128.BroadcastsInDim S10x128 (![0, 1] : Fin 2 → Fin S10x128.rank)
  bcast_S_S10x128 : S_.BroadcastsInDim S10x128 (![] : Fin 0 → Fin S10x128.rank)
  transposes_S64x128_S128x64_1_0 : S64x128.Transposes [1, 0] S128x64
  transposes_S10x4096x64_S4096x10x64_1_0_2 : S10x4096x64.Transposes [1, 0, 2] S4096x10x64
  bcast_S4096x64_S4096x1x64_0_2 : S4096x64.BroadcastsInDim S4096x1x64 (![0, 2] : Fin 2 → Fin S4096x1x64.rank)
  bcast_S4096x1x64_S4096x10x64_0_1_2 : S4096x1x64.BroadcastsInDim S4096x10x64 (![0, 1, 2] : Fin 3 → Fin S4096x10x64.rank)
  bcast_S_S4096x10x64 : S_.BroadcastsInDim S4096x10x64 (![] : Fin 0 → Fin S4096x10x64.rank)
  reducesTo_S4096x10x64_S4096x64_d1 : S4096x10x64.ReducesTo [1] S4096x64
  dot_S10x64_S64x64_S10x64_1_0_0_1_n_n_wf : DotDims.WF S10x64 S64x64 S10x64 [1] [0] [0] [1] [] []
  dot_S10x64_S10x64_S10x10_1_1_0_0_n_n_wf : DotDims.WF S10x64 S10x64 S10x10 [1] [1] [0] [0] [] []
  dot_S10x10_S10x64_S10x64_1_0_0_1_n_n_wf : DotDims.WF S10x10 S10x64 S10x64 [1] [0] [0] [1] [] []
  dot_S10x64_S64x192_S10x192_1_0_0_1_n_n_wf : DotDims.WF S10x64 S64x192 S10x192 [1] [0] [0] [1] [] []
  dot_S10x64_S64x128_S10x128_1_0_0_1_n_n_wf : DotDims.WF S10x64 S64x128 S10x128 [1] [0] [0] [1] [] []
  dot_S10x128_S128x64_S10x64_1_0_0_1_n_n_wf : DotDims.WF S10x128 S128x64 S10x64 [1] [0] [0] [1] [] []
  dot_S10x64_S4096x64x64_S10x4096x64_1_2_0_01_n_n_wf : DotDims.WF S10x64 S4096x64x64 S10x4096x64 [1] [2] [0] [0, 1] [] []
  dot_S4096x10x64_S4096x64x64_S4096x10x64_2_2_1_1_0_0_wf : DotDims.WF S4096x10x64 S4096x64x64 S4096x10x64 [2] [2] [1] [1] [0] [0]

variable [Facts₀]

def dot_S10x64_S64x64_S10x64_1_0_0_1_n_n : DotDims S10x64 S64x64 S10x64 where
  lhsContracting := [1]
  rhsContracting := [0]
  lhsNonContracting := [0]
  rhsNonContracting := [1]
  lhsBatch := []
  rhsBatch := []
  wf := dot_S10x64_S64x64_S10x64_1_0_0_1_n_n_wf
def dot_S10x64_S10x64_S10x10_1_1_0_0_n_n : DotDims S10x64 S10x64 S10x10 where
  lhsContracting := [1]
  rhsContracting := [1]
  lhsNonContracting := [0]
  rhsNonContracting := [0]
  lhsBatch := []
  rhsBatch := []
  wf := dot_S10x64_S10x64_S10x10_1_1_0_0_n_n_wf
def dot_S10x10_S10x64_S10x64_1_0_0_1_n_n : DotDims S10x10 S10x64 S10x64 where
  lhsContracting := [1]
  rhsContracting := [0]
  lhsNonContracting := [0]
  rhsNonContracting := [1]
  lhsBatch := []
  rhsBatch := []
  wf := dot_S10x10_S10x64_S10x64_1_0_0_1_n_n_wf
def dot_S10x64_S64x192_S10x192_1_0_0_1_n_n : DotDims S10x64 S64x192 S10x192 where
  lhsContracting := [1]
  rhsContracting := [0]
  lhsNonContracting := [0]
  rhsNonContracting := [1]
  lhsBatch := []
  rhsBatch := []
  wf := dot_S10x64_S64x192_S10x192_1_0_0_1_n_n_wf
def dot_S10x64_S64x128_S10x128_1_0_0_1_n_n : DotDims S10x64 S64x128 S10x128 where
  lhsContracting := [1]
  rhsContracting := [0]
  lhsNonContracting := [0]
  rhsNonContracting := [1]
  lhsBatch := []
  rhsBatch := []
  wf := dot_S10x64_S64x128_S10x128_1_0_0_1_n_n_wf
def dot_S10x128_S128x64_S10x64_1_0_0_1_n_n : DotDims S10x128 S128x64 S10x64 where
  lhsContracting := [1]
  rhsContracting := [0]
  lhsNonContracting := [0]
  rhsNonContracting := [1]
  lhsBatch := []
  rhsBatch := []
  wf := dot_S10x128_S128x64_S10x64_1_0_0_1_n_n_wf
def dot_S10x64_S4096x64x64_S10x4096x64_1_2_0_01_n_n : DotDims S10x64 S4096x64x64 S10x4096x64 where
  lhsContracting := [1]
  rhsContracting := [2]
  lhsNonContracting := [0]
  rhsNonContracting := [0, 1]
  lhsBatch := []
  rhsBatch := []
  wf := dot_S10x64_S4096x64x64_S10x4096x64_1_2_0_01_n_n_wf
def dot_S4096x10x64_S4096x64x64_S4096x10x64_2_2_1_1_0_0 : DotDims S4096x10x64 S4096x64x64 S4096x10x64 where
  lhsContracting := [2]
  rhsContracting := [2]
  lhsNonContracting := [1]
  rhsNonContracting := [1]
  lhsBatch := [0]
  rhsBatch := [0]
  wf := dot_S4096x10x64_S4096x64x64_S4096x10x64_2_2_1_1_0_0_wf

class Facts : Prop extends Facts₀ where

variable [Facts]
-- ==== Proof.Spec.lean ====
/-
  The per-slot two-layer map with a maximum over the clusters, as ONE function of its five arrays, index by index, on the
  extended reals.

  For slot `s`, cluster `n` and hidden unit `k` the hidden activation is
      hidden s k n = max (Σ_l wa[s,k,l] · cc[n,l] + ba[s,k]) 0,
  the score of output unit `i` is
      score s i n = Σ_k wb[s,i,k] · hidden s k n + bb[s,i],
  and the result at (s, i) is the maximum of `score s i n` over the ten clusters, folded from −∞.
  The two float literals (the zero of the rectifier, the −∞ the maximum starts from) are kept as their words: both programs
  spell them with the same words, so they are never evaluated.
-/
import Idealize.ShloMosaic.PureOps.Ideal
import Idealize.ShloMosaic.Lib.ValueIdx

noncomputable section

namespace Cert.SlotMlp

open Idealize.ShloMosaic Idealize.ShloMosaic.ValueIdx

/-- The per-slot weight stacks, `[4096, 64, 64]`. -/
abbrev SW : Shape := ⟨3, ![4096, 64, 64]⟩
/-- The per-slot biases and the result, `[4096, 64]`. -/
abbrev SB : Shape := ⟨2, ![4096, 64]⟩
/-- The cluster centres, `[10, 64]`. -/
abbrev SC : Shape := ⟨2, ![10, 64]⟩

/-- The rectifier's zero, as the word both programs spell. -/
abbrev zeroWord : EReal := Ideal.ofBits .f32 0x00000000#32
/-- The value the maximum over the clusters starts from (−∞), as the word both programs spell. -/
abbrev negInfWord : EReal := Ideal.ofBits .f32 0xFF800000#32

/-- Hidden unit `k` of slot `s` at cluster `n`: the rectified affine image of the cluster's centre. -/
def hidden (wa : SW.Idx → EReal) (ba : SB.Idx → EReal) (cc : SC.Idx → EReal) (s : Fin 4096) (k : Fin 64) (n : Fin 10) : EReal :=
  max ((∑ l : Fin 64, wa (ix3 s k l) * cc (ix2 n l)) + ba (ix2 s k)) zeroWord

/-- Output unit `i` of slot `s` at cluster `n`: the affine image of the hidden layer. -/
def score (wa : SW.Idx → EReal) (ba : SB.Idx → EReal) (wb : SW.Idx → EReal) (bb : SB.Idx → EReal) (cc : SC.Idx → EReal)
    (s : Fin 4096) (i : Fin 64) (n : Fin 10) : EReal :=
  (∑ k : Fin 64, wb (ix3 s i k) * hidden wa ba cc s k n) + bb (ix2 s i)

/-- The result array: at (s, i) the largest score of output unit `i` of slot `s` over the ten clusters. -/
def pooled (wa : SW.Idx → EReal) (ba : SB.Idx → EReal) (wb : SW.Idx → EReal) (bb : SB.Idx → EReal) (cc : SC.Idx → EReal) :
    SB.Idx → EReal :=
  fun j => (Finset.univ : Finset (Fin 10)).fold max negInfWord (fun n => score wa ba wb bb cc (j 0) (j 1) n)

theorem pooled_ix2 (wa : SW.Idx → EReal) (ba : SB.Idx → EReal) (wb : SW.Idx → EReal) (bb : SB.Idx → EReal) (cc : SC.Idx → EReal)
    (s : Fin 4096) (i : Fin 64) :
    pooled wa ba wb bb cc (ix2 s i) = (Finset.univ : Finset (Fin 10)).fold max negInfWord (fun n => score wa ba wb bb cc s i n) := rfl

end Cert.SlotMlp

end
-- ==== Proof.KernelPayload.lean ====
/-
  The kernel's stored block at one index, on the extended reals.

  The body loads five blocks — the first-layer weights wa [128,64,64], the second-layer weights wb [128,64,64], the two
  biases ba, bb [128,64] and the cluster centres cc [10,64] — and stores ONE value of them. Read at row p and output
  unit q of the block that value is
      max over the ten clusters n, from −∞, of   Σ_k wb[p,q,k] · max(Σ_l wa[p,k,l] · cc[n,l] + ba[p,k], 0) + bb[p,q].
  The format changes are the identity on the extended reals; the centres are repeated over the 128 rows and each bias
  over the ten clusters, so those two steps read one entry; each product is a sum over its one contracted coordinate;
  the last step is a fold of max along the cluster axis. One lemma for each of these steps, each at explicit
  coordinates, then their composition.
-/
import proofs.«154116_j40183714021834_2_alg».proof.Proof.Gen.KernelIdeal.Skeleton
import proofs.«154116_j40183714021834_2_alg».proof.Proof.Spec
import Idealize.ShloMosaic.PureOps.Ideal.Laws
import Idealize.ShloMosaic.Lib.ValueIdx
import Idealize.ShloMosaic.Lib.ValueLayout

noncomputable section

namespace Cert.KernelIdeal.Payload

open Idealize.ShloMosaic Idealize.ShloMosaic.ValueIdx Cert.KernelIdeal

section Layout
variable {α : Type}

/-- The centres [10,64] viewed as [1,10,64] and repeated along a new leading axis of length 128: at (p, n, l) the
    entry (n, l), whatever the slot p. -/
theorem centres_repeat_apply (x : (⟨2, ![10, 64]⟩ : Shape).Idx → α)
    (h1 : (⟨2, ![10, 64]⟩ : Shape).ShapeCasts ⟨3, ![1, 10, 64]⟩)
    (hb : (⟨3, ![1, 10, 64]⟩ : Shape).Broadcasts ⟨3, ![128, 10, 64]⟩) (p : Fin 128) (n : Fin 10) (l : Fin 64) :
    broadcastTo ⟨3, ![128, 10, 64]⟩ (shapeCast ⟨3, ![1, 10, 64]⟩ x h1) hb (ix3 p n l) = x (ix2 n l) := by
  refine (broadcastTo_apply _ hb (ix3 p n l) (ix3 (0 : Fin 1) n l) fun ax => ?_).trans
    (shapeCast_ab_1ab_apply x h1 0 n l)
  match ax with
  | ⟨0, _⟩ => rfl
  | ⟨1, _⟩ => rfl
  | ⟨2, _⟩ => rfl

/-- A bias [128,64] given a trailing unit axis and repeated along it ten times: at (p, k, n) the entry (p, k),
    whatever the cluster n. -/
theorem bias_repeat_apply (x : (⟨2, ![128, 64]⟩ : Shape).Idx → α)
    (h1 : (⟨2, ![128, 64]⟩ : Shape).ShapeCasts ⟨3, ![128, 64, 1]⟩)
    (hb : (⟨3, ![128, 64, 1]⟩ : Shape).Broadcasts ⟨3, ![128, 64, 10]⟩) (p : Fin 128) (k : Fin 64) (n : Fin 10) :
    broadcastTo ⟨3, ![128, 64, 10]⟩ (shapeCast ⟨3, ![128, 64, 1]⟩ x h1) hb (ix3 p k n) = x (ix2 p k) := by
  refine (broadcastTo_apply _ hb (ix3 p k n) (ix3 p k (0 : Fin 1)) fun ax => ?_).trans
    (shapeCast_apply x h1 _ _ (by
      rw [Shape.rowMajor_val_three, Shape.rowMajor_val_two]
      show p.val * 64 + k.val = (p.val * 64 + k.val) * 1 + 0
      omega))
  match ax with
  | ⟨0, _⟩ => rfl
  | ⟨1, _⟩ => rfl
  | ⟨2, _⟩ => rfl

end Layout

section Contractions
variable {φ₁ φ₂ : FTy}

/-- The first layer's product, slot by slot: the weights [128,64,64] against the repeated centres [128,10,64], both
    contracted on their last axis, read at (p, k, n) — the sum over l of weight (p, k, l) times centre (p, n, l). -/
theorem layer1_apply
    (w : DotDims.WF ⟨3, ![128, 64, 64]⟩ ⟨3, ![128, 10, 64]⟩ ⟨3, ![128, 64, 10]⟩ [2] [2] [1] [1] [0] [0])
    (prec : Option ContractPrecision) (A : FVec Ideal ⟨3, ![128, 64, 64]⟩ φ₁) (B : FVec Ideal ⟨3, ![128, 10, 64]⟩ φ₂)
    (p : Fin 128) (k : Fin 64) (n : Fin 10) :
    matmul (⟨[2], [2], [1], [1], [0], [0], w⟩ : DotDims _ _ _) prec A B
        (constant (F := Ideal) ⟨3, ![128, 64, 10]⟩ .f32 0x00000000#32) (ix3 p k n)
      = ∑ l : Fin 64, A (ix3 p k l) * B (ix3 p n l) := by
  show FloatOps.matmul _ prec A B _ (ix3 p k n) = _
  rw [Ideal.matmul_constant_zero_apply,
    ← Equiv.sum_comp (contrEquiv1 (⟨[2], [2], [1], [1], [0], [0], w⟩ : DotDims _ _ _) 64 rfl rfl).symm]
  refine Finset.sum_congr rfl fun c _ => ?_
  have c3 := contrEquiv1_symm_val
    (⟨[2], [2], [1], [1], [0], [0], w⟩ : DotDims ⟨3, ![128, 64, 64]⟩ ⟨3, ![128, 10, 64]⟩ ⟨3, ![128, 64, 10]⟩) 64 rfl rfl c
  have l3 : (⟨[2], [2], [1], [1], [0], [0], w⟩ : DotDims ⟨3, ![128, 64, 64]⟩ ⟨3, ![128, 10, 64]⟩ ⟨3, ![128, 64, 10]⟩).lhsIdx
      (ix3 p k n) ((contrEquiv1 _ 64 rfl rfl).symm c) = ix3 p k c := by
    funext ax; apply Fin.ext
    match ax with
    | ⟨0, _⟩ => simp [DotDims.lhsIdx]; rfl
    | ⟨1, _⟩ => simp [DotDims.lhsIdx]; rfl
    | ⟨2, _⟩ => simp [DotDims.lhsIdx]; exact c3
  have r3 : (⟨[2], [2], [1], [1], [0], [0], w⟩ : DotDims ⟨3, ![128, 64, 64]⟩ ⟨3, ![128, 10, 64]⟩ ⟨3, ![128, 64, 10]⟩).rhsIdx
      (ix3 p k n) ((contrEquiv1 _ 64 rfl rfl).symm c) = ix3 p n c := by
    funext ax; apply Fin.ext
    match ax with
    | ⟨0, _⟩ => simp [DotDims.rhsIdx]; rfl
    | ⟨1, _⟩ => simp [DotDims.rhsIdx]; rfl
    | ⟨2, _⟩ => simp [DotDims.rhsIdx]; exact c3
  rw [l3, r3]

/-- The second layer's product, slot by slot: the weights [128,64,64] contracted on their last axis against the hidden
    layer [128,64,10] on its middle axis, read at (p, q, n) — the sum over k of weight (p, q, k) times hidden (p, k, n). -/
theorem layer2_apply
    (w : DotDims.WF ⟨3, ![128, 64, 64]⟩ ⟨3, ![128, 64, 10]⟩ ⟨3, ![128, 64, 10]⟩ [2] [1] [1] [2] [0] [0])
    (prec : Option ContractPrecision) (A : FVec Ideal ⟨3, ![128, 64, 64]⟩ φ₁) (B : FVec Ideal ⟨3, ![128, 64, 10]⟩ φ₂)
    (p : Fin 128) (q : Fin 64) (n : Fin 10) :
    matmul (⟨[2], [1], [1], [2], [0], [0], w⟩ : DotDims _ _ _) prec A B
        (constant (F := Ideal) ⟨3, ![128, 64, 10]⟩ .f32 0x00000000#32) (ix3 p q n)
      = ∑ k : Fin 64, A (ix3 p q k) * B (ix3 p k n) := by
  show FloatOps.matmul _ prec A B _ (ix3 p q n) = _
  rw [Ideal.matmul_constant_zero_apply,
    ← Equiv.sum_comp (contrEquiv1 (⟨[2], [1], [1], [2], [0], [0], w⟩ : DotDims _ _ _) 64 rfl rfl).symm]
  refine Finset.sum_congr rfl fun c _ => ?_
  have c3 := contrEquiv1_symm_val
    (⟨[2], [1], [1], [2], [0], [0], w⟩ : DotDims ⟨3, ![128, 64, 64]⟩ ⟨3, ![128, 64, 10]⟩ ⟨3, ![128, 64, 10]⟩) 64 rfl rfl c
  have l3 : (⟨[2], [1], [1], [2], [0], [0], w⟩ : DotDims ⟨3, ![128, 64, 64]⟩ ⟨3, ![128, 64, 10]⟩ ⟨3, ![128, 64, 10]⟩).lhsIdx
      (ix3 p q n) ((contrEquiv1 _ 64 rfl rfl).symm c) = ix3 p q c := by
    funext ax; apply Fin.ext
    match ax with
    | ⟨0, _⟩ => simp [DotDims.lhsIdx]; rfl
    | ⟨1, _⟩ => simp [DotDims.lhsIdx]; rfl
    | ⟨2, _⟩ => simp [DotDims.lhsIdx]; exact c3
  have r3 : (⟨[2], [1], [1], [2], [0], [0], w⟩ : DotDims ⟨3, ![128, 64, 64]⟩ ⟨3, ![128, 64, 10]⟩ ⟨3, ![128, 64, 10]⟩).rhsIdx
      (ix3 p q n) ((contrEquiv1 _ 64 rfl rfl).symm c) = ix3 p c n := by
    funext ax; apply Fin.ext
    match ax with
    | ⟨0, _⟩ => simp [DotDims.rhsIdx]; rfl
    | ⟨1, _⟩ => simp [DotDims.rhsIdx]; exact c3
    | ⟨2, _⟩ => simp [DotDims.rhsIdx]; rfl
  rw [l3, r3]

end Contractions

/-- The maximum over the clusters: a [128,64,10] array reduced by max along its last axis from the accumulator's word,
    read at (p, q) — the fold of max over the ten entries (p, q, n). -/
theorem clusters_max_apply (src : FVec Ideal ⟨3, ![128, 64, 10]⟩ .f32) (acc : BitVec 32)
    (h : (⟨3, ![128, 64, 10]⟩ : Shape).Reduces [2] ⟨2, ![128, 64]⟩) (hφ : FKind.Formats .f32)
    (hacc : acc = FKind.maximumf.neutral .f32 hφ) (p : Fin 128) (q : Fin 64) :
    multiReduction (F := Ideal) .maximumf [2] ⟨2, ![128, 64]⟩ src acc h hφ hacc (ix2 p q)
      = (Finset.univ : Finset (Fin 10)).fold max (Ideal.ofBits .f32 acc) (fun n => src (ix3 p q n)) := by
  refine (Ideal.multiReduction_maximumf_single src acc h hφ hacc (ix2 p q)).trans ?_
  refine congrArg (fun f : Fin 10 → EReal => (Finset.univ : Finset (Fin 10)).fold max (Ideal.ofBits .f32 acc) f) ?_
  funext n
  refine congrArg src (funext fun ax => Fin.ext ?_)
  match ax with
  | ⟨0, _⟩ => rfl
  | ⟨1, _⟩ => rfl
  | ⟨2, _⟩ => rfl

/-! ## The stored value at (p, q) -/

/-- The first product at the program's own dimension numbers. -/
theorem layer1_printed {φ₁ φ₂ : FTy} (A : FVec Ideal S128x64x64 φ₁) (B : FVec Ideal S128x10x64 φ₂)
    (p : Fin 128) (k : Fin 64) (n : Fin 10) :
    matmul dot_S128x64x64_S128x10x64_S128x64x10_2_2_1_1_0_0 none A B
        (constant (F := Ideal) S128x64x10 .f32 0x00000000#32) (ix3 p k n)
      = ∑ l : Fin 64, A (ix3 p k l) * B (ix3 p n l) :=
  layer1_apply Facts₀.dot_S128x64x64_S128x10x64_S128x64x10_2_2_1_1_0_0_wf none A B p k n

/-- The second product at the program's own dimension numbers. -/
theorem layer2_printed {φ₁ φ₂ : FTy} (A : FVec Ideal S128x64x64 φ₁) (B : FVec Ideal S128x64x10 φ₂)
    (p : Fin 128) (q : Fin 64) (n : Fin 10) :
    matmul dot_S128x64x64_S128x64x10_S128x64x10_2_1_1_2_0_0 none A B
        (constant (F := Ideal) S128x64x10 .f32 0x00000000#32) (ix3 p q n)
      = ∑ k : Fin 64, A (ix3 p q k) * B (ix3 p k n) :=
  layer2_apply Facts₀.dot_S128x64x64_S128x64x10_S128x64x10_2_1_1_2_0_0_wf none A B p q n

/-- The stored value at row p and output unit q of the block: the largest score over the ten clusters. -/
theorem pay_apply (v0 v2 : Vec Ideal S128x64x64 .f32) (v4 v5 : Vec Ideal S128x64 .f32) (v6 : Vec Ideal S10x64 .f32)
    (p : Fin 128) (q : Fin 64) :
    Gen.k0_pay1 (F := Ideal) v0 v2 v4 v5 v6 (ix2 p q)
      = (Finset.univ : Finset (Fin 10)).fold max Cert.SlotMlp.negInfWord (fun n =>
          (∑ k : Fin 64, v2 (ix3 p q k)
              * max ((∑ l : Fin 64, v0 (ix3 p k l) * v6 (ix2 n l)) + v4 (ix2 p k)) Cert.SlotMlp.zeroWord)
            + v5 (ix2 p q)) := by
  unfold Gen.k0_pay1
  refine (clusters_max_apply _ _ _ _ _ p q).trans ?_
  refine congrArg (fun f : Fin 10 → EReal => (Finset.univ : Finset (Fin 10)).fold max Cert.SlotMlp.negInfWord f)
    (funext fun n => ?_)
  -- the score of cluster n: the second product plus the bias bb
  rw [addf_apply, bias_repeat_apply, layer2_printed]
  refine congrArg (· + v5 (ix2 p q)) (Finset.sum_congr rfl fun k _ => ?_)
  -- hidden unit k at cluster n: the rectified first product plus the bias ba
  rw [truncf_apply, truncf_apply, maximumf_apply, broadcast_apply, addf_apply, bias_repeat_apply, layer1_printed]
  refine congrArg (fun x => v2 (ix3 p q k) * max (x + v4 (ix2 p k)) Cert.SlotMlp.zeroWord)
    (Finset.sum_congr rfl fun l _ => ?_)
  -- the repeated centres read the centre (n, l)
  rw [truncf_apply, shapeCast_self, centres_repeat_apply, truncf_apply, shapeCast_self]

end Cert.KernelIdeal.Payload

end
-- ==== Proof.KernelBlocks.lean ====
/-
  From the blocks to the array: the result array after the kernel's run is the pooled two-layer map of the five arrays.

  The grid has 32 points. Point t reads rows 128·t … 128·t + 127 of the two weight stacks and of the two biases, and the
  whole array of cluster centres; it writes rows 128·t … 128·t + 127 of the result. A block's coordinate is always
  block index × block size + the coordinate inside the block, and the printed block indices are decided once over
  the grid: t on the slot axis, 0 elsewhere. So the value stored at (p, q) of point t's block is the pooled result at
  row 128·t + p and unit q, every point writes its block of ONE whole-array function, and the 32 blocks cover the 4096
  rows (row r lies in the block of point r / 128): the array ends holding that function.
-/
import proofs.«154116_j40183714021834_2_alg».proof.Proof.KernelIdealFrameP
import proofs.«154116_j40183714021834_2_alg».proof.Proof.KernelPayload
import Idealize.ShloMosaic.Lib.Pipeline.Value

noncomputable section

namespace Cert.KernelIdeal.Blocks

open Cert.KernelIdeal Cert.KernelIdeal.Gen Cert.KernelIdeal.GenP Idealize.ShloMosaic Idealize.ShloMosaic.TcCoe Idealize.SL.Sem
open Idealize.ShloMosaic.ValueIdx
open Idealize.ShloMosaic.Pipeline (Dat)
open Cert.SlotMlp (SW SB SC pooled)

/-- Zero offsets on two and on three axes, as the constant function. -/
theorem zeros2 : (![0, 0] : Fin 2 → Nat) = fun _ => 0 := funext fun a => by fin_cases a <;> rfl
theorem zeros3 : (![0, 0, 0] : Fin 3 → Nat) = fun _ => 0 := funext fun a => by fin_cases a <;> rfl

/-- The block of rows 128·T … 128·T + 127: when the five loaded blocks are those rows of the two weight stacks and of
    the two biases, and the whole array of centres, the stored value at (p, q) is the pooled result at (128·T + p, q). -/
theorem block_apply (wa wb : SW.Idx → EReal) (ba bb : SB.Idx → EReal) (cc : SC.Idx → EReal)
    (x0 x2 : Vec Ideal S128x64x64 .f32) (x1 x3 : Vec Ideal S128x64 .f32) (x4 : Vec Ideal S10x64 .f32) (T : Nat)
    (h0 : ∀ (y : S128x64x64.Idx) (i : SW.Idx), (i 0).val = T * 128 + (y 0).val → (i 1).val = (y 1).val →
      (i 2).val = (y 2).val → x0 y = wa i)
    (h1 : ∀ (y : S128x64.Idx) (i : SB.Idx), (i 0).val = T * 128 + (y 0).val → (i 1).val = (y 1).val → x1 y = ba i)
    (h2 : ∀ (y : S128x64x64.Idx) (i : SW.Idx), (i 0).val = T * 128 + (y 0).val → (i 1).val = (y 1).val →
      (i 2).val = (y 2).val → x2 y = wb i)
    (h3 : ∀ (y : S128x64.Idx) (i : SB.Idx), (i 0).val = T * 128 + (y 0).val → (i 1).val = (y 1).val → x3 y = bb i)
    (h4 : ∀ y : S10x64.Idx, x4 y = cc y)
    (y : S128x64.Idx) (i : SB.Idx) (hi0 : (i 0).val = T * 128 + (y 0).val) (hi1 : (i 1).val = (y 1).val) :
    Gen.k0_pay1 (F := Ideal) x0 x2 x1 x3 x4 y = pooled wa ba wb bb cc i := by
  obtain ⟨p, q, rfl⟩ : ∃ (p : Fin 128) (q : Fin 64), y = ix2 p q := ⟨y 0, y 1, eq_ix2 y⟩
  obtain ⟨s, u, rfl⟩ : ∃ (s : Fin 4096) (u : Fin 64), i = ix2 s u := ⟨i 0, i 1, eq_ix2 i⟩
  obtain rfl : u = q := Fin.ext hi1
  have hs : s.val = T * 128 + p.val := hi0
  rw [Payload.pay_apply, Cert.SlotMlp.pooled_ix2]
  refine congrArg (fun f : Fin 10 → EReal => (Finset.univ : Finset (Fin 10)).fold max Cert.SlotMlp.negInfWord f)
    (funext fun n => ?_)
  unfold Cert.SlotMlp.score Cert.SlotMlp.hidden
  rw [h3 (ix2 p u) (ix2 s u) hs rfl]
  refine congrArg (· + bb (ix2 s u)) (Finset.sum_congr rfl fun k _ => ?_)
  rw [h2 (ix3 p u k) (ix3 s u k) hs rfl rfl, h1 (ix2 p k) (ix2 s k) hs rfl]
  refine congrArg (fun x => wb (ix3 s u k) * max (x + ba (ix2 s k)) Cert.SlotMlp.zeroWord)
    (Finset.sum_congr rfl fun l _ => ?_)
  rw [h0 (ix3 p k l) (ix3 s k l) hs rfl rfl, h4]

/-- The printed index maps, decided once over the 32 grid points: the four per-slot windows and the result sit at
    block t along the slots and block 0 along the other axes; the centres' window is the whole array at every point. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = t.val ∧ win0_1.index t (1 : Fin 2) = 0
    ∧ win0_2.index t (0 : Fin 3) = t.val ∧ win0_2.index t (1 : Fin 3) = 0 ∧ win0_2.index t (2 : Fin 3) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- An index of the result array is in point t's block iff each coordinate is in the block's range on its axis. -/
theorem mem_blk (t : Fin cfg0.N) (i : S4096x64.Idx) :
    i ∈ ((cfg0.win 5).blk t).view.set ↔
      ∀ a : Fin 2, win0_5.index t a * S128x64.size a ≤ (i a).val ∧ (i a).val < win0_5.index t a * S128x64.size a + S128x64.size a := by
  show i ∈ ((View.whole main_v346).slice (win0_5.rect t)).set ↔ _
  rw [View.set_slice_whole, Rect.mem_set_unit]
  exact Iff.rfl

/-- Every index of the result array is in some point's block: row r is in the block of point r / 128. -/
theorem cover (i : S4096x64.Idx) :
    ∃ t : Fin cfg0.N, (cfg0.win 5).flush t = true ∧ i ∈ ((cfg0.win 5).blk t).view.set := by
  have hN : grid0.N = 32 := N_0
  have hi0 : (i 0).val < 4096 := (i 0).isLt
  have hi1 : (i 1).val < 64 := (i 1).isLt
  let t : Fin cfg0.N := ⟨(i 0).val / 128, by show (i 0).val / 128 < grid0.N; omega⟩
  have ht : t.val = (i 0).val / 128 := rfl
  obtain ⟨-, -, -, -, -, -, -, -, -, -, -, -, e0, e1⟩ := idx_facts t
  refine ⟨t, flush0_5 t, ?_⟩
  rw [mem_blk]
  intro a
  match a with
  | ⟨0, _⟩ =>
    show win0_5.index t (0 : Fin 2) * 128 ≤ (i 0).val ∧ (i 0).val < win0_5.index t (0 : Fin 2) * 128 + 128
    omega
  | ⟨1, _⟩ =>
    show win0_5.index t (1 : Fin 2) * 64 ≤ (i 1).val ∧ (i 1).val < win0_5.index t (1 : Fin 2) * 64 + 64
    omega

variable (m : (ℓ : Loc nD τ sig) → Buf (Elt Ideal) ℓ)

/-! ## Each input block as rows of its array -/

/-- Point t's block of the first-layer weights is rows 128·t … 128·t + 127 of the stack. -/
theorem read_wa (c : Dev nD) (t : Fin cfg0.N) (y : S128x64x64.Idx) (i : SW.Idx)
    (h0 : (i 0).val = t.val * 128 + (y 0).val) (h1 : (i 1).val = (y 1).val) (h2 : (i 2).val = (y 2).val) :
    (iblk m c 0 t : Vec Ideal S128x64x64 .f32) y = (V m c main_arg19 : SW.Idx → EReal) i := by
  obtain ⟨e0, e1, e2, -⟩ := idx_facts t
  unfold iblk
  rw [View.read_apply]
  show V m c main_arg19 (((cfg0.win 0).blk t).view.emb y) = V m c main_arg19 i
  refine congrArg _ (funext fun a => Fin.ext ?_)
  match a with
  | ⟨0, _⟩ => show win0_0.index t (0 : Fin 3) * 128 + 1 * (y 0).val = (i 0).val; omega
  | ⟨1, _⟩ => show win0_0.index t (1 : Fin 3) * 64 + 1 * (y 1).val = (i 1).val; omega
  | ⟨2, _⟩ => show win0_0.index t (2 : Fin 3) * 64 + 1 * (y 2).val = (i 2).val; omega

/-- Point t's block of the first-layer biases is rows 128·t … 128·t + 127 of the array. -/
theorem read_ba (c : Dev nD) (t : Fin cfg0.N) (y : S128x64.Idx) (i : SB.Idx)
    (h0 : (i 0).val = t.val * 128 + (y 0).val) (h1 : (i 1).val = (y 1).val) :
    (iblk m c 1 t : Vec Ideal S128x64 .f32) y = (V m c main_arg20 : SB.Idx → EReal) i := by
  obtain ⟨-, -, -, e0, e1, -⟩ := idx_facts t
  unfold iblk
  rw [View.read_apply]
  show V m c main_arg20 (((cfg0.win 1).blk t).view.emb y) = V m c main_arg20 i
  refine congrArg _ (funext fun a => Fin.ext ?_)
  match a with
  | ⟨0, _⟩ => show win0_1.index t (0 : Fin 2) * 128 + 1 * (y 0).val = (i 0).val; omega
  | ⟨1, _⟩ => show win0_1.index t (1 : Fin 2) * 64 + 1 * (y 1).val = (i 1).val; omega

/-- Point t's block of the second-layer weights is rows 128·t … 128·t + 127 of the stack. -/
theorem read_wb (c : Dev nD) (t : Fin cfg0.N) (y : S128x64x64.Idx) (i : SW.Idx)
    (h0 : (i 0).val = t.val * 128 + (y 0).val) (h1 : (i 1).val = (y 1).val) (h2 : (i 2).val = (y 2).val) :
    (iblk m c 2 t : Vec Ideal S128x64x64 .f32) y = (V m c main_arg21 : SW.Idx → EReal) i := by
  obtain ⟨-, -, -, -, -, e0, e1, e2, -⟩ := idx_facts t
  unfold iblk
  rw [View.read_apply]
  show V m c main_arg21 (((cfg0.win 2).blk t).view.emb y) = V m c main_arg21 i
  refine congrArg _ (funext fun a => Fin.ext ?_)
  match a with
  | ⟨0, _⟩ => show win0_2.index t (0 : Fin 3) * 128 + 1 * (y 0).val = (i 0).val; omega
  | ⟨1, _⟩ => show win0_2.index t (1 : Fin 3) * 64 + 1 * (y 1).val = (i 1).val; omega
  | ⟨2, _⟩ => show win0_2.index t (2 : Fin 3) * 64 + 1 * (y 2).val = (i 2).val; omega

/-- Point t's block of the second-layer biases is rows 128·t … 128·t + 127 of the array. -/
theorem read_bb (c : Dev nD) (t : Fin cfg0.N) (y : S128x64.Idx) (i : SB.Idx)
    (h0 : (i 0).val = t.val * 128 + (y 0).val) (h1 : (i 1).val = (y 1).val) :
    (iblk m c 3 t : Vec Ideal S128x64 .f32) y = (V m c main_arg22 : SB.Idx → EReal) i := by
  obtain ⟨-, -, -, -, -, -, -, -, e0, e1, -⟩ := idx_facts t
  unfold iblk
  rw [View.read_apply]
  show V m c main_arg22 (((cfg0.win 3).blk t).view.emb y) = V m c main_arg22 i
  refine congrArg _ (funext fun a => Fin.ext ?_)
  match a with
  | ⟨0, _⟩ => show win0_3.index t (0 : Fin 2) * 128 + 1 * (y 0).val = (i 0).val; omega
  | ⟨1, _⟩ => show win0_3.index t (1 : Fin 2) * 64 + 1 * (y 1).val = (i 1).val; omega

/-- At every point the centres' block is the whole array of centres. -/
theorem read_cc (c : Dev nD) (t : Fin cfg0.N) (y : S10x64.Idx) :
    (iblk m c 4 t : Vec Ideal S10x64 .f32) y = (V m c main_v345 : SC.Idx → EReal) y := by
  obtain ⟨-, -, -, -, -, -, -, -, -, -, e0, e1, -⟩ := idx_facts t
  unfold iblk
  rw [View.read_apply]
  show V m c main_v345 (((cfg0.win 4).blk t).view.emb y) = V m c main_v345 y
  refine congrArg _ (funext fun a => Fin.ext ?_)
  match a with
  | ⟨0, _⟩ => show win0_4.index t (0 : Fin 2) * 10 + 1 * (y 0).val = (y 0).val; omega
  | ⟨1, _⟩ => show win0_4.index t (1 : Fin 2) * 64 + 1 * (y 1).val = (y 1).val; omega

/-! ## What a point writes back, and the array after the run -/

/-- What point t writes back is block t of the pooled result of the five arrays as the region finds them. -/
theorem flushed_eq (c : Dev nD) (t : Fin cfg0.N) :
    (dats m 0 c).flushed 5 t = ((cfg0.win 5).blk t).view.read (Elt Ideal)
      (pooled (V m c main_arg19) (V m c main_arg20) (V m c main_arg21) (V m c main_arg22) (V m c main_v345)) := by
  show (cfg0.win 5).cut (grid0.coords t) ((dats m 0 c).after 5 t) = _
  rw [after0_5]
  unfold out0_5
  rw [View.canon_unit_zero zeros2]
  simp only [View.ld_unit_zero (S := S128x64x64) zeros3, View.ld_unit_zero (S := S128x64) zeros2,
    View.ld_unit_zero (S := S10x64) zeros2]
  obtain ⟨-, -, -, -, -, -, -, -, -, -, -, -, e0, e1⟩ := idx_facts t
  funext j
  rw [View.read_apply]
  refine block_apply _ _ _ _ _ _ _ _ _ _ t.val (read_wa m c t) (read_ba m c t) (read_wb m c t) (read_bb m c t)
    (read_cc m c t) j _ ?_ ?_
  · show win0_5.index t (0 : Fin 2) * 128 + 1 * (j 0).val = t.val * 128 + (j 0).val; omega
  · show win0_5.index t (1 : Fin 2) * 64 + 1 * (j 1).val = (j 1).val; omega

/-- The result array after the run is the pooled result of the five arrays as the region finds them. -/
theorem final (c : Dev nD) :
    (dats m 0 c).arrAt 5 cfg0.N
      = pooled (V m c main_arg19) (V m c main_arg20) (V m c main_arg21) (V m c main_arg22) (V m c main_v345) :=
  (dats m 0 c).arrAt_eq_of_cover 5 _ (fun t _ => flushed_eq m c t) cover

end Cert.KernelIdeal.Blocks

end
-- ==== Proof.KernelRun.lean ====
/-
  The kernel's run at the extended reals, with its result named.

  The pipeline's output array after the run is assembled from the 32 blocks the grid points write back, and those blocks
  are the blocks of one function of the arrays the region finds: the pooled two-layer map of the four per-slot arrays
  (which no host operation before the region writes, so they are the launched arguments) and of the cluster centres as the
  host operations before the region leave them.
-/
import proofs.«154116_j40183714021834_2_alg».proof.Proof.KernelBlocks

noncomputable section

namespace Cert.KernelIdeal.Run

open Cert.KernelIdeal Cert.KernelIdeal.Gen Idealize.ShloMosaic Idealize.ShloMosaic.TcCoe Idealize.SL.Sem

/-- Every run of the kernel's program ends with the result array at the pooled two-layer map of the launched per-slot
    arrays and of the centres the region was entered with. -/
theorem result (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v346)
        = Cert.SlotMlp.pooled (m ((c.tc : Thread nD τ).loc main_arg19)) (m ((c.tc : Thread nD τ).loc main_arg20))
            (m ((c.tc : Thread nD τ).loc main_arg21)) (m ((c.tc : Thread nD τ).loc main_arg22)) (GenP.V m c main_v345) :=
  (θ_run defs _ _).mono (fun r h c =>
      ((h c).1 5).trans ((Cert.KernelIdeal.Blocks.final m c).trans (by
        rw [GenP.V_main_arg19 m c, GenP.V_main_arg20 m c, GenP.V_main_arg21 m c, GenP.V_main_arg22 m c])))
    (GenP.run_main m ρ)

end Cert.KernelIdeal.Run

end
-- ==== Proof.RefLine.lean ====
/-
  The reference's @main as lists of host operations, in program order: one list per stretch of @main between two calls of a
  module-local function, and one per call (the callee's operations over that call's own buffers, a nested call written out
  in place). `seg k` is the k-th list. The operation that forms the first product with the per-slot weights opens the
  tail; everything before it computes the cluster centres.
-/
import proofs.«154116_j40183714021834_2_alg».proof.ReferenceIdeal
import Idealize.ShloMosaic.Lib.StableHlo.Run

noncomputable section

namespace Cert.ReferenceIdeal.Line

open Idealize.ShloMosaic Idealize.SL.Sem Cert.ReferenceIdeal Cert.ReferenceIdeal.Facts₀

variable {F : FTy → Type} [FloatOps F] [Cert.ReferenceIdeal.Facts]

set_option maxHeartbeats 40000000 in
/-- 17 operations: a stretch of @main. -/
def seg0 : List (HloOp τ sig (Elt F)) :=
  ( StableHlo.unary main_arg1 main_v0 ((transpose S64x64 [1, 0] · transposes_S64x64_S64x64_1_0) : (⟨S64x64, .f32⟩ : BufTy).Contents (Elt F) → (⟨S64x64, .f32⟩ : BufTy).Contents (Elt F))
  :: StableHlo.binary main_arg0 main_v0 main_v1 ((fun l r => Host.dotGeneral dot_S10x64_S64x64_S10x64_1_0_0_1_n_n none l r) : (⟨S10x64, .f32⟩ : BufTy).Contents (Elt F) → (⟨S64x64, .f32⟩ : BufTy).Contents (Elt F) → (⟨S10x64, .f32⟩ : BufTy).Contents (Elt F))
  :: StableHlo.unary main_arg2 main_v2 (broadcastInDim S1x64 ![1] bcast_S64_S1x64_1 : (⟨S64, .f32⟩ : BufTy).Contents (Elt F) → (⟨S1x64, .f32⟩ : BufTy).Contents (Elt F))
  :: StableHlo.unary main_v2 main_v3 (broadcastInDim S10x64 ![0, 1] bcast_S1x64_S10x64_0_1 : (⟨S1x64, .f32⟩ : BufTy).Contents (Elt F) → (⟨S10x64, .f32⟩ : BufTy).Contents (Elt F))
  :: StableHlo.binary main_v1 main_v3 main_v4 (addf : (⟨S10x64, .f32⟩ : BufTy).Contents (Elt F) → (⟨S10x64, .f32⟩ : BufTy).Contents (Elt F) → (⟨S10x64, .f32⟩ : BufTy).Contents (Elt F))
  :: StableHlo.unary main_arg5 main_v5 ((transpose S64x64 [1, 0] · transposes_S64x64_S64x64_1_0) : (⟨S64x64, .f32⟩ : BufTy).Contents (Elt F) → (⟨S64x64, .f32⟩ : BufTy).Contents (Elt F))
  :: StableHlo.binary main_arg0 main_v5 main_v6 ((fun l r => Host.dotGeneral dot_S10x64_S64x64_S10x64_1_0_0_1_n_n none l r) : (⟨S10x64, .f32⟩ : BufTy).Contents (Elt F) → (⟨S64x64, .f32⟩ : BufTy).Contents (Elt F) → (⟨S10x64, .f32⟩ : BufTy).Contents (Elt F))
  :: StableHlo.unary main_arg6 main_v7 (broadcastInDim S1x64 ![1] bcast_S64_S1x64_1 : (⟨S64, .f32⟩ : BufTy).Contents (Elt F) → (⟨S1x64, .f32⟩ : BufTy).Contents (Elt F))
  :: StableHlo.unary main_v7 main_v8 (broadcastInDim S10x64 ![0, 1] bcast_S1x64_S10x64_0_1 : (⟨S1x64, .f32⟩ : BufTy).Contents (Elt F) → (⟨S10x64, .f32⟩ : BufTy).Contents (Elt F))
  :: StableHlo.binary main_v6 main_v8 main_v9 (addf : (⟨S10x64, .f32⟩ : BufTy).Contents (Elt F) → (⟨S10x64, .f32⟩ : BufTy).Contents (Elt F) → (⟨S10x64, .f32⟩ : BufTy).Contents (Elt F))
  :: StableHlo.nullary main_cst (constant S_ .f32 0x00000000#32)
  :: StableHlo.binary main_arg0 main_cst main_v10 ((fun x v => Host.reduceAdd x v reducesTo_S10x64_S10_d1 h_S_) : (⟨S10x64, .f32⟩ : BufTy).Contents (Elt F) → (⟨S_, .f32⟩ : BufTy).Contents (Elt F) → (⟨S10, .f32⟩ : BufTy).Contents (Elt F))
  :: StableHlo.unary main_v10 main_v11 (broadcastInDim S10x1 ![0] bcast_S10_S10x1_0 : (⟨S10, .f32⟩ : BufTy).Contents (Elt F) → (⟨S10x1, .f32⟩ : BufTy).Contents (Elt F))
  :: StableHlo.nullary main_cst_0 (constant S_ .f32 0x42800000#32)
  :: StableHlo.unary main_cst_0 main_v12 (broadcastInDim S10x1 ![] bcast_S_S10x1 : (⟨S_, .f32⟩ : BufTy).Contents (Elt F) → (⟨S10x1, .f32⟩ : BufTy).Contents (Elt F))
  :: StableHlo.binary main_v11 main_v12 main_v13 (Host.divf : (⟨S10x1, .f32⟩ : BufTy).Contents (Elt F) → (⟨S10x1, .f32⟩ : BufTy).Contents (Elt F) → (⟨S10x1, .f32⟩ : BufTy).Contents (Elt F))
  :: StableHlo.nullary main_c (constantI S_ 32 0#32)
  :: [] )

set_option maxHeartbeats 40000000 in
/-- 23 operations: the call of @var (main_call0). -/
def seg1 : List (HloOp τ sig (Elt F)) :=
  ( StableHlo.TRef.nullary main_call0.cst (constant S_ .f32 0x00000000#32)
  :: StableHlo.TRef.binary (.of main_arg0 : StableHlo.TRef sig ⟨S10x64, .f32⟩) main_call0.cst main_call0.v0 (fun x v => Host.reduceAdd x v reducesTo_S10x64_S10_d1 h_S_)
  :: StableHlo.TRef.unary main_call0.v0 main_call0.v1 (broadcastInDim S10x1 ![0] bcast_S10_S10x1_0)
  :: StableHlo.TRef.nullary main_call0.cst_0 (constant S_ .f32 0x42800000#32)
  :: StableHlo.TRef.unary main_call0.cst_0 main_call0.v2 (broadcastInDim S10x1 ![] bcast_S_S10x1)
  :: StableHlo.TRef.binary main_call0.v1 main_call0.v2 main_call0.v3 Host.divf
  :: StableHlo.TRef.unary main_call0.v3 main_call0.v4 (broadcastInDim S10x64 ![0, 1] bcast_S10x1_S10x64_0_1)
  :: StableHlo.TRef.binary (.of main_arg0 : StableHlo.TRef sig ⟨S10x64, .f32⟩) main_call0.v4 main_call0.v5 subf
  :: StableHlo.TRef.binary main_call0.v5 main_call0.v5 main_call0.v6 mulf
  :: StableHlo.TRef.unary (.of main_c : StableHlo.TRef sig ⟨S_, .i32⟩) main_call0.v7 (sitofp .f32)
  :: StableHlo.TRef.nullary main_call0.cst_1 (constant S_ .f32 0x42800000#32)
  :: StableHlo.TRef.binary main_call0.cst_1 main_call0.v7 main_call0.v8 subf
  :: StableHlo.TRef.nullary main_call0.cst_2 (constant S_ .f32 0x00000000#32)
  :: StableHlo.TRef.binary main_call0.v6 main_call0.cst_2 main_call0.v9 (fun x v => Host.reduceAdd x v reducesTo_S10x64_S10_d1 h_S_)
  :: StableHlo.TRef.unary main_call0.v9 main_call0.v10 (broadcastInDim S10x1 ![0] bcast_S10_S10x1_0)
  :: StableHlo.TRef.unary main_call0.v8 main_call0.v11 (broadcastInDim S10x1 ![] bcast_S_S10x1)
  :: StableHlo.TRef.binary main_call0.v10 main_call0.v11 main_call0.v12 Host.divf
  :: StableHlo.TRef.nullary main_call0.cst_3 (constant S_ .f32 0x00000000#32)
  :: StableHlo.TRef.binary main_call0.v8 main_call0.cst_3 main_call0.v13 (cmpf .ogt)
  :: StableHlo.TRef.nullary main_call0.cst_4 (constant S_ .f32 0x7FC00000#32)
  :: StableHlo.TRef.unary main_call0.cst_4 main_call0.call0.v0 id
  :: StableHlo.TRef.unary main_call0.call0.v0 main_call0.call0.v1 (broadcastInDim S10x1 ![] bcast_S_S10x1)
  :: StableHlo.TRef.ternary main_call0.v13 main_call0.v12 main_call0.call0.v1 main_call0.call0.v2 (fun p a b => select (broadcastInDim S10x1 ![] bcast_S_S10x1 p) a b)
  :: [] )

set_option maxHeartbeats 40000000 in
/-- 96 operations: a stretch of @main. -/
def seg2 : List (HloOp τ sig (Elt F)) :=
  ( StableHlo.unary main_v13 main_v15 (broadcastInDim S10x64 ![0, 1] bcast_S10x1_S10x64_0_1 : (⟨S10x1, .f32⟩ : BufTy).Contents (Elt F) → (⟨S10x64, .f32⟩ : BufTy).Contents (Elt F))
  :: StableHlo.binary main_arg0 main_v15 main_v16 (subf : (⟨S10x64, .f32⟩ : BufTy).Contents (Elt F) → (⟨S10x64, .f32⟩ : BufTy).Contents (Elt F) → (⟨S10x64, .f32⟩ : BufTy).Contents (Elt F))
  :: StableHlo.nullary main_cst_1 (constant S_ .f32 0x3727C5AC#32)
  :: StableHlo.unary main_cst_1 main_v17 (broadcastInDim S10x1 ![] bcast_S_S10x1 : (⟨S_, .f32⟩ : BufTy).Contents (Elt F) → (⟨S10x1, .f32⟩ : BufTy).Contents (Elt F))
  :: StableHlo.binary main_v14 main_v17 main_v18 (addf : (⟨S10x1, .f32⟩ : BufTy).Contents (Elt F) → (⟨S10x1, .f32⟩ : BufTy).Contents (Elt F) → (⟨S10x1, .f32⟩ : BufTy).Contents (Elt F))
  :: StableHlo.unary main_v18 main_v19 (Host.sqrt : (⟨S10x1, .f32⟩ : BufTy).Contents (Elt F) → (⟨S10x1, .f32⟩ : BufTy).Contents (Elt F))
  :: StableHlo.unary main_v19 main_v20 (broadcastInDim S10x64 ![0, 1] bcast_S10x1_S10x64_0_1 : (⟨S10x1, .f32⟩ : BufTy).Contents (Elt F) → (⟨S10x64, .f32⟩ : BufTy).Contents (Elt F))
  :: StableHlo.binary main_v16 main_v20 main_v21 (Host.divf : (⟨S10x64, .f32⟩ : BufTy).Contents (Elt F) → (⟨S10x64, .f32⟩ : BufTy).Contents (Elt F) → (⟨S10x64, .f32⟩ : BufTy).Contents (Elt F))
  :: StableHlo.unary main_arg7 main_v22 (broadcastInDim S1x64 ![1] bcast_S64_S1x64_1 : (⟨S64, .f32⟩ : BufTy).Contents (Elt F) → (⟨S1x64, .f32⟩ : BufTy).Contents (Elt F))
  :: StableHlo.unary main_v22 main_v23 (broadcastInDim S10x64 ![0, 1] bcast_S1x64_S10x64_0_1 : (⟨S1x64, .f32⟩ : BufTy).Contents (Elt F) → (⟨S10x64, .f32⟩ : BufTy).Contents (Elt F))
  :: StableHlo.binary main_v21 main_v23 main_v24 (mulf : (⟨S10x64, .f32⟩ : BufTy).Contents (Elt F) → (⟨S10x64, .f32⟩ : BufTy).Contents (Elt F) → (⟨S10x64, .f32⟩ : BufTy).Contents (Elt F))
  :: StableHlo.unary main_arg8 main_v25 (broadcastInDim S1x64 ![1] bcast_S64_S1x64_1 : (⟨S64, .f32⟩ : BufTy).Contents (Elt F) → (⟨S1x64, .f32⟩ : BufTy).Contents (Elt F))
  :: StableHlo.unary main_v25 main_v26 (broadcastInDim S10x64 ![0, 1] bcast_S1x64_S10x64_0_1 : (⟨S1x64, .f32⟩ : BufTy).Contents (Elt F) → (⟨S10x64, .f32⟩ : BufTy).Contents (Elt F))
  :: StableHlo.binary main_v24 main_v26 main_v27 (addf : (⟨S10x64, .f32⟩ : BufTy).Contents (Elt F) → (⟨S10x64, .f32⟩ : BufTy).Contents (Elt F) → (⟨S10x64, .f32⟩ : BufTy).Contents (Elt F))
  :: StableHlo.unary main_arg3 main_v28 ((transpose S64x64 [1, 0] · transposes_S64x64_S64x64_1_0) : (⟨S64x64, .f32⟩ : BufTy).Contents (Elt F) → (⟨S64x64, .f32⟩ : BufTy).Contents (Elt F))
  :: StableHlo.binary main_v27 main_v28 main_v29 ((fun l r => Host.dotGeneral dot_S10x64_S64x64_S10x64_1_0_0_1_n_n none l r) : (⟨S10x64, .f32⟩ : BufTy).Contents (Elt F) → (⟨S64x64, .f32⟩ : BufTy).Contents (Elt F) → (⟨S10x64, .f32⟩ : BufTy).Contents (Elt F))
  :: StableHlo.unary main_arg4 main_v30 (broadcastInDim S1x64 ![1] bcast_S64_S1x64_1 : (⟨S64, .f32⟩ : BufTy).Contents (Elt F) → (⟨S1x64, .f32⟩ : BufTy).Contents (Elt F))
  :: StableHlo.unary main_v30 main_v31 (broadcastInDim S10x64 ![0, 1] bcast_S1x64_S10x64_0_1 : (⟨S1x64, .f32⟩ : BufTy).Contents (Elt F) → (⟨S10x64, .f32⟩ : BufTy).Contents (Elt F))
  :: StableHlo.binary main_v29 main_v31 main_v32 (addf : (⟨S10x64, .f32⟩ : BufTy).Contents (Elt F) → (⟨S10x64, .f32⟩ : BufTy).Contents (Elt F) → (⟨S10x64, .f32⟩ : BufTy).Contents (Elt F))
  :: StableHlo.binary main_v4 main_v32 main_v33 ((fun l r => Host.dotGeneral dot_S10x64_S10x64_S10x10_1_1_0_0_n_n none l r) : (⟨S10x64, .f32⟩ : BufTy).Contents (Elt F) → (⟨S10x64, .f32⟩ : BufTy).Contents (Elt F) → (⟨S10x10, .f32⟩ : BufTy).Contents (Elt F))
  :: StableHlo.nullary main_cst_2 (constant S_ .f32 0x3E000000#32)
  :: StableHlo.unary main_cst_2 main_v34 (broadcastInDim S10x10 ![] bcast_S_S10x10 : (⟨S_, .f32⟩ : BufTy).Contents (Elt F) → (⟨S10x10, .f32⟩ : BufTy).Contents (Elt F))
  :: StableHlo.binary main_v33 main_v34 main_v35 (mulf : (⟨S10x10, .f32⟩ : BufTy).Contents (Elt F) → (⟨S10x10, .f32⟩ : BufTy).Contents (Elt F) → (⟨S10x10, .f32⟩ : BufTy).Contents (Elt F))
  :: StableHlo.nullary main_cst_3 (constant S_ .f32 0xFF800000#32)
  :: StableHlo.binary main_v35 main_cst_3 main_v36 ((fun x v => Host.reduce FloatOps.maximumf x v reducesTo_S10x10_S10_d0 h_S_) : (⟨S10x10, .f32⟩ : BufTy).Contents (Elt F) → (⟨S_, .f32⟩ : BufTy).Contents (Elt F) → (⟨S10, .f32⟩ : BufTy).Contents (Elt F))
  :: StableHlo.nullary main_cst_4 (constant S_ .f32 0xFF800000#32)
  :: StableHlo.unary main_cst_4 main_v37 (broadcastInDim S10 ![] bcast_S_S10 : (⟨S_, .f32⟩ : BufTy).Contents (Elt F) → (⟨S10, .f32⟩ : BufTy).Contents (Elt F))
  :: StableHlo.binary main_v37 main_v36 main_v38 (maximumf : (⟨S10, .f32⟩ : BufTy).Contents (Elt F) → (⟨S10, .f32⟩ : BufTy).Contents (Elt F) → (⟨S10, .f32⟩ : BufTy).Contents (Elt F))
  :: StableHlo.unary main_v38 main_v39 (broadcastInDim S1x10 ![1] bcast_S10_S1x10_1 : (⟨S10, .f32⟩ : BufTy).Contents (Elt F) → (⟨S1x10, .f32⟩ : BufTy).Contents (Elt F))
  :: StableHlo.unary main_v39 main_v40 (broadcastInDim S10x10 ![0, 1] bcast_S1x10_S10x10_0_1 : (⟨S1x10, .f32⟩ : BufTy).Contents (Elt F) → (⟨S10x10, .f32⟩ : BufTy).Contents (Elt F))
  :: StableHlo.binary main_v35 main_v40 main_v41 (subf : (⟨S10x10, .f32⟩ : BufTy).Contents (Elt F) → (⟨S10x10, .f32⟩ : BufTy).Contents (Elt F) → (⟨S10x10, .f32⟩ : BufTy).Contents (Elt F))
  :: StableHlo.unary main_v41 main_v42 (Host.exp : (⟨S10x10, .f32⟩ : BufTy).Contents (Elt F) → (⟨S10x10, .f32⟩ : BufTy).Contents (Elt F))
  :: StableHlo.nullary main_cst_5 (constant S_ .f32 0x00000000#32)
  :: StableHlo.binary main_v42 main_cst_5 main_v43 ((fun x v => Host.reduceAdd x v reducesTo_S10x10_S10_d0 h_S_) : (⟨S10x10, .f32⟩ : BufTy).Contents (Elt F) → (⟨S_, .f32⟩ : BufTy).Contents (Elt F) → (⟨S10, .f32⟩ : BufTy).Contents (Elt F))
  :: StableHlo.unary main_v43 main_v44 (broadcastInDim S1x10 ![1] bcast_S10_S1x10_1 : (⟨S10, .f32⟩ : BufTy).Contents (Elt F) → (⟨S1x10, .f32⟩ : BufTy).Contents (Elt F))
  :: StableHlo.unary main_v44 main_v45 (broadcastInDim S10x10 ![0, 1] bcast_S1x10_S10x10_0_1 : (⟨S1x10, .f32⟩ : BufTy).Contents (Elt F) → (⟨S10x10, .f32⟩ : BufTy).Contents (Elt F))
  :: StableHlo.binary main_v42 main_v45 main_v46 (Host.divf : (⟨S10x10, .f32⟩ : BufTy).Contents (Elt F) → (⟨S10x10, .f32⟩ : BufTy).Contents (Elt F) → (⟨S10x10, .f32⟩ : BufTy).Contents (Elt F))
  :: StableHlo.nullary main_cst_6 (constant S_ .f32 0x322BCC77#32)
  :: StableHlo.unary main_cst_6 main_v47 (broadcastInDim S10x10 ![] bcast_S_S10x10 : (⟨S_, .f32⟩ : BufTy).Contents (Elt F) → (⟨S10x10, .f32⟩ : BufTy).Contents (Elt F))
  :: StableHlo.binary main_v46 main_v47 main_v48 (addf : (⟨S10x10, .f32⟩ : BufTy).Contents (Elt F) → (⟨S10x10, .f32⟩ : BufTy).Contents (Elt F) → (⟨S10x10, .f32⟩ : BufTy).Contents (Elt F))
  :: StableHlo.nullary main_cst_7 (constant S_ .f32 0x00000000#32)
  :: StableHlo.binary main_v48 main_cst_7 main_v49 ((fun x v => Host.reduceAdd x v reducesTo_S10x10_S10_d1 h_S_) : (⟨S10x10, .f32⟩ : BufTy).Contents (Elt F) → (⟨S_, .f32⟩ : BufTy).Contents (Elt F) → (⟨S10, .f32⟩ : BufTy).Contents (Elt F))
  :: StableHlo.unary main_v49 main_v50 (broadcastInDim S10x1 ![0] bcast_S10_S10x1_0 : (⟨S10, .f32⟩ : BufTy).Contents (Elt F) → (⟨S10x1, .f32⟩ : BufTy).Contents (Elt F))
  :: StableHlo.unary main_v50 main_v51 (broadcastInDim S10x10 ![0, 1] bcast_S10x1_S10x10_0_1 : (⟨S10x1, .f32⟩ : BufTy).Contents (Elt F) → (⟨S10x10, .f32⟩ : BufTy).Contents (Elt F))
  :: StableHlo.binary main_v48 main_v51 main_v52 (Host.divf : (⟨S10x10, .f32⟩ : BufTy).Contents (Elt F) → (⟨S10x10, .f32⟩ : BufTy).Contents (Elt F) → (⟨S10x10, .f32⟩ : BufTy).Contents (Elt F))
  :: StableHlo.binary main_v52 main_v9 main_v53 ((fun l r => Host.dotGeneral dot_S10x10_S10x64_S10x64_1_0_0_1_n_n none l r) : (⟨S10x10, .f32⟩ : BufTy).Contents (Elt F) → (⟨S10x64, .f32⟩ : BufTy).Contents (Elt F) → (⟨S10x64, .f32⟩ : BufTy).Contents (Elt F))
  :: StableHlo.unary main_arg9 main_v54 ((transpose S64x192 [1, 0] · transposes_S192x64_S64x192_1_0) : (⟨S192x64, .f32⟩ : BufTy).Contents (Elt F) → (⟨S64x192, .f32⟩ : BufTy).Contents (Elt F))
  :: StableHlo.binary main_v53 main_v54 main_v55 ((fun l r => Host.dotGeneral dot_S10x64_S64x192_S10x192_1_0_0_1_n_n none l r) : (⟨S10x64, .f32⟩ : BufTy).Contents (Elt F) → (⟨S64x192, .f32⟩ : BufTy).Contents (Elt F) → (⟨S10x192, .f32⟩ : BufTy).Contents (Elt F))
  :: StableHlo.unary main_arg11 main_v56 (broadcastInDim S1x192 ![1] bcast_S192_S1x192_1 : (⟨S192, .f32⟩ : BufTy).Contents (Elt F) → (⟨S1x192, .f32⟩ : BufTy).Contents (Elt F))
  :: StableHlo.unary main_v56 main_v57 (broadcastInDim S10x192 ![0, 1] bcast_S1x192_S10x192_0_1 : (⟨S1x192, .f32⟩ : BufTy).Contents (Elt F) → (⟨S10x192, .f32⟩ : BufTy).Contents (Elt F))
  :: StableHlo.binary main_v55 main_v57 main_v58 (addf : (⟨S10x192, .f32⟩ : BufTy).Contents (Elt F) → (⟨S10x192, .f32⟩ : BufTy).Contents (Elt F) → (⟨S10x192, .f32⟩ : BufTy).Contents (Elt F))
  :: StableHlo.unary main_arg10 main_v59 ((transpose S64x192 [1, 0] · transposes_S192x64_S64x192_1_0) : (⟨S192x64, .f32⟩ : BufTy).Contents (Elt F) → (⟨S64x192, .f32⟩ : BufTy).Contents (Elt F))
  :: StableHlo.binary main_arg0 main_v59 main_v60 ((fun l r => Host.dotGeneral dot_S10x64_S64x192_S10x192_1_0_0_1_n_n none l r) : (⟨S10x64, .f32⟩ : BufTy).Contents (Elt F) → (⟨S64x192, .f32⟩ : BufTy).Contents (Elt F) → (⟨S10x192, .f32⟩ : BufTy).Contents (Elt F))
  :: StableHlo.unary main_arg12 main_v61 (broadcastInDim S1x192 ![1] bcast_S192_S1x192_1 : (⟨S192, .f32⟩ : BufTy).Contents (Elt F) → (⟨S1x192, .f32⟩ : BufTy).Contents (Elt F))
  :: StableHlo.unary main_v61 main_v62 (broadcastInDim S10x192 ![0, 1] bcast_S1x192_S10x192_0_1 : (⟨S1x192, .f32⟩ : BufTy).Contents (Elt F) → (⟨S10x192, .f32⟩ : BufTy).Contents (Elt F))
  :: StableHlo.binary main_v60 main_v62 main_v63 (addf : (⟨S10x192, .f32⟩ : BufTy).Contents (Elt F) → (⟨S10x192, .f32⟩ : BufTy).Contents (Elt F) → (⟨S10x192, .f32⟩ : BufTy).Contents (Elt F))
  :: StableHlo.unary main_v58 main_v64 ((extractStridedSlice S10x64 ![0, 0] · slices_S10x192_S10x64_0_0) : (⟨S10x192, .f32⟩ : BufTy).Contents (Elt F) → (⟨S10x64, .f32⟩ : BufTy).Contents (Elt F))
  :: StableHlo.unary main_v58 main_v65 ((extractStridedSlice S10x64 ![0, 64] · slices_S10x192_S10x64_0_64) : (⟨S10x192, .f32⟩ : BufTy).Contents (Elt F) → (⟨S10x64, .f32⟩ : BufTy).Contents (Elt F))
  :: StableHlo.unary main_v58 main_v66 ((extractStridedSlice S10x64 ![0, 128] · slices_S10x192_S10x64_0_128) : (⟨S10x192, .f32⟩ : BufTy).Contents (Elt F) → (⟨S10x64, .f32⟩ : BufTy).Contents (Elt F))
  :: StableHlo.unary main_v63 main_v67 ((extractStridedSlice S10x64 ![0, 0] · slices_S10x192_S10x64_0_0) : (⟨S10x192, .f32⟩ : BufTy).Contents (Elt F) → (⟨S10x64, .f32⟩ : BufTy).Contents (Elt F))
  :: StableHlo.unary main_v63 main_v68 ((extractStridedSlice S10x64 ![0, 64] · slices_S10x192_S10x64_0_64) : (⟨S10x192, .f32⟩ : BufTy).Contents (Elt F) → (⟨S10x64, .f32⟩ : BufTy).Contents (Elt F))
  :: StableHlo.unary main_v63 main_v69 ((extractStridedSlice S10x64 ![0, 128] · slices_S10x192_S10x64_0_128) : (⟨S10x192, .f32⟩ : BufTy).Contents (Elt F) → (⟨S10x64, .f32⟩ : BufTy).Contents (Elt F))
  :: StableHlo.binary main_v64 main_v67 main_v70 (addf : (⟨S10x64, .f32⟩ : BufTy).Contents (Elt F) → (⟨S10x64, .f32⟩ : BufTy).Contents (Elt F) → (⟨S10x64, .f32⟩ : BufTy).Contents (Elt F))
  :: StableHlo.unary main_v70 main_v71 (Host.negf : (⟨S10x64, .f32⟩ : BufTy).Contents (Elt F) → (⟨S10x64, .f32⟩ : BufTy).Contents (Elt F))
  :: StableHlo.unary main_v71 main_v72 (Host.exp : (⟨S10x64, .f32⟩ : BufTy).Contents (Elt F) → (⟨S10x64, .f32⟩ : BufTy).Contents (Elt F))
  :: StableHlo.nullary main_cst_8 (constant S_ .f32 0x3F800000#32)
  :: StableHlo.unary main_cst_8 main_v73 (broadcastInDim S10x64 ![] bcast_S_S10x64 : (⟨S_, .f32⟩ : BufTy).Contents (Elt F) → (⟨S10x64, .f32⟩ : BufTy).Contents (Elt F))
  :: StableHlo.binary main_v73 main_v72 main_v74 (addf : (⟨S10x64, .f32⟩ : BufTy).Contents (Elt F) → (⟨S10x64, .f32⟩ : BufTy).Contents (Elt F) → (⟨S10x64, .f32⟩ : BufTy).Contents (Elt F))
  :: StableHlo.nullary main_cst_9 (constant S_ .f32 0x3F800000#32)
  :: StableHlo.unary main_cst_9 main_v75 (broadcastInDim S10x64 ![] bcast_S_S10x64 : (⟨S_, .f32⟩ : BufTy).Contents (Elt F) → (⟨S10x64, .f32⟩ : BufTy).Contents (Elt F))
  :: StableHlo.binary main_v75 main_v74 main_v76 (Host.divf : (⟨S10x64, .f32⟩ : BufTy).Contents (Elt F) → (⟨S10x64, .f32⟩ : BufTy).Contents (Elt F) → (⟨S10x64, .f32⟩ : BufTy).Contents (Elt F))
  :: StableHlo.binary main_v65 main_v68 main_v77 (addf : (⟨S10x64, .f32⟩ : BufTy).Contents (Elt F) → (⟨S10x64, .f32⟩ : BufTy).Contents (Elt F) → (⟨S10x64, .f32⟩ : BufTy).Contents (Elt F))
  :: StableHlo.unary main_v77 main_v78 (Host.negf : (⟨S10x64, .f32⟩ : BufTy).Contents (Elt F) → (⟨S10x64, .f32⟩ : BufTy).Contents (Elt F))
  :: StableHlo.unary main_v78 main_v79 (Host.exp : (⟨S10x64, .f32⟩ : BufTy).Contents (Elt F) → (⟨S10x64, .f32⟩ : BufTy).Contents (Elt F))
  :: StableHlo.nullary main_cst_10 (constant S_ .f32 0x3F800000#32)
  :: StableHlo.unary main_cst_10 main_v80 (broadcastInDim S10x64 ![] bcast_S_S10x64 : (⟨S_, .f32⟩ : BufTy).Contents (Elt F) → (⟨S10x64, .f32⟩ : BufTy).Contents (Elt F))
  :: StableHlo.binary main_v80 main_v79 main_v81 (addf : (⟨S10x64, .f32⟩ : BufTy).Contents (Elt F) → (⟨S10x64, .f32⟩ : BufTy).Contents (Elt F) → (⟨S10x64, .f32⟩ : BufTy).Contents (Elt F))
  :: StableHlo.nullary main_cst_11 (constant S_ .f32 0x3F800000#32)
  :: StableHlo.unary main_cst_11 main_v82 (broadcastInDim S10x64 ![] bcast_S_S10x64 : (⟨S_, .f32⟩ : BufTy).Contents (Elt F) → (⟨S10x64, .f32⟩ : BufTy).Contents (Elt F))
  :: StableHlo.binary main_v82 main_v81 main_v83 (Host.divf : (⟨S10x64, .f32⟩ : BufTy).Contents (Elt F) → (⟨S10x64, .f32⟩ : BufTy).Contents (Elt F) → (⟨S10x64, .f32⟩ : BufTy).Contents (Elt F))
  :: StableHlo.binary main_v76 main_v69 main_v84 (mulf : (⟨S10x64, .f32⟩ : BufTy).Contents (Elt F) → (⟨S10x64, .f32⟩ : BufTy).Contents (Elt F) → (⟨S10x64, .f32⟩ : BufTy).Contents (Elt F))
  :: StableHlo.binary main_v66 main_v84 main_v85 (addf : (⟨S10x64, .f32⟩ : BufTy).Contents (Elt F) → (⟨S10x64, .f32⟩ : BufTy).Contents (Elt F) → (⟨S10x64, .f32⟩ : BufTy).Contents (Elt F))
  :: StableHlo.unary main_v85 main_v86 (Host.tanh : (⟨S10x64, .f32⟩ : BufTy).Contents (Elt F) → (⟨S10x64, .f32⟩ : BufTy).Contents (Elt F))
  :: StableHlo.nullary main_cst_12 (constant S_ .f32 0x3F800000#32)
  :: StableHlo.unary main_cst_12 main_v87 (broadcastInDim S10x64 ![] bcast_S_S10x64 : (⟨S_, .f32⟩ : BufTy).Contents (Elt F) → (⟨S10x64, .f32⟩ : BufTy).Contents (Elt F))
  :: StableHlo.binary main_v87 main_v83 main_v88 (subf : (⟨S10x64, .f32⟩ : BufTy).Contents (Elt F) → (⟨S10x64, .f32⟩ : BufTy).Contents (Elt F) → (⟨S10x64, .f32⟩ : BufTy).Contents (Elt F))
  :: StableHlo.binary main_v88 main_v86 main_v89 (mulf : (⟨S10x64, .f32⟩ : BufTy).Contents (Elt F) → (⟨S10x64, .f32⟩ : BufTy).Contents (Elt F) → (⟨S10x64, .f32⟩ : BufTy).Contents (Elt F))
  :: StableHlo.binary main_v83 main_arg0 main_v90 (mulf : (⟨S10x64, .f32⟩ : BufTy).Contents (Elt F) → (⟨S10x64, .f32⟩ : BufTy).Contents (Elt F) → (⟨S10x64, .f32⟩ : BufTy).Contents (Elt F))
  :: StableHlo.binary main_v89 main_v90 main_v91 (addf : (⟨S10x64, .f32⟩ : BufTy).Contents (Elt F) → (⟨S10x64, .f32⟩ : BufTy).Contents (Elt F) → (⟨S10x64, .f32⟩ : BufTy).Contents (Elt F))
  :: StableHlo.nullary main_cst_13 (constant S_ .f32 0x00000000#32)
  :: StableHlo.binary main_v91 main_cst_13 main_v92 ((fun x v => Host.reduceAdd x v reducesTo_S10x64_S10_d1 h_S_) : (⟨S10x64, .f32⟩ : BufTy).Contents (Elt F) → (⟨S_, .f32⟩ : BufTy).Contents (Elt F) → (⟨S10, .f32⟩ : BufTy).Contents (Elt F))
  :: StableHlo.unary main_v92 main_v93 (broadcastInDim S10x1 ![0] bcast_S10_S10x1_0 : (⟨S10, .f32⟩ : BufTy).Contents (Elt F) → (⟨S10x1, .f32⟩ : BufTy).Contents (Elt F))
  :: StableHlo.nullary main_cst_14 (constant S_ .f32 0x42800000#32)
  :: StableHlo.unary main_cst_14 main_v94 (broadcastInDim S10x1 ![] bcast_S_S10x1 : (⟨S_, .f32⟩ : BufTy).Contents (Elt F) → (⟨S10x1, .f32⟩ : BufTy).Contents (Elt F))
  :: StableHlo.binary main_v93 main_v94 main_v95 (Host.divf : (⟨S10x1, .f32⟩ : BufTy).Contents (Elt F) → (⟨S10x1, .f32⟩ : BufTy).Contents (Elt F) → (⟨S10x1, .f32⟩ : BufTy).Contents (Elt F))
  :: StableHlo.nullary main_c_15 (constantI S_ 32 0#32)
  :: [] )

set_option maxHeartbeats 40000000 in
/-- 23 operations: the call of @var_0 (main_call1). -/
def seg3 : List (HloOp τ sig (Elt F)) :=
  ( StableHlo.TRef.nullary main_call1.cst (constant S_ .f32 0x00000000#32)
  :: StableHlo.TRef.binary (.of main_v91 : StableHlo.TRef sig ⟨S10x64, .f32⟩) main_call1.cst main_call1.v0 (fun x v => Host.reduceAdd x v reducesTo_S10x64_S10_d1 h_S_)
  :: StableHlo.TRef.unary main_call1.v0 main_call1.v1 (broadcastInDim S10x1 ![0] bcast_S10_S10x1_0)
  :: StableHlo.TRef.nullary main_call1.cst_0 (constant S_ .f32 0x42800000#32)
  :: StableHlo.TRef.unary main_call1.cst_0 main_call1.v2 (broadcastInDim S10x1 ![] bcast_S_S10x1)
  :: StableHlo.TRef.binary main_call1.v1 main_call1.v2 main_call1.v3 Host.divf
  :: StableHlo.TRef.unary main_call1.v3 main_call1.v4 (broadcastInDim S10x64 ![0, 1] bcast_S10x1_S10x64_0_1)
  :: StableHlo.TRef.binary (.of main_v91 : StableHlo.TRef sig ⟨S10x64, .f32⟩) main_call1.v4 main_call1.v5 subf
  :: StableHlo.TRef.binary main_call1.v5 main_call1.v5 main_call1.v6 mulf
  :: StableHlo.TRef.unary (.of main_c_15 : StableHlo.TRef sig ⟨S_, .i32⟩) main_call1.v7 (sitofp .f32)
  :: StableHlo.TRef.nullary main_call1.cst_1 (constant S_ .f32 0x42800000#32)
  :: StableHlo.TRef.binary main_call1.cst_1 main_call1.v7 main_call1.v8 subf
  :: StableHlo.TRef.nullary main_call1.cst_2 (constant S_ .f32 0x00000000#32)
  :: StableHlo.TRef.binary main_call1.v6 main_call1.cst_2 main_call1.v9 (fun x v => Host.reduceAdd x v reducesTo_S10x64_S10_d1 h_S_)
  :: StableHlo.TRef.unary main_call1.v9 main_call1.v10 (broadcastInDim S10x1 ![0] bcast_S10_S10x1_0)
  :: StableHlo.TRef.unary main_call1.v8 main_call1.v11 (broadcastInDim S10x1 ![] bcast_S_S10x1)
  :: StableHlo.TRef.binary main_call1.v10 main_call1.v11 main_call1.v12 Host.divf
  :: StableHlo.TRef.nullary main_call1.cst_3 (constant S_ .f32 0x00000000#32)
  :: StableHlo.TRef.binary main_call1.v8 main_call1.cst_3 main_call1.v13 (cmpf .ogt)
  :: StableHlo.TRef.nullary main_call1.cst_4 (constant S_ .f32 0x7FC00000#32)
  :: StableHlo.TRef.unary main_call1.cst_4 main_call1.call0.v0 id
  :: StableHlo.TRef.unary main_call1.call0.v0 main_call1.call0.v1 (broadcastInDim S10x1 ![] bcast_S_S10x1)
  :: StableHlo.TRef.ternary main_call1.v13 main_call1.v12 main_call1.call0.v1 main_call1.call0.v2 (fun p a b => select (broadcastInDim S10x1 ![] bcast_S_S10x1 p) a b)
  :: [] )

set_option maxHeartbeats 40000000 in
/-- 19 operations: a stretch of @main. -/
def seg4 : List (HloOp τ sig (Elt F)) :=
  ( StableHlo.unary main_v95 main_v97 (broadcastInDim S10x64 ![0, 1] bcast_S10x1_S10x64_0_1 : (⟨S10x1, .f32⟩ : BufTy).Contents (Elt F) → (⟨S10x64, .f32⟩ : BufTy).Contents (Elt F))
  :: StableHlo.binary main_v91 main_v97 main_v98 (subf : (⟨S10x64, .f32⟩ : BufTy).Contents (Elt F) → (⟨S10x64, .f32⟩ : BufTy).Contents (Elt F) → (⟨S10x64, .f32⟩ : BufTy).Contents (Elt F))
  :: StableHlo.nullary main_cst_16 (constant S_ .f32 0x3727C5AC#32)
  :: StableHlo.unary main_cst_16 main_v99 (broadcastInDim S10x1 ![] bcast_S_S10x1 : (⟨S_, .f32⟩ : BufTy).Contents (Elt F) → (⟨S10x1, .f32⟩ : BufTy).Contents (Elt F))
  :: StableHlo.binary main_v96 main_v99 main_v100 (addf : (⟨S10x1, .f32⟩ : BufTy).Contents (Elt F) → (⟨S10x1, .f32⟩ : BufTy).Contents (Elt F) → (⟨S10x1, .f32⟩ : BufTy).Contents (Elt F))
  :: StableHlo.unary main_v100 main_v101 (Host.sqrt : (⟨S10x1, .f32⟩ : BufTy).Contents (Elt F) → (⟨S10x1, .f32⟩ : BufTy).Contents (Elt F))
  :: StableHlo.unary main_v101 main_v102 (broadcastInDim S10x64 ![0, 1] bcast_S10x1_S10x64_0_1 : (⟨S10x1, .f32⟩ : BufTy).Contents (Elt F) → (⟨S10x64, .f32⟩ : BufTy).Contents (Elt F))
  :: StableHlo.binary main_v98 main_v102 main_v103 (Host.divf : (⟨S10x64, .f32⟩ : BufTy).Contents (Elt F) → (⟨S10x64, .f32⟩ : BufTy).Contents (Elt F) → (⟨S10x64, .f32⟩ : BufTy).Contents (Elt F))
  :: StableHlo.unary main_arg13 main_v104 (broadcastInDim S1x64 ![1] bcast_S64_S1x64_1 : (⟨S64, .f32⟩ : BufTy).Contents (Elt F) → (⟨S1x64, .f32⟩ : BufTy).Contents (Elt F))
  :: StableHlo.unary main_v104 main_v105 (broadcastInDim S10x64 ![0, 1] bcast_S1x64_S10x64_0_1 : (⟨S1x64, .f32⟩ : BufTy).Contents (Elt F) → (⟨S10x64, .f32⟩ : BufTy).Contents (Elt F))
  :: StableHlo.binary main_v103 main_v105 main_v106 (mulf : (⟨S10x64, .f32⟩ : BufTy).Contents (Elt F) → (⟨S10x64, .f32⟩ : BufTy).Contents (Elt F) → (⟨S10x64, .f32⟩ : BufTy).Contents (Elt F))
  :: StableHlo.unary main_arg14 main_v107 (broadcastInDim S1x64 ![1] bcast_S64_S1x64_1 : (⟨S64, .f32⟩ : BufTy).Contents (Elt F) → (⟨S1x64, .f32⟩ : BufTy).Contents (Elt F))
  :: StableHlo.unary main_v107 main_v108 (broadcastInDim S10x64 ![0, 1] bcast_S1x64_S10x64_0_1 : (⟨S1x64, .f32⟩ : BufTy).Contents (Elt F) → (⟨S10x64, .f32⟩ : BufTy).Contents (Elt F))
  :: StableHlo.binary main_v106 main_v108 main_v109 (addf : (⟨S10x64, .f32⟩ : BufTy).Contents (Elt F) → (⟨S10x64, .f32⟩ : BufTy).Contents (Elt F) → (⟨S10x64, .f32⟩ : BufTy).Contents (Elt F))
  :: StableHlo.unary main_arg15 main_v110 ((transpose S64x128 [1, 0] · transposes_S128x64_S64x128_1_0) : (⟨S128x64, .f32⟩ : BufTy).Contents (Elt F) → (⟨S64x128, .f32⟩ : BufTy).Contents (Elt F))
  :: StableHlo.binary main_v109 main_v110 main_v111 ((fun l r => Host.dotGeneral dot_S10x64_S64x128_S10x128_1_0_0_1_n_n none l r) : (⟨S10x64, .f32⟩ : BufTy).Contents (Elt F) → (⟨S64x128, .f32⟩ : BufTy).Contents (Elt F) → (⟨S10x128, .f32⟩ : BufTy).Contents (Elt F))
  :: StableHlo.unary main_arg16 main_v112 (broadcastInDim S1x128 ![1] bcast_S128_S1x128_1 : (⟨S128, .f32⟩ : BufTy).Contents (Elt F) → (⟨S1x128, .f32⟩ : BufTy).Contents (Elt F))
  :: StableHlo.unary main_v112 main_v113 (broadcastInDim S10x128 ![0, 1] bcast_S1x128_S10x128_0_1 : (⟨S1x128, .f32⟩ : BufTy).Contents (Elt F) → (⟨S10x128, .f32⟩ : BufTy).Contents (Elt F))
  :: StableHlo.binary main_v111 main_v113 main_v114 (addf : (⟨S10x128, .f32⟩ : BufTy).Contents (Elt F) → (⟨S10x128, .f32⟩ : BufTy).Contents (Elt F) → (⟨S10x128, .f32⟩ : BufTy).Contents (Elt F))
  :: [] )

set_option maxHeartbeats 40000000 in
/-- 3 operations: the call of @relu (main_call2). -/
def seg5 : List (HloOp τ sig (Elt F)) :=
  ( StableHlo.TRef.nullary main_call2.cst (constant S_ .f32 0x00000000#32)
  :: StableHlo.TRef.unary main_call2.cst main_call2.v0 (broadcastInDim S10x128 ![] bcast_S_S10x128)
  :: StableHlo.TRef.binary (.of main_v114 : StableHlo.TRef sig ⟨S10x128, .f32⟩) main_call2.v0 main_call2.v1 maximumf
  :: [] )

set_option maxHeartbeats 40000000 in
/-- 13 operations: a stretch of @main. -/
def seg6 : List (HloOp τ sig (Elt F)) :=
  ( StableHlo.unary main_arg17 main_v116 ((transpose S128x64 [1, 0] · transposes_S64x128_S128x64_1_0) : (⟨S64x128, .f32⟩ : BufTy).Contents (Elt F) → (⟨S128x64, .f32⟩ : BufTy).Contents (Elt F))
  :: StableHlo.binary main_v115 main_v116 main_v117 ((fun l r => Host.dotGeneral dot_S10x128_S128x64_S10x64_1_0_0_1_n_n none l r) : (⟨S10x128, .f32⟩ : BufTy).Contents (Elt F) → (⟨S128x64, .f32⟩ : BufTy).Contents (Elt F) → (⟨S10x64, .f32⟩ : BufTy).Contents (Elt F))
  :: StableHlo.binary main_v91 main_v117 main_v118 (addf : (⟨S10x64, .f32⟩ : BufTy).Contents (Elt F) → (⟨S10x64, .f32⟩ : BufTy).Contents (Elt F) → (⟨S10x64, .f32⟩ : BufTy).Contents (Elt F))
  :: StableHlo.unary main_arg18 main_v119 (broadcastInDim S1x64 ![1] bcast_S64_S1x64_1 : (⟨S64, .f32⟩ : BufTy).Contents (Elt F) → (⟨S1x64, .f32⟩ : BufTy).Contents (Elt F))
  :: StableHlo.unary main_v119 main_v120 (broadcastInDim S10x64 ![0, 1] bcast_S1x64_S10x64_0_1 : (⟨S1x64, .f32⟩ : BufTy).Contents (Elt F) → (⟨S10x64, .f32⟩ : BufTy).Contents (Elt F))
  :: StableHlo.binary main_v118 main_v120 main_v121 (addf : (⟨S10x64, .f32⟩ : BufTy).Contents (Elt F) → (⟨S10x64, .f32⟩ : BufTy).Contents (Elt F) → (⟨S10x64, .f32⟩ : BufTy).Contents (Elt F))
  :: StableHlo.nullary main_cst_17 (constant S_ .f32 0x00000000#32)
  :: StableHlo.binary main_v121 main_cst_17 main_v122 ((fun x v => Host.reduceAdd x v reducesTo_S10x64_S10_d1 h_S_) : (⟨S10x64, .f32⟩ : BufTy).Contents (Elt F) → (⟨S_, .f32⟩ : BufTy).Contents (Elt F) → (⟨S10, .f32⟩ : BufTy).Contents (Elt F))
  :: StableHlo.unary main_v122 main_v123 (broadcastInDim S10x1 ![0] bcast_S10_S10x1_0 : (⟨S10, .f32⟩ : BufTy).Contents (Elt F) → (⟨S10x1, .f32⟩ : BufTy).Contents (Elt F))
  :: StableHlo.nullary main_cst_18 (constant S_ .f32 0x42800000#32)
  :: StableHlo.unary main_cst_18 main_v124 (broadcastInDim S10x1 ![] bcast_S_S10x1 : (⟨S_, .f32⟩ : BufTy).Contents (Elt F) → (⟨S10x1, .f32⟩ : BufTy).Contents (Elt F))
  :: StableHlo.binary main_v123 main_v124 main_v125 (Host.divf : (⟨S10x1, .f32⟩ : BufTy).Contents (Elt F) → (⟨S10x1, .f32⟩ : BufTy).Contents (Elt F) → (⟨S10x1, .f32⟩ : BufTy).Contents (Elt F))
  :: StableHlo.nullary main_c_19 (constantI S_ 32 0#32)
  :: [] )

set_option maxHeartbeats 40000000 in
/-- 23 operations: the call of @var_0 (main_call3). -/
def seg7 : List (HloOp τ sig (Elt F)) :=
  ( StableHlo.TRef.nullary main_call3.cst (constant S_ .f32 0x00000000#32)
  :: StableHlo.TRef.binary (.of main_v121 : StableHlo.TRef sig ⟨S10x64, .f32⟩) main_call3.cst main_call3.v0 (fun x v => Host.reduceAdd x v reducesTo_S10x64_S10_d1 h_S_)
  :: StableHlo.TRef.unary main_call3.v0 main_call3.v1 (broadcastInDim S10x1 ![0] bcast_S10_S10x1_0)
  :: StableHlo.TRef.nullary main_call3.cst_0 (constant S_ .f32 0x42800000#32)
  :: StableHlo.TRef.unary main_call3.cst_0 main_call3.v2 (broadcastInDim S10x1 ![] bcast_S_S10x1)
  :: StableHlo.TRef.binary main_call3.v1 main_call3.v2 main_call3.v3 Host.divf
  :: StableHlo.TRef.unary main_call3.v3 main_call3.v4 (broadcastInDim S10x64 ![0, 1] bcast_S10x1_S10x64_0_1)
  :: StableHlo.TRef.binary (.of main_v121 : StableHlo.TRef sig ⟨S10x64, .f32⟩) main_call3.v4 main_call3.v5 subf
  :: StableHlo.TRef.binary main_call3.v5 main_call3.v5 main_call3.v6 mulf
  :: StableHlo.TRef.unary (.of main_c_19 : StableHlo.TRef sig ⟨S_, .i32⟩) main_call3.v7 (sitofp .f32)
  :: StableHlo.TRef.nullary main_call3.cst_1 (constant S_ .f32 0x42800000#32)
  :: StableHlo.TRef.binary main_call3.cst_1 main_call3.v7 main_call3.v8 subf
  :: StableHlo.TRef.nullary main_call3.cst_2 (constant S_ .f32 0x00000000#32)
  :: StableHlo.TRef.binary main_call3.v6 main_call3.cst_2 main_call3.v9 (fun x v => Host.reduceAdd x v reducesTo_S10x64_S10_d1 h_S_)
  :: StableHlo.TRef.unary main_call3.v9 main_call3.v10 (broadcastInDim S10x1 ![0] bcast_S10_S10x1_0)
  :: StableHlo.TRef.unary main_call3.v8 main_call3.v11 (broadcastInDim S10x1 ![] bcast_S_S10x1)
  :: StableHlo.TRef.binary main_call3.v10 main_call3.v11 main_call3.v12 Host.divf
  :: StableHlo.TRef.nullary main_call3.cst_3 (constant S_ .f32 0x00000000#32)
  :: StableHlo.TRef.binary main_call3.v8 main_call3.cst_3 main_call3.v13 (cmpf .ogt)
  :: StableHlo.TRef.nullary main_call3.cst_4 (constant S_ .f32 0x7FC00000#32)
  :: StableHlo.TRef.unary main_call3.cst_4 main_call3.call0.v0 id
  :: StableHlo.TRef.unary main_call3.call0.v0 main_call3.call0.v1 (broadcastInDim S10x1 ![] bcast_S_S10x1)
  :: StableHlo.TRef.ternary main_call3.v13 main_call3.v12 main_call3.call0.v1 main_call3.call0.v2 (fun p a b => select (broadcastInDim S10x1 ![] bcast_S_S10x1 p) a b)
  :: [] )

set_option maxHeartbeats 40000000 in
/-- 96 operations: a stretch of @main. -/
def seg8 : List (HloOp τ sig (Elt F)) :=
  ( StableHlo.unary main_v125 main_v127 (broadcastInDim S10x64 ![0, 1] bcast_S10x1_S10x64_0_1 : (⟨S10x1, .f32⟩ : BufTy).Contents (Elt F) → (⟨S10x64, .f32⟩ : BufTy).Contents (Elt F))
  :: StableHlo.binary main_v121 main_v127 main_v128 (subf : (⟨S10x64, .f32⟩ : BufTy).Contents (Elt F) → (⟨S10x64, .f32⟩ : BufTy).Contents (Elt F) → (⟨S10x64, .f32⟩ : BufTy).Contents (Elt F))
  :: StableHlo.nullary main_cst_20 (constant S_ .f32 0x3727C5AC#32)
  :: StableHlo.unary main_cst_20 main_v129 (broadcastInDim S10x1 ![] bcast_S_S10x1 : (⟨S_, .f32⟩ : BufTy).Contents (Elt F) → (⟨S10x1, .f32⟩ : BufTy).Contents (Elt F))
  :: StableHlo.binary main_v126 main_v129 main_v130 (addf : (⟨S10x1, .f32⟩ : BufTy).Contents (Elt F) → (⟨S10x1, .f32⟩ : BufTy).Contents (Elt F) → (⟨S10x1, .f32⟩ : BufTy).Contents (Elt F))
  :: StableHlo.unary main_v130 main_v131 (Host.sqrt : (⟨S10x1, .f32⟩ : BufTy).Contents (Elt F) → (⟨S10x1, .f32⟩ : BufTy).Contents (Elt F))
  :: StableHlo.unary main_v131 main_v132 (broadcastInDim S10x64 ![0, 1] bcast_S10x1_S10x64_0_1 : (⟨S10x1, .f32⟩ : BufTy).Contents (Elt F) → (⟨S10x64, .f32⟩ : BufTy).Contents (Elt F))
  :: StableHlo.binary main_v128 main_v132 main_v133 (Host.divf : (⟨S10x64, .f32⟩ : BufTy).Contents (Elt F) → (⟨S10x64, .f32⟩ : BufTy).Contents (Elt F) → (⟨S10x64, .f32⟩ : BufTy).Contents (Elt F))
  :: StableHlo.unary main_arg7 main_v134 (broadcastInDim S1x64 ![1] bcast_S64_S1x64_1 : (⟨S64, .f32⟩ : BufTy).Contents (Elt F) → (⟨S1x64, .f32⟩ : BufTy).Contents (Elt F))
  :: StableHlo.unary main_v134 main_v135 (broadcastInDim S10x64 ![0, 1] bcast_S1x64_S10x64_0_1 : (⟨S1x64, .f32⟩ : BufTy).Contents (Elt F) → (⟨S10x64, .f32⟩ : BufTy).Contents (Elt F))
  :: StableHlo.binary main_v133 main_v135 main_v136 (mulf : (⟨S10x64, .f32⟩ : BufTy).Contents (Elt F) → (⟨S10x64, .f32⟩ : BufTy).Contents (Elt F) → (⟨S10x64, .f32⟩ : BufTy).Contents (Elt F))
  :: StableHlo.unary main_arg8 main_v137 (broadcastInDim S1x64 ![1] bcast_S64_S1x64_1 : (⟨S64, .f32⟩ : BufTy).Contents (Elt F) → (⟨S1x64, .f32⟩ : BufTy).Contents (Elt F))
  :: StableHlo.unary main_v137 main_v138 (broadcastInDim S10x64 ![0, 1] bcast_S1x64_S10x64_0_1 : (⟨S1x64, .f32⟩ : BufTy).Contents (Elt F) → (⟨S10x64, .f32⟩ : BufTy).Contents (Elt F))
  :: StableHlo.binary main_v136 main_v138 main_v139 (addf : (⟨S10x64, .f32⟩ : BufTy).Contents (Elt F) → (⟨S10x64, .f32⟩ : BufTy).Contents (Elt F) → (⟨S10x64, .f32⟩ : BufTy).Contents (Elt F))
  :: StableHlo.unary main_arg3 main_v140 ((transpose S64x64 [1, 0] · transposes_S64x64_S64x64_1_0) : (⟨S64x64, .f32⟩ : BufTy).Contents (Elt F) → (⟨S64x64, .f32⟩ : BufTy).Contents (Elt F))
  :: StableHlo.binary main_v139 main_v140 main_v141 ((fun l r => Host.dotGeneral dot_S10x64_S64x64_S10x64_1_0_0_1_n_n none l r) : (⟨S10x64, .f32⟩ : BufTy).Contents (Elt F) → (⟨S64x64, .f32⟩ : BufTy).Contents (Elt F) → (⟨S10x64, .f32⟩ : BufTy).Contents (Elt F))
  :: StableHlo.unary main_arg4 main_v142 (broadcastInDim S1x64 ![1] bcast_S64_S1x64_1 : (⟨S64, .f32⟩ : BufTy).Contents (Elt F) → (⟨S1x64, .f32⟩ : BufTy).Contents (Elt F))
  :: StableHlo.unary main_v142 main_v143 (broadcastInDim S10x64 ![0, 1] bcast_S1x64_S10x64_0_1 : (⟨S1x64, .f32⟩ : BufTy).Contents (Elt F) → (⟨S10x64, .f32⟩ : BufTy).Contents (Elt F))
  :: StableHlo.binary main_v141 main_v143 main_v144 (addf : (⟨S10x64, .f32⟩ : BufTy).Contents (Elt F) → (⟨S10x64, .f32⟩ : BufTy).Contents (Elt F) → (⟨S10x64, .f32⟩ : BufTy).Contents (Elt F))
  :: StableHlo.binary main_v4 main_v144 main_v145 ((fun l r => Host.dotGeneral dot_S10x64_S10x64_S10x10_1_1_0_0_n_n none l r) : (⟨S10x64, .f32⟩ : BufTy).Contents (Elt F) → (⟨S10x64, .f32⟩ : BufTy).Contents (Elt F) → (⟨S10x10, .f32⟩ : BufTy).Contents (Elt F))
  :: StableHlo.nullary main_cst_21 (constant S_ .f32 0x3E000000#32)
  :: StableHlo.unary main_cst_21 main_v146 (broadcastInDim S10x10 ![] bcast_S_S10x10 : (⟨S_, .f32⟩ : BufTy).Contents (Elt F) → (⟨S10x10, .f32⟩ : BufTy).Contents (Elt F))
  :: StableHlo.binary main_v145 main_v146 main_v147 (mulf : (⟨S10x10, .f32⟩ : BufTy).Contents (Elt F) → (⟨S10x10, .f32⟩ : BufTy).Contents (Elt F) → (⟨S10x10, .f32⟩ : BufTy).Contents (Elt F))
  :: StableHlo.nullary main_cst_22 (constant S_ .f32 0xFF800000#32)
  :: StableHlo.binary main_v147 main_cst_22 main_v148 ((fun x v => Host.reduce FloatOps.maximumf x v reducesTo_S10x10_S10_d0 h_S_) : (⟨S10x10, .f32⟩ : BufTy).Contents (Elt F) → (⟨S_, .f32⟩ : BufTy).Contents (Elt F) → (⟨S10, .f32⟩ : BufTy).Contents (Elt F))
  :: StableHlo.nullary main_cst_23 (constant S_ .f32 0xFF800000#32)
  :: StableHlo.unary main_cst_23 main_v149 (broadcastInDim S10 ![] bcast_S_S10 : (⟨S_, .f32⟩ : BufTy).Contents (Elt F) → (⟨S10, .f32⟩ : BufTy).Contents (Elt F))
  :: StableHlo.binary main_v149 main_v148 main_v150 (maximumf : (⟨S10, .f32⟩ : BufTy).Contents (Elt F) → (⟨S10, .f32⟩ : BufTy).Contents (Elt F) → (⟨S10, .f32⟩ : BufTy).Contents (Elt F))
  :: StableHlo.unary main_v150 main_v151 (broadcastInDim S1x10 ![1] bcast_S10_S1x10_1 : (⟨S10, .f32⟩ : BufTy).Contents (Elt F) → (⟨S1x10, .f32⟩ : BufTy).Contents (Elt F))
  :: StableHlo.unary main_v151 main_v152 (broadcastInDim S10x10 ![0, 1] bcast_S1x10_S10x10_0_1 : (⟨S1x10, .f32⟩ : BufTy).Contents (Elt F) → (⟨S10x10, .f32⟩ : BufTy).Contents (Elt F))
  :: StableHlo.binary main_v147 main_v152 main_v153 (subf : (⟨S10x10, .f32⟩ : BufTy).Contents (Elt F) → (⟨S10x10, .f32⟩ : BufTy).Contents (Elt F) → (⟨S10x10, .f32⟩ : BufTy).Contents (Elt F))
  :: StableHlo.unary main_v153 main_v154 (Host.exp : (⟨S10x10, .f32⟩ : BufTy).Contents (Elt F) → (⟨S10x10, .f32⟩ : BufTy).Contents (Elt F))
  :: StableHlo.nullary main_cst_24 (constant S_ .f32 0x00000000#32)
  :: StableHlo.binary main_v154 main_cst_24 main_v155 ((fun x v => Host.reduceAdd x v reducesTo_S10x10_S10_d0 h_S_) : (⟨S10x10, .f32⟩ : BufTy).Contents (Elt F) → (⟨S_, .f32⟩ : BufTy).Contents (Elt F) → (⟨S10, .f32⟩ : BufTy).Contents (Elt F))
  :: StableHlo.unary main_v155 main_v156 (broadcastInDim S1x10 ![1] bcast_S10_S1x10_1 : (⟨S10, .f32⟩ : BufTy).Contents (Elt F) → (⟨S1x10, .f32⟩ : BufTy).Contents (Elt F))
  :: StableHlo.unary main_v156 main_v157 (broadcastInDim S10x10 ![0, 1] bcast_S1x10_S10x10_0_1 : (⟨S1x10, .f32⟩ : BufTy).Contents (Elt F) → (⟨S10x10, .f32⟩ : BufTy).Contents (Elt F))
  :: StableHlo.binary main_v154 main_v157 main_v158 (Host.divf : (⟨S10x10, .f32⟩ : BufTy).Contents (Elt F) → (⟨S10x10, .f32⟩ : BufTy).Contents (Elt F) → (⟨S10x10, .f32⟩ : BufTy).Contents (Elt F))
  :: StableHlo.nullary main_cst_25 (constant S_ .f32 0x322BCC77#32)
  :: StableHlo.unary main_cst_25 main_v159 (broadcastInDim S10x10 ![] bcast_S_S10x10 : (⟨S_, .f32⟩ : BufTy).Contents (Elt F) → (⟨S10x10, .f32⟩ : BufTy).Contents (Elt F))
  :: StableHlo.binary main_v158 main_v159 main_v160 (addf : (⟨S10x10, .f32⟩ : BufTy).Contents (Elt F) → (⟨S10x10, .f32⟩ : BufTy).Contents (Elt F) → (⟨S10x10, .f32⟩ : BufTy).Contents (Elt F))
  :: StableHlo.nullary main_cst_26 (constant S_ .f32 0x00000000#32)
  :: StableHlo.binary main_v160 main_cst_26 main_v161 ((fun x v => Host.reduceAdd x v reducesTo_S10x10_S10_d1 h_S_) : (⟨S10x10, .f32⟩ : BufTy).Contents (Elt F) → (⟨S_, .f32⟩ : BufTy).Contents (Elt F) → (⟨S10, .f32⟩ : BufTy).Contents (Elt F))
  :: StableHlo.unary main_v161 main_v162 (broadcastInDim S10x1 ![0] bcast_S10_S10x1_0 : (⟨S10, .f32⟩ : BufTy).Contents (Elt F) → (⟨S10x1, .f32⟩ : BufTy).Contents (Elt F))
  :: StableHlo.unary main_v162 main_v163 (broadcastInDim S10x10 ![0, 1] bcast_S10x1_S10x10_0_1 : (⟨S10x1, .f32⟩ : BufTy).Contents (Elt F) → (⟨S10x10, .f32⟩ : BufTy).Contents (Elt F))
  :: StableHlo.binary main_v160 main_v163 main_v164 (Host.divf : (⟨S10x10, .f32⟩ : BufTy).Contents (Elt F) → (⟨S10x10, .f32⟩ : BufTy).Contents (Elt F) → (⟨S10x10, .f32⟩ : BufTy).Contents (Elt F))
  :: StableHlo.binary main_v164 main_v9 main_v165 ((fun l r => Host.dotGeneral dot_S10x10_S10x64_S10x64_1_0_0_1_n_n none l r) : (⟨S10x10, .f32⟩ : BufTy).Contents (Elt F) → (⟨S10x64, .f32⟩ : BufTy).Contents (Elt F) → (⟨S10x64, .f32⟩ : BufTy).Contents (Elt F))
  :: StableHlo.unary main_arg9 main_v166 ((transpose S64x192 [1, 0] · transposes_S192x64_S64x192_1_0) : (⟨S192x64, .f32⟩ : BufTy).Contents (Elt F) → (⟨S64x192, .f32⟩ : BufTy).Contents (Elt F))
  :: StableHlo.binary main_v165 main_v166 main_v167 ((fun l r => Host.dotGeneral dot_S10x64_S64x192_S10x192_1_0_0_1_n_n none l r) : (⟨S10x64, .f32⟩ : BufTy).Contents (Elt F) → (⟨S64x192, .f32⟩ : BufTy).Contents (Elt F) → (⟨S10x192, .f32⟩ : BufTy).Contents (Elt F))
  :: StableHlo.unary main_arg11 main_v168 (broadcastInDim S1x192 ![1] bcast_S192_S1x192_1 : (⟨S192, .f32⟩ : BufTy).Contents (Elt F) → (⟨S1x192, .f32⟩ : BufTy).Contents (Elt F))
  :: StableHlo.unary main_v168 main_v169 (broadcastInDim S10x192 ![0, 1] bcast_S1x192_S10x192_0_1 : (⟨S1x192, .f32⟩ : BufTy).Contents (Elt F) → (⟨S10x192, .f32⟩ : BufTy).Contents (Elt F))
  :: StableHlo.binary main_v167 main_v169 main_v170 (addf : (⟨S10x192, .f32⟩ : BufTy).Contents (Elt F) → (⟨S10x192, .f32⟩ : BufTy).Contents (Elt F) → (⟨S10x192, .f32⟩ : BufTy).Contents (Elt F))
  :: StableHlo.unary main_arg10 main_v171 ((transpose S64x192 [1, 0] · transposes_S192x64_S64x192_1_0) : (⟨S192x64, .f32⟩ : BufTy).Contents (Elt F) → (⟨S64x192, .f32⟩ : BufTy).Contents (Elt F))
  :: StableHlo.binary main_v121 main_v171 main_v172 ((fun l r => Host.dotGeneral dot_S10x64_S64x192_S10x192_1_0_0_1_n_n none l r) : (⟨S10x64, .f32⟩ : BufTy).Contents (Elt F) → (⟨S64x192, .f32⟩ : BufTy).Contents (Elt F) → (⟨S10x192, .f32⟩ : BufTy).Contents (Elt F))
  :: StableHlo.unary main_arg12 main_v173 (broadcastInDim S1x192 ![1] bcast_S192_S1x192_1 : (⟨S192, .f32⟩ : BufTy).Contents (Elt F) → (⟨S1x192, .f32⟩ : BufTy).Contents (Elt F))
  :: StableHlo.unary main_v173 main_v174 (broadcastInDim S10x192 ![0, 1] bcast_S1x192_S10x192_0_1 : (⟨S1x192, .f32⟩ : BufTy).Contents (Elt F) → (⟨S10x192, .f32⟩ : BufTy).Contents (Elt F))
  :: StableHlo.binary main_v172 main_v174 main_v175 (addf : (⟨S10x192, .f32⟩ : BufTy).Contents (Elt F) → (⟨S10x192, .f32⟩ : BufTy).Contents (Elt F) → (⟨S10x192, .f32⟩ : BufTy).Contents (Elt F))
  :: StableHlo.unary main_v170 main_v176 ((extractStridedSlice S10x64 ![0, 0] · slices_S10x192_S10x64_0_0) : (⟨S10x192, .f32⟩ : BufTy).Contents (Elt F) → (⟨S10x64, .f32⟩ : BufTy).Contents (Elt F))
  :: StableHlo.unary main_v170 main_v177 ((extractStridedSlice S10x64 ![0, 64] · slices_S10x192_S10x64_0_64) : (⟨S10x192, .f32⟩ : BufTy).Contents (Elt F) → (⟨S10x64, .f32⟩ : BufTy).Contents (Elt F))
  :: StableHlo.unary main_v170 main_v178 ((extractStridedSlice S10x64 ![0, 128] · slices_S10x192_S10x64_0_128) : (⟨S10x192, .f32⟩ : BufTy).Contents (Elt F) → (⟨S10x64, .f32⟩ : BufTy).Contents (Elt F))
  :: StableHlo.unary main_v175 main_v179 ((extractStridedSlice S10x64 ![0, 0] · slices_S10x192_S10x64_0_0) : (⟨S10x192, .f32⟩ : BufTy).Contents (Elt F) → (⟨S10x64, .f32⟩ : BufTy).Contents (Elt F))
  :: StableHlo.unary main_v175 main_v180 ((extractStridedSlice S10x64 ![0, 64] · slices_S10x192_S10x64_0_64) : (⟨S10x192, .f32⟩ : BufTy).Contents (Elt F) → (⟨S10x64, .f32⟩ : BufTy).Contents (Elt F))
  :: StableHlo.unary main_v175 main_v181 ((extractStridedSlice S10x64 ![0, 128] · slices_S10x192_S10x64_0_128) : (⟨S10x192, .f32⟩ : BufTy).Contents (Elt F) → (⟨S10x64, .f32⟩ : BufTy).Contents (Elt F))
  :: StableHlo.binary main_v176 main_v179 main_v182 (addf : (⟨S10x64, .f32⟩ : BufTy).Contents (Elt F) → (⟨S10x64, .f32⟩ : BufTy).Contents (Elt F) → (⟨S10x64, .f32⟩ : BufTy).Contents (Elt F))
  :: StableHlo.unary main_v182 main_v183 (Host.negf : (⟨S10x64, .f32⟩ : BufTy).Contents (Elt F) → (⟨S10x64, .f32⟩ : BufTy).Contents (Elt F))
  :: StableHlo.unary main_v183 main_v184 (Host.exp : (⟨S10x64, .f32⟩ : BufTy).Contents (Elt F) → (⟨S10x64, .f32⟩ : BufTy).Contents (Elt F))
  :: StableHlo.nullary main_cst_27 (constant S_ .f32 0x3F800000#32)
  :: StableHlo.unary main_cst_27 main_v185 (broadcastInDim S10x64 ![] bcast_S_S10x64 : (⟨S_, .f32⟩ : BufTy).Contents (Elt F) → (⟨S10x64, .f32⟩ : BufTy).Contents (Elt F))
  :: StableHlo.binary main_v185 main_v184 main_v186 (addf : (⟨S10x64, .f32⟩ : BufTy).Contents (Elt F) → (⟨S10x64, .f32⟩ : BufTy).Contents (Elt F) → (⟨S10x64, .f32⟩ : BufTy).Contents (Elt F))
  :: StableHlo.nullary main_cst_28 (constant S_ .f32 0x3F800000#32)
  :: StableHlo.unary main_cst_28 main_v187 (broadcastInDim S10x64 ![] bcast_S_S10x64 : (⟨S_, .f32⟩ : BufTy).Contents (Elt F) → (⟨S10x64, .f32⟩ : BufTy).Contents (Elt F))
  :: StableHlo.binary main_v187 main_v186 main_v188 (Host.divf : (⟨S10x64, .f32⟩ : BufTy).Contents (Elt F) → (⟨S10x64, .f32⟩ : BufTy).Contents (Elt F) → (⟨S10x64, .f32⟩ : BufTy).Contents (Elt F))
  :: StableHlo.binary main_v177 main_v180 main_v189 (addf : (⟨S10x64, .f32⟩ : BufTy).Contents (Elt F) → (⟨S10x64, .f32⟩ : BufTy).Contents (Elt F) → (⟨S10x64, .f32⟩ : BufTy).Contents (Elt F))
  :: StableHlo.unary main_v189 main_v190 (Host.negf : (⟨S10x64, .f32⟩ : BufTy).Contents (Elt F) → (⟨S10x64, .f32⟩ : BufTy).Contents (Elt F))
  :: StableHlo.unary main_v190 main_v191 (Host.exp : (⟨S10x64, .f32⟩ : BufTy).Contents (Elt F) → (⟨S10x64, .f32⟩ : BufTy).Contents (Elt F))
  :: StableHlo.nullary main_cst_29 (constant S_ .f32 0x3F800000#32)
  :: StableHlo.unary main_cst_29 main_v192 (broadcastInDim S10x64 ![] bcast_S_S10x64 : (⟨S_, .f32⟩ : BufTy).Contents (Elt F) → (⟨S10x64, .f32⟩ : BufTy).Contents (Elt F))
  :: StableHlo.binary main_v192 main_v191 main_v193 (addf : (⟨S10x64, .f32⟩ : BufTy).Contents (Elt F) → (⟨S10x64, .f32⟩ : BufTy).Contents (Elt F) → (⟨S10x64, .f32⟩ : BufTy).Contents (Elt F))
  :: StableHlo.nullary main_cst_30 (constant S_ .f32 0x3F800000#32)
  :: StableHlo.unary main_cst_30 main_v194 (broadcastInDim S10x64 ![] bcast_S_S10x64 : (⟨S_, .f32⟩ : BufTy).Contents (Elt F) → (⟨S10x64, .f32⟩ : BufTy).Contents (Elt F))
  :: StableHlo.binary main_v194 main_v193 main_v195 (Host.divf : (⟨S10x64, .f32⟩ : BufTy).Contents (Elt F) → (⟨S10x64, .f32⟩ : BufTy).Contents (Elt F) → (⟨S10x64, .f32⟩ : BufTy).Contents (Elt F))
  :: StableHlo.binary main_v188 main_v181 main_v196 (mulf : (⟨S10x64, .f32⟩ : BufTy).Contents (Elt F) → (⟨S10x64, .f32⟩ : BufTy).Contents (Elt F) → (⟨S10x64, .f32⟩ : BufTy).Contents (Elt F))
  :: StableHlo.binary main_v178 main_v196 main_v197 (addf : (⟨S10x64, .f32⟩ : BufTy).Contents (Elt F) → (⟨S10x64, .f32⟩ : BufTy).Contents (Elt F) → (⟨S10x64, .f32⟩ : BufTy).Contents (Elt F))
  :: StableHlo.unary main_v197 main_v198 (Host.tanh : (⟨S10x64, .f32⟩ : BufTy).Contents (Elt F) → (⟨S10x64, .f32⟩ : BufTy).Contents (Elt F))
  :: StableHlo.nullary main_cst_31 (constant S_ .f32 0x3F800000#32)
  :: StableHlo.unary main_cst_31 main_v199 (broadcastInDim S10x64 ![] bcast_S_S10x64 : (⟨S_, .f32⟩ : BufTy).Contents (Elt F) → (⟨S10x64, .f32⟩ : BufTy).Contents (Elt F))
  :: StableHlo.binary main_v199 main_v195 main_v200 (subf : (⟨S10x64, .f32⟩ : BufTy).Contents (Elt F) → (⟨S10x64, .f32⟩ : BufTy).Contents (Elt F) → (⟨S10x64, .f32⟩ : BufTy).Contents (Elt F))
  :: StableHlo.binary main_v200 main_v198 main_v201 (mulf : (⟨S10x64, .f32⟩ : BufTy).Contents (Elt F) → (⟨S10x64, .f32⟩ : BufTy).Contents (Elt F) → (⟨S10x64, .f32⟩ : BufTy).Contents (Elt F))
  :: StableHlo.binary main_v195 main_v121 main_v202 (mulf : (⟨S10x64, .f32⟩ : BufTy).Contents (Elt F) → (⟨S10x64, .f32⟩ : BufTy).Contents (Elt F) → (⟨S10x64, .f32⟩ : BufTy).Contents (Elt F))
  :: StableHlo.binary main_v201 main_v202 main_v203 (addf : (⟨S10x64, .f32⟩ : BufTy).Contents (Elt F) → (⟨S10x64, .f32⟩ : BufTy).Contents (Elt F) → (⟨S10x64, .f32⟩ : BufTy).Contents (Elt F))
  :: StableHlo.nullary main_cst_32 (constant S_ .f32 0x00000000#32)
  :: StableHlo.binary main_v203 main_cst_32 main_v204 ((fun x v => Host.reduceAdd x v reducesTo_S10x64_S10_d1 h_S_) : (⟨S10x64, .f32⟩ : BufTy).Contents (Elt F) → (⟨S_, .f32⟩ : BufTy).Contents (Elt F) → (⟨S10, .f32⟩ : BufTy).Contents (Elt F))
  :: StableHlo.unary main_v204 main_v205 (broadcastInDim S10x1 ![0] bcast_S10_S10x1_0 : (⟨S10, .f32⟩ : BufTy).Contents (Elt F) → (⟨S10x1, .f32⟩ : BufTy).Contents (Elt F))
  :: StableHlo.nullary main_cst_33 (constant S_ .f32 0x42800000#32)
  :: StableHlo.unary main_cst_33 main_v206 (broadcastInDim S10x1 ![] bcast_S_S10x1 : (⟨S_, .f32⟩ : BufTy).Contents (Elt F) → (⟨S10x1, .f32⟩ : BufTy).Contents (Elt F))
  :: StableHlo.binary main_v205 main_v206 main_v207 (Host.divf : (⟨S10x1, .f32⟩ : BufTy).Contents (Elt F) → (⟨S10x1, .f32⟩ : BufTy).Contents (Elt F) → (⟨S10x1, .f32⟩ : BufTy).Contents (Elt F))
  :: StableHlo.nullary main_c_34 (constantI S_ 32 0#32)
  :: [] )

set_option maxHeartbeats 40000000 in
/-- 23 operations: the call of @var_0 (main_call4). -/
def seg9 : List (HloOp τ sig (Elt F)) :=
  ( StableHlo.TRef.nullary main_call4.cst (constant S_ .f32 0x00000000#32)
  :: StableHlo.TRef.binary (.of main_v203 : StableHlo.TRef sig ⟨S10x64, .f32⟩) main_call4.cst main_call4.v0 (fun x v => Host.reduceAdd x v reducesTo_S10x64_S10_d1 h_S_)
  :: StableHlo.TRef.unary main_call4.v0 main_call4.v1 (broadcastInDim S10x1 ![0] bcast_S10_S10x1_0)
  :: StableHlo.TRef.nullary main_call4.cst_0 (constant S_ .f32 0x42800000#32)
  :: StableHlo.TRef.unary main_call4.cst_0 main_call4.v2 (broadcastInDim S10x1 ![] bcast_S_S10x1)
  :: StableHlo.TRef.binary main_call4.v1 main_call4.v2 main_call4.v3 Host.divf
  :: StableHlo.TRef.unary main_call4.v3 main_call4.v4 (broadcastInDim S10x64 ![0, 1] bcast_S10x1_S10x64_0_1)
  :: StableHlo.TRef.binary (.of main_v203 : StableHlo.TRef sig ⟨S10x64, .f32⟩) main_call4.v4 main_call4.v5 subf
  :: StableHlo.TRef.binary main_call4.v5 main_call4.v5 main_call4.v6 mulf
  :: StableHlo.TRef.unary (.of main_c_34 : StableHlo.TRef sig ⟨S_, .i32⟩) main_call4.v7 (sitofp .f32)
  :: StableHlo.TRef.nullary main_call4.cst_1 (constant S_ .f32 0x42800000#32)
  :: StableHlo.TRef.binary main_call4.cst_1 main_call4.v7 main_call4.v8 subf
  :: StableHlo.TRef.nullary main_call4.cst_2 (constant S_ .f32 0x00000000#32)
  :: StableHlo.TRef.binary main_call4.v6 main_call4.cst_2 main_call4.v9 (fun x v => Host.reduceAdd x v reducesTo_S10x64_S10_d1 h_S_)
  :: StableHlo.TRef.unary main_call4.v9 main_call4.v10 (broadcastInDim S10x1 ![0] bcast_S10_S10x1_0)
  :: StableHlo.TRef.unary main_call4.v8 main_call4.v11 (broadcastInDim S10x1 ![] bcast_S_S10x1)
  :: StableHlo.TRef.binary main_call4.v10 main_call4.v11 main_call4.v12 Host.divf
  :: StableHlo.TRef.nullary main_call4.cst_3 (constant S_ .f32 0x00000000#32)
  :: StableHlo.TRef.binary main_call4.v8 main_call4.cst_3 main_call4.v13 (cmpf .ogt)
  :: StableHlo.TRef.nullary main_call4.cst_4 (constant S_ .f32 0x7FC00000#32)
  :: StableHlo.TRef.unary main_call4.cst_4 main_call4.call0.v0 id
  :: StableHlo.TRef.unary main_call4.call0.v0 main_call4.call0.v1 (broadcastInDim S10x1 ![] bcast_S_S10x1)
  :: StableHlo.TRef.ternary main_call4.v13 main_call4.v12 main_call4.call0.v1 main_call4.call0.v2 (fun p a b => select (broadcastInDim S10x1 ![] bcast_S_S10x1 p) a b)
  :: [] )

set_option maxHeartbeats 40000000 in
/-- 19 operations: a stretch of @main. -/
def seg10 : List (HloOp τ sig (Elt F)) :=
  ( StableHlo.unary main_v207 main_v209 (broadcastInDim S10x64 ![0, 1] bcast_S10x1_S10x64_0_1 : (⟨S10x1, .f32⟩ : BufTy).Contents (Elt F) → (⟨S10x64, .f32⟩ : BufTy).Contents (Elt F))
  :: StableHlo.binary main_v203 main_v209 main_v210 (subf : (⟨S10x64, .f32⟩ : BufTy).Contents (Elt F) → (⟨S10x64, .f32⟩ : BufTy).Contents (Elt F) → (⟨S10x64, .f32⟩ : BufTy).Contents (Elt F))
  :: StableHlo.nullary main_cst_35 (constant S_ .f32 0x3727C5AC#32)
  :: StableHlo.unary main_cst_35 main_v211 (broadcastInDim S10x1 ![] bcast_S_S10x1 : (⟨S_, .f32⟩ : BufTy).Contents (Elt F) → (⟨S10x1, .f32⟩ : BufTy).Contents (Elt F))
  :: StableHlo.binary main_v208 main_v211 main_v212 (addf : (⟨S10x1, .f32⟩ : BufTy).Contents (Elt F) → (⟨S10x1, .f32⟩ : BufTy).Contents (Elt F) → (⟨S10x1, .f32⟩ : BufTy).Contents (Elt F))
  :: StableHlo.unary main_v212 main_v213 (Host.sqrt : (⟨S10x1, .f32⟩ : BufTy).Contents (Elt F) → (⟨S10x1, .f32⟩ : BufTy).Contents (Elt F))
  :: StableHlo.unary main_v213 main_v214 (broadcastInDim S10x64 ![0, 1] bcast_S10x1_S10x64_0_1 : (⟨S10x1, .f32⟩ : BufTy).Contents (Elt F) → (⟨S10x64, .f32⟩ : BufTy).Contents (Elt F))
  :: StableHlo.binary main_v210 main_v214 main_v215 (Host.divf : (⟨S10x64, .f32⟩ : BufTy).Contents (Elt F) → (⟨S10x64, .f32⟩ : BufTy).Contents (Elt F) → (⟨S10x64, .f32⟩ : BufTy).Contents (Elt F))
  :: StableHlo.unary main_arg13 main_v216 (broadcastInDim S1x64 ![1] bcast_S64_S1x64_1 : (⟨S64, .f32⟩ : BufTy).Contents (Elt F) → (⟨S1x64, .f32⟩ : BufTy).Contents (Elt F))
  :: StableHlo.unary main_v216 main_v217 (broadcastInDim S10x64 ![0, 1] bcast_S1x64_S10x64_0_1 : (⟨S1x64, .f32⟩ : BufTy).Contents (Elt F) → (⟨S10x64, .f32⟩ : BufTy).Contents (Elt F))
  :: StableHlo.binary main_v215 main_v217 main_v218 (mulf : (⟨S10x64, .f32⟩ : BufTy).Contents (Elt F) → (⟨S10x64, .f32⟩ : BufTy).Contents (Elt F) → (⟨S10x64, .f32⟩ : BufTy).Contents (Elt F))
  :: StableHlo.unary main_arg14 main_v219 (broadcastInDim S1x64 ![1] bcast_S64_S1x64_1 : (⟨S64, .f32⟩ : BufTy).Contents (Elt F) → (⟨S1x64, .f32⟩ : BufTy).Contents (Elt F))
  :: StableHlo.unary main_v219 main_v220 (broadcastInDim S10x64 ![0, 1] bcast_S1x64_S10x64_0_1 : (⟨S1x64, .f32⟩ : BufTy).Contents (Elt F) → (⟨S10x64, .f32⟩ : BufTy).Contents (Elt F))
  :: StableHlo.binary main_v218 main_v220 main_v221 (addf : (⟨S10x64, .f32⟩ : BufTy).Contents (Elt F) → (⟨S10x64, .f32⟩ : BufTy).Contents (Elt F) → (⟨S10x64, .f32⟩ : BufTy).Contents (Elt F))
  :: StableHlo.unary main_arg15 main_v222 ((transpose S64x128 [1, 0] · transposes_S128x64_S64x128_1_0) : (⟨S128x64, .f32⟩ : BufTy).Contents (Elt F) → (⟨S64x128, .f32⟩ : BufTy).Contents (Elt F))
  :: StableHlo.binary main_v221 main_v222 main_v223 ((fun l r => Host.dotGeneral dot_S10x64_S64x128_S10x128_1_0_0_1_n_n none l r) : (⟨S10x64, .f32⟩ : BufTy).Contents (Elt F) → (⟨S64x128, .f32⟩ : BufTy).Contents (Elt F) → (⟨S10x128, .f32⟩ : BufTy).Contents (Elt F))
  :: StableHlo.unary main_arg16 main_v224 (broadcastInDim S1x128 ![1] bcast_S128_S1x128_1 : (⟨S128, .f32⟩ : BufTy).Contents (Elt F) → (⟨S1x128, .f32⟩ : BufTy).Contents (Elt F))
  :: StableHlo.unary main_v224 main_v225 (broadcastInDim S10x128 ![0, 1] bcast_S1x128_S10x128_0_1 : (⟨S1x128, .f32⟩ : BufTy).Contents (Elt F) → (⟨S10x128, .f32⟩ : BufTy).Contents (Elt F))
  :: StableHlo.binary main_v223 main_v225 main_v226 (addf : (⟨S10x128, .f32⟩ : BufTy).Contents (Elt F) → (⟨S10x128, .f32⟩ : BufTy).Contents (Elt F) → (⟨S10x128, .f32⟩ : BufTy).Contents (Elt F))
  :: [] )

set_option maxHeartbeats 40000000 in
/-- 3 operations: the call of @relu (main_call5). -/
def seg11 : List (HloOp τ sig (Elt F)) :=
  ( StableHlo.TRef.nullary main_call5.cst (constant S_ .f32 0x00000000#32)
  :: StableHlo.TRef.unary main_call5.cst main_call5.v0 (broadcastInDim S10x128 ![] bcast_S_S10x128)
  :: StableHlo.TRef.binary (.of main_v226 : StableHlo.TRef sig ⟨S10x128, .f32⟩) main_call5.v0 main_call5.v1 maximumf
  :: [] )

set_option maxHeartbeats 40000000 in
/-- 13 operations: a stretch of @main. -/
def seg12 : List (HloOp τ sig (Elt F)) :=
  ( StableHlo.unary main_arg17 main_v228 ((transpose S128x64 [1, 0] · transposes_S64x128_S128x64_1_0) : (⟨S64x128, .f32⟩ : BufTy).Contents (Elt F) → (⟨S128x64, .f32⟩ : BufTy).Contents (Elt F))
  :: StableHlo.binary main_v227 main_v228 main_v229 ((fun l r => Host.dotGeneral dot_S10x128_S128x64_S10x64_1_0_0_1_n_n none l r) : (⟨S10x128, .f32⟩ : BufTy).Contents (Elt F) → (⟨S128x64, .f32⟩ : BufTy).Contents (Elt F) → (⟨S10x64, .f32⟩ : BufTy).Contents (Elt F))
  :: StableHlo.binary main_v203 main_v229 main_v230 (addf : (⟨S10x64, .f32⟩ : BufTy).Contents (Elt F) → (⟨S10x64, .f32⟩ : BufTy).Contents (Elt F) → (⟨S10x64, .f32⟩ : BufTy).Contents (Elt F))
  :: StableHlo.unary main_arg18 main_v231 (broadcastInDim S1x64 ![1] bcast_S64_S1x64_1 : (⟨S64, .f32⟩ : BufTy).Contents (Elt F) → (⟨S1x64, .f32⟩ : BufTy).Contents (Elt F))
  :: StableHlo.unary main_v231 main_v232 (broadcastInDim S10x64 ![0, 1] bcast_S1x64_S10x64_0_1 : (⟨S1x64, .f32⟩ : BufTy).Contents (Elt F) → (⟨S10x64, .f32⟩ : BufTy).Contents (Elt F))
  :: StableHlo.binary main_v230 main_v232 main_v233 (addf : (⟨S10x64, .f32⟩ : BufTy).Contents (Elt F) → (⟨S10x64, .f32⟩ : BufTy).Contents (Elt F) → (⟨S10x64, .f32⟩ : BufTy).Contents (Elt F))
  :: StableHlo.nullary main_cst_36 (constant S_ .f32 0x00000000#32)
  :: StableHlo.binary main_v233 main_cst_36 main_v234 ((fun x v => Host.reduceAdd x v reducesTo_S10x64_S10_d1 h_S_) : (⟨S10x64, .f32⟩ : BufTy).Contents (Elt F) → (⟨S_, .f32⟩ : BufTy).Contents (Elt F) → (⟨S10, .f32⟩ : BufTy).Contents (Elt F))
  :: StableHlo.unary main_v234 main_v235 (broadcastInDim S10x1 ![0] bcast_S10_S10x1_0 : (⟨S10, .f32⟩ : BufTy).Contents (Elt F) → (⟨S10x1, .f32⟩ : BufTy).Contents (Elt F))
  :: StableHlo.nullary main_cst_37 (constant S_ .f32 0x42800000#32)
  :: StableHlo.unary main_cst_37 main_v236 (broadcastInDim S10x1 ![] bcast_S_S10x1 : (⟨S_, .f32⟩ : BufTy).Contents (Elt F) → (⟨S10x1, .f32⟩ : BufTy).Contents (Elt F))
  :: StableHlo.binary main_v235 main_v236 main_v237 (Host.divf : (⟨S10x1, .f32⟩ : BufTy).Contents (Elt F) → (⟨S10x1, .f32⟩ : BufTy).Contents (Elt F) → (⟨S10x1, .f32⟩ : BufTy).Contents (Elt F))
  :: StableHlo.nullary main_c_38 (constantI S_ 32 0#32)
  :: [] )

set_option maxHeartbeats 40000000 in
/-- 23 operations: the call of @var_0 (main_call6). -/
def seg13 : List (HloOp τ sig (Elt F)) :=
  ( StableHlo.TRef.nullary main_call6.cst (constant S_ .f32 0x00000000#32)
  :: StableHlo.TRef.binary (.of main_v233 : StableHlo.TRef sig ⟨S10x64, .f32⟩) main_call6.cst main_call6.v0 (fun x v => Host.reduceAdd x v reducesTo_S10x64_S10_d1 h_S_)
  :: StableHlo.TRef.unary main_call6.v0 main_call6.v1 (broadcastInDim S10x1 ![0] bcast_S10_S10x1_0)
  :: StableHlo.TRef.nullary main_call6.cst_0 (constant S_ .f32 0x42800000#32)
  :: StableHlo.TRef.unary main_call6.cst_0 main_call6.v2 (broadcastInDim S10x1 ![] bcast_S_S10x1)
  :: StableHlo.TRef.binary main_call6.v1 main_call6.v2 main_call6.v3 Host.divf
  :: StableHlo.TRef.unary main_call6.v3 main_call6.v4 (broadcastInDim S10x64 ![0, 1] bcast_S10x1_S10x64_0_1)
  :: StableHlo.TRef.binary (.of main_v233 : StableHlo.TRef sig ⟨S10x64, .f32⟩) main_call6.v4 main_call6.v5 subf
  :: StableHlo.TRef.binary main_call6.v5 main_call6.v5 main_call6.v6 mulf
  :: StableHlo.TRef.unary (.of main_c_38 : StableHlo.TRef sig ⟨S_, .i32⟩) main_call6.v7 (sitofp .f32)
  :: StableHlo.TRef.nullary main_call6.cst_1 (constant S_ .f32 0x42800000#32)
  :: StableHlo.TRef.binary main_call6.cst_1 main_call6.v7 main_call6.v8 subf
  :: StableHlo.TRef.nullary main_call6.cst_2 (constant S_ .f32 0x00000000#32)
  :: StableHlo.TRef.binary main_call6.v6 main_call6.cst_2 main_call6.v9 (fun x v => Host.reduceAdd x v reducesTo_S10x64_S10_d1 h_S_)
  :: StableHlo.TRef.unary main_call6.v9 main_call6.v10 (broadcastInDim S10x1 ![0] bcast_S10_S10x1_0)
  :: StableHlo.TRef.unary main_call6.v8 main_call6.v11 (broadcastInDim S10x1 ![] bcast_S_S10x1)
  :: StableHlo.TRef.binary main_call6.v10 main_call6.v11 main_call6.v12 Host.divf
  :: StableHlo.TRef.nullary main_call6.cst_3 (constant S_ .f32 0x00000000#32)
  :: StableHlo.TRef.binary main_call6.v8 main_call6.cst_3 main_call6.v13 (cmpf .ogt)
  :: StableHlo.TRef.nullary main_call6.cst_4 (constant S_ .f32 0x7FC00000#32)
  :: StableHlo.TRef.unary main_call6.cst_4 main_call6.call0.v0 id
  :: StableHlo.TRef.unary main_call6.call0.v0 main_call6.call0.v1 (broadcastInDim S10x1 ![] bcast_S_S10x1)
  :: StableHlo.TRef.ternary main_call6.v13 main_call6.v12 main_call6.call0.v1 main_call6.call0.v2 (fun p a b => select (broadcastInDim S10x1 ![] bcast_S_S10x1 p) a b)
  :: [] )

set_option maxHeartbeats 40000000 in
/-- 96 operations: a stretch of @main. -/
def seg14 : List (HloOp τ sig (Elt F)) :=
  ( StableHlo.unary main_v237 main_v239 (broadcastInDim S10x64 ![0, 1] bcast_S10x1_S10x64_0_1 : (⟨S10x1, .f32⟩ : BufTy).Contents (Elt F) → (⟨S10x64, .f32⟩ : BufTy).Contents (Elt F))
  :: StableHlo.binary main_v233 main_v239 main_v240 (subf : (⟨S10x64, .f32⟩ : BufTy).Contents (Elt F) → (⟨S10x64, .f32⟩ : BufTy).Contents (Elt F) → (⟨S10x64, .f32⟩ : BufTy).Contents (Elt F))
  :: StableHlo.nullary main_cst_39 (constant S_ .f32 0x3727C5AC#32)
  :: StableHlo.unary main_cst_39 main_v241 (broadcastInDim S10x1 ![] bcast_S_S10x1 : (⟨S_, .f32⟩ : BufTy).Contents (Elt F) → (⟨S10x1, .f32⟩ : BufTy).Contents (Elt F))
  :: StableHlo.binary main_v238 main_v241 main_v242 (addf : (⟨S10x1, .f32⟩ : BufTy).Contents (Elt F) → (⟨S10x1, .f32⟩ : BufTy).Contents (Elt F) → (⟨S10x1, .f32⟩ : BufTy).Contents (Elt F))
  :: StableHlo.unary main_v242 main_v243 (Host.sqrt : (⟨S10x1, .f32⟩ : BufTy).Contents (Elt F) → (⟨S10x1, .f32⟩ : BufTy).Contents (Elt F))
  :: StableHlo.unary main_v243 main_v244 (broadcastInDim S10x64 ![0, 1] bcast_S10x1_S10x64_0_1 : (⟨S10x1, .f32⟩ : BufTy).Contents (Elt F) → (⟨S10x64, .f32⟩ : BufTy).Contents (Elt F))
  :: StableHlo.binary main_v240 main_v244 main_v245 (Host.divf : (⟨S10x64, .f32⟩ : BufTy).Contents (Elt F) → (⟨S10x64, .f32⟩ : BufTy).Contents (Elt F) → (⟨S10x64, .f32⟩ : BufTy).Contents (Elt F))
  :: StableHlo.unary main_arg7 main_v246 (broadcastInDim S1x64 ![1] bcast_S64_S1x64_1 : (⟨S64, .f32⟩ : BufTy).Contents (Elt F) → (⟨S1x64, .f32⟩ : BufTy).Contents (Elt F))
  :: StableHlo.unary main_v246 main_v247 (broadcastInDim S10x64 ![0, 1] bcast_S1x64_S10x64_0_1 : (⟨S1x64, .f32⟩ : BufTy).Contents (Elt F) → (⟨S10x64, .f32⟩ : BufTy).Contents (Elt F))
  :: StableHlo.binary main_v245 main_v247 main_v248 (mulf : (⟨S10x64, .f32⟩ : BufTy).Contents (Elt F) → (⟨S10x64, .f32⟩ : BufTy).Contents (Elt F) → (⟨S10x64, .f32⟩ : BufTy).Contents (Elt F))
  :: StableHlo.unary main_arg8 main_v249 (broadcastInDim S1x64 ![1] bcast_S64_S1x64_1 : (⟨S64, .f32⟩ : BufTy).Contents (Elt F) → (⟨S1x64, .f32⟩ : BufTy).Contents (Elt F))
  :: StableHlo.unary main_v249 main_v250 (broadcastInDim S10x64 ![0, 1] bcast_S1x64_S10x64_0_1 : (⟨S1x64, .f32⟩ : BufTy).Contents (Elt F) → (⟨S10x64, .f32⟩ : BufTy).Contents (Elt F))
  :: StableHlo.binary main_v248 main_v250 main_v251 (addf : (⟨S10x64, .f32⟩ : BufTy).Contents (Elt F) → (⟨S10x64, .f32⟩ : BufTy).Contents (Elt F) → (⟨S10x64, .f32⟩ : BufTy).Contents (Elt F))
  :: StableHlo.unary main_arg3 main_v252 ((transpose S64x64 [1, 0] · transposes_S64x64_S64x64_1_0) : (⟨S64x64, .f32⟩ : BufTy).Contents (Elt F) → (⟨S64x64, .f32⟩ : BufTy).Contents (Elt F))
  :: StableHlo.binary main_v251 main_v252 main_v253 ((fun l r => Host.dotGeneral dot_S10x64_S64x64_S10x64_1_0_0_1_n_n none l r) : (⟨S10x64, .f32⟩ : BufTy).Contents (Elt F) → (⟨S64x64, .f32⟩ : BufTy).Contents (Elt F) → (⟨S10x64, .f32⟩ : BufTy).Contents (Elt F))
  :: StableHlo.unary main_arg4 main_v254 (broadcastInDim S1x64 ![1] bcast_S64_S1x64_1 : (⟨S64, .f32⟩ : BufTy).Contents (Elt F) → (⟨S1x64, .f32⟩ : BufTy).Contents (Elt F))
  :: StableHlo.unary main_v254 main_v255 (broadcastInDim S10x64 ![0, 1] bcast_S1x64_S10x64_0_1 : (⟨S1x64, .f32⟩ : BufTy).Contents (Elt F) → (⟨S10x64, .f32⟩ : BufTy).Contents (Elt F))
  :: StableHlo.binary main_v253 main_v255 main_v256 (addf : (⟨S10x64, .f32⟩ : BufTy).Contents (Elt F) → (⟨S10x64, .f32⟩ : BufTy).Contents (Elt F) → (⟨S10x64, .f32⟩ : BufTy).Contents (Elt F))
  :: StableHlo.binary main_v4 main_v256 main_v257 ((fun l r => Host.dotGeneral dot_S10x64_S10x64_S10x10_1_1_0_0_n_n none l r) : (⟨S10x64, .f32⟩ : BufTy).Contents (Elt F) → (⟨S10x64, .f32⟩ : BufTy).Contents (Elt F) → (⟨S10x10, .f32⟩ : BufTy).Contents (Elt F))
  :: StableHlo.nullary main_cst_40 (constant S_ .f32 0x3E000000#32)
  :: StableHlo.unary main_cst_40 main_v258 (broadcastInDim S10x10 ![] bcast_S_S10x10 : (⟨S_, .f32⟩ : BufTy).Contents (Elt F) → (⟨S10x10, .f32⟩ : BufTy).Contents (Elt F))
  :: StableHlo.binary main_v257 main_v258 main_v259 (mulf : (⟨S10x10, .f32⟩ : BufTy).Contents (Elt F) → (⟨S10x10, .f32⟩ : BufTy).Contents (Elt F) → (⟨S10x10, .f32⟩ : BufTy).Contents (Elt F))
  :: StableHlo.nullary main_cst_41 (constant S_ .f32 0xFF800000#32)
  :: StableHlo.binary main_v259 main_cst_41 main_v260 ((fun x v => Host.reduce FloatOps.maximumf x v reducesTo_S10x10_S10_d0 h_S_) : (⟨S10x10, .f32⟩ : BufTy).Contents (Elt F) → (⟨S_, .f32⟩ : BufTy).Contents (Elt F) → (⟨S10, .f32⟩ : BufTy).Contents (Elt F))
  :: StableHlo.nullary main_cst_42 (constant S_ .f32 0xFF800000#32)
  :: StableHlo.unary main_cst_42 main_v261 (broadcastInDim S10 ![] bcast_S_S10 : (⟨S_, .f32⟩ : BufTy).Contents (Elt F) → (⟨S10, .f32⟩ : BufTy).Contents (Elt F))
  :: StableHlo.binary main_v261 main_v260 main_v262 (maximumf : (⟨S10, .f32⟩ : BufTy).Contents (Elt F) → (⟨S10, .f32⟩ : BufTy).Contents (Elt F) → (⟨S10, .f32⟩ : BufTy).Contents (Elt F))
  :: StableHlo.unary main_v262 main_v263 (broadcastInDim S1x10 ![1] bcast_S10_S1x10_1 : (⟨S10, .f32⟩ : BufTy).Contents (Elt F) → (⟨S1x10, .f32⟩ : BufTy).Contents (Elt F))
  :: StableHlo.unary main_v263 main_v264 (broadcastInDim S10x10 ![0, 1] bcast_S1x10_S10x10_0_1 : (⟨S1x10, .f32⟩ : BufTy).Contents (Elt F) → (⟨S10x10, .f32⟩ : BufTy).Contents (Elt F))
  :: StableHlo.binary main_v259 main_v264 main_v265 (subf : (⟨S10x10, .f32⟩ : BufTy).Contents (Elt F) → (⟨S10x10, .f32⟩ : BufTy).Contents (Elt F) → (⟨S10x10, .f32⟩ : BufTy).Contents (Elt F))
  :: StableHlo.unary main_v265 main_v266 (Host.exp : (⟨S10x10, .f32⟩ : BufTy).Contents (Elt F) → (⟨S10x10, .f32⟩ : BufTy).Contents (Elt F))
  :: StableHlo.nullary main_cst_43 (constant S_ .f32 0x00000000#32)
  :: StableHlo.binary main_v266 main_cst_43 main_v267 ((fun x v => Host.reduceAdd x v reducesTo_S10x10_S10_d0 h_S_) : (⟨S10x10, .f32⟩ : BufTy).Contents (Elt F) → (⟨S_, .f32⟩ : BufTy).Contents (Elt F) → (⟨S10, .f32⟩ : BufTy).Contents (Elt F))
  :: StableHlo.unary main_v267 main_v268 (broadcastInDim S1x10 ![1] bcast_S10_S1x10_1 : (⟨S10, .f32⟩ : BufTy).Contents (Elt F) → (⟨S1x10, .f32⟩ : BufTy).Contents (Elt F))
  :: StableHlo.unary main_v268 main_v269 (broadcastInDim S10x10 ![0, 1] bcast_S1x10_S10x10_0_1 : (⟨S1x10, .f32⟩ : BufTy).Contents (Elt F) → (⟨S10x10, .f32⟩ : BufTy).Contents (Elt F))
  :: StableHlo.binary main_v266 main_v269 main_v270 (Host.divf : (⟨S10x10, .f32⟩ : BufTy).Contents (Elt F) → (⟨S10x10, .f32⟩ : BufTy).Contents (Elt F) → (⟨S10x10, .f32⟩ : BufTy).Contents (Elt F))
  :: StableHlo.nullary main_cst_44 (constant S_ .f32 0x322BCC77#32)
  :: StableHlo.unary main_cst_44 main_v271 (broadcastInDim S10x10 ![] bcast_S_S10x10 : (⟨S_, .f32⟩ : BufTy).Contents (Elt F) → (⟨S10x10, .f32⟩ : BufTy).Contents (Elt F))
  :: StableHlo.binary main_v270 main_v271 main_v272 (addf : (⟨S10x10, .f32⟩ : BufTy).Contents (Elt F) → (⟨S10x10, .f32⟩ : BufTy).Contents (Elt F) → (⟨S10x10, .f32⟩ : BufTy).Contents (Elt F))
  :: StableHlo.nullary main_cst_45 (constant S_ .f32 0x00000000#32)
  :: StableHlo.binary main_v272 main_cst_45 main_v273 ((fun x v => Host.reduceAdd x v reducesTo_S10x10_S10_d1 h_S_) : (⟨S10x10, .f32⟩ : BufTy).Contents (Elt F) → (⟨S_, .f32⟩ : BufTy).Contents (Elt F) → (⟨S10, .f32⟩ : BufTy).Contents (Elt F))
  :: StableHlo.unary main_v273 main_v274 (broadcastInDim S10x1 ![0] bcast_S10_S10x1_0 : (⟨S10, .f32⟩ : BufTy).Contents (Elt F) → (⟨S10x1, .f32⟩ : BufTy).Contents (Elt F))
  :: StableHlo.unary main_v274 main_v275 (broadcastInDim S10x10 ![0, 1] bcast_S10x1_S10x10_0_1 : (⟨S10x1, .f32⟩ : BufTy).Contents (Elt F) → (⟨S10x10, .f32⟩ : BufTy).Contents (Elt F))
  :: StableHlo.binary main_v272 main_v275 main_v276 (Host.divf : (⟨S10x10, .f32⟩ : BufTy).Contents (Elt F) → (⟨S10x10, .f32⟩ : BufTy).Contents (Elt F) → (⟨S10x10, .f32⟩ : BufTy).Contents (Elt F))
  :: StableHlo.binary main_v276 main_v9 main_v277 ((fun l r => Host.dotGeneral dot_S10x10_S10x64_S10x64_1_0_0_1_n_n none l r) : (⟨S10x10, .f32⟩ : BufTy).Contents (Elt F) → (⟨S10x64, .f32⟩ : BufTy).Contents (Elt F) → (⟨S10x64, .f32⟩ : BufTy).Contents (Elt F))
  :: StableHlo.unary main_arg9 main_v278 ((transpose S64x192 [1, 0] · transposes_S192x64_S64x192_1_0) : (⟨S192x64, .f32⟩ : BufTy).Contents (Elt F) → (⟨S64x192, .f32⟩ : BufTy).Contents (Elt F))
  :: StableHlo.binary main_v277 main_v278 main_v279 ((fun l r => Host.dotGeneral dot_S10x64_S64x192_S10x192_1_0_0_1_n_n none l r) : (⟨S10x64, .f32⟩ : BufTy).Contents (Elt F) → (⟨S64x192, .f32⟩ : BufTy).Contents (Elt F) → (⟨S10x192, .f32⟩ : BufTy).Contents (Elt F))
  :: StableHlo.unary main_arg11 main_v280 (broadcastInDim S1x192 ![1] bcast_S192_S1x192_1 : (⟨S192, .f32⟩ : BufTy).Contents (Elt F) → (⟨S1x192, .f32⟩ : BufTy).Contents (Elt F))
  :: StableHlo.unary main_v280 main_v281 (broadcastInDim S10x192 ![0, 1] bcast_S1x192_S10x192_0_1 : (⟨S1x192, .f32⟩ : BufTy).Contents (Elt F) → (⟨S10x192, .f32⟩ : BufTy).Contents (Elt F))
  :: StableHlo.binary main_v279 main_v281 main_v282 (addf : (⟨S10x192, .f32⟩ : BufTy).Contents (Elt F) → (⟨S10x192, .f32⟩ : BufTy).Contents (Elt F) → (⟨S10x192, .f32⟩ : BufTy).Contents (Elt F))
  :: StableHlo.unary main_arg10 main_v283 ((transpose S64x192 [1, 0] · transposes_S192x64_S64x192_1_0) : (⟨S192x64, .f32⟩ : BufTy).Contents (Elt F) → (⟨S64x192, .f32⟩ : BufTy).Contents (Elt F))
  :: StableHlo.binary main_v233 main_v283 main_v284 ((fun l r => Host.dotGeneral dot_S10x64_S64x192_S10x192_1_0_0_1_n_n none l r) : (⟨S10x64, .f32⟩ : BufTy).Contents (Elt F) → (⟨S64x192, .f32⟩ : BufTy).Contents (Elt F) → (⟨S10x192, .f32⟩ : BufTy).Contents (Elt F))
  :: StableHlo.unary main_arg12 main_v285 (broadcastInDim S1x192 ![1] bcast_S192_S1x192_1 : (⟨S192, .f32⟩ : BufTy).Contents (Elt F) → (⟨S1x192, .f32⟩ : BufTy).Contents (Elt F))
  :: StableHlo.unary main_v285 main_v286 (broadcastInDim S10x192 ![0, 1] bcast_S1x192_S10x192_0_1 : (⟨S1x192, .f32⟩ : BufTy).Contents (Elt F) → (⟨S10x192, .f32⟩ : BufTy).Contents (Elt F))
  :: StableHlo.binary main_v284 main_v286 main_v287 (addf : (⟨S10x192, .f32⟩ : BufTy).Contents (Elt F) → (⟨S10x192, .f32⟩ : BufTy).Contents (Elt F) → (⟨S10x192, .f32⟩ : BufTy).Contents (Elt F))
  :: StableHlo.unary main_v282 main_v288 ((extractStridedSlice S10x64 ![0, 0] · slices_S10x192_S10x64_0_0) : (⟨S10x192, .f32⟩ : BufTy).Contents (Elt F) → (⟨S10x64, .f32⟩ : BufTy).Contents (Elt F))
  :: StableHlo.unary main_v282 main_v289 ((extractStridedSlice S10x64 ![0, 64] · slices_S10x192_S10x64_0_64) : (⟨S10x192, .f32⟩ : BufTy).Contents (Elt F) → (⟨S10x64, .f32⟩ : BufTy).Contents (Elt F))
  :: StableHlo.unary main_v282 main_v290 ((extractStridedSlice S10x64 ![0, 128] · slices_S10x192_S10x64_0_128) : (⟨S10x192, .f32⟩ : BufTy).Contents (Elt F) → (⟨S10x64, .f32⟩ : BufTy).Contents (Elt F))
  :: StableHlo.unary main_v287 main_v291 ((extractStridedSlice S10x64 ![0, 0] · slices_S10x192_S10x64_0_0) : (⟨S10x192, .f32⟩ : BufTy).Contents (Elt F) → (⟨S10x64, .f32⟩ : BufTy).Contents (Elt F))
  :: StableHlo.unary main_v287 main_v292 ((extractStridedSlice S10x64 ![0, 64] · slices_S10x192_S10x64_0_64) : (⟨S10x192, .f32⟩ : BufTy).Contents (Elt F) → (⟨S10x64, .f32⟩ : BufTy).Contents (Elt F))
  :: StableHlo.unary main_v287 main_v293 ((extractStridedSlice S10x64 ![0, 128] · slices_S10x192_S10x64_0_128) : (⟨S10x192, .f32⟩ : BufTy).Contents (Elt F) → (⟨S10x64, .f32⟩ : BufTy).Contents (Elt F))
  :: StableHlo.binary main_v288 main_v291 main_v294 (addf : (⟨S10x64, .f32⟩ : BufTy).Contents (Elt F) → (⟨S10x64, .f32⟩ : BufTy).Contents (Elt F) → (⟨S10x64, .f32⟩ : BufTy).Contents (Elt F))
  :: StableHlo.unary main_v294 main_v295 (Host.negf : (⟨S10x64, .f32⟩ : BufTy).Contents (Elt F) → (⟨S10x64, .f32⟩ : BufTy).Contents (Elt F))
  :: StableHlo.unary main_v295 main_v296 (Host.exp : (⟨S10x64, .f32⟩ : BufTy).Contents (Elt F) → (⟨S10x64, .f32⟩ : BufTy).Contents (Elt F))
  :: StableHlo.nullary main_cst_46 (constant S_ .f32 0x3F800000#32)
  :: StableHlo.unary main_cst_46 main_v297 (broadcastInDim S10x64 ![] bcast_S_S10x64 : (⟨S_, .f32⟩ : BufTy).Contents (Elt F) → (⟨S10x64, .f32⟩ : BufTy).Contents (Elt F))
  :: StableHlo.binary main_v297 main_v296 main_v298 (addf : (⟨S10x64, .f32⟩ : BufTy).Contents (Elt F) → (⟨S10x64, .f32⟩ : BufTy).Contents (Elt F) → (⟨S10x64, .f32⟩ : BufTy).Contents (Elt F))
  :: StableHlo.nullary main_cst_47 (constant S_ .f32 0x3F800000#32)
  :: StableHlo.unary main_cst_47 main_v299 (broadcastInDim S10x64 ![] bcast_S_S10x64 : (⟨S_, .f32⟩ : BufTy).Contents (Elt F) → (⟨S10x64, .f32⟩ : BufTy).Contents (Elt F))
  :: StableHlo.binary main_v299 main_v298 main_v300 (Host.divf : (⟨S10x64, .f32⟩ : BufTy).Contents (Elt F) → (⟨S10x64, .f32⟩ : BufTy).Contents (Elt F) → (⟨S10x64, .f32⟩ : BufTy).Contents (Elt F))
  :: StableHlo.binary main_v289 main_v292 main_v301 (addf : (⟨S10x64, .f32⟩ : BufTy).Contents (Elt F) → (⟨S10x64, .f32⟩ : BufTy).Contents (Elt F) → (⟨S10x64, .f32⟩ : BufTy).Contents (Elt F))
  :: StableHlo.unary main_v301 main_v302 (Host.negf : (⟨S10x64, .f32⟩ : BufTy).Contents (Elt F) → (⟨S10x64, .f32⟩ : BufTy).Contents (Elt F))
  :: StableHlo.unary main_v302 main_v303 (Host.exp : (⟨S10x64, .f32⟩ : BufTy).Contents (Elt F) → (⟨S10x64, .f32⟩ : BufTy).Contents (Elt F))
  :: StableHlo.nullary main_cst_48 (constant S_ .f32 0x3F800000#32)
  :: StableHlo.unary main_cst_48 main_v304 (broadcastInDim S10x64 ![] bcast_S_S10x64 : (⟨S_, .f32⟩ : BufTy).Contents (Elt F) → (⟨S10x64, .f32⟩ : BufTy).Contents (Elt F))
  :: StableHlo.binary main_v304 main_v303 main_v305 (addf : (⟨S10x64, .f32⟩ : BufTy).Contents (Elt F) → (⟨S10x64, .f32⟩ : BufTy).Contents (Elt F) → (⟨S10x64, .f32⟩ : BufTy).Contents (Elt F))
  :: StableHlo.nullary main_cst_49 (constant S_ .f32 0x3F800000#32)
  :: StableHlo.unary main_cst_49 main_v306 (broadcastInDim S10x64 ![] bcast_S_S10x64 : (⟨S_, .f32⟩ : BufTy).Contents (Elt F) → (⟨S10x64, .f32⟩ : BufTy).Contents (Elt F))
  :: StableHlo.binary main_v306 main_v305 main_v307 (Host.divf : (⟨S10x64, .f32⟩ : BufTy).Contents (Elt F) → (⟨S10x64, .f32⟩ : BufTy).Contents (Elt F) → (⟨S10x64, .f32⟩ : BufTy).Contents (Elt F))
  :: StableHlo.binary main_v300 main_v293 main_v308 (mulf : (⟨S10x64, .f32⟩ : BufTy).Contents (Elt F) → (⟨S10x64, .f32⟩ : BufTy).Contents (Elt F) → (⟨S10x64, .f32⟩ : BufTy).Contents (Elt F))
  :: StableHlo.binary main_v290 main_v308 main_v309 (addf : (⟨S10x64, .f32⟩ : BufTy).Contents (Elt F) → (⟨S10x64, .f32⟩ : BufTy).Contents (Elt F) → (⟨S10x64, .f32⟩ : BufTy).Contents (Elt F))
  :: StableHlo.unary main_v309 main_v310 (Host.tanh : (⟨S10x64, .f32⟩ : BufTy).Contents (Elt F) → (⟨S10x64, .f32⟩ : BufTy).Contents (Elt F))
  :: StableHlo.nullary main_cst_50 (constant S_ .f32 0x3F800000#32)
  :: StableHlo.unary main_cst_50 main_v311 (broadcastInDim S10x64 ![] bcast_S_S10x64 : (⟨S_, .f32⟩ : BufTy).Contents (Elt F) → (⟨S10x64, .f32⟩ : BufTy).Contents (Elt F))
  :: StableHlo.binary main_v311 main_v307 main_v312 (subf : (⟨S10x64, .f32⟩ : BufTy).Contents (Elt F) → (⟨S10x64, .f32⟩ : BufTy).Contents (Elt F) → (⟨S10x64, .f32⟩ : BufTy).Contents (Elt F))
  :: StableHlo.binary main_v312 main_v310 main_v313 (mulf : (⟨S10x64, .f32⟩ : BufTy).Contents (Elt F) → (⟨S10x64, .f32⟩ : BufTy).Contents (Elt F) → (⟨S10x64, .f32⟩ : BufTy).Contents (Elt F))
  :: StableHlo.binary main_v307 main_v233 main_v314 (mulf : (⟨S10x64, .f32⟩ : BufTy).Contents (Elt F) → (⟨S10x64, .f32⟩ : BufTy).Contents (Elt F) → (⟨S10x64, .f32⟩ : BufTy).Contents (Elt F))
  :: StableHlo.binary main_v313 main_v314 main_v315 (addf : (⟨S10x64, .f32⟩ : BufTy).Contents (Elt F) → (⟨S10x64, .f32⟩ : BufTy).Contents (Elt F) → (⟨S10x64, .f32⟩ : BufTy).Contents (Elt F))
  :: StableHlo.nullary main_cst_51 (constant S_ .f32 0x00000000#32)
  :: StableHlo.binary main_v315 main_cst_51 main_v316 ((fun x v => Host.reduceAdd x v reducesTo_S10x64_S10_d1 h_S_) : (⟨S10x64, .f32⟩ : BufTy).Contents (Elt F) → (⟨S_, .f32⟩ : BufTy).Contents (Elt F) → (⟨S10, .f32⟩ : BufTy).Contents (Elt F))
  :: StableHlo.unary main_v316 main_v317 (broadcastInDim S10x1 ![0] bcast_S10_S10x1_0 : (⟨S10, .f32⟩ : BufTy).Contents (Elt F) → (⟨S10x1, .f32⟩ : BufTy).Contents (Elt F))
  :: StableHlo.nullary main_cst_52 (constant S_ .f32 0x42800000#32)
  :: StableHlo.unary main_cst_52 main_v318 (broadcastInDim S10x1 ![] bcast_S_S10x1 : (⟨S_, .f32⟩ : BufTy).Contents (Elt F) → (⟨S10x1, .f32⟩ : BufTy).Contents (Elt F))
  :: StableHlo.binary main_v317 main_v318 main_v319 (Host.divf : (⟨S10x1, .f32⟩ : BufTy).Contents (Elt F) → (⟨S10x1, .f32⟩ : BufTy).Contents (Elt F) → (⟨S10x1, .f32⟩ : BufTy).Contents (Elt F))
  :: StableHlo.nullary main_c_53 (constantI S_ 32 0#32)
  :: [] )

set_option maxHeartbeats 40000000 in
/-- 23 operations: the call of @var_0 (main_call7). -/
def seg15 : List (HloOp τ sig (Elt F)) :=
  ( StableHlo.TRef.nullary main_call7.cst (constant S_ .f32 0x00000000#32)
  :: StableHlo.TRef.binary (.of main_v315 : StableHlo.TRef sig ⟨S10x64, .f32⟩) main_call7.cst main_call7.v0 (fun x v => Host.reduceAdd x v reducesTo_S10x64_S10_d1 h_S_)
  :: StableHlo.TRef.unary main_call7.v0 main_call7.v1 (broadcastInDim S10x1 ![0] bcast_S10_S10x1_0)
  :: StableHlo.TRef.nullary main_call7.cst_0 (constant S_ .f32 0x42800000#32)
  :: StableHlo.TRef.unary main_call7.cst_0 main_call7.v2 (broadcastInDim S10x1 ![] bcast_S_S10x1)
  :: StableHlo.TRef.binary main_call7.v1 main_call7.v2 main_call7.v3 Host.divf
  :: StableHlo.TRef.unary main_call7.v3 main_call7.v4 (broadcastInDim S10x64 ![0, 1] bcast_S10x1_S10x64_0_1)
  :: StableHlo.TRef.binary (.of main_v315 : StableHlo.TRef sig ⟨S10x64, .f32⟩) main_call7.v4 main_call7.v5 subf
  :: StableHlo.TRef.binary main_call7.v5 main_call7.v5 main_call7.v6 mulf
  :: StableHlo.TRef.unary (.of main_c_53 : StableHlo.TRef sig ⟨S_, .i32⟩) main_call7.v7 (sitofp .f32)
  :: StableHlo.TRef.nullary main_call7.cst_1 (constant S_ .f32 0x42800000#32)
  :: StableHlo.TRef.binary main_call7.cst_1 main_call7.v7 main_call7.v8 subf
  :: StableHlo.TRef.nullary main_call7.cst_2 (constant S_ .f32 0x00000000#32)
  :: StableHlo.TRef.binary main_call7.v6 main_call7.cst_2 main_call7.v9 (fun x v => Host.reduceAdd x v reducesTo_S10x64_S10_d1 h_S_)
  :: StableHlo.TRef.unary main_call7.v9 main_call7.v10 (broadcastInDim S10x1 ![0] bcast_S10_S10x1_0)
  :: StableHlo.TRef.unary main_call7.v8 main_call7.v11 (broadcastInDim S10x1 ![] bcast_S_S10x1)
  :: StableHlo.TRef.binary main_call7.v10 main_call7.v11 main_call7.v12 Host.divf
  :: StableHlo.TRef.nullary main_call7.cst_3 (constant S_ .f32 0x00000000#32)
  :: StableHlo.TRef.binary main_call7.v8 main_call7.cst_3 main_call7.v13 (cmpf .ogt)
  :: StableHlo.TRef.nullary main_call7.cst_4 (constant S_ .f32 0x7FC00000#32)
  :: StableHlo.TRef.unary main_call7.cst_4 main_call7.call0.v0 id
  :: StableHlo.TRef.unary main_call7.call0.v0 main_call7.call0.v1 (broadcastInDim S10x1 ![] bcast_S_S10x1)
  :: StableHlo.TRef.ternary main_call7.v13 main_call7.v12 main_call7.call0.v1 main_call7.call0.v2 (fun p a b => select (broadcastInDim S10x1 ![] bcast_S_S10x1 p) a b)
  :: [] )

set_option maxHeartbeats 40000000 in
/-- 19 operations: a stretch of @main. -/
def seg16 : List (HloOp τ sig (Elt F)) :=
  ( StableHlo.unary main_v319 main_v321 (broadcastInDim S10x64 ![0, 1] bcast_S10x1_S10x64_0_1 : (⟨S10x1, .f32⟩ : BufTy).Contents (Elt F) → (⟨S10x64, .f32⟩ : BufTy).Contents (Elt F))
  :: StableHlo.binary main_v315 main_v321 main_v322 (subf : (⟨S10x64, .f32⟩ : BufTy).Contents (Elt F) → (⟨S10x64, .f32⟩ : BufTy).Contents (Elt F) → (⟨S10x64, .f32⟩ : BufTy).Contents (Elt F))
  :: StableHlo.nullary main_cst_54 (constant S_ .f32 0x3727C5AC#32)
  :: StableHlo.unary main_cst_54 main_v323 (broadcastInDim S10x1 ![] bcast_S_S10x1 : (⟨S_, .f32⟩ : BufTy).Contents (Elt F) → (⟨S10x1, .f32⟩ : BufTy).Contents (Elt F))
  :: StableHlo.binary main_v320 main_v323 main_v324 (addf : (⟨S10x1, .f32⟩ : BufTy).Contents (Elt F) → (⟨S10x1, .f32⟩ : BufTy).Contents (Elt F) → (⟨S10x1, .f32⟩ : BufTy).Contents (Elt F))
  :: StableHlo.unary main_v324 main_v325 (Host.sqrt : (⟨S10x1, .f32⟩ : BufTy).Contents (Elt F) → (⟨S10x1, .f32⟩ : BufTy).Contents (Elt F))
  :: StableHlo.unary main_v325 main_v326 (broadcastInDim S10x64 ![0, 1] bcast_S10x1_S10x64_0_1 : (⟨S10x1, .f32⟩ : BufTy).Contents (Elt F) → (⟨S10x64, .f32⟩ : BufTy).Contents (Elt F))
  :: StableHlo.binary main_v322 main_v326 main_v327 (Host.divf : (⟨S10x64, .f32⟩ : BufTy).Contents (Elt F) → (⟨S10x64, .f32⟩ : BufTy).Contents (Elt F) → (⟨S10x64, .f32⟩ : BufTy).Contents (Elt F))
  :: StableHlo.unary main_arg13 main_v328 (broadcastInDim S1x64 ![1] bcast_S64_S1x64_1 : (⟨S64, .f32⟩ : BufTy).Contents (Elt F) → (⟨S1x64, .f32⟩ : BufTy).Contents (Elt F))
  :: StableHlo.unary main_v328 main_v329 (broadcastInDim S10x64 ![0, 1] bcast_S1x64_S10x64_0_1 : (⟨S1x64, .f32⟩ : BufTy).Contents (Elt F) → (⟨S10x64, .f32⟩ : BufTy).Contents (Elt F))
  :: StableHlo.binary main_v327 main_v329 main_v330 (mulf : (⟨S10x64, .f32⟩ : BufTy).Contents (Elt F) → (⟨S10x64, .f32⟩ : BufTy).Contents (Elt F) → (⟨S10x64, .f32⟩ : BufTy).Contents (Elt F))
  :: StableHlo.unary main_arg14 main_v331 (broadcastInDim S1x64 ![1] bcast_S64_S1x64_1 : (⟨S64, .f32⟩ : BufTy).Contents (Elt F) → (⟨S1x64, .f32⟩ : BufTy).Contents (Elt F))
  :: StableHlo.unary main_v331 main_v332 (broadcastInDim S10x64 ![0, 1] bcast_S1x64_S10x64_0_1 : (⟨S1x64, .f32⟩ : BufTy).Contents (Elt F) → (⟨S10x64, .f32⟩ : BufTy).Contents (Elt F))
  :: StableHlo.binary main_v330 main_v332 main_v333 (addf : (⟨S10x64, .f32⟩ : BufTy).Contents (Elt F) → (⟨S10x64, .f32⟩ : BufTy).Contents (Elt F) → (⟨S10x64, .f32⟩ : BufTy).Contents (Elt F))
  :: StableHlo.unary main_arg15 main_v334 ((transpose S64x128 [1, 0] · transposes_S128x64_S64x128_1_0) : (⟨S128x64, .f32⟩ : BufTy).Contents (Elt F) → (⟨S64x128, .f32⟩ : BufTy).Contents (Elt F))
  :: StableHlo.binary main_v333 main_v334 main_v335 ((fun l r => Host.dotGeneral dot_S10x64_S64x128_S10x128_1_0_0_1_n_n none l r) : (⟨S10x64, .f32⟩ : BufTy).Contents (Elt F) → (⟨S64x128, .f32⟩ : BufTy).Contents (Elt F) → (⟨S10x128, .f32⟩ : BufTy).Contents (Elt F))
  :: StableHlo.unary main_arg16 main_v336 (broadcastInDim S1x128 ![1] bcast_S128_S1x128_1 : (⟨S128, .f32⟩ : BufTy).Contents (Elt F) → (⟨S1x128, .f32⟩ : BufTy).Contents (Elt F))
  :: StableHlo.unary main_v336 main_v337 (broadcastInDim S10x128 ![0, 1] bcast_S1x128_S10x128_0_1 : (⟨S1x128, .f32⟩ : BufTy).Contents (Elt F) → (⟨S10x128, .f32⟩ : BufTy).Contents (Elt F))
  :: StableHlo.binary main_v335 main_v337 main_v338 (addf : (⟨S10x128, .f32⟩ : BufTy).Contents (Elt F) → (⟨S10x128, .f32⟩ : BufTy).Contents (Elt F) → (⟨S10x128, .f32⟩ : BufTy).Contents (Elt F))
  :: [] )

set_option maxHeartbeats 40000000 in
/-- 3 operations: the call of @relu (main_call8). -/
def seg17 : List (HloOp τ sig (Elt F)) :=
  ( StableHlo.TRef.nullary main_call8.cst (constant S_ .f32 0x00000000#32)
  :: StableHlo.TRef.unary main_call8.cst main_call8.v0 (broadcastInDim S10x128 ![] bcast_S_S10x128)
  :: StableHlo.TRef.binary (.of main_v338 : StableHlo.TRef sig ⟨S10x128, .f32⟩) main_call8.v0 main_call8.v1 maximumf
  :: [] )

set_option maxHeartbeats 40000000 in
/-- 6 operations: a stretch of @main. -/
def seg18 : List (HloOp τ sig (Elt F)) :=
  ( StableHlo.unary main_arg17 main_v340 ((transpose S128x64 [1, 0] · transposes_S64x128_S128x64_1_0) : (⟨S64x128, .f32⟩ : BufTy).Contents (Elt F) → (⟨S128x64, .f32⟩ : BufTy).Contents (Elt F))
  :: StableHlo.binary main_v339 main_v340 main_v341 ((fun l r => Host.dotGeneral dot_S10x128_S128x64_S10x64_1_0_0_1_n_n none l r) : (⟨S10x128, .f32⟩ : BufTy).Contents (Elt F) → (⟨S128x64, .f32⟩ : BufTy).Contents (Elt F) → (⟨S10x64, .f32⟩ : BufTy).Contents (Elt F))
  :: StableHlo.binary main_v315 main_v341 main_v342 (addf : (⟨S10x64, .f32⟩ : BufTy).Contents (Elt F) → (⟨S10x64, .f32⟩ : BufTy).Contents (Elt F) → (⟨S10x64, .f32⟩ : BufTy).Contents (Elt F))
  :: StableHlo.unary main_arg18 main_v343 (broadcastInDim S1x64 ![1] bcast_S64_S1x64_1 : (⟨S64, .f32⟩ : BufTy).Contents (Elt F) → (⟨S1x64, .f32⟩ : BufTy).Contents (Elt F))
  :: StableHlo.unary main_v343 main_v344 (broadcastInDim S10x64 ![0, 1] bcast_S1x64_S10x64_0_1 : (⟨S1x64, .f32⟩ : BufTy).Contents (Elt F) → (⟨S10x64, .f32⟩ : BufTy).Contents (Elt F))
  :: StableHlo.binary main_v342 main_v344 main_v345 (addf : (⟨S10x64, .f32⟩ : BufTy).Contents (Elt F) → (⟨S10x64, .f32⟩ : BufTy).Contents (Elt F) → (⟨S10x64, .f32⟩ : BufTy).Contents (Elt F))
  :: [] )

set_option maxHeartbeats 40000000 in
/-- 5 operations: a stretch of @main's tail. -/
def seg19 : List (HloOp τ sig (Elt F)) :=
  ( StableHlo.binary main_v345 main_arg19 main_v346 ((fun l r => Host.dotGeneral dot_S10x64_S4096x64x64_S10x4096x64_1_2_0_01_n_n none l r) : (⟨S10x64, .f32⟩ : BufTy).Contents (Elt F) → (⟨S4096x64x64, .f32⟩ : BufTy).Contents (Elt F) → (⟨S10x4096x64, .f32⟩ : BufTy).Contents (Elt F))
  :: StableHlo.unary main_v346 main_v347 ((transpose S4096x10x64 [1, 0, 2] · transposes_S10x4096x64_S4096x10x64_1_0_2) : (⟨S10x4096x64, .f32⟩ : BufTy).Contents (Elt F) → (⟨S4096x10x64, .f32⟩ : BufTy).Contents (Elt F))
  :: StableHlo.unary main_arg20 main_v348 (broadcastInDim S4096x1x64 ![0, 2] bcast_S4096x64_S4096x1x64_0_2 : (⟨S4096x64, .f32⟩ : BufTy).Contents (Elt F) → (⟨S4096x1x64, .f32⟩ : BufTy).Contents (Elt F))
  :: StableHlo.unary main_v348 main_v349 (broadcastInDim S4096x10x64 ![0, 1, 2] bcast_S4096x1x64_S4096x10x64_0_1_2 : (⟨S4096x1x64, .f32⟩ : BufTy).Contents (Elt F) → (⟨S4096x10x64, .f32⟩ : BufTy).Contents (Elt F))
  :: StableHlo.binary main_v347 main_v349 main_v350 (addf : (⟨S4096x10x64, .f32⟩ : BufTy).Contents (Elt F) → (⟨S4096x10x64, .f32⟩ : BufTy).Contents (Elt F) → (⟨S4096x10x64, .f32⟩ : BufTy).Contents (Elt F))
  :: [] )

set_option maxHeartbeats 40000000 in
/-- 3 operations: the call of @relu_1 (main_call9). -/
def seg20 : List (HloOp τ sig (Elt F)) :=
  ( StableHlo.TRef.nullary main_call9.cst (constant S_ .f32 0x00000000#32)
  :: StableHlo.TRef.unary main_call9.cst main_call9.v0 (broadcastInDim S4096x10x64 ![] bcast_S_S4096x10x64)
  :: StableHlo.TRef.binary (.of main_v350 : StableHlo.TRef sig ⟨S4096x10x64, .f32⟩) main_call9.v0 main_call9.v1 maximumf
  :: [] )

set_option maxHeartbeats 40000000 in
/-- 6 operations: a stretch of @main's tail. -/
def seg21 : List (HloOp τ sig (Elt F)) :=
  ( StableHlo.binary main_v351 main_arg21 main_v352 ((fun l r => Host.dotGeneral dot_S4096x10x64_S4096x64x64_S4096x10x64_2_2_1_1_0_0 none l r) : (⟨S4096x10x64, .f32⟩ : BufTy).Contents (Elt F) → (⟨S4096x64x64, .f32⟩ : BufTy).Contents (Elt F) → (⟨S4096x10x64, .f32⟩ : BufTy).Contents (Elt F))
  :: StableHlo.unary main_arg22 main_v353 (broadcastInDim S4096x1x64 ![0, 2] bcast_S4096x64_S4096x1x64_0_2 : (⟨S4096x64, .f32⟩ : BufTy).Contents (Elt F) → (⟨S4096x1x64, .f32⟩ : BufTy).Contents (Elt F))
  :: StableHlo.unary main_v353 main_v354 (broadcastInDim S4096x10x64 ![0, 1, 2] bcast_S4096x1x64_S4096x10x64_0_1_2 : (⟨S4096x1x64, .f32⟩ : BufTy).Contents (Elt F) → (⟨S4096x10x64, .f32⟩ : BufTy).Contents (Elt F))
  :: StableHlo.binary main_v352 main_v354 main_v355 (addf : (⟨S4096x10x64, .f32⟩ : BufTy).Contents (Elt F) → (⟨S4096x10x64, .f32⟩ : BufTy).Contents (Elt F) → (⟨S4096x10x64, .f32⟩ : BufTy).Contents (Elt F))
  :: StableHlo.nullary main_cst_55 (constant S_ .f32 0xFF800000#32)
  :: StableHlo.binary main_v355 main_cst_55 main_v356 ((fun x v => Host.reduce FloatOps.maximumf x v reducesTo_S4096x10x64_S4096x64_d1 h_S_) : (⟨S4096x10x64, .f32⟩ : BufTy).Contents (Elt F) → (⟨S_, .f32⟩ : BufTy).Contents (Elt F) → (⟨S4096x64, .f32⟩ : BufTy).Contents (Elt F))
  :: [] )

/-- Everything before the tail: the operations that compute the cluster centres, 541 of them. -/
def head : List (HloOp τ sig (Elt F)) :=
  List.flatten [seg0, seg1, seg2, seg3, seg4, seg5, seg6, seg7, seg8, seg9, seg10, seg11, seg12, seg13, seg14, seg15, seg16, seg17, seg18]

/-- The tail: the per-slot two-layer map and the maximum over the clusters, 14 operations. -/
def tail : List (HloOp τ sig (Elt F)) :=
  List.flatten [seg19, seg20, seg21]

end Cert.ReferenceIdeal.Line

end
-- ==== Proof.LibTwoLines.lean ====
/-
  Two straight lines of host operations, over two DIFFERENT buffer signatures, that perform the same computation.

  Number the buffers of one memory space by their index. Suppose the k-th operation of the first line and the k-th operation
  of the second both write the buffer numbered n + k of that space, read only buffers numbered below n + k, and apply the
  same function to operands of the same numbers. Then, run from contents that agree on the buffers numbered below n, the
  two lines leave contents that agree on every buffer numbered below n + (their length): by induction along the lines, each
  step extending the agreement by the one buffer it writes. A buffer numbered below n is written by neither line.

  The two signatures type their buffers independently, so "agree" is heterogeneous equality; at a concrete pair of buffers
  whose types unfold to the same literal it is an ordinary equation (`eq_of_heq`).
-/
import Idealize.ShloMosaic.Lib.StableHlo.Run

namespace Cert.Lib.TwoLines

open Idealize.ShloMosaic Idealize.ShloMosaic.StableHlo

variable {τ : Topo} {sig₁ sig₂ : RefSig} {Val : EltTy → Type}

/-- A reference is its memory space and its number there. -/
theorem ref_eq {sig : RefSig} {x y : Ref sig .tc} (hs : x.space = y.space) (hi : x.idx.val = y.idx.val) : x = y := by
  obtain ⟨xs, xi, xn⟩ := x
  obtain ⟨ys, yi, yn⟩ := y
  dsimp only at hs hi
  subst hs
  have h : xi = yi := Fin.ext hi
  subst h
  rfl

/-- Equal functions between equal types, at equal arguments. -/
theorem heq_app {α α' β β' : Type} (hα : α = α') (hβ : β = β') {f : α → β} {f' : α' → β'} (hf : HEq f f')
    {a : α} {a' : α'} (ha : HEq a a') : HEq (f a) (f' a') := by
  subst hα; subst hβ; cases hf; cases ha; exact HEq.rfl

theorem heq_app₂ {α α' β β' γ γ' : Type} (hα : α = α') (hβ : β = β') (hγ : γ = γ') {f : α → β → γ} {f' : α' → β' → γ'}
    (hf : HEq f f') {a : α} {a' : α'} (ha : HEq a a') {b : β} {b' : β'} (hb : HEq b b') : HEq (f a b) (f' a' b') := by
  subst hα; subst hβ; subst hγ; cases hf; cases ha; cases hb; exact HEq.rfl

theorem heq_app₃ {α α' β β' γ γ' δ δ' : Type} (hα : α = α') (hβ : β = β') (hγ : γ = γ') (hδ : δ = δ')
    {f : α → β → γ → δ} {f' : α' → β' → γ' → δ'} (hf : HEq f f') {a : α} {a' : α'} (ha : HEq a a') {b : β} {b' : β'}
    (hb : HEq b b') {c : γ} {c' : γ'} (hc : HEq c c') : HEq (f a b c) (f' a' b' c') := by
  subst hα; subst hβ; subst hγ; subst hδ; cases hf; cases ha; cases hb; cases hc; exact HEq.rfl

variable (τ) in
/-- The two contents agree on the buffers of space `sp` numbered below `n`. -/
def Agree (sp : Space) (n : Nat) (V₁ : Valuation τ sig₁ Val) (V₂ : Valuation τ sig₂ Val) : Prop :=
  ∀ (z : Ref sig₁ .tc) (z' : Ref sig₂ .tc), z.space = sp → z'.space = sp → z.idx.val = z'.idx.val → z.idx.val < n →
    HEq (V₁ (Proc.devRef (τ := τ) .tc z)) (V₂ (Proc.devRef (τ := τ) .tc z'))

/-- One step of the two lines: both operations write exactly the buffer numbered `n` of space `sp`, and carry contents
    that agree below `n` to contents that agree below `n + 1`. -/
structure Step (sp : Space) (n : Nat) (op₁ : HloOp τ sig₁ Val) (op₂ : HloOp τ sig₂ Val) : Prop where
  writes₁ : ∃ y : Ref sig₁ .tc, y.space = sp ∧ y.idx.val = n ∧ op₁.writes = {Proc.devRef (τ := τ) .tc y}
  writes₂ : ∃ y : Ref sig₂ .tc, y.space = sp ∧ y.idx.val = n ∧ op₂.writes = {Proc.devRef (τ := τ) .tc y}
  agree : ∀ V₁ V₂, Agree τ sp n V₁ V₂ → Agree τ sp (n + 1) (op₁.result V₁) (op₂.result V₂)

/-- A step from its two result buffers and the agreement of the two results there. -/
theorem Step.of {sp : Space} {n : Nat} {op₁ : HloOp τ sig₁ Val} {op₂ : HloOp τ sig₂ Val} {y : Ref sig₁ .tc} {y' : Ref sig₂ .tc}
    (sy : y.space = sp) (sy' : y'.space = sp) (iy : y.idx.val = n) (iy' : y'.idx.val = n)
    (w₁ : op₁.writes = {Proc.devRef (τ := τ) .tc y}) (w₂ : op₂.writes = {Proc.devRef (τ := τ) .tc y'})
    (hres : ∀ V₁ V₂, Agree τ sp n V₁ V₂ →
      HEq (op₁.result V₁ (Proc.devRef (τ := τ) .tc y)) (op₂.result V₂ (Proc.devRef (τ := τ) .tc y'))) :
    Step sp n op₁ op₂ where
  writes₁ := ⟨y, sy, iy, w₁⟩
  writes₂ := ⟨y', sy', iy', w₂⟩
  agree := by
    intro V₁ V₂ hA z z' hz hz' hi hlt
    by_cases hzn : z.idx.val = n
    · have e : z = y := ref_eq (hz.trans sy.symm) (hzn.trans iy.symm)
      have e' : z' = y' := ref_eq (hz'.trans sy'.symm) ((hi.symm.trans hzn).trans iy'.symm)
      subst e; subst e'
      exact hres V₁ V₂ hA
    · have h₁ : Proc.devRef (τ := τ) .tc z ∉ op₁.writes := by
        rw [w₁, Finset.mem_singleton]
        intro e
        exact hzn ((congrArg (fun r : Ref sig₁ .tc => r.idx.val) (Proc.devRef_injective _ e)).trans iy)
      have h₂ : Proc.devRef (τ := τ) .tc z' ∉ op₂.writes := by
        rw [w₂, Finset.mem_singleton]
        intro e
        exact hzn (hi.trans ((congrArg (fun r : Ref sig₂ .tc => r.idx.val) (Proc.devRef_injective _ e)).trans iy'))
      rw [op₁.result_of_not_mem V₁ h₁, op₂.result_of_not_mem V₂ h₂]
      exact hA z z' hz hz' hi (by omega)

section Builders

variable {sp : Space} {n : Nat}

/-- Two constants with the same value. -/
theorem step_nullary {y : Ref sig₁ .tc} {y' : Ref sig₂ .tc} {v : y.ty.Contents Val} {v' : y'.ty.Contents Val} {hy hy'}
    (hv : HEq v v') (sy : y.space = sp) (sy' : y'.space = sp) (iy : y.idx.val = n) (iy' : y'.idx.val = n) :
    Step sp n (nullary (τ := τ) y v hy) (nullary (τ := τ) y' v' hy') :=
  Step.of sy sy' iy iy' rfl rfl fun V₁ V₂ _ =>
    (heq_of_eq (nullary_result y v hy V₁)).trans (hv.trans (heq_of_eq (nullary_result y' v' hy' V₂)).symm)

/-- Two applications of one function to operands of one number. -/
theorem step_unary {x y : Ref sig₁ .tc} {x' y' : Ref sig₂ .tc} {f : x.ty.Contents Val → y.ty.Contents Val}
    {f' : x'.ty.Contents Val → y'.ty.Contents Val} {hx hy hx' hy'}
    (ex : x.ty = x'.ty) (ey : y.ty = y'.ty) (hf : HEq f f')
    (sx : x.space = sp) (sx' : x'.space = sp) (ix : x.idx.val = x'.idx.val) (lx : x.idx.val < n)
    (sy : y.space = sp) (sy' : y'.space = sp) (iy : y.idx.val = n) (iy' : y'.idx.val = n) :
    Step sp n (unary (τ := τ) x y f hx hy) (unary (τ := τ) x' y' f' hx' hy') :=
  Step.of sy sy' iy iy' rfl rfl fun V₁ V₂ hA =>
    (heq_of_eq (unary_result x y f hx hy V₁)).trans
      ((heq_app (congrArg (fun T : BufTy => T.Contents Val) ex) (congrArg (fun T : BufTy => T.Contents Val) ey) hf
          (hA x x' sx sx' ix lx)).trans (heq_of_eq (unary_result x' y' f' hx' hy' V₂)).symm)

/-- The same with two operands. -/
theorem step_binary {a b y : Ref sig₁ .tc} {a' b' y' : Ref sig₂ .tc}
    {f : a.ty.Contents Val → b.ty.Contents Val → y.ty.Contents Val}
    {f' : a'.ty.Contents Val → b'.ty.Contents Val → y'.ty.Contents Val} {ha hb hy ha' hb' hy'}
    (ea : a.ty = a'.ty) (eb : b.ty = b'.ty) (ey : y.ty = y'.ty) (hf : HEq f f')
    (sa : a.space = sp) (sa' : a'.space = sp) (ia : a.idx.val = a'.idx.val) (la : a.idx.val < n)
    (sb : b.space = sp) (sb' : b'.space = sp) (ib : b.idx.val = b'.idx.val) (lb : b.idx.val < n)
    (sy : y.space = sp) (sy' : y'.space = sp) (iy : y.idx.val = n) (iy' : y'.idx.val = n) :
    Step sp n (binary (τ := τ) a b y f ha hb hy) (binary (τ := τ) a' b' y' f' ha' hb' hy') :=
  Step.of sy sy' iy iy' rfl rfl fun V₁ V₂ hA =>
    (heq_of_eq (binary_result a b y f ha hb hy V₁)).trans
      ((heq_app₂ (congrArg (fun T : BufTy => T.Contents Val) ea) (congrArg (fun T : BufTy => T.Contents Val) eb)
          (congrArg (fun T : BufTy => T.Contents Val) ey) hf (hA a a' sa sa' ia la) (hA b b' sb sb' ib lb)).trans
        (heq_of_eq (binary_result a' b' y' f' ha' hb' hy' V₂)).symm)

/-- The same with three operands. -/
theorem step_ternary {c a b y : Ref sig₁ .tc} {c' a' b' y' : Ref sig₂ .tc}
    {f : c.ty.Contents Val → a.ty.Contents Val → b.ty.Contents Val → y.ty.Contents Val}
    {f' : c'.ty.Contents Val → a'.ty.Contents Val → b'.ty.Contents Val → y'.ty.Contents Val} {hc ha hb hy hc' ha' hb' hy'}
    (ec : c.ty = c'.ty) (ea : a.ty = a'.ty) (eb : b.ty = b'.ty) (ey : y.ty = y'.ty) (hf : HEq f f')
    (sc : c.space = sp) (sc' : c'.space = sp) (ic : c.idx.val = c'.idx.val) (lc : c.idx.val < n)
    (sa : a.space = sp) (sa' : a'.space = sp) (ia : a.idx.val = a'.idx.val) (la : a.idx.val < n)
    (sb : b.space = sp) (sb' : b'.space = sp) (ib : b.idx.val = b'.idx.val) (lb : b.idx.val < n)
    (sy : y.space = sp) (sy' : y'.space = sp) (iy : y.idx.val = n) (iy' : y'.idx.val = n) :
    Step sp n (ternary (τ := τ) c a b y f hc ha hb hy) (ternary (τ := τ) c' a' b' y' f' hc' ha' hb' hy') :=
  Step.of sy sy' iy iy' rfl rfl fun V₁ V₂ hA =>
    (heq_of_eq (ternary_result c a b y f hc ha hb hy V₁)).trans
      ((heq_app₃ (congrArg (fun T : BufTy => T.Contents Val) ec) (congrArg (fun T : BufTy => T.Contents Val) ea)
          (congrArg (fun T : BufTy => T.Contents Val) eb) (congrArg (fun T : BufTy => T.Contents Val) ey) hf
          (hA c c' sc sc' ic lc) (hA a a' sa sa' ia la) (hA b b' sb sb' ib lb)).trans
        (heq_of_eq (ternary_result c' a' b' y' f' hc' ha' hb' hy' V₂)).symm)

end Builders

/-- Two lines that go step by step together, the first step writing the buffer numbered `n`. -/
inductive SimLine (sp : Space) : Nat → List (HloOp τ sig₁ Val) → List (HloOp τ sig₂ Val) → Prop
  | nil (n : Nat) : SimLine sp n [] []
  | cons {n : Nat} {op₁ : HloOp τ sig₁ Val} {op₂ : HloOp τ sig₂ Val} {l₁ : List (HloOp τ sig₁ Val)}
      {l₂ : List (HloOp τ sig₂ Val)} (h : Step sp n op₁ op₂) (t : SimLine sp (n + 1) l₁ l₂) : SimLine sp n (op₁ :: l₁) (op₂ :: l₂)

namespace SimLine

variable {sp : Space}

/-- Two pairs of lines one after the other, the second starting where the first ends. -/
theorem append {n k : Nat} {l₁ m₁ : List (HloOp τ sig₁ Val)} {l₂ m₂ : List (HloOp τ sig₂ Val)} (h : SimLine sp n l₁ l₂)
    (hk : n + l₁.length = k) (h' : SimLine sp k m₁ m₂) : SimLine sp n (l₁ ++ m₁) (l₂ ++ m₂) := by
  induction h generalizing k with
  | nil n => simp only [List.length_nil, Nat.add_zero] at hk; subst hk; exact h'
  | cons hs _ ih =>
    simp only [List.length_cons] at hk
    exact .cons hs (ih (by omega) h')

/-- After the two lines the contents agree below `n +` their length. -/
theorem agree {n : Nat} {l₁ : List (HloOp τ sig₁ Val)} {l₂ : List (HloOp τ sig₂ Val)} (h : SimLine sp n l₁ l₂) :
    ∀ (V₁ : Valuation τ sig₁ Val) (V₂ : Valuation τ sig₂ Val), Agree τ sp n V₁ V₂ →
      Agree τ sp (n + l₁.length) (after l₁ V₁) (after l₂ V₂) := by
  induction h with
  | nil n => intro V₁ V₂ hA; exact hA
  | @cons n op₁ op₂ l₁ l₂ hs _ ih =>
    intro V₁ V₂ hA
    have := ih (op₁.result V₁) (op₂.result V₂) (hs.agree V₁ V₂ hA)
    rw [after_cons, after_cons, List.length_cons, show n + (l₁.length + 1) = n + 1 + l₁.length by omega]
    exact this

/-- The first line writes no buffer of the space numbered below `n`. -/
theorem low₁ {n : Nat} {l₁ : List (HloOp τ sig₁ Val)} {l₂ : List (HloOp τ sig₂ Val)} (h : SimLine sp n l₁ l₂)
    (z : Ref sig₁ .tc) (hz : z.idx.val < n) (V₁ : Valuation τ sig₁ Val) :
    after l₁ V₁ (Proc.devRef (τ := τ) .tc z) = V₁ (Proc.devRef (τ := τ) .tc z) := by
  induction h generalizing V₁ with
  | nil n => rfl
  | @cons n op₁ op₂ l₁ l₂ hs _ ih =>
    obtain ⟨y, _, iy, w⟩ := hs.writes₁
    rw [after_cons, ih (by omega), op₁.result_of_not_mem V₁]
    rw [w, Finset.mem_singleton]
    intro e
    have := congrArg (fun r : Ref sig₁ .tc => r.idx.val) (Proc.devRef_injective _ e)
    omega

/-- The second line writes no buffer of the space numbered below `n`. -/
theorem low₂ {n : Nat} {l₁ : List (HloOp τ sig₁ Val)} {l₂ : List (HloOp τ sig₂ Val)} (h : SimLine sp n l₁ l₂)
    (z : Ref sig₂ .tc) (hz : z.idx.val < n) (V₂ : Valuation τ sig₂ Val) :
    after l₂ V₂ (Proc.devRef (τ := τ) .tc z) = V₂ (Proc.devRef (τ := τ) .tc z) := by
  induction h generalizing V₂ with
  | nil n => rfl
  | @cons n op₁ op₂ l₁ l₂ hs _ ih =>
    obtain ⟨y, _, iy, w⟩ := hs.writes₂
    rw [after_cons, ih (by omega), op₂.result_of_not_mem V₂]
    rw [w, Finset.mem_singleton]
    intro e
    have := congrArg (fun r : Ref sig₂ .tc => r.idx.val) (Proc.devRef_injective _ e)
    omega

end SimLine

end Cert.Lib.TwoLines
-- ==== Proof.Centres.lean ====
/-
  The cluster centres are the same array in the two programs.

  Both programs compute the centres from the same nineteen arguments by the same 541 host operations, in the same order,
  each writing the buffer of the same number: three rounds of slot attention (a layer normalisation, a softmax over the
  clusters, a gated recurrent update, a residual two-layer map). Stretch by stretch the kernel's line and the reference's go
  step by step together; so from argument arrays that agree the two lines end with the same contents in every buffer they
  write — in particular in the buffer of the centres — and neither writes an argument. Nothing of what the operations
  compute is opened.
-/
import proofs.«154116_j40183714021834_2_alg».proof.Proof.Gen.KernelIdeal.Launch
import proofs.«154116_j40183714021834_2_alg».proof.Proof.RefLine
import proofs.«154116_j40183714021834_2_alg».proof.Proof.LibTwoLines

set_option maxRecDepth 16384

noncomputable section

namespace Cert.Centres

open Idealize.ShloMosaic Idealize.ShloMosaic.StableHlo Cert.Lib.TwoLines

variable {F : FTy → Type} [FloatOps F] [Cert.KernelIdeal.Facts] [Cert.ReferenceIdeal.Facts]

/-- One step: the two operations are the same builder applied to buffers of the same numbers and to the same function. -/
macro "same_step" : tactic => `(tactic| first
  | exact step_nullary HEq.rfl rfl rfl rfl rfl
  | exact step_unary rfl rfl HEq.rfl rfl rfl rfl (by decide) rfl rfl rfl rfl
  | exact step_binary rfl rfl rfl HEq.rfl rfl rfl rfl (by decide) rfl rfl rfl (by decide) rfl rfl rfl rfl
  | exact step_ternary rfl rfl rfl rfl HEq.rfl rfl rfl rfl (by decide) rfl rfl rfl (by decide) rfl rfl rfl (by decide) rfl rfl rfl rfl)

/-- A whole stretch, step after step. -/
macro "same_line" : tactic => `(tactic| repeat (first | exact SimLine.nil _ | refine SimLine.cons (by same_step) ?_))

/-- The kernel's line: its host operations before the region, stretch after stretch. -/
abbrev kernelHead : List (HloOp Cert.KernelIdeal.τ Cert.KernelIdeal.sig (Elt F)) :=
  List.flatten [Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, Cert.KernelIdeal.Gen.hostOps0_10, Cert.KernelIdeal.Gen.hostOps0_11, Cert.KernelIdeal.Gen.hostOps0_12, Cert.KernelIdeal.Gen.hostOps0_13, Cert.KernelIdeal.Gen.hostOps0_14, Cert.KernelIdeal.Gen.hostOps0_15, Cert.KernelIdeal.Gen.hostOps0_16, Cert.KernelIdeal.Gen.hostOps0_17, Cert.KernelIdeal.Gen.hostOps0_18]

theorem kernelHead_eq : (kernelHead (F := F)) = Cert.KernelIdeal.Gen.hostOps0 ++ (Cert.KernelIdeal.Gen.hostOps0_1 ++ (Cert.KernelIdeal.Gen.hostOps0_2 ++ (Cert.KernelIdeal.Gen.hostOps0_3 ++ (Cert.KernelIdeal.Gen.hostOps0_4 ++ (Cert.KernelIdeal.Gen.hostOps0_5 ++ (Cert.KernelIdeal.Gen.hostOps0_6 ++ (Cert.KernelIdeal.Gen.hostOps0_7 ++ (Cert.KernelIdeal.Gen.hostOps0_8 ++ (Cert.KernelIdeal.Gen.hostOps0_9 ++ (Cert.KernelIdeal.Gen.hostOps0_10 ++ (Cert.KernelIdeal.Gen.hostOps0_11 ++ (Cert.KernelIdeal.Gen.hostOps0_12 ++ (Cert.KernelIdeal.Gen.hostOps0_13 ++ (Cert.KernelIdeal.Gen.hostOps0_14 ++ (Cert.KernelIdeal.Gen.hostOps0_15 ++ (Cert.KernelIdeal.Gen.hostOps0_16 ++ (Cert.KernelIdeal.Gen.hostOps0_17 ++ (Cert.KernelIdeal.Gen.hostOps0_18)))))))))))))))))) := by
  simp only [kernelHead, List.flatten_cons, List.flatten_nil, List.append_nil]

theorem head_eq : (Cert.ReferenceIdeal.Line.head (F := F)) = Cert.ReferenceIdeal.Line.seg0 ++ (Cert.ReferenceIdeal.Line.seg1 ++ (Cert.ReferenceIdeal.Line.seg2 ++ (Cert.ReferenceIdeal.Line.seg3 ++ (Cert.ReferenceIdeal.Line.seg4 ++ (Cert.ReferenceIdeal.Line.seg5 ++ (Cert.ReferenceIdeal.Line.seg6 ++ (Cert.ReferenceIdeal.Line.seg7 ++ (Cert.ReferenceIdeal.Line.seg8 ++ (Cert.ReferenceIdeal.Line.seg9 ++ (Cert.ReferenceIdeal.Line.seg10 ++ (Cert.ReferenceIdeal.Line.seg11 ++ (Cert.ReferenceIdeal.Line.seg12 ++ (Cert.ReferenceIdeal.Line.seg13 ++ (Cert.ReferenceIdeal.Line.seg14 ++ (Cert.ReferenceIdeal.Line.seg15 ++ (Cert.ReferenceIdeal.Line.seg16 ++ (Cert.ReferenceIdeal.Line.seg17 ++ (Cert.ReferenceIdeal.Line.seg18)))))))))))))))))) := by
  simp only [Cert.ReferenceIdeal.Line.head, List.flatten_cons, List.flatten_nil, List.append_nil]

set_option maxHeartbeats 40000000 in
theorem stretch0 : SimLine (τ := Cert.KernelIdeal.τ) .hbm 23 (Cert.KernelIdeal.Gen.hostOps0 (F := F)) (Cert.ReferenceIdeal.Line.seg0 (F := F)) := by
  unfold Cert.ReferenceIdeal.Line.seg0
  same_line

set_option maxHeartbeats 40000000 in
theorem stretch1 : SimLine (τ := Cert.KernelIdeal.τ) .hbm 40 (Cert.KernelIdeal.Gen.hostOps0_1 (F := F)) (Cert.ReferenceIdeal.Line.seg1 (F := F)) := by
  unfold Cert.ReferenceIdeal.Line.seg1
  same_line

set_option maxHeartbeats 40000000 in
theorem stretch2 : SimLine (τ := Cert.KernelIdeal.τ) .hbm 63 (Cert.KernelIdeal.Gen.hostOps0_2 (F := F)) (Cert.ReferenceIdeal.Line.seg2 (F := F)) := by
  unfold Cert.ReferenceIdeal.Line.seg2
  same_line

set_option maxHeartbeats 40000000 in
theorem stretch3 : SimLine (τ := Cert.KernelIdeal.τ) .hbm 159 (Cert.KernelIdeal.Gen.hostOps0_3 (F := F)) (Cert.ReferenceIdeal.Line.seg3 (F := F)) := by
  unfold Cert.ReferenceIdeal.Line.seg3
  same_line

set_option maxHeartbeats 40000000 in
theorem stretch4 : SimLine (τ := Cert.KernelIdeal.τ) .hbm 182 (Cert.KernelIdeal.Gen.hostOps0_4 (F := F)) (Cert.ReferenceIdeal.Line.seg4 (F := F)) := by
  unfold Cert.ReferenceIdeal.Line.seg4
  same_line

set_option maxHeartbeats 40000000 in
theorem stretch5 : SimLine (τ := Cert.KernelIdeal.τ) .hbm 201 (Cert.KernelIdeal.Gen.hostOps0_5 (F := F)) (Cert.ReferenceIdeal.Line.seg5 (F := F)) := by
  unfold Cert.ReferenceIdeal.Line.seg5
  same_line

set_option maxHeartbeats 40000000 in
theorem stretch6 : SimLine (τ := Cert.KernelIdeal.τ) .hbm 204 (Cert.KernelIdeal.Gen.hostOps0_6 (F := F)) (Cert.ReferenceIdeal.Line.seg6 (F := F)) := by
  unfold Cert.ReferenceIdeal.Line.seg6
  same_line

set_option maxHeartbeats 40000000 in
theorem stretch7 : SimLine (τ := Cert.KernelIdeal.τ) .hbm 217 (Cert.KernelIdeal.Gen.hostOps0_7 (F := F)) (Cert.ReferenceIdeal.Line.seg7 (F := F)) := by
  unfold Cert.ReferenceIdeal.Line.seg7
  same_line

set_option maxHeartbeats 40000000 in
theorem stretch8 : SimLine (τ := Cert.KernelIdeal.τ) .hbm 240 (Cert.KernelIdeal.Gen.hostOps0_8 (F := F)) (Cert.ReferenceIdeal.Line.seg8 (F := F)) := by
  unfold Cert.ReferenceIdeal.Line.seg8
  same_line

set_option maxHeartbeats 40000000 in
theorem stretch9 : SimLine (τ := Cert.KernelIdeal.τ) .hbm 336 (Cert.KernelIdeal.Gen.hostOps0_9 (F := F)) (Cert.ReferenceIdeal.Line.seg9 (F := F)) := by
  unfold Cert.ReferenceIdeal.Line.seg9
  same_line

set_option maxHeartbeats 40000000 in
theorem stretch10 : SimLine (τ := Cert.KernelIdeal.τ) .hbm 359 (Cert.KernelIdeal.Gen.hostOps0_10 (F := F)) (Cert.ReferenceIdeal.Line.seg10 (F := F)) := by
  unfold Cert.ReferenceIdeal.Line.seg10
  same_line

set_option maxHeartbeats 40000000 in
theorem stretch11 : SimLine (τ := Cert.KernelIdeal.τ) .hbm 378 (Cert.KernelIdeal.Gen.hostOps0_11 (F := F)) (Cert.ReferenceIdeal.Line.seg11 (F := F)) := by
  unfold Cert.ReferenceIdeal.Line.seg11
  same_line

set_option maxHeartbeats 40000000 in
theorem stretch12 : SimLine (τ := Cert.KernelIdeal.τ) .hbm 381 (Cert.KernelIdeal.Gen.hostOps0_12 (F := F)) (Cert.ReferenceIdeal.Line.seg12 (F := F)) := by
  unfold Cert.ReferenceIdeal.Line.seg12
  same_line

set_option maxHeartbeats 40000000 in
theorem stretch13 : SimLine (τ := Cert.KernelIdeal.τ) .hbm 394 (Cert.KernelIdeal.Gen.hostOps0_13 (F := F)) (Cert.ReferenceIdeal.Line.seg13 (F := F)) := by
  unfold Cert.ReferenceIdeal.Line.seg13
  same_line

set_option maxHeartbeats 40000000 in
theorem stretch14 : SimLine (τ := Cert.KernelIdeal.τ) .hbm 417 (Cert.KernelIdeal.Gen.hostOps0_14 (F := F)) (Cert.ReferenceIdeal.Line.seg14 (F := F)) := by
  unfold Cert.ReferenceIdeal.Line.seg14
  same_line

set_option maxHeartbeats 40000000 in
theorem stretch15 : SimLine (τ := Cert.KernelIdeal.τ) .hbm 513 (Cert.KernelIdeal.Gen.hostOps0_15 (F := F)) (Cert.ReferenceIdeal.Line.seg15 (F := F)) := by
  unfold Cert.ReferenceIdeal.Line.seg15
  same_line

set_option maxHeartbeats 40000000 in
theorem stretch16 : SimLine (τ := Cert.KernelIdeal.τ) .hbm 536 (Cert.KernelIdeal.Gen.hostOps0_16 (F := F)) (Cert.ReferenceIdeal.Line.seg16 (F := F)) := by
  unfold Cert.ReferenceIdeal.Line.seg16
  same_line

set_option maxHeartbeats 40000000 in
theorem stretch17 : SimLine (τ := Cert.KernelIdeal.τ) .hbm 555 (Cert.KernelIdeal.Gen.hostOps0_17 (F := F)) (Cert.ReferenceIdeal.Line.seg17 (F := F)) := by
  unfold Cert.ReferenceIdeal.Line.seg17
  same_line

set_option maxHeartbeats 40000000 in
theorem stretch18 : SimLine (τ := Cert.KernelIdeal.τ) .hbm 558 (Cert.KernelIdeal.Gen.hostOps0_18 (F := F)) (Cert.ReferenceIdeal.Line.seg18 (F := F)) := by
  unfold Cert.ReferenceIdeal.Line.seg18
  same_line

/-- The two lines go step by step together from the first buffer after the arguments (number 23). -/
theorem line : SimLine (τ := Cert.KernelIdeal.τ) .hbm 23 (kernelHead (F := F)) (Cert.ReferenceIdeal.Line.head (F := F)) := by
  rw [kernelHead_eq, head_eq]
  exact stretch0.append rfl (stretch1.append rfl (stretch2.append rfl (stretch3.append rfl (stretch4.append rfl (stretch5.append rfl (stretch6.append rfl (stretch7.append rfl (stretch8.append rfl (stretch9.append rfl (stretch10.append rfl (stretch11.append rfl (stretch12.append rfl (stretch13.append rfl (stretch14.append rfl (stretch15.append rfl (stretch16.append rfl (stretch17.append rfl (stretch18))))))))))))))))))

theorem length0 : (Cert.KernelIdeal.Gen.hostOps0 (F := F)).length = 17 := rfl
theorem length1 : (Cert.KernelIdeal.Gen.hostOps0_1 (F := F)).length = 23 := rfl
theorem length2 : (Cert.KernelIdeal.Gen.hostOps0_2 (F := F)).length = 96 := rfl
theorem length3 : (Cert.KernelIdeal.Gen.hostOps0_3 (F := F)).length = 23 := rfl
theorem length4 : (Cert.KernelIdeal.Gen.hostOps0_4 (F := F)).length = 19 := rfl
theorem length5 : (Cert.KernelIdeal.Gen.hostOps0_5 (F := F)).length = 3 := rfl
theorem length6 : (Cert.KernelIdeal.Gen.hostOps0_6 (F := F)).length = 13 := rfl
theorem length7 : (Cert.KernelIdeal.Gen.hostOps0_7 (F := F)).length = 23 := rfl
theorem length8 : (Cert.KernelIdeal.Gen.hostOps0_8 (F := F)).length = 96 := rfl
theorem length9 : (Cert.KernelIdeal.Gen.hostOps0_9 (F := F)).length = 23 := rfl
theorem length10 : (Cert.KernelIdeal.Gen.hostOps0_10 (F := F)).length = 19 := rfl
theorem length11 : (Cert.KernelIdeal.Gen.hostOps0_11 (F := F)).length = 3 := rfl
theorem length12 : (Cert.KernelIdeal.Gen.hostOps0_12 (F := F)).length = 13 := rfl
theorem length13 : (Cert.KernelIdeal.Gen.hostOps0_13 (F := F)).length = 23 := rfl
theorem length14 : (Cert.KernelIdeal.Gen.hostOps0_14 (F := F)).length = 96 := rfl
theorem length15 : (Cert.KernelIdeal.Gen.hostOps0_15 (F := F)).length = 23 := rfl
theorem length16 : (Cert.KernelIdeal.Gen.hostOps0_16 (F := F)).length = 19 := rfl
theorem length17 : (Cert.KernelIdeal.Gen.hostOps0_17 (F := F)).length = 3 := rfl
theorem length18 : (Cert.KernelIdeal.Gen.hostOps0_18 (F := F)).length = 6 := rfl

/-- The kernel's line has 541 operations. -/
theorem kernelHead_length : (kernelHead (F := F)).length = 541 := by
  rw [kernelHead_eq]
  simp only [List.length_append, length0, length1, length2, length3, length4, length5, length6, length7, length8, length9, length10, length11, length12, length13, length14, length15, length16, length17, length18]

/-- From argument arrays that agree, the two lines leave the same cluster centres. -/
theorem centres_eq (VK : Valuation Cert.KernelIdeal.τ Cert.KernelIdeal.sig (Elt F)) (VR : Valuation Cert.ReferenceIdeal.τ Cert.ReferenceIdeal.sig (Elt F))
    (h : Agree Cert.KernelIdeal.τ .hbm 23 VK VR) :
    after (kernelHead (F := F)) VK (Proc.devRef .tc Cert.KernelIdeal.main_v345) = after (Cert.ReferenceIdeal.Line.head (F := F)) VR (Proc.devRef .tc Cert.ReferenceIdeal.main_v345) :=
  eq_of_heq (line.agree VK VR h Cert.KernelIdeal.main_v345 Cert.ReferenceIdeal.main_v345 rfl rfl rfl (by rw [kernelHead_length]; decide))

/-- The kernel's line writes no argument. -/
theorem kernel_kept (VK : Valuation Cert.KernelIdeal.τ Cert.KernelIdeal.sig (Elt F)) (z : Ref Cert.KernelIdeal.sig .tc) (hz : z.idx.val < 23) :
    after (kernelHead (F := F)) VK (Proc.devRef .tc z) = VK (Proc.devRef .tc z) :=
  line.low₁ z hz VK

/-- The reference's line writes no argument. -/
theorem reference_kept (VR : Valuation Cert.ReferenceIdeal.τ Cert.ReferenceIdeal.sig (Elt F)) (z : Ref Cert.ReferenceIdeal.sig .tc) (hz : z.idx.val < 23) :
    after (Cert.ReferenceIdeal.Line.head (F := F)) VR (Proc.devRef .tc z) = VR (Proc.devRef .tc z) :=
  line.low₂ z hz VR

end Cert.Centres

end
-- ==== Proof.RefTail.lean ====
/-
  The reference's closing stretch — a product of the centres with the first weight stack, a swap of its two leading axes,
  a bias, the rectifier, a second product batched over the slots, a second bias and the maximum over the ten clusters —
  read index by index on the extended reals: it is the per-slot two-layer map Cert.SlotMlp.pooled.

  Each operation that is not pointwise gets one small lemma over arbitrary arrays at explicit coordinates:
  a bias [4096,64] spread to [4096,10,64] reads (s, i) at (s, n, i); the scalar spread to [4096,10,64] reads its word;
  the axis swap reads (n, s, k) at (s, n, k); the first product at (n, s, k) is Σ_l cc[n,l] · wa[s,k,l]; the second at
  (s, n, i) is Σ_k h[s,n,k] · wb[s,i,k]; the maximum over axis 1 at (s, i) is the fold of max over n of the entry (s, n, i).
  The reference multiplies centre-by-weight and hidden-by-weight where the specification multiplies weight-by-centre and
  weight-by-hidden: commutativity of the product on the extended reals joins the two, term by term.
-/
import proofs.«154116_j40183714021834_2_alg».proof.ReferenceIdeal
import proofs.«154116_j40183714021834_2_alg».proof.Proof.Spec
import Idealize.ShloMosaic.PureOps.Ideal.Laws
import Idealize.ShloMosaic.Lib.ValueIdx
import Idealize.ShloMosaic.Lib.Pipeline.Value

noncomputable section

namespace Cert.ReferenceIdeal.Tail

open Idealize.ShloMosaic Idealize.ShloMosaic.ValueIdx
open Cert.ReferenceIdeal Cert.ReferenceIdeal.Facts₀

variable [Facts₀]

/-! ## The two biases and the rectifier's zero, spread over the clusters -/

/-- A bias [4096,64], given a unit cluster axis and then spread over the ten clusters, reads (s, i) at every (s, n, i). -/
theorem bias_apply (b : FVec Ideal S4096x64 .f32) (s : Fin 4096) (n : Fin 10) (i : Fin 64) :
    broadcastInDim S4096x10x64 ![0, 1, 2] bcast_S4096x1x64_S4096x10x64_0_1_2
        (broadcastInDim S4096x1x64 ![0, 2] bcast_S4096x64_S4096x1x64_0_2 b) (ix3 s n i) = b (ix2 s i) := by
  refine (broadcastInDim_apply _ _ _ (ix3 s n i) (ix3 s (0 : Fin 1) i) fun a => ?_).trans ?_
  · match a with
    | ⟨0, _⟩ => rfl
    | ⟨1, _⟩ => rfl
    | ⟨2, _⟩ => rfl
  · refine broadcastInDim_apply _ _ _ (ix3 s (0 : Fin 1) i) (ix2 s i) fun a => ?_
    match a with
    | ⟨0, _⟩ => rfl
    | ⟨1, _⟩ => rfl

/-- A scalar spread over [4096,10,64] reads its word everywhere. -/
theorem scalar_apply (w : BitVec 32) (j : S4096x10x64.Idx) :
    broadcastInDim S4096x10x64 ![] bcast_S_S4096x10x64 (constant (F := Ideal) S_ .f32 w) j = Ideal.ofBits .f32 w := by
  refine (broadcastInDim_apply _ _ _ j ix0 fun a => a.elim0).trans ?_
  rfl

/-! ## The swap of the two leading axes -/

/-- The array [10,4096,64] with its two leading axes swapped reads (n, s, k) at (s, n, k). -/
theorem swap_apply {α : Type} (x : S10x4096x64.Idx → α) (s : Fin 4096) (n : Fin 10) (k : Fin 64) :
    transpose S4096x10x64 [1, 0, 2] x transposes_S10x4096x64_S4096x10x64_1_0_2 (ix3 s n k) = x (ix3 n s k) := by
  refine transpose_apply _ x _ (ix3 s n k) (ix3 n s k) fun b => ?_
  match b with
  | ⟨0, _⟩ => rfl
  | ⟨1, _⟩ => rfl
  | ⟨2, _⟩ => rfl

/-! ## The first product: the centres [10,64] against the first weight stack [4096,64,64], contracted over the centre's coordinate

No batch axis; the result [10,4096,64] is indexed (n, s, k): the centre's free axis first, then the stack's two free axes. -/

theorem lhs_first_0 (j : S10x4096x64.Idx) (q : dot_S10x64_S4096x64x64_S10x4096x64_1_2_0_01_n_n.contr.Idx) :
    (dot_S10x64_S4096x64x64_S10x4096x64_1_2_0_01_n_n.lhsIdx j q 0).val = (j 0).val := by
  unfold DotDims.lhsIdx
  rw [dif_neg (show ¬(0 : Fin S10x64.rank) ∈ dot_S10x64_S4096x64x64_S10x4096x64_1_2_0_01_n_n.lhsBatch from List.not_mem_nil),
    dif_pos (show (0 : Fin S10x64.rank) ∈ dot_S10x64_S4096x64x64_S10x4096x64_1_2_0_01_n_n.lhsNonContracting from List.mem_cons_self)]
  rfl

theorem lhs_first_1 (j : S10x4096x64.Idx) (q : dot_S10x64_S4096x64x64_S10x4096x64_1_2_0_01_n_n.contr.Idx) :
    (dot_S10x64_S4096x64x64_S10x4096x64_1_2_0_01_n_n.lhsIdx j q 1).val
      = (q ⟨0, (show 0 < dot_S10x64_S4096x64x64_S10x4096x64_1_2_0_01_n_n.contr.rank from Nat.one_pos)⟩).val :=
  dot_S10x64_S4096x64x64_S10x4096x64_1_2_0_01_n_n.lhsIdx_val_of_single rfl j q

theorem rhs_first_0 (j : S10x4096x64.Idx) (q : dot_S10x64_S4096x64x64_S10x4096x64_1_2_0_01_n_n.contr.Idx) :
    (dot_S10x64_S4096x64x64_S10x4096x64_1_2_0_01_n_n.rhsIdx j q 0).val = (j 1).val := by
  unfold DotDims.rhsIdx
  rw [dif_neg (show ¬(0 : Fin S4096x64x64.rank) ∈ dot_S10x64_S4096x64x64_S10x4096x64_1_2_0_01_n_n.rhsBatch from List.not_mem_nil),
    dif_pos (show (0 : Fin S4096x64x64.rank) ∈ dot_S10x64_S4096x64x64_S10x4096x64_1_2_0_01_n_n.rhsNonContracting from List.mem_cons_self)]
  rfl

theorem rhs_first_1 (j : S10x4096x64.Idx) (q : dot_S10x64_S4096x64x64_S10x4096x64_1_2_0_01_n_n.contr.Idx) :
    (dot_S10x64_S4096x64x64_S10x4096x64_1_2_0_01_n_n.rhsIdx j q 1).val = (j 2).val := by
  unfold DotDims.rhsIdx
  rw [dif_neg (show ¬(1 : Fin S4096x64x64.rank) ∈ dot_S10x64_S4096x64x64_S10x4096x64_1_2_0_01_n_n.rhsBatch from List.not_mem_nil),
    dif_pos (show (1 : Fin S4096x64x64.rank) ∈ dot_S10x64_S4096x64x64_S10x4096x64_1_2_0_01_n_n.rhsNonContracting from
      List.mem_cons_of_mem _ List.mem_cons_self)]
  rfl

theorem rhs_first_2 (j : S10x4096x64.Idx) (q : dot_S10x64_S4096x64x64_S10x4096x64_1_2_0_01_n_n.contr.Idx) :
    (dot_S10x64_S4096x64x64_S10x4096x64_1_2_0_01_n_n.rhsIdx j q 2).val
      = (q ⟨0, (show 0 < dot_S10x64_S4096x64x64_S10x4096x64_1_2_0_01_n_n.contr.rank from Nat.one_pos)⟩).val :=
  dot_S10x64_S4096x64x64_S10x4096x64_1_2_0_01_n_n.rhsIdx_val_of_single rfl j q

/-- The first product at (n, s, k): the sum over the centre's coordinate l of cc[n,l] · wa[s,k,l]. -/
theorem first_apply (cc : FVec Ideal S10x64 .f32) (wa : FVec Ideal S4096x64x64 .f32) (n : Fin 10) (s : Fin 4096) (k : Fin 64) :
    Host.dotGeneral (F := Ideal) dot_S10x64_S4096x64x64_S10x4096x64_1_2_0_01_n_n none cc wa (ix3 n s k)
      = ∑ l : Fin 64, cc (ix2 n l) * wa (ix3 s k l) := by
  simp only [Host.dotGeneral]
  rw [Ideal.dotGeneral_apply, ← Equiv.sum_comp (contrEquiv1 dot_S10x64_S4096x64x64_S10x4096x64_1_2_0_01_n_n 64 rfl rfl).symm]
  refine Finset.sum_congr rfl fun l _ => ?_
  have hl := contrEquiv1_symm_val dot_S10x64_S4096x64x64_S10x4096x64_1_2_0_01_n_n 64 rfl rfl l
  have el : dot_S10x64_S4096x64x64_S10x4096x64_1_2_0_01_n_n.lhsIdx (ix3 n s k)
      ((contrEquiv1 dot_S10x64_S4096x64x64_S10x4096x64_1_2_0_01_n_n 64 rfl rfl).symm l) = ix2 n l := funext fun a => Fin.ext (by
    match a with
    | ⟨0, _⟩ => exact lhs_first_0 _ _
    | ⟨1, _⟩ => exact (lhs_first_1 _ _).trans hl)
  have er : dot_S10x64_S4096x64x64_S10x4096x64_1_2_0_01_n_n.rhsIdx (ix3 n s k)
      ((contrEquiv1 dot_S10x64_S4096x64x64_S10x4096x64_1_2_0_01_n_n 64 rfl rfl).symm l) = ix3 s k l := funext fun a => Fin.ext (by
    match a with
    | ⟨0, _⟩ => exact rhs_first_0 _ _
    | ⟨1, _⟩ => exact rhs_first_1 _ _
    | ⟨2, _⟩ => exact (rhs_first_2 _ _).trans hl)
  rw [el, er]

/-! ## The second product: the hidden layer [4096,10,64] against the second weight stack [4096,64,64], slot by slot

The slot axis is a batch axis of both; each side contracts its last axis; the result [4096,10,64] is indexed (s, n, i):
the slot, then the hidden layer's free axis (the cluster), then the stack's free axis (the output unit). -/

theorem lhs_second_0 (j : S4096x10x64.Idx) (q : dot_S4096x10x64_S4096x64x64_S4096x10x64_2_2_1_1_0_0.contr.Idx) :
    (dot_S4096x10x64_S4096x64x64_S4096x10x64_2_2_1_1_0_0.lhsIdx j q 0).val = (j 0).val := by
  unfold DotDims.lhsIdx
  rw [dif_pos (show (0 : Fin S4096x10x64.rank) ∈ dot_S4096x10x64_S4096x64x64_S4096x10x64_2_2_1_1_0_0.lhsBatch from List.mem_cons_self)]
  rfl

theorem lhs_second_1 (j : S4096x10x64.Idx) (q : dot_S4096x10x64_S4096x64x64_S4096x10x64_2_2_1_1_0_0.contr.Idx) :
    (dot_S4096x10x64_S4096x64x64_S4096x10x64_2_2_1_1_0_0.lhsIdx j q 1).val = (j 1).val := by
  unfold DotDims.lhsIdx
  rw [dif_neg (show ¬(1 : Fin S4096x10x64.rank) ∈ dot_S4096x10x64_S4096x64x64_S4096x10x64_2_2_1_1_0_0.lhsBatch from by
        intro h; exact absurd (List.mem_singleton.mp h) (by decide)),
    dif_pos (show (1 : Fin S4096x10x64.rank) ∈ dot_S4096x10x64_S4096x64x64_S4096x10x64_2_2_1_1_0_0.lhsNonContracting from List.mem_cons_self)]
  rfl

theorem lhs_second_2 (j : S4096x10x64.Idx) (q : dot_S4096x10x64_S4096x64x64_S4096x10x64_2_2_1_1_0_0.contr.Idx) :
    (dot_S4096x10x64_S4096x64x64_S4096x10x64_2_2_1_1_0_0.lhsIdx j q 2).val
      = (q ⟨0, (show 0 < dot_S4096x10x64_S4096x64x64_S4096x10x64_2_2_1_1_0_0.contr.rank from Nat.one_pos)⟩).val :=
  dot_S4096x10x64_S4096x64x64_S4096x10x64_2_2_1_1_0_0.lhsIdx_val_of_single rfl j q

theorem rhs_second_0 (j : S4096x10x64.Idx) (q : dot_S4096x10x64_S4096x64x64_S4096x10x64_2_2_1_1_0_0.contr.Idx) :
    (dot_S4096x10x64_S4096x64x64_S4096x10x64_2_2_1_1_0_0.rhsIdx j q 0).val = (j 0).val := by
  unfold DotDims.rhsIdx
  rw [dif_pos (show (0 : Fin S4096x64x64.rank) ∈ dot_S4096x10x64_S4096x64x64_S4096x10x64_2_2_1_1_0_0.rhsBatch from List.mem_cons_self)]
  rfl

theorem rhs_second_1 (j : S4096x10x64.Idx) (q : dot_S4096x10x64_S4096x64x64_S4096x10x64_2_2_1_1_0_0.contr.Idx) :
    (dot_S4096x10x64_S4096x64x64_S4096x10x64_2_2_1_1_0_0.rhsIdx j q 1).val = (j 2).val := by
  unfold DotDims.rhsIdx
  rw [dif_neg (show ¬(1 : Fin S4096x64x64.rank) ∈ dot_S4096x10x64_S4096x64x64_S4096x10x64_2_2_1_1_0_0.rhsBatch from by
        intro h; exact absurd (List.mem_singleton.mp h) (by decide)),
    dif_pos (show (1 : Fin S4096x64x64.rank) ∈ dot_S4096x10x64_S4096x64x64_S4096x10x64_2_2_1_1_0_0.rhsNonContracting from List.mem_cons_self)]
  rfl

theorem rhs_second_2 (j : S4096x10x64.Idx) (q : dot_S4096x10x64_S4096x64x64_S4096x10x64_2_2_1_1_0_0.contr.Idx) :
    (dot_S4096x10x64_S4096x64x64_S4096x10x64_2_2_1_1_0_0.rhsIdx j q 2).val
      = (q ⟨0, (show 0 < dot_S4096x10x64_S4096x64x64_S4096x10x64_2_2_1_1_0_0.contr.rank from Nat.one_pos)⟩).val :=
  dot_S4096x10x64_S4096x64x64_S4096x10x64_2_2_1_1_0_0.rhsIdx_val_of_single rfl j q

/-- The second product at (s, n, i): the sum over the hidden unit k of h[s,n,k] · wb[s,i,k]. -/
theorem second_apply (h : FVec Ideal S4096x10x64 .f32) (wb : FVec Ideal S4096x64x64 .f32) (s : Fin 4096) (n : Fin 10) (i : Fin 64) :
    Host.dotGeneral (F := Ideal) dot_S4096x10x64_S4096x64x64_S4096x10x64_2_2_1_1_0_0 none h wb (ix3 s n i)
      = ∑ k : Fin 64, h (ix3 s n k) * wb (ix3 s i k) := by
  simp only [Host.dotGeneral]
  rw [Ideal.dotGeneral_apply, ← Equiv.sum_comp (contrEquiv1 dot_S4096x10x64_S4096x64x64_S4096x10x64_2_2_1_1_0_0 64 rfl rfl).symm]
  refine Finset.sum_congr rfl fun k _ => ?_
  have hk := contrEquiv1_symm_val dot_S4096x10x64_S4096x64x64_S4096x10x64_2_2_1_1_0_0 64 rfl rfl k
  have el : dot_S4096x10x64_S4096x64x64_S4096x10x64_2_2_1_1_0_0.lhsIdx (ix3 s n i)
      ((contrEquiv1 dot_S4096x10x64_S4096x64x64_S4096x10x64_2_2_1_1_0_0 64 rfl rfl).symm k) = ix3 s n k := funext fun a => Fin.ext (by
    match a with
    | ⟨0, _⟩ => exact lhs_second_0 _ _
    | ⟨1, _⟩ => exact lhs_second_1 _ _
    | ⟨2, _⟩ => exact (lhs_second_2 _ _).trans hk)
  have er : dot_S4096x10x64_S4096x64x64_S4096x10x64_2_2_1_1_0_0.rhsIdx (ix3 s n i)
      ((contrEquiv1 dot_S4096x10x64_S4096x64x64_S4096x10x64_2_2_1_1_0_0 64 rfl rfl).symm k) = ix3 s i k := funext fun a => Fin.ext (by
    match a with
    | ⟨0, _⟩ => exact rhs_second_0 _ _
    | ⟨1, _⟩ => exact rhs_second_1 _ _
    | ⟨2, _⟩ => exact (rhs_second_2 _ _).trans hk)
  rw [el, er]

/-! ## The maximum over the clusters -/

/-- The shape fact the inserted index is defined from: dropping axis 1 of [4096,10,64] leaves [4096,64]. -/
theorem reduces_clusters : S4096x10x64.Reduces [1] S4096x64 := by decide

/-- The result index (s, i) with cluster n put back on the dropped axis is (s, n, i). -/
theorem lift_clusters (s : Fin 4096) (i : Fin 64) (n : Fin (S4096x10x64.size 1)) :
    reduces_clusters.lift (ix2 s i) n = ix3 s (⟨n.val, n.isLt⟩ : Fin 10) i := by
  funext c; apply Fin.ext
  match c with
  | ⟨0, _⟩ => rfl
  | ⟨1, _⟩ => rfl
  | ⟨2, _⟩ => rfl

/-- The maximum over axis 1, started from the word w, at (s, i): the fold of max over the ten clusters n of the entry (s, n, i). -/
theorem clusterMax_apply (x : FVec Ideal S4096x10x64 .f32) (w : BitVec 32) (s : Fin 4096) (i : Fin 64) :
    Host.reduce FloatOps.maximumf x (constant (F := Ideal) S_ .f32 w) reducesTo_S4096x10x64_S4096x64_d1 h_S_ (ix2 s i)
      = (Finset.univ : Finset (Fin 10)).fold max (Ideal.ofBits .f32 w) (fun n => x (ix3 s n i)) := by
  rw [Host.reduce_eq_fold_single FloatOps.maximumf x _ reducesTo_S4096x10x64_S4096x64_d1 reduces_clusters h_S_]
  have hf : (x ∘ reduces_clusters.lift (ix2 s i)) = fun n : Fin 10 => x (ix3 s n i) :=
    funext fun n => congrArg x (lift_clusters s i n)
  exact congrArg (fun f => Finset.fold max (Ideal.ofBits .f32 w) f (Finset.univ : Finset (Fin 10))) hf

/-! ## The closing stretch as one term, and what it is -/

/-- The reference's last eleven operations composed: from the centres and the four per-slot arrays to the result [4096,64]. -/
def tailTerm (cc : FVec Ideal S10x64 .f32) (wa : FVec Ideal S4096x64x64 .f32) (ba : FVec Ideal S4096x64 .f32)
    (wb : FVec Ideal S4096x64x64 .f32) (bb : FVec Ideal S4096x64 .f32) : FVec Ideal S4096x64 .f32 :=
  Host.reduce FloatOps.maximumf
    (addf (Host.dotGeneral (F := Ideal) dot_S4096x10x64_S4096x64x64_S4096x10x64_2_2_1_1_0_0 none
             (maximumf (addf (transpose S4096x10x64 [1, 0, 2]
                                (Host.dotGeneral (F := Ideal) dot_S10x64_S4096x64x64_S10x4096x64_1_2_0_01_n_n none cc wa)
                                transposes_S10x4096x64_S4096x10x64_1_0_2)
                             (broadcastInDim S4096x10x64 ![0, 1, 2] bcast_S4096x1x64_S4096x10x64_0_1_2
                                (broadcastInDim S4096x1x64 ![0, 2] bcast_S4096x64_S4096x1x64_0_2 ba)))
                       (broadcastInDim S4096x10x64 ![] bcast_S_S4096x10x64 (constant (F := Ideal) S_ .f32 0x00000000#32)))
             wb)
          (broadcastInDim S4096x10x64 ![0, 1, 2] bcast_S4096x1x64_S4096x10x64_0_1_2
             (broadcastInDim S4096x1x64 ![0, 2] bcast_S4096x64_S4096x1x64_0_2 bb)))
    (constant (F := Ideal) S_ .f32 0xFF800000#32) reducesTo_S4096x10x64_S4096x64_d1 h_S_

/-- The rectified first layer at (s, n, k) is the specification's hidden unit k of slot s at cluster n. -/
theorem hidden_apply (cc : FVec Ideal S10x64 .f32) (wa : FVec Ideal S4096x64x64 .f32) (ba : FVec Ideal S4096x64 .f32)
    (s : Fin 4096) (n : Fin 10) (k : Fin 64) :
    maximumf (addf (transpose S4096x10x64 [1, 0, 2]
                      (Host.dotGeneral (F := Ideal) dot_S10x64_S4096x64x64_S10x4096x64_1_2_0_01_n_n none cc wa)
                      transposes_S10x4096x64_S4096x10x64_1_0_2)
                   (broadcastInDim S4096x10x64 ![0, 1, 2] bcast_S4096x1x64_S4096x10x64_0_1_2
                      (broadcastInDim S4096x1x64 ![0, 2] bcast_S4096x64_S4096x1x64_0_2 ba)))
             (broadcastInDim S4096x10x64 ![] bcast_S_S4096x10x64 (constant (F := Ideal) S_ .f32 0x00000000#32)) (ix3 s n k)
      = Cert.SlotMlp.hidden wa ba cc s k n := by
  rw [maximumf_apply, addf_apply, scalar_apply, bias_apply, swap_apply, first_apply]
  unfold Cert.SlotMlp.hidden
  congr 2
  exact Finset.sum_congr rfl fun l _ => mul_comm _ _

/-- The closing stretch is the per-slot two-layer map with the maximum over the clusters. -/
theorem tail_eq (cc : FVec Ideal S10x64 .f32) (wa : FVec Ideal S4096x64x64 .f32) (ba : FVec Ideal S4096x64 .f32)
    (wb : FVec Ideal S4096x64x64 .f32) (bb : FVec Ideal S4096x64 .f32) :
    tailTerm cc wa ba wb bb = Cert.SlotMlp.pooled wa ba wb bb cc := by
  funext j
  obtain ⟨s, i, rfl⟩ : ∃ (s : Fin 4096) (i : Fin 64), j = ix2 s i := ⟨j 0, j 1, eq_ix2 j⟩
  rw [Cert.SlotMlp.pooled_ix2]
  unfold tailTerm
  rw [clusterMax_apply]
  refine congrArg (fun f => Finset.fold max Cert.SlotMlp.negInfWord f (Finset.univ : Finset (Fin 10))) (funext fun n => ?_)
  rw [addf_apply, bias_apply, second_apply]
  unfold Cert.SlotMlp.score
  congr 1
  refine Finset.sum_congr rfl fun k _ => ?_
  rw [hidden_apply, mul_comm]

end Cert.ReferenceIdeal.Tail

end
-- ==== Proof.RefRun.lean ====
/-
  The reference's run, read back: @main is one straight line of host operations (the line's two lists, the cluster centres'
  operations and then the per-slot map's), so every weakly fair execution ends with each buffer at the fold of the
  operations' results over what the launch dealt; the fold over a concatenation is the fold over the second list from the
  fold over the first; the last fourteen operations, from ANY contents, leave the result buffer at the closing stretch's
  term of the centres' buffer and the four per-slot arguments, and leave every argument buffer as it was.
-/
import proofs.«154116_j40183714021834_2_alg».proof.Proof.RefLine
import proofs.«154116_j40183714021834_2_alg».proof.Proof.RefTail
import Idealize.ShloMosaic.Lib.StableHlo.Run

noncomputable section

namespace Cert.ReferenceIdeal.RefRun

open Cert.ReferenceIdeal Cert.ReferenceIdeal.Facts₀ Idealize.ShloMosaic Idealize.ShloMosaic.TcCoe Idealize.SL.Sem Idealize.ShloMosaic.StableHlo

variable {F : FTy → Type} [FloatOps F] [Cert.ReferenceIdeal.Facts]

/-! ## @main is the line -/

-- five hundred and fifty-five steps compared one by one: the comparison recurses once per step
set_option maxRecDepth 100000 in
/-- @main is the straight line of its operations: the windows it is printed in, the functions it calls and the records
    of their buffers unfold, and sequencing computes, to the same chain of steps. -/
theorem main_eq (d : Dev nD) : main (F := F) d = StableHlo.seq (Line.head ++ Line.tail) := rfl

/-! ## The side conditions of the line's run -/

theorem scopedRefs_eq : (Finset.univ.filter fun b : Ref sig .tc => b.isScoped) = ∅ := by decide
theorem scopedSems_eq : (Finset.univ.filter fun sm : SemLoc sig => sm.isScoped .tc) = ∅ := by decide

/-- What the run asks of each operation: it touches TensorCore buffers only, and it determines everything it writes. -/
def Ok (op : HloOp τ sig (Elt F)) : Prop := op.bufs ⊆ tcRefs τ sig ∧ op.fresh = ∅

theorem nullary_fresh (y : Ref sig .tc) (v : y.ty.Contents (Elt F)) (hy) :
    (StableHlo.nullary (τ := τ) y v hy).fresh = ∅ := rfl
theorem unary_fresh (x y : Ref sig .tc) (f : x.ty.Contents (Elt F) → y.ty.Contents (Elt F)) (hx hy) :
    (StableHlo.unary (τ := τ) x y f hx hy).fresh = ∅ := rfl
theorem binary_fresh (a b y : Ref sig .tc) (f : a.ty.Contents (Elt F) → b.ty.Contents (Elt F) → y.ty.Contents (Elt F)) (ha hb hy) :
    (StableHlo.binary (τ := τ) a b y f ha hb hy).fresh = ∅ := rfl
theorem ternary_fresh (c a b y : Ref sig .tc)
    (f : c.ty.Contents (Elt F) → a.ty.Contents (Elt F) → b.ty.Contents (Elt F) → y.ty.Contents (Elt F)) (hc ha hb hy) :
    (StableHlo.ternary (τ := τ) c a b y f hc ha hb hy).fresh = ∅ := rfl

/-- Every operation of a literal list is one of the four builders, whose buffers are TensorCore references and which
    leave nothing undetermined. -/
local macro "seg_ok" : tactic =>
  `(tactic| simp only [List.Forall, Ok, nullary_bufs_sub, unary_bufs_sub, binary_bufs_sub, ternary_bufs_sub,
      nullary_fresh, unary_fresh, binary_fresh, ternary_fresh, and_self])

theorem seg0_ok : (Line.seg0 (F := F)).Forall Ok := by unfold Line.seg0; seg_ok
theorem seg1_ok : (Line.seg1 (F := F)).Forall Ok := by unfold Line.seg1; seg_ok
theorem seg2_ok : (Line.seg2 (F := F)).Forall Ok := by unfold Line.seg2; seg_ok
theorem seg3_ok : (Line.seg3 (F := F)).Forall Ok := by unfold Line.seg3; seg_ok
theorem seg4_ok : (Line.seg4 (F := F)).Forall Ok := by unfold Line.seg4; seg_ok
theorem seg5_ok : (Line.seg5 (F := F)).Forall Ok := by unfold Line.seg5; seg_ok
theorem seg6_ok : (Line.seg6 (F := F)).Forall Ok := by unfold Line.seg6; seg_ok
theorem seg7_ok : (Line.seg7 (F := F)).Forall Ok := by unfold Line.seg7; seg_ok
theorem seg8_ok : (Line.seg8 (F := F)).Forall Ok := by unfold Line.seg8; seg_ok
theorem seg9_ok : (Line.seg9 (F := F)).Forall Ok := by unfold Line.seg9; seg_ok
theorem seg10_ok : (Line.seg10 (F := F)).Forall Ok := by unfold Line.seg10; seg_ok
theorem seg11_ok : (Line.seg11 (F := F)).Forall Ok := by unfold Line.seg11; seg_ok
theorem seg12_ok : (Line.seg12 (F := F)).Forall Ok := by unfold Line.seg12; seg_ok
theorem seg13_ok : (Line.seg13 (F := F)).Forall Ok := by unfold Line.seg13; seg_ok
theorem seg14_ok : (Line.seg14 (F := F)).Forall Ok := by unfold Line.seg14; seg_ok
theorem seg15_ok : (Line.seg15 (F := F)).Forall Ok := by unfold Line.seg15; seg_ok
theorem seg16_ok : (Line.seg16 (F := F)).Forall Ok := by unfold Line.seg16; seg_ok
theorem seg17_ok : (Line.seg17 (F := F)).Forall Ok := by unfold Line.seg17; seg_ok
theorem seg18_ok : (Line.seg18 (F := F)).Forall Ok := by unfold Line.seg18; seg_ok
theorem seg19_ok : (Line.seg19 (F := F)).Forall Ok := by unfold Line.seg19; seg_ok
theorem seg20_ok : (Line.seg20 (F := F)).Forall Ok := by unfold Line.seg20; seg_ok
theorem seg21_ok : (Line.seg21 (F := F)).Forall Ok := by unfold Line.seg21; seg_ok

/-- Lists whose operations all pass, laid end to end: every operation passes. -/
theorem ok_flatten (L : List (List (HloOp τ sig (Elt F)))) (h : ∀ l ∈ L, l.Forall Ok) : ∀ op ∈ L.flatten, Ok op :=
  fun op hop =>
    let ⟨l, hl, ho⟩ := List.mem_flatten.mp hop
    List.forall_iff_forall_mem.mp (h l hl) op ho

theorem head_ok : ∀ op ∈ Line.head (F := F), Ok op := by
  unfold Line.head
  refine ok_flatten _ fun l hl => ?_
  simp only [List.mem_cons, List.not_mem_nil, or_false] at hl
  rcases hl with rfl | rfl | rfl | rfl | rfl | rfl | rfl | rfl | rfl | rfl | rfl | rfl | rfl | rfl | rfl | rfl | rfl | rfl | rfl
  exacts [seg0_ok, seg1_ok, seg2_ok, seg3_ok, seg4_ok, seg5_ok, seg6_ok, seg7_ok, seg8_ok, seg9_ok, seg10_ok, seg11_ok, seg12_ok, seg13_ok, seg14_ok, seg15_ok, seg16_ok, seg17_ok, seg18_ok]

theorem tail_ok : ∀ op ∈ Line.tail (F := F), Ok op := by
  unfold Line.tail
  refine ok_flatten _ fun l hl => ?_
  simp only [List.mem_cons, List.not_mem_nil, or_false] at hl
  rcases hl with rfl | rfl | rfl
  exacts [seg19_ok, seg20_ok, seg21_ok]

theorem line_ok : ∀ op ∈ Line.head (F := F) ++ Line.tail, Ok op := fun op h =>
  (List.mem_append.mp h).elim (head_ok op) (tail_ok op)

/-- From any memory with zero counters every weakly fair execution of @main terminates, and every final state has each
    TensorCore buffer at the fold of the line's results over what the launch dealt the device. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b)
        = StableHlo.after (Line.head ++ Line.tail) (StableHlo.launchContents m d) (Proc.devRef .tc b) :=
  run_seq scopedRefs_eq scopedSems_eq defs main (fun _ => Line.head ++ Line.tail) main_eq
    (fun _ => List.forall_iff_forall_mem.mpr fun op h => (line_ok op h).1) m ρ
    (fun _ op h => (line_ok op h).2)

/-! ## The fold over a concatenation, and the last fourteen operations from any contents -/

/-- The fold over two lists laid end to end is the fold over the second from the fold over the first. -/
theorem after_append {τ' : Topo} {sig' : RefSig} {Val : EltTy → Type} (l₁ l₂ : List (HloOp τ' sig' Val)) (V : Valuation τ' sig' Val) :
    StableHlo.after (l₁ ++ l₂) V = StableHlo.after l₂ (StableHlo.after l₁ V) := by
  induction l₁ generalizing V with
  | nil => rfl
  | cons op l ih => simp only [List.cons_append, after_cons]; exact ih _

/-- From any contents W the last fourteen operations leave the result buffer at the closing stretch's term of W at the
    centres' buffer and at the four per-slot arguments: each operation's result is read at its own buffer, every other
    buffer passes through, and the called function's typed buffers are the literal ones. -/
theorem tail_value (W : Valuation τ sig (Elt Ideal)) :
    StableHlo.after (Line.tail (F := Ideal)) W (Proc.devRef .tc main_v356)
      = Tail.tailTerm (W (Proc.devRef .tc main_v345)) (W (Proc.devRef .tc main_arg19)) (W (Proc.devRef .tc main_arg20))
          (W (Proc.devRef .tc main_arg21)) (W (Proc.devRef .tc main_arg22)) := by
  unfold Line.tail Line.seg19 Line.seg20 Line.seg21
  simp only [List.flatten_cons, List.flatten_nil, List.cons_append, List.nil_append, List.append_nil]
  after_results
  rfl

/-- None of the last fourteen operations writes an argument buffer (the arguments are the first twenty-three buffers; the
    fourteen results lie past them), so from any contents every argument is left as it was. -/
theorem tail_kept (W : Valuation τ sig (Elt F)) (r : Ref sig .tc) (hr : r.idx.val < 23) :
    StableHlo.after (Line.tail (F := F)) W (Proc.devRef .tc r) = W (Proc.devRef .tc r) := by
  refine after_of_writes_sub (W := [main_v346, main_v347, main_v348, main_v349, main_v350, main_call9_cst, main_call9_v0,
    main_v351, main_v352, main_v353, main_v354, main_v355, main_cst_55, main_v356]) _ W ?_ ?_
  · unfold Line.tail Line.seg19 Line.seg20 Line.seg21
    simp only [List.flatten_cons, List.flatten_nil, List.cons_append, List.nil_append, List.append_nil, List.Forall,
      nullary_writes, unary_writes, binary_writes, Finset.singleton_subset_iff, List.mem_toFinset, List.map_cons, List.map_nil,
      List.mem_cons, true_or, or_true, and_self]
  · intro h
    simp only [List.mem_cons, List.not_mem_nil, or_false] at h
    rcases h with rfl | rfl | rfl | rfl | rfl | rfl | rfl | rfl | rfl | rfl | rfl | rfl | rfl | rfl <;>
      exact absurd hr (by decide)

end Cert.ReferenceIdeal.RefRun

end
-- ==== Proof.Bridge.lean ====
/-
  From the two programs' runs to one result.

  The two memories agree on the twenty-three arguments. So the contents the two programs launch with agree on the buffers
  numbered below 23; the two lines of host operations that compute the cluster centres therefore leave the same centres
  (they go step by step together), and neither touches an argument. The reference's last fourteen operations apply the
  per-slot two-layer map and the maximum over the clusters to those centres and to the four per-slot arguments: the same
  pooled function the kernel's pipeline leaves in its output array.
-/
import proofs.«154116_j40183714021834_2_alg».proof.Proof.Centres
import proofs.«154116_j40183714021834_2_alg».proof.Proof.RefRun
import proofs.«154116_j40183714021834_2_alg».proof.Proof.KernelIdealFrameP

noncomputable section

namespace Cert.Bridge

open Idealize.ShloMosaic Idealize.ShloMosaic.StableHlo Idealize.ShloMosaic.TcCoe Idealize.SL.Sem Cert.Lib.TwoLines

variable [Cert.ReferenceIdeal.Facts]

/-- The two memories hold the same twenty-three argument arrays on device `c`. -/
def SameArgs (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD) : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- Memories with the same arguments launch the two programs with contents that agree on the buffers numbered below 23:
    those buffers are the arguments. -/
theorem launch_agree (c : Dev Cert.KernelIdeal.nD) (h : SameArgs m m' c) :
    Agree Cert.KernelIdeal.τ .hbm 23 (fun b => m (c, b)) (StableHlo.launchContents m' c) := by
  obtain ⟨h0, h1, h2, h3, h4, h5, h6, h7, h8, h9, h10, h11, h12, h13, h14, h15, h16, h17, h18, h19, h20, h21, h22⟩ := h
  intro z z' hz hz' hi hlt
  have hcases : z.idx.val = 0 ∨ z.idx.val = 1 ∨ z.idx.val = 2 ∨ z.idx.val = 3 ∨ z.idx.val = 4 ∨ z.idx.val = 5 ∨ z.idx.val = 6 ∨ z.idx.val = 7 ∨ z.idx.val = 8 ∨ z.idx.val = 9 ∨ z.idx.val = 10 ∨ z.idx.val = 11 ∨ z.idx.val = 12 ∨ z.idx.val = 13 ∨ z.idx.val = 14 ∨ z.idx.val = 15 ∨ z.idx.val = 16 ∨ z.idx.val = 17 ∨ z.idx.val = 18 ∨ z.idx.val = 19 ∨ z.idx.val = 20 ∨ z.idx.val = 21 ∨ z.idx.val = 22 := by omega
  rcases hcases with e | e | e | e | e | e | e | e | e | e | e | e | e | e | e | e | e | e | e | e | e | e | e
  · obtain rfl : z = Cert.KernelIdeal.main_arg0 := ref_eq hz e
    obtain rfl : z' = Cert.ReferenceIdeal.main_arg0 := ref_eq hz' (hi.symm.trans e)
    exact heq_of_eq h0.symm
  · obtain rfl : z = Cert.KernelIdeal.main_arg1 := ref_eq hz e
    obtain rfl : z' = Cert.ReferenceIdeal.main_arg1 := ref_eq hz' (hi.symm.trans e)
    exact heq_of_eq h1.symm
  · obtain rfl : z = Cert.KernelIdeal.main_arg2 := ref_eq hz e
    obtain rfl : z' = Cert.ReferenceIdeal.main_arg2 := ref_eq hz' (hi.symm.trans e)
    exact heq_of_eq h2.symm
  · obtain rfl : z = Cert.KernelIdeal.main_arg3 := ref_eq hz e
    obtain rfl : z' = Cert.ReferenceIdeal.main_arg3 := ref_eq hz' (hi.symm.trans e)
    exact heq_of_eq h3.symm
  · obtain rfl : z = Cert.KernelIdeal.main_arg4 := ref_eq hz e
    obtain rfl : z' = Cert.ReferenceIdeal.main_arg4 := ref_eq hz' (hi.symm.trans e)
    exact heq_of_eq h4.symm
  · obtain rfl : z = Cert.KernelIdeal.main_arg5 := ref_eq hz e
    obtain rfl : z' = Cert.ReferenceIdeal.main_arg5 := ref_eq hz' (hi.symm.trans e)
    exact heq_of_eq h5.symm
  · obtain rfl : z = Cert.KernelIdeal.main_arg6 := ref_eq hz e
    obtain rfl : z' = Cert.ReferenceIdeal.main_arg6 := ref_eq hz' (hi.symm.trans e)
    exact heq_of_eq h6.symm
  · obtain rfl : z = Cert.KernelIdeal.main_arg7 := ref_eq hz e
    obtain rfl : z' = Cert.ReferenceIdeal.main_arg7 := ref_eq hz' (hi.symm.trans e)
    exact heq_of_eq h7.symm
  · obtain rfl : z = Cert.KernelIdeal.main_arg8 := ref_eq hz e
    obtain rfl : z' = Cert.ReferenceIdeal.main_arg8 := ref_eq hz' (hi.symm.trans e)
    exact heq_of_eq h8.symm
  · obtain rfl : z = Cert.KernelIdeal.main_arg9 := ref_eq hz e
    obtain rfl : z' = Cert.ReferenceIdeal.main_arg9 := ref_eq hz' (hi.symm.trans e)
    exact heq_of_eq h9.symm
  · obtain rfl : z = Cert.KernelIdeal.main_arg10 := ref_eq hz e
    obtain rfl : z' = Cert.ReferenceIdeal.main_arg10 := ref_eq hz' (hi.symm.trans e)
    exact heq_of_eq h10.symm
  · obtain rfl : z = Cert.KernelIdeal.main_arg11 := ref_eq hz e
    obtain rfl : z' = Cert.ReferenceIdeal.main_arg11 := ref_eq hz' (hi.symm.trans e)
    exact heq_of_eq h11.symm
  · obtain rfl : z = Cert.KernelIdeal.main_arg12 := ref_eq hz e
    obtain rfl : z' = Cert.ReferenceIdeal.main_arg12 := ref_eq hz' (hi.symm.trans e)
    exact heq_of_eq h12.symm
  · obtain rfl : z = Cert.KernelIdeal.main_arg13 := ref_eq hz e
    obtain rfl : z' = Cert.ReferenceIdeal.main_arg13 := ref_eq hz' (hi.symm.trans e)
    exact heq_of_eq h13.symm
  · obtain rfl : z = Cert.KernelIdeal.main_arg14 := ref_eq hz e
    obtain rfl : z' = Cert.ReferenceIdeal.main_arg14 := ref_eq hz' (hi.symm.trans e)
    exact heq_of_eq h14.symm
  · obtain rfl : z = Cert.KernelIdeal.main_arg15 := ref_eq hz e
    obtain rfl : z' = Cert.ReferenceIdeal.main_arg15 := ref_eq hz' (hi.symm.trans e)
    exact heq_of_eq h15.symm
  · obtain rfl : z = Cert.KernelIdeal.main_arg16 := ref_eq hz e
    obtain rfl : z' = Cert.ReferenceIdeal.main_arg16 := ref_eq hz' (hi.symm.trans e)
    exact heq_of_eq h16.symm
  · obtain rfl : z = Cert.KernelIdeal.main_arg17 := ref_eq hz e
    obtain rfl : z' = Cert.ReferenceIdeal.main_arg17 := ref_eq hz' (hi.symm.trans e)
    exact heq_of_eq h17.symm
  · obtain rfl : z = Cert.KernelIdeal.main_arg18 := ref_eq hz e
    obtain rfl : z' = Cert.ReferenceIdeal.main_arg18 := ref_eq hz' (hi.symm.trans e)
    exact heq_of_eq h18.symm
  · obtain rfl : z = Cert.KernelIdeal.main_arg19 := ref_eq hz e
    obtain rfl : z' = Cert.ReferenceIdeal.main_arg19 := ref_eq hz' (hi.symm.trans e)
    exact heq_of_eq h19.symm
  · obtain rfl : z = Cert.KernelIdeal.main_arg20 := ref_eq hz e
    obtain rfl : z' = Cert.ReferenceIdeal.main_arg20 := ref_eq hz' (hi.symm.trans e)
    exact heq_of_eq h20.symm
  · obtain rfl : z = Cert.KernelIdeal.main_arg21 := ref_eq hz e
    obtain rfl : z' = Cert.ReferenceIdeal.main_arg21 := ref_eq hz' (hi.symm.trans e)
    exact heq_of_eq h21.symm
  · obtain rfl : z = Cert.KernelIdeal.main_arg22 := ref_eq hz e
    obtain rfl : z' = Cert.ReferenceIdeal.main_arg22 := ref_eq hz' (hi.symm.trans e)
    exact heq_of_eq h22.symm

/-- The centres the reference computes are the centres the kernel's region is entered with. -/
theorem centres (c : Dev Cert.KernelIdeal.nD) (h : SameArgs m m' c) :
    StableHlo.after (Cert.ReferenceIdeal.Line.head (F := Ideal)) (StableHlo.launchContents m' c) (Proc.devRef .tc Cert.ReferenceIdeal.main_v345)
      = Cert.KernelIdeal.GenP.V m c Cert.KernelIdeal.main_v345 :=
  (Cert.Centres.centres_eq (fun b => m (c, b)) (StableHlo.launchContents m' c) (launch_agree m m' c h)).symm

/-- An argument of the reference is, after the whole line, as launched. -/
theorem kept (c : Dev Cert.ReferenceIdeal.nD) (b : Ref Cert.ReferenceIdeal.sig .tc) (hb : b.idx.val < 23) :
    StableHlo.after (Cert.ReferenceIdeal.Line.head (F := Ideal) ++ Cert.ReferenceIdeal.Line.tail) (StableHlo.launchContents m' c) (Proc.devRef .tc b)
      = m' ((c.tc : Thread Cert.ReferenceIdeal.nD Cert.ReferenceIdeal.τ).loc b) := by
  rw [Cert.ReferenceIdeal.RefRun.after_append, Cert.ReferenceIdeal.RefRun.tail_kept _ b hb, Cert.Centres.reference_kept _ b hb]

/-- The reference's result: the pooled two-layer map of the kernel's four per-slot arguments and of the centres the
    kernel's region is entered with. -/
theorem result (c : Dev Cert.KernelIdeal.nD) (h : SameArgs m m' c) :
    StableHlo.after (Cert.ReferenceIdeal.Line.head (F := Ideal) ++ Cert.ReferenceIdeal.Line.tail) (StableHlo.launchContents m' c) (Proc.devRef .tc Cert.ReferenceIdeal.main_v356)
      = Cert.SlotMlp.pooled (m ((c.tc : Thread Cert.KernelIdeal.nD Cert.KernelIdeal.τ).loc Cert.KernelIdeal.main_arg19)) (m ((c.tc : Thread Cert.KernelIdeal.nD Cert.KernelIdeal.τ).loc Cert.KernelIdeal.main_arg20))
          (m ((c.tc : Thread Cert.KernelIdeal.nD Cert.KernelIdeal.τ).loc Cert.KernelIdeal.main_arg21)) (m ((c.tc : Thread Cert.KernelIdeal.nD Cert.KernelIdeal.τ).loc Cert.KernelIdeal.main_arg22))
          (Cert.KernelIdeal.GenP.V m c Cert.KernelIdeal.main_v345) := by
  rw [Cert.ReferenceIdeal.RefRun.after_append, Cert.ReferenceIdeal.RefRun.tail_value, Cert.ReferenceIdeal.Tail.tail_eq, centres m m' c h,
    Cert.Centres.reference_kept _ Cert.ReferenceIdeal.main_arg19 (by decide), Cert.Centres.reference_kept _ Cert.ReferenceIdeal.main_arg20 (by decide),
    Cert.Centres.reference_kept _ Cert.ReferenceIdeal.main_arg21 (by decide), Cert.Centres.reference_kept _ Cert.ReferenceIdeal.main_arg22 (by decide)]
  obtain ⟨h0, h1, h2, h3, h4, h5, h6, h7, h8, h9, h10, h11, h12, h13, h14, h15, h16, h17, h18, h19, h20, h21, h22⟩ := h
  show Cert.SlotMlp.pooled (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20))
      (m' ((c.tc : Thread Cert.ReferenceIdeal.nD Cert.ReferenceIdeal.τ).loc Cert.ReferenceIdeal.main_arg21)) (m' ((c.tc : Thread Cert.ReferenceIdeal.nD Cert.ReferenceIdeal.τ).loc Cert.ReferenceIdeal.main_arg22)) _ = _
  rw [h19, h20, h21, h22]

end Cert.Bridge

end
-- ==== Proof.LibRunBoth.lean ====
/-
  Two facts about the runs of one program from one state are one fact: if every weakly fair execution terminates without a
  fault in a state satisfying `Q₁`, and every one in a state satisfying `Q₂`, then every one terminates in a state
  satisfying both. (Termination and the absence of faults are the same statement in the two hypotheses; only the condition
  on the final states is combined.)
-/
import Idealize.ShloMosaic.Machine.Run

namespace Cert.Lib.RunBoth

open Idealize.ShloMosaic Idealize.SL.Sem

variable {nD : Nat} {τ : Topo} {sig : RefSig} {Val : EltTy → Type} {Λ : Labels}

/-- The final states of a terminating program satisfy two conditions at once when they satisfy each. -/
theorem run_both (defs : Defs nD τ sig Val Λ) (p : (c : Thread nD τ) → Prog (TpuEff nD τ sig Val Λ c.2) PUnit)
    (s : MemSt nD τ sig Val) {Q₁ Q₂ : PUnit × MemSt nD τ sig Val → Prop}
    (h₁ : θ_run defs p s Q₁) (h₂ : θ_run defs p s Q₂) : θ_run defs p s (fun r => Q₁ r ∧ Q₂ r) :=
  have g₁ : MeshRun defs (fun m' => Q₁ (⟨⟩, m')) (load p s) := h₁
  have g₂ : MeshRun defs (fun m' => Q₂ (⟨⟩, m')) (load p s) := h₂
  show MeshRun defs (fun m' => Q₁ (⟨⟩, m') ∧ Q₂ (⟨⟩, m')) (load p s) from
    ⟨fun t ht hf => ⟨g₁.post t ht hf, g₂.post t ht hf⟩, g₁.progress, g₁.fair⟩

end Cert.Lib.RunBoth
-- ==== Proof.lean ====
/-
  The certificate of the per-slot two-layer map with a maximum over the clusters, computed by a pipelined kernel over
  blocks of 128 slots, against the reference that computes it with two batched matrix products on the host.

  Both programs first compute the cluster centres from the same arguments by the same host operations (three rounds of
  slot attention). Then, on the extended reals, where a change of float format is the identity:
    the kernel's grid point t writes rows 128t … 128t + 127 of  max_n ( Σ_k wb[s,i,k] · max(Σ_l wa[s,k,l] · cc[n,l] + ba[s,k], 0) + bb[s,i] ),
    the reference forms the same sums with the factors in the other order, batched over all slots, and takes the same maximum.
  The modules: Spec (the pooled map as one function), KernelPayload and KernelBlocks (the kernel's blocks are blocks of it),
  KernelRun (its run), RefLine and RefRun (the reference's operations and run), RefTail (its last operations are the pooled
  map), LibTwoLines and Centres (the two programs compute the same centres), Bridge (the reference's result named by the
  kernel's arrays), LibRunBoth (two facts about one program's runs are one). The three frames: the two kernel programs' are
  the generated frame certificates, the reference's is its run.
-/
import proofs.«154116_j40183714021834_2_alg».proof.Defs
import proofs.«154116_j40183714021834_2_alg».proof.Proof.Gen.Kernel
import proofs.«154116_j40183714021834_2_alg».proof.Proof.Gen.KernelIdeal
import proofs.«154116_j40183714021834_2_alg».proof.Proof.Gen.ReferenceIdeal
import proofs.«154116_j40183714021834_2_alg».proof.Proof.Gen.Pre_finite_inputs
import proofs.«154116_j40183714021834_2_alg».proof.Proof.KernelFrameP
import proofs.«154116_j40183714021834_2_alg».proof.Proof.KernelIdealFrameP
import proofs.«154116_j40183714021834_2_alg».proof.Proof.KernelRun
import proofs.«154116_j40183714021834_2_alg».proof.Proof.Bridge
import proofs.«154116_j40183714021834_2_alg».proof.Proof.LibRunBoth
import Idealize.ShloMosaic.Adequacy
import Idealize.ShloMosaic.Init

noncomputable section

namespace Cert.Proof

open Idealize.ShloMosaic Idealize.ShloMosaic.TcCoe Idealize.SL.Sem

/-- The word-level kernel program runs and leaves its arguments: the generated frame certificate. -/
theorem frame_kernel : Cert.frame_Kernel := fun m ρ _ => Cert.Kernel.GenP.frame m ρ

/-- The idealized kernel program runs and leaves its arguments: the generated frame certificate. -/
theorem frame_kernelIdeal : Cert.frame_KernelIdeal := fun m ρ _ => Cert.KernelIdeal.GenP.frame m ρ

/-- The reference runs, and none of its operations writes an argument. -/
theorem frame_reference : Cert.frame_ReferenceIdeal := fun m ρ _ =>
  (θ_run Cert.ReferenceIdeal.defs _ _).mono (fun r h c =>
    ⟨(h c Cert.ReferenceIdeal.main_arg0).trans (Cert.Bridge.kept m c Cert.ReferenceIdeal.main_arg0 (by decide)),
      (h c Cert.ReferenceIdeal.main_arg1).trans (Cert.Bridge.kept m c Cert.ReferenceIdeal.main_arg1 (by decide)),
      (h c Cert.ReferenceIdeal.main_arg2).trans (Cert.Bridge.kept m c Cert.ReferenceIdeal.main_arg2 (by decide)),
      (h c Cert.ReferenceIdeal.main_arg3).trans (Cert.Bridge.kept m c Cert.ReferenceIdeal.main_arg3 (by decide)),
      (h c Cert.ReferenceIdeal.main_arg4).trans (Cert.Bridge.kept m c Cert.ReferenceIdeal.main_arg4 (by decide)),
      (h c Cert.ReferenceIdeal.main_arg5).trans (Cert.Bridge.kept m c Cert.ReferenceIdeal.main_arg5 (by decide)),
      (h c Cert.ReferenceIdeal.main_arg6).trans (Cert.Bridge.kept m c Cert.ReferenceIdeal.main_arg6 (by decide)),
      (h c Cert.ReferenceIdeal.main_arg7).trans (Cert.Bridge.kept m c Cert.ReferenceIdeal.main_arg7 (by decide)),
      (h c Cert.ReferenceIdeal.main_arg8).trans (Cert.Bridge.kept m c Cert.ReferenceIdeal.main_arg8 (by decide)),
      (h c Cert.ReferenceIdeal.main_arg9).trans (Cert.Bridge.kept m c Cert.ReferenceIdeal.main_arg9 (by decide)),
      (h c Cert.ReferenceIdeal.main_arg10).trans (Cert.Bridge.kept m c Cert.ReferenceIdeal.main_arg10 (by decide)),
      (h c Cert.ReferenceIdeal.main_arg11).trans (Cert.Bridge.kept m c Cert.ReferenceIdeal.main_arg11 (by decide)),
      (h c Cert.ReferenceIdeal.main_arg12).trans (Cert.Bridge.kept m c Cert.ReferenceIdeal.main_arg12 (by decide)),
      (h c Cert.ReferenceIdeal.main_arg13).trans (Cert.Bridge.kept m c Cert.ReferenceIdeal.main_arg13 (by decide)),
      (h c Cert.ReferenceIdeal.main_arg14).trans (Cert.Bridge.kept m c Cert.ReferenceIdeal.main_arg14 (by decide)),
      (h c Cert.ReferenceIdeal.main_arg15).trans (Cert.Bridge.kept m c Cert.ReferenceIdeal.main_arg15 (by decide)),
      (h c Cert.ReferenceIdeal.main_arg16).trans (Cert.Bridge.kept m c Cert.ReferenceIdeal.main_arg16 (by decide)),
      (h c Cert.ReferenceIdeal.main_arg17).trans (Cert.Bridge.kept m c Cert.ReferenceIdeal.main_arg17 (by decide)),
      (h c Cert.ReferenceIdeal.main_arg18).trans (Cert.Bridge.kept m c Cert.ReferenceIdeal.main_arg18 (by decide)),
      (h c Cert.ReferenceIdeal.main_arg19).trans (Cert.Bridge.kept m c Cert.ReferenceIdeal.main_arg19 (by decide)),
      (h c Cert.ReferenceIdeal.main_arg20).trans (Cert.Bridge.kept m c Cert.ReferenceIdeal.main_arg20 (by decide)),
      (h c Cert.ReferenceIdeal.main_arg21).trans (Cert.Bridge.kept m c Cert.ReferenceIdeal.main_arg21 (by decide)),
      (h c Cert.ReferenceIdeal.main_arg22).trans (Cert.Bridge.kept m c Cert.ReferenceIdeal.main_arg22 (by decide))⟩)
    (Cert.ReferenceIdeal.RefRun.run (F := Ideal) m ρ)

/-- The ideal pass rewrote nothing. -/
theorem preserves : Cert.preserves_Kernel_KernelIdeal := trivial

/-- From memories that agree on the arguments both programs end with the pooled two-layer map of the per-slot arguments
    and of the centres — the kernel's output array block by block, the reference's last reduction index by index. -/
theorem algebraic : Cert.algebraic_KernelIdeal_ReferenceIdeal := by
  intro m ρ m' ρ' _ hagree
  refine ⟨fun c => Cert.SlotMlp.pooled (m ((c.tc : Thread Cert.KernelIdeal.nD Cert.KernelIdeal.τ).loc Cert.KernelIdeal.main_arg19))
      (m ((c.tc : Thread Cert.KernelIdeal.nD Cert.KernelIdeal.τ).loc Cert.KernelIdeal.main_arg20))
      (m ((c.tc : Thread Cert.KernelIdeal.nD Cert.KernelIdeal.τ).loc Cert.KernelIdeal.main_arg21))
      (m ((c.tc : Thread Cert.KernelIdeal.nD Cert.KernelIdeal.τ).loc Cert.KernelIdeal.main_arg22))
      (Cert.KernelIdeal.GenP.V m c Cert.KernelIdeal.main_v345), ?_, ?_⟩
  · exact (θ_run Cert.KernelIdeal.defs _ _).mono (fun r h c => ⟨h.1 c, h.2 c⟩)
      (Cert.Lib.RunBoth.run_both _ _ _ (Cert.KernelIdeal.Run.result m ρ) (Cert.KernelIdeal.GenP.frame m ρ))
  · exact (θ_run Cert.ReferenceIdeal.defs _ _).mono (fun r h c =>
      ⟨(h c Cert.ReferenceIdeal.main_v356).trans (Cert.Bridge.result m m' c (hagree c)),
      (h c Cert.ReferenceIdeal.main_arg0).trans (Cert.Bridge.kept m' c Cert.ReferenceIdeal.main_arg0 (by decide)),
      (h c Cert.ReferenceIdeal.main_arg1).trans (Cert.Bridge.kept m' c Cert.ReferenceIdeal.main_arg1 (by decide)),
      (h c Cert.ReferenceIdeal.main_arg2).trans (Cert.Bridge.kept m' c Cert.ReferenceIdeal.main_arg2 (by decide)),
      (h c Cert.ReferenceIdeal.main_arg3).trans (Cert.Bridge.kept m' c Cert.ReferenceIdeal.main_arg3 (by decide)),
      (h c Cert.ReferenceIdeal.main_arg4).trans (Cert.Bridge.kept m' c Cert.ReferenceIdeal.main_arg4 (by decide)),
      (h c Cert.ReferenceIdeal.main_arg5).trans (Cert.Bridge.kept m' c Cert.ReferenceIdeal.main_arg5 (by decide)),
      (h c Cert.ReferenceIdeal.main_arg6).trans (Cert.Bridge.kept m' c Cert.ReferenceIdeal.main_arg6 (by decide)),
      (h c Cert.ReferenceIdeal.main_arg7).trans (Cert.Bridge.kept m' c Cert.ReferenceIdeal.main_arg7 (by decide)),
      (h c Cert.ReferenceIdeal.main_arg8).trans (Cert.Bridge.kept m' c Cert.ReferenceIdeal.main_arg8 (by decide)),
      (h c Cert.ReferenceIdeal.main_arg9).trans (Cert.Bridge.kept m' c Cert.ReferenceIdeal.main_arg9 (by decide)),
      (h c Cert.ReferenceIdeal.main_arg10).trans (Cert.Bridge.kept m' c Cert.ReferenceIdeal.main_arg10 (by decide)),
      (h c Cert.ReferenceIdeal.main_arg11).trans (Cert.Bridge.kept m' c Cert.ReferenceIdeal.main_arg11 (by decide)),
      (h c Cert.ReferenceIdeal.main_arg12).trans (Cert.Bridge.kept m' c Cert.ReferenceIdeal.main_arg12 (by decide)),
      (h c Cert.ReferenceIdeal.main_arg13).trans (Cert.Bridge.kept m' c Cert.ReferenceIdeal.main_arg13 (by decide)),
      (h c Cert.ReferenceIdeal.main_arg14).trans (Cert.Bridge.kept m' c Cert.ReferenceIdeal.main_arg14 (by decide)),
      (h c Cert.ReferenceIdeal.main_arg15).trans (Cert.Bridge.kept m' c Cert.ReferenceIdeal.main_arg15 (by decide)),
      (h c Cert.ReferenceIdeal.main_arg16).trans (Cert.Bridge.kept m' c Cert.ReferenceIdeal.main_arg16 (by decide)),
      (h c Cert.ReferenceIdeal.main_arg17).trans (Cert.Bridge.kept m' c Cert.ReferenceIdeal.main_arg17 (by decide)),
      (h c Cert.ReferenceIdeal.main_arg18).trans (Cert.Bridge.kept m' c Cert.ReferenceIdeal.main_arg18 (by decide)),
      (h c Cert.ReferenceIdeal.main_arg19).trans (Cert.Bridge.kept m' c Cert.ReferenceIdeal.main_arg19 (by decide)),
      (h c Cert.ReferenceIdeal.main_arg20).trans (Cert.Bridge.kept m' c Cert.ReferenceIdeal.main_arg20 (by decide)),
      (h c Cert.ReferenceIdeal.main_arg21).trans (Cert.Bridge.kept m' c Cert.ReferenceIdeal.main_arg21 (by decide)),
      (h c Cert.ReferenceIdeal.main_arg22).trans (Cert.Bridge.kept m' c Cert.ReferenceIdeal.main_arg22 (by decide))⟩)
      (Cert.ReferenceIdeal.RefRun.run (F := Ideal) m' ρ')

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
